-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v140)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v140) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v201) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x32 : Shape := ⟨2, ![1000000, 32]⟩
abbrev S9x32x32 : Shape := ⟨3, ![9, 32, 32]⟩
abbrev S32 : Shape := ⟨1, ![32]⟩
abbrev S9x1000000 : Shape := ⟨2, ![9, 1000000]⟩
abbrev S_ : Shape := ⟨0, ![]⟩

class Facts : Prop where
  bcast_S_S1000000x32 : S_.BroadcastsInDim S1000000x32 (![] : Fin 0 → Fin S1000000x32.rank)
  reducesTo_S1000000x32_S_d0_1 : S1000000x32.ReducesTo [0, 1] S_
  h_S_ : 0 < S_.numel
  bcast_S_S9x32x32 : S_.BroadcastsInDim S9x32x32 (![] : Fin 0 → Fin S9x32x32.rank)
  reducesTo_S9x32x32_S_d0_1_2 : S9x32x32.ReducesTo [0, 1, 2] S_
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  main_v18

def fn {F : FTy → Type} [FloatOps F] (main_arg0 : FVec F S1000000x32 .f32) (main_arg1 : FVec F S9x32x32 .f32) (main_arg2 : FVec F S32 .f32) (main_arg3 : FVec F S32 .f32) (main_arg4 : IVec S9x1000000 32) (main_arg5 : IVec S9x1000000 1) : IVec S_ 1 :=
  let main_v0 : FVec F S1000000x32 .f32 := Host.absf main_arg0
  let main_cst : FVec F S_ .f32 := constant S_ .f32 0x7F800000#32
  let main_v1 : FVec F S1000000x32 .f32 := broadcastInDim S1000000x32 ![] bcast_S_S1000000x32 main_cst
  let main_v2 : IVec S1000000x32 1 := cmpf .olt main_v0 main_v1
  let main_c : IVec S_ 1 := constantI S_ 1 1#1
  let main_v3 : IVec S_ 1 := (fun x v => Host.reduce IntOp.andi x v reducesTo_S1000000x32_S_d0_1 h_S_) main_v2 main_c
  let main_v4 : FVec F S9x32x32 .f32 := Host.absf main_arg1
  let main_cst_0 : FVec F S_ .f32 := constant S_ .f32 0x7F800000#32
  let main_v5 : FVec F S9x32x32 .f32 := broadcastInDim S9x32x32 ![] bcast_S_S9x32x32 main_cst_0
  let main_v6 : IVec S9x32x32 1 := cmpf .olt main_v4 main_v5
  let main_c_1 : IVec S_ 1 := constantI S_ 1 1#1
  let main_v7 : IVec S_ 1 := (fun x v => Host.reduce IntOp.andi x v reducesTo_S9x32x32_S_d0_1_2 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_v13 main_v16
-- ==== Kernel.lean ====
abbrev S1000000x32 : Shape := ⟨2, ![1000000, 32]⟩
abbrev S9x32x32 : Shape := ⟨3, ![9, 32, 32]⟩
abbrev S32 : Shape := ⟨1, ![32]⟩
abbrev S9x1000000 : Shape := ⟨2, ![9, 1000000]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S2x1x32 : Shape := ⟨3, ![2, 1, 32]⟩
abbrev S2000x32 : Shape := ⟨2, ![2000, 32]⟩
abbrev S1x1x32 : Shape := ⟨3, ![1, 1, 32]⟩
abbrev S1x32x32 : Shape := ⟨3, ![1, 32, 32]⟩
abbrev S32x32 : Shape := ⟨2, ![32, 32]⟩
abbrev S1x32 : Shape := ⟨2, ![1, 32]⟩

abbrev nBuf : Space → Nat
  | .hbm => 190
  | .vmem => 33
  | .smem => 0
  | _ => 0

abbrev hbmTy0_0 (i : Nat) : BufTy := match i % 128 with
  | 0 => ⟨S1000000x32, .f32⟩
  | 1 => ⟨S9x32x32, .f32⟩
  | 2 => ⟨S32, .f32⟩
  | 3 => ⟨S32, .f32⟩
  | 4 => ⟨S9x1000000, .i32⟩
  | 5 => ⟨S9x1000000, .i1⟩
  | 6 => ⟨S1x1000000, .i32⟩
  | 7 => ⟨S1000000, .i32⟩
  | 8 => ⟨S_, .i32⟩
  | 9 => ⟨S1000000, .i32⟩
  | 10 => ⟨S1000000, .i1⟩
  | 11 => ⟨S_, .i32⟩
  | 12 => ⟨S1000000, .i32⟩
  | 13 => ⟨S1000000, .i32⟩
  | 14 => ⟨S1000000, .i32⟩
  | 15 => ⟨S1000000x1, .i32⟩
  | 16 => ⟨S1000000x32, .f32⟩
  | 17 => ⟨S1x1000000, .i1⟩
  | 18 => ⟨S1000000, .i1⟩
  | 19 => ⟨S1000000x1, .i1⟩
  | 20 => ⟨S_, .f32⟩
  | 21 => ⟨S1000000x32, .f32⟩
  | 22 => ⟨S1000000x32, .i1⟩
  | 23 => ⟨S1000000x32, .f32⟩
  | 24 => ⟨S1x1000000, .i32⟩
  | 25 => ⟨S1000000, .i32⟩
  | 26 => ⟨S_, .i32⟩
  | 27 => ⟨S1000000, .i32⟩
  | 28 => ⟨S1000000, .i1⟩
  | 29 => ⟨S_, .i32⟩
  | 30 => ⟨S1000000, .i32⟩
  | 31 => ⟨S1000000, .i32⟩
  | 32 => ⟨S1000000, .i32⟩
  | 33 => ⟨S1000000x1, .i32⟩
  | 34 => ⟨S1000000x32, .f32⟩
  | 35 => ⟨S1x1000000, .i1⟩
  | 36 => ⟨S1000000, .i1⟩
  | 37 => ⟨S1000000x1, .i1⟩
  | 38 => ⟨S_, .f32⟩
  | 39 => ⟨S1000000x32, .f32⟩
  | 40 => ⟨S1000000x32, .i1⟩
  | 41 => ⟨S1000000x32, .f32⟩
  | 42 => ⟨S1x1000000, .i32⟩
  | 43 => ⟨S1000000, .i32⟩
  | 44 => ⟨S_, .i32⟩
  | 45 => ⟨S1000000, .i32⟩
  | 46 => ⟨S1000000, .i1⟩
  | 47 => ⟨S_, .i32⟩
  | 48 => ⟨S1000000, .i32⟩
  | 49 => ⟨S1000000, .i32⟩
  | 50 => ⟨S1000000, .i32⟩
  | 51 => ⟨S1000000x1, .i32⟩
  | 52 => ⟨S1000000x32, .f32⟩
  | 53 => ⟨S1x1000000, .i1⟩
  | 54 => ⟨S1000000, .i1⟩
  | 55 => ⟨S1000000x1, .i1⟩
  | 56 => ⟨S_, .f32⟩
  | 57 => ⟨S1000000x32, .f32⟩
  | 58 => ⟨S1000000x32, .i1⟩
  | 59 => ⟨S1000000x32, .f32⟩
  | 60 => ⟨S1x1000000, .i32⟩
  | 61 => ⟨S1000000, .i32⟩
  | 62 => ⟨S_, .i32⟩
  | 63 => ⟨S1000000, .i32⟩
  | 64 => ⟨S1000000, .i1⟩
  | 65 => ⟨S_, .i32⟩
  | 66 => ⟨S1000000, .i32⟩
  | 67 => ⟨S1000000, .i32⟩
  | 68 => ⟨S1000000, .i32⟩
  | 69 => ⟨S1000000x1, .i32⟩
  | 70 => ⟨S1000000x32, .f32⟩
  | 71 => ⟨S1x1000000, .i1⟩
  | 72 => ⟨S1000000, .i1⟩
  | 73 => ⟨S1000000x1, .i1⟩
  | 74 => ⟨S_, .f32⟩
  | 75 => ⟨S1000000x32, .f32⟩
  | 76 => ⟨S1000000x32, .i1⟩
  | 77 => ⟨S1000000x32, .f32⟩
  | 78 => ⟨S1x1000000, .i32⟩
  | 79 => ⟨S1000000, .i32⟩
  | 80 => ⟨S_, .i32⟩
  | 81 => ⟨S1000000, .i32⟩
  | 82 => ⟨S1000000, .i1⟩
  | 83 => ⟨S_, .i32⟩
  | 84 => ⟨S1000000, .i32⟩
  | 85 => ⟨S1000000, .i32⟩
  | 86 => ⟨S1000000, .i32⟩
  | 87 => ⟨S1000000x1, .i32⟩
  | 88 => ⟨S1000000x32, .f32⟩
  | 89 => ⟨S1x1000000, .i1⟩
  | 90 => ⟨S1000000, .i1⟩
  | 91 => ⟨S1000000x1, .i1⟩
  | 92 => ⟨S_, .f32⟩
  | 93 => ⟨S1000000x32, .f32⟩
  | 94 => ⟨S1000000x32, .i1⟩
  | 95 => ⟨S1000000x32, .f32⟩
  | 96 => ⟨S1x1000000, .i32⟩
  | 97 => ⟨S1000000, .i32⟩
  | 98 => ⟨S_, .i32⟩
  | 99 => ⟨S1000000, .i32⟩
  | 100 => ⟨S1000000, .i1⟩
  | 101 => ⟨S_, .i32⟩
  | 102 => ⟨S1000000, .i32⟩
  | 103 => ⟨S1000000, .i32⟩
  | 104 => ⟨S1000000, .i32⟩
  | 105 => ⟨S1000000x1, .i32⟩
  | 106 => ⟨S1000000x32, .f32⟩
  | 107 => ⟨S1x1000000, .i1⟩
  | 108 => ⟨S1000000, .i1⟩
  | 109 => ⟨S1000000x1, .i1⟩
  | 110 => ⟨S_, .f32⟩
  | 111 => ⟨S1000000x32, .f32⟩
  | 112 => ⟨S1000000x32, .i1⟩
  | 113 => ⟨S1000000x32, .f32⟩
  | 114 => ⟨S1x1000000, .i32⟩
  | 115 => ⟨S1000000, .i32⟩
  | 116 => ⟨S_, .i32⟩
  | 117 => ⟨S1000000, .i32⟩
  | 118 => ⟨S1000000, .i1⟩
  | 119 => ⟨S_, .i32⟩
  | 120 => ⟨S1000000, .i32⟩
  | 121 => ⟨S1000000, .i32⟩
  | 122 => ⟨S1000000, .i32⟩
  | 123 => ⟨S1000000x1, .i32⟩
  | 124 => ⟨S1000000x32, .f32⟩
  | 125 => ⟨S1x1000000, .i1⟩
  | 126 => ⟨S1000000, .i1⟩
  | 127 => ⟨S1000000x1, .i1⟩
  | _ => ⟨S1000000x32, .f32⟩

abbrev hbmTy0_1 (i : Nat) : BufTy := match i % 128 with
  | 0 => ⟨S_, .f32⟩
  | 1 => ⟨S1000000x32, .f32⟩
  | 2 => ⟨S1000000x32, .i1⟩
  | 3 => ⟨S1000000x32, .f32⟩
  | 4 => ⟨S1x1000000, .i32⟩
  | 5 => ⟨S1000000, .i32⟩
  | 6 => ⟨S_, .i32⟩
  | 7 => ⟨S1000000, .i32⟩
  | 8 => ⟨S1000000, .i1⟩
  | 9 => ⟨S_, .i32⟩
  | 10 => ⟨S1000000, .i32⟩
  | 11 => ⟨S1000000, .i32⟩
  | 12 => ⟨S1000000, .i32⟩
  | 13 => ⟨S1000000x1, .i32⟩
  | 14 => ⟨S1000000x32, .f32⟩
  | 15 => ⟨S1x1000000, .i1⟩
  | 16 => ⟨S1000000, .i1⟩
  | 17 => ⟨S1000000x1, .i1⟩
  | 18 => ⟨S_, .f32⟩
  | 19 => ⟨S1000000x32, .f32⟩
  | 20 => ⟨S1000000x32, .i1⟩
  | 21 => ⟨S1000000x32, .f32⟩
  | 22 => ⟨S1x1000000, .i32⟩
  | 23 => ⟨S1000000, .i32⟩
  | 24 => ⟨S_, .i32⟩
  | 25 => ⟨S1000000, .i32⟩
  | 26 => ⟨S1000000, .i1⟩
  | 27 => ⟨S_, .i32⟩
  | 28 => ⟨S1000000, .i32⟩
  | 29 => ⟨S1000000, .i32⟩
  | 30 => ⟨S1000000, .i32⟩
  | 31 => ⟨S1000000x1, .i32⟩
  | 32 => ⟨S1000000x32, .f32⟩
  | 33 => ⟨S1x1000000, .i1⟩
  | 34 => ⟨S1000000, .i1⟩
  | 35 => ⟨S1000000x1, .i1⟩
  | 36 => ⟨S_, .f32⟩
  | 37 => ⟨S1000000x32, .f32⟩
  | 38 => ⟨S1000000x32, .i1⟩
  | 39 => ⟨S1000000x32, .f32⟩
  | 40 => ⟨S1000000x32, .f32⟩
  | 41 => ⟨S2x1x32, .f32⟩
  | 42 => ⟨S2x1x32, .f32⟩
  | 43 => ⟨S_, .f32⟩
  | 44 => ⟨S1x32, .f32⟩
  | 45 => ⟨S32, .f32⟩
  | 46 => ⟨S_, .f32⟩
  | 47 => ⟨S1x32, .f32⟩
  | 48 => ⟨S32, .f32⟩
  | 49 => ⟨S_, .f32⟩
  | 50 => ⟨S32, .f32⟩
  | 51 => ⟨S32, .f32⟩
  | 52 => ⟨S_, .f32⟩
  | 53 => ⟨S32, .f32⟩
  | 54 => ⟨S32, .f32⟩
  | 55 => ⟨S32, .f32⟩
  | 56 => ⟨S32, .f32⟩
  | 57 => ⟨S_, .f32⟩
  | 58 => ⟨S32, .f32⟩
  | 59 => ⟨S32, .f32⟩
  | 60 => ⟨S32, .f32⟩
  | 61 => ⟨S1000000x32, .f32⟩
  | _ => ⟨S1000000x32, .f32⟩

abbrev hbmTy (i : Nat) : BufTy := match i / 128 with
  | 0 => hbmTy0_0 i
  | 1 => hbmTy0_1 i
  | _ => ⟨S1000000x32, .f32⟩

abbrev bufTy : (tb : Table) → Fin (tcTables nBuf tb) → BufTy
  | .hbm, ⟨i, _⟩ => hbmTy i
  | .local _ .vmem, ⟨0, _⟩ => ⟨S2000x32, .f32⟩
  | .local _ .vmem, ⟨1, _⟩ => ⟨S2000x32, .f32⟩
  | .local _ .vmem, ⟨2, _⟩ => ⟨S2000x32, .f32⟩
  | .local _ .vmem, ⟨3, _⟩ => ⟨S2000x32, .f32⟩
  | .local _ .vmem, ⟨4, _⟩ => ⟨S2000x32, .f32⟩
  | .local _ .vmem, ⟨5, _⟩ => ⟨S2000x32, .f32⟩
  | .local _ .vmem, ⟨6, _⟩ => ⟨S2000x32, .f32⟩
  | .local _ .vmem, ⟨7, _⟩ => ⟨S2000x32, .f32⟩
  | .local _ .vmem, ⟨8, _⟩ => ⟨S2000x32, .f32⟩
  | .local _ .vmem, ⟨9, _⟩ => ⟨S2000x32, .f32⟩
  | .local _ .vmem, ⟨10, _⟩ => ⟨S2000x32, .f32⟩
  | .local _ .vmem, ⟨11, _⟩ => ⟨S2000x32, .f32⟩
  | .local _ .vmem, ⟨12, _⟩ => ⟨S2000x32, .f32⟩
  | .local _ .vmem, ⟨13, _⟩ => ⟨S2000x32, .f32⟩
  | .local _ .vmem, ⟨14, _⟩ => ⟨S2000x32, .f32⟩
  | .local _ .vmem, ⟨15, _⟩ => ⟨S2000x32, .f32⟩
  | .local _ .vmem, ⟨16, _⟩ => ⟨S2000x32, .f32⟩
  | .local _ .vmem, ⟨17, _⟩ => ⟨S2000x32, .f32⟩
  | .local _ .vmem, ⟨18, _⟩ => ⟨S9x32x32, .f32⟩
  | .local _ .vmem, ⟨19, _⟩ => ⟨S2000x32, .f32⟩
  | .local _ .vmem, ⟨20, _⟩ => ⟨S2000x32, .f32⟩
  | .local _ .vmem, ⟨21, _⟩ => ⟨S1x1x32, .f32⟩
  | .local _ .vmem, ⟨22, _⟩ => ⟨S1x1x32, .f32⟩
  | .local _ .vmem, ⟨23, _⟩ => ⟨S1x1x32, .f32⟩
  | .local _ .vmem, ⟨24, _⟩ => ⟨S1x1x32, .f32⟩
  | .local _ .vmem, ⟨25, _⟩ => ⟨S2000x32, .f32⟩
  | .local _ .vmem, ⟨26, _⟩ => ⟨S2000x32, .f32⟩
  | .local _ .vmem, ⟨27, _⟩ => ⟨S32, .f32⟩
  | .local _ .vmem, ⟨28, _⟩ => ⟨S32, .f32⟩
  | .local _ .vmem, ⟨29, _⟩ => ⟨S32, .f32⟩
  | .local _ .vmem, ⟨30, _⟩ => ⟨S32, .f32⟩
  | .local _ .vmem, ⟨31, _⟩ => ⟨S2000x32, .f32⟩
  | .local _ .vmem, ⟨32, _⟩ => ⟨S2000x32, .f32⟩
  | _, _ => ⟨S1000000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_call1_v0 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_call2_v0 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_7 : Ref sig .tc := ⟨.hbm, 62, rfl⟩
abbrev main_v44 : Ref sig .tc := ⟨.hbm, 63, rfl⟩
abbrev main_v45 : Ref sig .tc := ⟨.hbm, 64, rfl⟩
abbrev main_c_8 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_9 : Ref sig .tc := ⟨.hbm, 74, rfl⟩
abbrev main_v54 : Ref sig .tc := ⟨.hbm, 75, rfl⟩
abbrev main_call3_v0 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_10 : Ref sig .tc := ⟨.hbm, 80, rfl⟩
abbrev main_v58 : Ref sig .tc := ⟨.hbm, 81, rfl⟩
abbrev main_v59 : Ref sig .tc := ⟨.hbm, 82, rfl⟩
abbrev main_c_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_12 : Ref sig .tc := ⟨.hbm, 92, rfl⟩
abbrev main_v68 : Ref sig .tc := ⟨.hbm, 93, rfl⟩
abbrev main_call4_v0 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c_13 : Ref sig .tc := ⟨.hbm, 98, rfl⟩
abbrev main_v72 : Ref sig .tc := ⟨.hbm, 99, rfl⟩
abbrev main_v73 : Ref sig .tc := ⟨.hbm, 100, rfl⟩
abbrev main_c_14 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_15 : Ref sig .tc := ⟨.hbm, 110, rfl⟩
abbrev main_v82 : Ref sig .tc := ⟨.hbm, 111, rfl⟩
abbrev main_call5_v0 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_c_16 : Ref sig .tc := ⟨.hbm, 116, rfl⟩
abbrev main_v86 : Ref sig .tc := ⟨.hbm, 117, rfl⟩
abbrev main_v87 : Ref sig .tc := ⟨.hbm, 118, rfl⟩
abbrev main_c_17 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_18 : Ref sig .tc := ⟨.hbm, 128, rfl⟩
abbrev main_v96 : Ref sig .tc := ⟨.hbm, 129, rfl⟩
abbrev main_call6_v0 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_c_19 : Ref sig .tc := ⟨.hbm, 134, rfl⟩
abbrev main_v100 : Ref sig .tc := ⟨.hbm, 135, rfl⟩
abbrev main_v101 : Ref sig .tc := ⟨.hbm, 136, rfl⟩
abbrev main_c_20 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_cst_21 : Ref sig .tc := ⟨.hbm, 146, rfl⟩
abbrev main_v110 : Ref sig .tc := ⟨.hbm, 147, rfl⟩
abbrev main_call7_v0 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_c_22 : Ref sig .tc := ⟨.hbm, 152, rfl⟩
abbrev main_v114 : Ref sig .tc := ⟨.hbm, 153, rfl⟩
abbrev main_v115 : Ref sig .tc := ⟨.hbm, 154, rfl⟩
abbrev main_c_23 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_cst_24 : Ref sig .tc := ⟨.hbm, 164, rfl⟩
abbrev main_v124 : Ref sig .tc := ⟨.hbm, 165, rfl⟩
abbrev main_call8_v0 : Ref sig .tc := ⟨.hbm, 166, rfl⟩
abbrev main_v125 : Ref sig .tc := ⟨.hbm, 167, rfl⟩
abbrev main_v126_0 : Ref sig .tc := ⟨.hbm, 168, rfl⟩
abbrev main_v126_1 : Ref sig .tc := ⟨.hbm, 169, rfl⟩
abbrev main_v126_2 : Ref sig .tc := ⟨.hbm, 170, rfl⟩
abbrev main_cst_25 : Ref sig .tc := ⟨.hbm, 171, rfl⟩
abbrev main_v127 : Ref sig .tc := ⟨.hbm, 172, rfl⟩
abbrev main_v128 : Ref sig .tc := ⟨.hbm, 173, rfl⟩
abbrev main_cst_26 : Ref sig .tc := ⟨.hbm, 174, rfl⟩
abbrev main_v129 : Ref sig .tc := ⟨.hbm, 175, rfl⟩
abbrev main_v130 : Ref sig .tc := ⟨.hbm, 176, rfl⟩
abbrev main_cst_27 : Ref sig .tc := ⟨.hbm, 177, rfl⟩
abbrev main_v131 : Ref sig .tc := ⟨.hbm, 178, rfl⟩
abbrev main_v132 : Ref sig .tc := ⟨.hbm, 179, rfl⟩
abbrev main_cst_28 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_cst_29 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc1_stg0_0 : Ref sig .tc := ⟨.vmem, 25, rfl⟩
abbrev cc1_stg0_1 : Ref sig .tc := ⟨.vmem, 26, rfl⟩
abbrev cc1_stg1_0 : Ref sig .tc := ⟨.vmem, 27, rfl⟩
abbrev cc1_stg2_0 : Ref sig .tc := ⟨.vmem, 28, rfl⟩
abbrev cc1_stg3_0 : Ref sig .tc := ⟨.vmem, 29, rfl⟩
abbrev cc1_stg4_0 : Ref sig .tc := ⟨.vmem, 30, rfl⟩
abbrev cc1_stg5_0 : Ref sig .tc := ⟨.vmem, 31, rfl⟩
abbrev cc1_stg5_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc1_sem0_0 : DmaSem sig := 25
abbrev cc1_sem0_1 : DmaSem sig := 26
abbrev cc1_sem1_0 : DmaSem sig := 27
abbrev cc1_sem2_0 : DmaSem sig := 28
abbrev cc1_sem3_0 : DmaSem sig := 29
abbrev cc1_sem4_0 : DmaSem sig := 30
abbrev cc1_sem5_0 : DmaSem sig := 31
abbrev cc1_sem5_1 : DmaSem sig := 32

abbrev nD : Nat := 1
abbrev τ : Topo := Topo.v7x

variable {F : FTy → Type} [FloatOps F]

abbrev grid0 : Pipeline.Grid := ⟨2, ![2, 250], ![false, false]⟩

def cc0_transform_0 (i : grid0.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2000x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2000x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2000x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2000x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S9x32x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S2000x32 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x32 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x32 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev grid1 : Pipeline.Grid := ⟨1, ![500], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S9x1000000_S1x1000000_0_0 : S9x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x32 : S_.BroadcastsInDim S1000000x32 (![] : Fin 0 → Fin S1000000x32.rank)
  bcast_S1000000x1_S1000000x32_0_1 : S1000000x1.BroadcastsInDim S1000000x32 (![0, 1] : Fin 2 → Fin S1000000x32.rank)
  slices_S9x1000000_S1x1000000_1_0 : S9x1000000.Slices ![1, 0] S1x1000000
  slices_S9x1000000_S1x1000000_2_0 : S9x1000000.Slices ![2, 0] S1x1000000
  slices_S9x1000000_S1x1000000_3_0 : S9x1000000.Slices ![3, 0] S1x1000000
  slices_S9x1000000_S1x1000000_4_0 : S9x1000000.Slices ![4, 0] S1x1000000
  slices_S9x1000000_S1x1000000_5_0 : S9x1000000.Slices ![5, 0] S1x1000000
  slices_S9x1000000_S1x1000000_6_0 : S9x1000000.Slices ![6, 0] S1x1000000
  slices_S9x1000000_S1x1000000_7_0 : S9x1000000.Slices ![7, 0] S1x1000000
  slices_S9x1000000_S1x1000000_8_0 : S9x1000000.Slices ![8, 0] S1x1000000
  inb_S1x1x32_S1x1x32_0_0_0 : ∀ a, (![0, 0, 0] : Fin 3 → Nat) a + S1x1x32.size a ≤ S1x1x32.size a
  h_S1x1x32 : 0 < S1x1x32.numel
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  bitsLt_bf16_f32 : FTy.bits .bf16 < FTy.bits .f32
  inb_S9x32x32_S1x32x32_0_0_0 : ∀ a, (![0, 0, 0] : Fin 3 → Nat) a + S1x32x32.size a ≤ S9x32x32.size a
  h_S1x32x32 : 0 < S1x32x32.numel
  shapeCasts_S1x32x32_S32x32 : S1x32x32.ShapeCasts S32x32
  inb_S9x32x32_S1x32x32_1_0_0 : ∀ a, (![1, 0, 0] : Fin 3 → Nat) a + S1x32x32.size a ≤ S9x32x32.size a
  inb_S9x32x32_S1x32x32_2_0_0 : ∀ a, (![2, 0, 0] : Fin 3 → Nat) a + S1x32x32.size a ≤ S9x32x32.size a
  inb_S9x32x32_S1x32x32_3_0_0 : ∀ a, (![3, 0, 0] : Fin 3 → Nat) a + S1x32x32.size a ≤ S9x32x32.size a
  inb_S9x32x32_S1x32x32_4_0_0 : ∀ a, (![4, 0, 0] : Fin 3 → Nat) a + S1x32x32.size a ≤ S9x32x32.size a
  inb_S9x32x32_S1x32x32_5_0_0 : ∀ a, (![5, 0, 0] : Fin 3 → Nat) a + S1x32x32.size a ≤ S9x32x32.size a
  inb_S9x32x32_S1x32x32_6_0_0 : ∀ a, (![6, 0, 0] : Fin 3 → Nat) a + S1x32x32.size a ≤ S9x32x32.size a
  inb_S9x32x32_S1x32x32_7_0_0 : ∀ a, (![7, 0, 0] : Fin 3 → Nat) a + S1x32x32.size a ≤ S9x32x32.size a
  inb_S9x32x32_S1x32x32_8_0_0 : ∀ a, (![8, 0, 0] : Fin 3 → Nat) a + S1x32x32.size a ≤ S9x32x32.size a
  reduces_S2000x32_S32 : S2000x32.Reduces [0] S32
  shapeCasts_S32_S1x32 : S32.ShapeCasts S1x32
  shapeCasts_S1x32_S1x1x32 : S1x32.ShapeCasts S1x1x32
  shapeCasts_S1x1x32_S1x1x32 : S1x1x32.ShapeCasts S1x1x32
  reducesTo_S2x1x32_S1x32_d0 : S2x1x32.ReducesTo [0] S1x32
  h_S_ : 0 < S_.numel
  shapeCasts_S1x32_S32 : S1x32.ShapeCasts S32
  bcast_S_S32 : S_.BroadcastsInDim S32 (![] : Fin 0 → Fin S32.rank)
  inb_S32_S32_0 : ∀ a, (![0] : Fin 1 → Nat) a + S32.size a ≤ S32.size a
  h_S32 : 0 < S32.numel
  shapeCasts_S32_S32 : S32.ShapeCasts S32
  broadcasts_S1x32_S2000x32 : S1x32.Broadcasts S2000x32
  gather_S1000000x32_S1000000x1_S1000000x32_1_0_n_n_0_1_132_wf : GatherDims.WF S1000000x32 S1000000x1 S1000000x32 [1] [0] [] [0] [] 1 ![1, 32]
  dot_S2000x32_S32x32_S2000x32_1_0_0_1_n_n_wf : DotDims.WF S2000x32 S32x32 S2000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x32.size a ≤ S1000000x32.size a
  hwx0_0 : ∀ i : grid0.Coords, EltTy.bits .f32 = 32 ∨ (Rect.block (s := S1000000x32) S2000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x32.size a ≤ S1000000x32.size a
  hwx0_1 : ∀ i : grid0.Coords, EltTy.bits .f32 = 32 ∨ (Rect.block (s := S1000000x32) S2000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x32.size a ≤ S1000000x32.size a
  hwx0_2 : ∀ i : grid0.Coords, EltTy.bits .f32 = 32 ∨ (Rect.block (s := S1000000x32) S2000x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x32.size a ≤ S1000000x32.size a
  hwx0_3 : ∀ i : grid0.Coords, EltTy.bits .f32 = 32 ∨ (Rect.block (s := S1000000x32) S2000x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x32.size a ≤ S1000000x32.size a
  hwx0_4 : ∀ i : grid0.Coords, EltTy.bits .f32 = 32 ∨ (Rect.block (s := S1000000x32) S2000x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x32.size a ≤ S1000000x32.size a
  hwx0_5 : ∀ i : grid0.Coords, EltTy.bits .f32 = 32 ∨ (Rect.block (s := S1000000x32) S2000x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x32.size a ≤ S1000000x32.size a
  hwx0_6 : ∀ i : grid0.Coords, EltTy.bits .f32 = 32 ∨ (Rect.block (s := S1000000x32) S2000x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x32.size a ≤ S1000000x32.size a
  hwx0_7 : ∀ i : grid0.Coords, EltTy.bits .f32 = 32 ∨ (Rect.block (s := S1000000x32) S2000x32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x32.size a ≤ S1000000x32.size a
  hwx0_8 : ∀ i : grid0.Coords, EltTy.bits .f32 = 32 ∨ (Rect.block (s := S1000000x32) S2000x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S9x32x32.size a ≤ S9x32x32.size a
  hwx0_9 : ∀ i : grid0.Coords, EltTy.bits .f32 = 32 ∨ (Rect.block (s := S9x32x32) S9x32x32.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x32.size a ≤ S1000000x32.size a
  hwx0_10 : ∀ i : grid0.Coords, EltTy.bits .f32 = 32 ∨ (Rect.block (s := S1000000x32) S2000x32.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1x32.size a ≤ S2x1x32.size a
  hwx0_11 : ∀ i : grid0.Coords, EltTy.bits .f32 = 32 ∨ (Rect.block (s := S2x1x32) S1x1x32.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x1x32.size a ≤ S2x1x32.size a
  hwx0_12 : ∀ i : grid0.Coords, EltTy.bits .f32 = 32 ∨ (Rect.block (s := S2x1x32) S1x1x32.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S1000000x32.size a
  hwx1_0 : ∀ i : grid1.Coords, EltTy.bits .f32 = 32 ∨ (Rect.block (s := S1000000x32) S2000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32.size a ≤ S32.size a
  hwx1_1 : ∀ i : grid1.Coords, EltTy.bits .f32 = 32 ∨ (Rect.block (s := S32) S32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32.size a ≤ S32.size a
  hwx1_2 : ∀ i : grid1.Coords, EltTy.bits .f32 = 32 ∨ (Rect.block (s := S32) S32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32.size a ≤ S32.size a
  hwx1_3 : ∀ i : grid1.Coords, EltTy.bits .f32 = 32 ∨ (Rect.block (s := S32) S32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32.size a ≤ S32.size a
  hwx1_4 : ∀ i : grid1.Coords, EltTy.bits .f32 = 32 ∨ (Rect.block (s := S32) S32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x32.size a ≤ S1000000x32.size a
  hwx1_5 : ∀ i : grid1.Coords, EltTy.bits .f32 = 32 ∨ (Rect.block (s := S1000000x32) S2000x32.size (cc1_transform_5 i) (hinb1_5 i)).WholeWords (EltTy.packing .f32)

variable [Facts₀]

def gather_S1000000x32_S1000000x1_S1000000x32_1_0_n_n_0_1_132 : GatherDims S1000000x32 S1000000x1 S1000000x32 where
  offsetDims := [1]
  collapsedSliceDims := [0]
  operandBatchingDims := []
  startIndicesBatchingDims := []
  startIndexMap := [0]
  indexVectorDim := 1
  sliceSizes := ![1, 32]
  wf := gather_S1000000x32_S1000000x1_S1000000x32_1_0_n_n_0_1_132_wf
def dot_S2000x32_S32x32_S2000x32_1_0_0_1_n_n : DotDims S2000x32 S32x32 S2000x32 where
  lhsContracting := [1]
  rhsContracting := [0]
  lhsNonContracting := [0]
  rhsNonContracting := [1]
  lhsBatch := []
  rhsBatch := []
  wf := dot_S2000x32_S32x32_S2000x32_1_0_0_1_n_n_wf

abbrev win0_0 : Pipeline.Window sig grid0 :=
  Pipeline.Window.ofSpec (Memref.whole main_v13) S2000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S2000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v41) S2000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v55) S2000x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v69) S2000x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v83) S2000x32.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v97) S2000x32.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v111) S2000x32.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v125) S2000x32.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg1) S9x32x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v126_0) S2000x32.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v126_1) S1x1x32.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v126_2) S1x1x32.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v126_0) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v132) S32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v139) S32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v140) S2000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S1000000x32 : Shape := ⟨2, ![1000000, 32]⟩
abbrev S9x32x32 : Shape := ⟨3, ![9, 32, 32]⟩
abbrev S32 : Shape := ⟨1, ![32]⟩
abbrev S9x1000000 : Shape := ⟨2, ![9, 1000000]⟩
abbrev S_ : Shape := ⟨0, ![]⟩
abbrev S1x1000000 : Shape := ⟨2, ![1, 1000000]⟩
abbrev S1000000 : Shape := ⟨1, ![1000000]⟩
abbrev S1000000x1 : Shape := ⟨2, ![1000000, 1]⟩
abbrev S1x32x32 : Shape := ⟨3, ![1, 32, 32]⟩
abbrev S32x32 : Shape := ⟨2, ![32, 32]⟩
abbrev S1x32 : Shape := ⟨2, ![1, 32]⟩

abbrev nBuf : Space → Nat
  | .hbm => 234
  | .vmem => 0
  | .smem => 0
  | _ => 0

abbrev hbmTy0_0 (i : Nat) : BufTy := match i % 128 with
  | 0 => ⟨S1000000x32, .f32⟩
  | 1 => ⟨S9x32x32, .f32⟩
  | 2 => ⟨S32, .f32⟩
  | 3 => ⟨S32, .f32⟩
  | 4 => ⟨S9x1000000, .i32⟩
  | 5 => ⟨S9x1000000, .i1⟩
  | 6 => ⟨S_, .f32⟩
  | 7 => ⟨S1000000x32, .f32⟩
  | 8 => ⟨S1x1000000, .i32⟩
  | 9 => ⟨S1000000, .i32⟩
  | 10 => ⟨S_, .i32⟩
  | 11 => ⟨S1000000, .i32⟩
  | 12 => ⟨S1000000, .i1⟩
  | 13 => ⟨S_, .i32⟩
  | 14 => ⟨S1000000, .i32⟩
  | 15 => ⟨S1000000, .i32⟩
  | 16 => ⟨S1000000, .i32⟩
  | 17 => ⟨S1000000x1, .i32⟩
  | 18 => ⟨S1000000x32, .f32⟩
  | 19 => ⟨S1x1000000, .i1⟩
  | 20 => ⟨S1000000, .i1⟩
  | 21 => ⟨S1000000x1, .i1⟩
  | 22 => ⟨S1000000x1, .f32⟩
  | 23 => ⟨S1000000x32, .f32⟩
  | 24 => ⟨S1000000x32, .f32⟩
  | 25 => ⟨S1x32x32, .f32⟩
  | 26 => ⟨S32x32, .f32⟩
  | 27 => ⟨S1000000x32, .f32⟩
  | 28 => ⟨S1000000x32, .f32⟩
  | 29 => ⟨S1x1000000, .i32⟩
  | 30 => ⟨S1000000, .i32⟩
  | 31 => ⟨S_, .i32⟩
  | 32 => ⟨S1000000, .i32⟩
  | 33 => ⟨S1000000, .i1⟩
  | 34 => ⟨S_, .i32⟩
  | 35 => ⟨S1000000, .i32⟩
  | 36 => ⟨S1000000, .i32⟩
  | 37 => ⟨S1000000, .i32⟩
  | 38 => ⟨S1000000x1, .i32⟩
  | 39 => ⟨S1000000x32, .f32⟩
  | 40 => ⟨S1x1000000, .i1⟩
  | 41 => ⟨S1000000, .i1⟩
  | 42 => ⟨S1000000x1, .i1⟩
  | 43 => ⟨S1000000x1, .f32⟩
  | 44 => ⟨S1000000x32, .f32⟩
  | 45 => ⟨S1000000x32, .f32⟩
  | 46 => ⟨S1x32x32, .f32⟩
  | 47 => ⟨S32x32, .f32⟩
  | 48 => ⟨S1000000x32, .f32⟩
  | 49 => ⟨S1000000x32, .f32⟩
  | 50 => ⟨S1x1000000, .i32⟩
  | 51 => ⟨S1000000, .i32⟩
  | 52 => ⟨S_, .i32⟩
  | 53 => ⟨S1000000, .i32⟩
  | 54 => ⟨S1000000, .i1⟩
  | 55 => ⟨S_, .i32⟩
  | 56 => ⟨S1000000, .i32⟩
  | 57 => ⟨S1000000, .i32⟩
  | 58 => ⟨S1000000, .i32⟩
  | 59 => ⟨S1000000x1, .i32⟩
  | 60 => ⟨S1000000x32, .f32⟩
  | 61 => ⟨S1x1000000, .i1⟩
  | 62 => ⟨S1000000, .i1⟩
  | 63 => ⟨S1000000x1, .i1⟩
  | 64 => ⟨S1000000x1, .f32⟩
  | 65 => ⟨S1000000x32, .f32⟩
  | 66 => ⟨S1000000x32, .f32⟩
  | 67 => ⟨S1x32x32, .f32⟩
  | 68 => ⟨S32x32, .f32⟩
  | 69 => ⟨S1000000x32, .f32⟩
  | 70 => ⟨S1000000x32, .f32⟩
  | 71 => ⟨S1x1000000, .i32⟩
  | 72 => ⟨S1000000, .i32⟩
  | 73 => ⟨S_, .i32⟩
  | 74 => ⟨S1000000, .i32⟩
  | 75 => ⟨S1000000, .i1⟩
  | 76 => ⟨S_, .i32⟩
  | 77 => ⟨S1000000, .i32⟩
  | 78 => ⟨S1000000, .i32⟩
  | 79 => ⟨S1000000, .i32⟩
  | 80 => ⟨S1000000x1, .i32⟩
  | 81 => ⟨S1000000x32, .f32⟩
  | 82 => ⟨S1x1000000, .i1⟩
  | 83 => ⟨S1000000, .i1⟩
  | 84 => ⟨S1000000x1, .i1⟩
  | 85 => ⟨S1000000x1, .f32⟩
  | 86 => ⟨S1000000x32, .f32⟩
  | 87 => ⟨S1000000x32, .f32⟩
  | 88 => ⟨S1x32x32, .f32⟩
  | 89 => ⟨S32x32, .f32⟩
  | 90 => ⟨S1000000x32, .f32⟩
  | 91 => ⟨S1000000x32, .f32⟩
  | 92 => ⟨S1x1000000, .i32⟩
  | 93 => ⟨S1000000, .i32⟩
  | 94 => ⟨S_, .i32⟩
  | 95 => ⟨S1000000, .i32⟩
  | 96 => ⟨S1000000, .i1⟩
  | 97 => ⟨S_, .i32⟩
  | 98 => ⟨S1000000, .i32⟩
  | 99 => ⟨S1000000, .i32⟩
  | 100 => ⟨S1000000, .i32⟩
  | 101 => ⟨S1000000x1, .i32⟩
  | 102 => ⟨S1000000x32, .f32⟩
  | 103 => ⟨S1x1000000, .i1⟩
  | 104 => ⟨S1000000, .i1⟩
  | 105 => ⟨S1000000x1, .i1⟩
  | 106 => ⟨S1000000x1, .f32⟩
  | 107 => ⟨S1000000x32, .f32⟩
  | 108 => ⟨S1000000x32, .f32⟩
  | 109 => ⟨S1x32x32, .f32⟩
  | 110 => ⟨S32x32, .f32⟩
  | 111 => ⟨S1000000x32, .f32⟩
  | 112 => ⟨S1000000x32, .f32⟩
  | 113 => ⟨S1x1000000, .i32⟩
  | 114 => ⟨S1000000, .i32⟩
  | 115 => ⟨S_, .i32⟩
  | 116 => ⟨S1000000, .i32⟩
  | 117 => ⟨S1000000, .i1⟩
  | 118 => ⟨S_, .i32⟩
  | 119 => ⟨S1000000, .i32⟩
  | 120 => ⟨S1000000, .i32⟩
  | 121 => ⟨S1000000, .i32⟩
  | 122 => ⟨S1000000x1, .i32⟩
  | 123 => ⟨S1000000x32, .f32⟩
  | 124 => ⟨S1x1000000, .i1⟩
  | 125 => ⟨S1000000, .i1⟩
  | 126 => ⟨S1000000x1, .i1⟩
  | 127 => ⟨S1000000x1, .f32⟩
  | _ => ⟨S1000000x32, .f32⟩

abbrev hbmTy0_1 (i : Nat) : BufTy := match i % 128 with
  | 0 => ⟨S1000000x32, .f32⟩
  | 1 => ⟨S1000000x32, .f32⟩
  | 2 => ⟨S1x32x32, .f32⟩
  | 3 => ⟨S32x32, .f32⟩
  | 4 => ⟨S1000000x32, .f32⟩
  | 5 => ⟨S1000000x32, .f32⟩
  | 6 => ⟨S1x1000000, .i32⟩
  | 7 => ⟨S1000000, .i32⟩
  | 8 => ⟨S_, .i32⟩
  | 9 => ⟨S1000000, .i32⟩
  | 10 => ⟨S1000000, .i1⟩
  | 11 => ⟨S_, .i32⟩
  | 12 => ⟨S1000000, .i32⟩
  | 13 => ⟨S1000000, .i32⟩
  | 14 => ⟨S1000000, .i32⟩
  | 15 => ⟨S1000000x1, .i32⟩
  | 16 => ⟨S1000000x32, .f32⟩
  | 17 => ⟨S1x1000000, .i1⟩
  | 18 => ⟨S1000000, .i1⟩
  | 19 => ⟨S1000000x1, .i1⟩
  | 20 => ⟨S1000000x1, .f32⟩
  | 21 => ⟨S1000000x32, .f32⟩
  | 22 => ⟨S1000000x32, .f32⟩
  | 23 => ⟨S1x32x32, .f32⟩
  | 24 => ⟨S32x32, .f32⟩
  | 25 => ⟨S1000000x32, .f32⟩
  | 26 => ⟨S1000000x32, .f32⟩
  | 27 => ⟨S1x1000000, .i32⟩
  | 28 => ⟨S1000000, .i32⟩
  | 29 => ⟨S_, .i32⟩
  | 30 => ⟨S1000000, .i32⟩
  | 31 => ⟨S1000000, .i1⟩
  | 32 => ⟨S_, .i32⟩
  | 33 => ⟨S1000000, .i32⟩
  | 34 => ⟨S1000000, .i32⟩
  | 35 => ⟨S1000000, .i32⟩
  | 36 => ⟨S1000000x1, .i32⟩
  | 37 => ⟨S1000000x32, .f32⟩
  | 38 => ⟨S1x1000000, .i1⟩
  | 39 => ⟨S1000000, .i1⟩
  | 40 => ⟨S1000000x1, .i1⟩
  | 41 => ⟨S1000000x1, .f32⟩
  | 42 => ⟨S1000000x32, .f32⟩
  | 43 => ⟨S1000000x32, .f32⟩
  | 44 => ⟨S1x32x32, .f32⟩
  | 45 => ⟨S32x32, .f32⟩
  | 46 => ⟨S1000000x32, .f32⟩
  | 47 => ⟨S1000000x32, .f32⟩
  | 48 => ⟨S1x1000000, .i32⟩
  | 49 => ⟨S1000000, .i32⟩
  | 50 => ⟨S_, .i32⟩
  | 51 => ⟨S1000000, .i32⟩
  | 52 => ⟨S1000000, .i1⟩
  | 53 => ⟨S_, .i32⟩
  | 54 => ⟨S1000000, .i32⟩
  | 55 => ⟨S1000000, .i32⟩
  | 56 => ⟨S1000000, .i32⟩
  | 57 => ⟨S1000000x1, .i32⟩
  | 58 => ⟨S1000000x32, .f32⟩
  | 59 => ⟨S1x1000000, .i1⟩
  | 60 => ⟨S1000000, .i1⟩
  | 61 => ⟨S1000000x1, .i1⟩
  | 62 => ⟨S1000000x1, .f32⟩
  | 63 => ⟨S1000000x32, .f32⟩
  | 64 => ⟨S1000000x32, .f32⟩
  | 65 => ⟨S1x32x32, .f32⟩
  | 66 => ⟨S32x32, .f32⟩
  | 67 => ⟨S1000000x32, .f32⟩
  | 68 => ⟨S1000000x32, .f32⟩
  | 69 => ⟨S_, .f32⟩
  | 70 => ⟨S1000000x32, .f32⟩
  | 71 => ⟨S1000000x32, .i1⟩
  | 72 => ⟨S_, .f32⟩
  | 73 => ⟨S1000000x32, .f32⟩
  | 74 => ⟨S1000000x32, .f32⟩
  | 75 => ⟨S1000000x32, .f32⟩
  | 76 => ⟨S_, .f32⟩
  | 77 => ⟨S32, .f32⟩
  | 78 => ⟨S_, .f32⟩
  | 79 => ⟨S32, .f32⟩
  | 80 => ⟨S32, .f32⟩
  | 81 => ⟨S1x32, .f32⟩
  | 82 => ⟨S1000000x32, .f32⟩
  | 83 => ⟨S1000000x32, .f32⟩
  | 84 => ⟨S1000000x32, .f32⟩
  | 85 => ⟨S_, .f32⟩
  | 86 => ⟨S32, .f32⟩
  | 87 => ⟨S_, .f32⟩
  | 88 => ⟨S32, .f32⟩
  | 89 => ⟨S32, .f32⟩
  | 90 => ⟨S1x32, .f32⟩
  | 91 => ⟨S1000000x32, .f32⟩
  | 92 => ⟨S1000000x32, .f32⟩
  | 93 => ⟨S_, .f32⟩
  | 94 => ⟨S32, .f32⟩
  | 95 => ⟨S32, .f32⟩
  | 96 => ⟨S32, .f32⟩
  | 97 => ⟨S1x32, .f32⟩
  | 98 => ⟨S1000000x32, .f32⟩
  | 99 => ⟨S1000000x32, .f32⟩
  | 100 => ⟨S1x32, .f32⟩
  | 101 => ⟨S1000000x32, .f32⟩
  | 102 => ⟨S1000000x32, .f32⟩
  | 103 => ⟨S1x32, .f32⟩
  | 104 => ⟨S1000000x32, .f32⟩
  | 105 => ⟨S1000000x32, .f32⟩
  | _ => ⟨S1000000x32, .f32⟩

abbrev hbmTy (i : Nat) : BufTy := match i / 128 with
  | 0 => hbmTy0_0 i
  | 1 => hbmTy0_1 i
  | _ => ⟨S1000000x32, .f32⟩

abbrev bufTy : (tb : Table) → Fin (tcTables nBuf tb) → BufTy
  | .hbm, ⟨i, _⟩ => hbmTy i
  | _, _ => ⟨S1000000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_1 : Ref sig .tc := ⟨.hbm, 31, rfl⟩
abbrev main_v22 : Ref sig .tc := ⟨.hbm, 32, rfl⟩
abbrev main_v23 : Ref sig .tc := ⟨.hbm, 33, rfl⟩
abbrev main_c_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_c_3 : Ref sig .tc := ⟨.hbm, 52, rfl⟩
abbrev main_v41 : Ref sig .tc := ⟨.hbm, 53, rfl⟩
abbrev main_v42 : Ref sig .tc := ⟨.hbm, 54, rfl⟩
abbrev main_c_4 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_c_5 : Ref sig .tc := ⟨.hbm, 73, rfl⟩
abbrev main_v60 : Ref sig .tc := ⟨.hbm, 74, rfl⟩
abbrev main_v61 : Ref sig .tc := ⟨.hbm, 75, rfl⟩
abbrev main_c_6 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_c_7 : Ref sig .tc := ⟨.hbm, 94, rfl⟩
abbrev main_v79 : Ref sig .tc := ⟨.hbm, 95, rfl⟩
abbrev main_v80 : Ref sig .tc := ⟨.hbm, 96, rfl⟩
abbrev main_c_8 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_c_9 : Ref sig .tc := ⟨.hbm, 115, rfl⟩
abbrev main_v98 : Ref sig .tc := ⟨.hbm, 116, rfl⟩
abbrev main_v99 : Ref sig .tc := ⟨.hbm, 117, rfl⟩
abbrev main_c_10 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_c_11 : Ref sig .tc := ⟨.hbm, 136, rfl⟩
abbrev main_v117 : Ref sig .tc := ⟨.hbm, 137, rfl⟩
abbrev main_v118 : Ref sig .tc := ⟨.hbm, 138, rfl⟩
abbrev main_c_12 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_c_13 : Ref sig .tc := ⟨.hbm, 157, rfl⟩
abbrev main_v136 : Ref sig .tc := ⟨.hbm, 158, rfl⟩
abbrev main_v137 : Ref sig .tc := ⟨.hbm, 159, rfl⟩
abbrev main_c_14 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_c_15 : Ref sig .tc := ⟨.hbm, 178, rfl⟩
abbrev main_v155 : Ref sig .tc := ⟨.hbm, 179, rfl⟩
abbrev main_v156 : Ref sig .tc := ⟨.hbm, 180, rfl⟩
abbrev main_c_16 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_cst_17 : Ref sig .tc := ⟨.hbm, 197, rfl⟩
abbrev main_v172 : Ref sig .tc := ⟨.hbm, 198, rfl⟩
abbrev main_v173 : Ref sig .tc := ⟨.hbm, 199, rfl⟩
abbrev main_cst_18 : Ref sig .tc := ⟨.hbm, 200, rfl⟩
abbrev main_v174 : Ref sig .tc := ⟨.hbm, 201, rfl⟩
abbrev main_v175 : Ref sig .tc := ⟨.hbm, 202, rfl⟩
abbrev main_v176 : Ref sig .tc := ⟨.hbm, 203, rfl⟩
abbrev main_cst_19 : Ref sig .tc := ⟨.hbm, 204, rfl⟩
abbrev main_v177 : Ref sig .tc := ⟨.hbm, 205, rfl⟩
abbrev main_cst_20 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_cst_21 : Ref sig .tc := ⟨.hbm, 213, rfl⟩
abbrev main_v184 : Ref sig .tc := ⟨.hbm, 214, rfl⟩
abbrev main_cst_22 : Ref sig .tc := ⟨.hbm, 215, rfl⟩
abbrev main_v185 : Ref sig .tc := ⟨.hbm, 216, rfl⟩
abbrev main_v186 : Ref sig .tc := ⟨.hbm, 217, rfl⟩
abbrev main_v187 : Ref sig .tc := ⟨.hbm, 218, rfl⟩
abbrev main_v188 : Ref sig .tc := ⟨.hbm, 219, rfl⟩
abbrev main_v189 : Ref sig .tc := ⟨.hbm, 220, rfl⟩
abbrev main_cst_23 : Ref sig .tc := ⟨.hbm, 221, rfl⟩
abbrev main_v190 : Ref sig .tc := ⟨.hbm, 222, rfl⟩
abbrev main_v191 : Ref sig .tc := ⟨.hbm, 223, rfl⟩
abbrev main_v192 : Ref sig .tc := ⟨.hbm, 224, rfl⟩
abbrev main_v193 : Ref sig .tc := ⟨.hbm, 225, rfl⟩
abbrev main_v194 : Ref sig .tc := ⟨.hbm, 226, rfl⟩
abbrev main_v195 : Ref sig .tc := ⟨.hbm, 227, rfl⟩
abbrev main_v196 : Ref sig .tc := ⟨.hbm, 228, rfl⟩
abbrev main_v197 : Ref sig .tc := ⟨.hbm, 229, rfl⟩
abbrev main_v198 : Ref sig .tc := ⟨.hbm, 230, rfl⟩
abbrev main_v199 : Ref sig .tc := ⟨.hbm, 231, rfl⟩
abbrev main_v200 : Ref sig .tc := ⟨.hbm, 232, rfl⟩
abbrev main_v201 : Ref sig .tc := ⟨.hbm, 233, rfl⟩

abbrev nD : Nat := 1
abbrev τ : Topo := Topo.v7x

variable {F : FTy → Type} [FloatOps F]

class Facts₀ : Prop where
  bcast_S_S1000000x32 : S_.BroadcastsInDim S1000000x32 (![] : Fin 0 → Fin S1000000x32.rank)
  slices_S9x1000000_S1x1000000_0_0 : S9x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x32_0_1 : S1000000x1.BroadcastsInDim S1000000x32 (![0, 1] : Fin 2 → Fin S1000000x32.rank)
  slices_S9x32x32_S1x32x32_0_0_0 : S9x32x32.Slices ![0, 0, 0] S1x32x32
  shapeCasts_S1x32x32_S32x32 : S1x32x32.ShapeCasts S32x32
  slices_S9x1000000_S1x1000000_1_0 : S9x1000000.Slices ![1, 0] S1x1000000
  slices_S9x32x32_S1x32x32_1_0_0 : S9x32x32.Slices ![1, 0, 0] S1x32x32
  slices_S9x1000000_S1x1000000_2_0 : S9x1000000.Slices ![2, 0] S1x1000000
  slices_S9x32x32_S1x32x32_2_0_0 : S9x32x32.Slices ![2, 0, 0] S1x32x32
  slices_S9x1000000_S1x1000000_3_0 : S9x1000000.Slices ![3, 0] S1x1000000
  slices_S9x32x32_S1x32x32_3_0_0 : S9x32x32.Slices ![3, 0, 0] S1x32x32
  slices_S9x1000000_S1x1000000_4_0 : S9x1000000.Slices ![4, 0] S1x1000000
  slices_S9x32x32_S1x32x32_4_0_0 : S9x32x32.Slices ![4, 0, 0] S1x32x32
  slices_S9x1000000_S1x1000000_5_0 : S9x1000000.Slices ![5, 0] S1x1000000
  slices_S9x32x32_S1x32x32_5_0_0 : S9x32x32.Slices ![5, 0, 0] S1x32x32
  slices_S9x1000000_S1x1000000_6_0 : S9x1000000.Slices ![6, 0] S1x1000000
  slices_S9x32x32_S1x32x32_6_0_0 : S9x32x32.Slices ![6, 0, 0] S1x32x32
  slices_S9x1000000_S1x1000000_7_0 : S9x1000000.Slices ![7, 0] S1x1000000
  slices_S9x32x32_S1x32x32_7_0_0 : S9x32x32.Slices ![7, 0, 0] S1x32x32
  slices_S9x1000000_S1x1000000_8_0 : S9x1000000.Slices ![8, 0] S1x1000000
  slices_S9x32x32_S1x32x32_8_0_0 : S9x32x32.Slices ![8, 0, 0] S1x32x32
  reducesTo_S1000000x32_S32_d0 : S1000000x32.ReducesTo [0] S32
  h_S_ : 0 < S_.numel
  bcast_S_S32 : S_.BroadcastsInDim S32 (![] : Fin 0 → Fin S32.rank)
  bcast_S32_S1x32_1 : S32.BroadcastsInDim S1x32 (![1] : Fin 1 → Fin S1x32.rank)
  bcast_S1x32_S1000000x32_0_1 : S1x32.BroadcastsInDim S1000000x32 (![0, 1] : Fin 2 → Fin S1000000x32.rank)
  gather_S1000000x32_S1000000x1_S1000000x32_1_0_n_n_0_1_132_wf : GatherDims.WF S1000000x32 S1000000x1 S1000000x32 [1] [0] [] [0] [] 1 ![1, 32]
  dot_S1000000x32_S32x32_S1000000x32_1_0_0_1_n_n_wf : DotDims.WF S1000000x32 S32x32 S1000000x32 [1] [0] [0] [1] [] []

variable [Facts₀]

def gather_S1000000x32_S1000000x1_S1000000x32_1_0_n_n_0_1_132 : GatherDims S1000000x32 S1000000x1 S1000000x32 where
  offsetDims := [1]
  collapsedSliceDims := [0]
  operandBatchingDims := []
  startIndicesBatchingDims := []
  startIndexMap := [0]
  indexVectorDim := 1
  sliceSizes := ![1, 32]
  wf := gather_S1000000x32_S1000000x1_S1000000x32_1_0_n_n_0_1_132_wf
def dot_S1000000x32_S32x32_S1000000x32_1_0_0_1_n_n : DotDims S1000000x32 S32x32 S1000000x32 where
  lhsContracting := [1]
  rhsContracting := [0]
  lhsNonContracting := [0]
  rhsNonContracting := [1]
  lhsBatch := []
  rhsBatch := []
  wf := dot_S1000000x32_S32x32_S1000000x32_1_0_0_1_n_n_wf

class Facts : Prop extends Facts₀ where

variable [Facts]
-- ==== Proof.KRun.lean ====
/-
  The idealized kernel program's run with its result named.

  Every weakly fair execution of the program terminates without a fault; the result buffer then holds what the second
  pipeline's write-backs leave in it — the last boundary's contents at that buffer — and the six argument arrays are
  as launched. The run is the launch over the program's twenty-one segments (eighteen stretches of host operations, the
  first pipeline, one more stretch, the second pipeline); the last thread state holds every unscoped buffer at the
  last boundary's contents, and reading it against the final state gives each buffer's contents, the result's among them.
-/
import proofs.«180816_j45861660786969_2_alg».proof.Proof.Gen.KernelIdeal.Frame

set_option maxRecDepth 16384

noncomputable section

namespace Cert.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_named : θ_run defs (onTc (τ := τ) (main (F := F))) ⟨m, fun _ => 0, ρ⟩ (fun r => ∀ c : Dev nD,
      r.2.mem ((c.tc : Thread nD τ).loc main_v140) = W21 m ρ c (Proc.devRef .tc main_v140)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h c =>
      ⟨h c _ (mem_uc main_v140 (by decide)),
       (h c _ (mem_uc main_arg0 (by decide))).trans (W21_main_arg0 m ρ c),
       (h c _ (mem_uc main_arg1 (by decide))).trans (W21_main_arg1 m ρ c),
       (h c _ (mem_uc main_arg2 (by decide))).trans (W21_main_arg2 m ρ c),
       (h c _ (mem_uc main_arg3 (by decide))).trans (W21_main_arg3 m ρ c),
       (h c _ (mem_uc main_arg4 (by decide))).trans (W21_main_arg4 m ρ c),
       (h c _ (mem_uc main_arg5 (by decide))).trans (W21_main_arg5 m ρ c)⟩)

end Cert.KRun

end
-- ==== Proof.Spec.lean ====
/-
  The mathematics of a sparse 1×3×3 convolution followed by a leaky rectifier and batch normalisation, on the
  extended reals, entry by entry.

  A million rows of 32 features; nine taps. Tap k reads, for output row i, the feature row named by the index word
  idx[k, i] (wrapped by the row count when negative, then read signed and clamped into the table), keeps it where the
  mask bit msk[k, i] is set and takes zero elsewhere, and multiplies it into the 32 × 32 matrix wt[k]; the nine
  products are added in tap order onto the zero word. The rectifier keeps a non-negative entry and scales a negative
  one by the word 0x3C23D70A. Batch normalisation subtracts each column's mean, multiplies by the reciprocal square
  root of the column's variance plus the word 0x3727C5AC, scales by gam and shifts by bet; the divisor of both
  moments is the word 0x49742400 (one million).

  Two spellings are stated. The first masks by selection, sums each column tile by tile (two halves of 250 tiles of
  2000 rows, each half onto the zero word, the halves then added onto the zero word) and takes the variance as the
  mean of squares less the squared mean. The second masks by multiplication with the bit read as a number, sums each
  column over all rows at once and takes the variance as the mean of squared deviations. The two are joined in
  another module.
-/
import Idealize.ShloMosaic.PureOps.Ideal
import Idealize.ShloMosaic.Lib.ValueIdx

noncomputable section

open scoped BigOperators

namespace Cert.Spec

open Idealize.ShloMosaic Idealize.ShloMosaic.ValueIdx

/-- rows × features, and rows × output channels -/
abbrev SF : Shape := ⟨2, ![1000000, 32]⟩
/-- taps × input channels × output channels -/
abbrev SW : Shape := ⟨3, ![9, 32, 32]⟩
/-- one entry per channel -/
abbrev SV : Shape := ⟨1, ![32]⟩
/-- taps × rows -/
abbrev SI : Shape := ⟨2, ![9, 1000000]⟩

/-- The zero word, the rectifier's slope, the row count and the variance's offset, as the programs spell them. -/
abbrev Z : EReal := Ideal.ofBits .f32 0x00000000#32
abbrev slope : EReal := Ideal.ofBits .f32 0x3C23D70A#32
abbrev count : EReal := Ideal.ofBits .f32 0x49742400#32
abbrev eps : EReal := Ideal.ofBits .f32 0x3727C5AC#32

section
variable (feat : SF.Idx → EReal) (wt : SW.Idx → EReal) (gam bet : SV.Idx → EReal) (idx : IVec SI 32) (msk : IVec SI 1)

/-- Tap k's index word for output row i, with the row count added when it is negative. -/
def word (k : Fin 9) (i : Fin 1000000) : BitVec 32 :=
  Scalar.select (IntOp.cmpi .slt (idx (ix2 k i)) 0#32) (IntOp.addi (idx (ix2 k i)) 1000000#32) (idx (ix2 k i))

/-- The feature row tap k reads for output row i: the word read signed, clamped into the table. -/
def row (k : Fin 9) (i : Fin 1000000) : Fin 1000000 :=
  ⟨min (word idx k i).toInt.toNat (1000000 - 1), by omega⟩

/-- The gathered entry. -/
def gat (k : Fin 9) (i : Fin 1000000) (c : Fin 32) : EReal := feat (ix2 (row idx k i) c)

/-- Masked by selection: the gathered entry where the bit is set, the zero word elsewhere. -/
def tapSel (k : Fin 9) (i : Fin 1000000) (c : Fin 32) : EReal :=
  Scalar.select (msk (ix2 k i)) (gat feat idx k i c) Z

/-- Masked by multiplication with the bit read as a number. -/
def tapMul (k : Fin 9) (i : Fin 1000000) (c : Fin 32) : EReal :=
  gat feat idx k i c * (FloatOps.uitofp (F := Ideal) .f32 (msk (ix2 k i)) : EReal)
end

section
/- Stated for any number of rows: the whole table has a million, one tile of it 2000. -/
variable {n : Nat} (X : Fin 9 → Fin n → Fin 32 → EReal) (wt : SW.Idx → EReal)

/-- One tap's product at (i, o): the sum over the input channels. -/
def tapDot (k : Fin 9) (i : Fin n) (o : Fin 32) : EReal := ∑ c : Fin 32, X k i c * wt (ix3 k c o)

/-- The nine products added in tap order onto the zero word. -/
def conv (i : Fin n) (o : Fin 32) : EReal :=
  ((((((((Z + tapDot X wt 0 i o) + tapDot X wt 1 i o) + tapDot X wt 2 i o) + tapDot X wt 3 i o) + tapDot X wt 4 i o)
    + tapDot X wt 5 i o) + tapDot X wt 6 i o) + tapDot X wt 7 i o) + tapDot X wt 8 i o

/-- The leaky rectifier. -/
def leaky (a : EReal) : EReal := Scalar.select (Ideal.cmp .oge a Z) a (slope * a)

/-- The rectified convolution. -/
def act (i : Fin n) (o : Fin 32) : EReal := leaky (conv X wt i o)

/-- The rectified convolution of a row depends on that row of the taps only: a tile's is the table's. -/
theorem act_rows {n' : Nat} (r : Fin n' → Fin n) (i : Fin n') (o : Fin 32) :
    act (fun k i f => X k (r i) f) wt i o = act X wt (r i) o := rfl
end

/-- Nine tiles of 2000 rows, read by coordinates. -/
def tiles (x : Fin 9 → (⟨2, ![2000, 32]⟩ : Shape).Idx → EReal) : Fin 9 → Fin 2000 → Fin 32 → EReal :=
  fun k p f => x k (ix2 p f)

/-- Batch normalisation of one entry. -/
def norm (y mean istd g b : EReal) : EReal := (y - mean) * istd * g + b

/-- Row p of tile j of half h. -/
def tileRow (h : Fin 2) (j : Fin 250) (p : Fin 2000) : Fin 1000000 :=
  ⟨(h.val * 250 + j.val) * 2000 + p.val, by have := h.isLt; have := j.isLt; have := p.isLt; omega⟩

section
variable (Y : Fin 1000000 → Fin 32 → EReal)

/-- A column's sum over one half, tile by tile. -/
def halfSum (h : Fin 2) (o : Fin 32) : EReal := ∑ j : Fin 250, ∑ p : Fin 2000, Y (tileRow h j p) o
/-- A column's sum of squares over one half, tile by tile. -/
def halfSq (h : Fin 2) (o : Fin 32) : EReal := ∑ j : Fin 250, ∑ p : Fin 2000, Y (tileRow h j p) o * Y (tileRow h j p) o

/-- First spelling: the mean from the two halves. -/
def meanT (o : Fin 32) : EReal := Ideal.div (Z + ∑ h : Fin 2, halfSum Y h o) count
/-- First spelling: the mean of squares less the squared mean. -/
def varT (o : Fin 32) : EReal := Ideal.div (Z + ∑ h : Fin 2, halfSq Y h o) count - meanT Y o * meanT Y o
def istdT (o : Fin 32) : EReal := Ideal.rsqrt (varT Y o + eps)

/-- Second spelling: the mean over all rows at once. -/
def meanA (o : Fin 32) : EReal := Ideal.div (Z + ∑ i : Fin 1000000, Y i o) count
/-- Second spelling: the mean of squared deviations. -/
def varA (o : Fin 32) : EReal :=
  Ideal.div (Z + ∑ i : Fin 1000000, (Y i o - meanA Y o) * (Y i o - meanA Y o)) count
def istdA (o : Fin 32) : EReal := Ideal.rsqrt (varA Y o + eps)
end

section
variable (feat : SF.Idx → EReal) (wt : SW.Idx → EReal) (gam bet : SV.Idx → EReal) (idx : IVec SI 32) (msk : IVec SI 1)

/-- The first spelling's result at (i, o). -/
def outT (i : Fin 1000000) (o : Fin 32) : EReal :=
  norm (act (tapSel feat idx msk) wt i o) (meanT (act (tapSel feat idx msk) wt) o)
    (istdT (act (tapSel feat idx msk) wt) o) (gam (ix1 o)) (bet (ix1 o))

/-- The second spelling's result at (i, o). -/
def outA (i : Fin 1000000) (o : Fin 32) : EReal :=
  norm (act (tapMul feat idx msk) wt i o) (meanA (act (tapMul feat idx msk) wt) o)
    (istdA (act (tapMul feat idx msk) wt) o) (gam (ix1 o)) (bet (ix1 o))
end

end Cert.Spec

end
-- ==== Proof.KMid.lean ====
/-
  Between the two pipelines: the column statistics from the two halves' sums.

  The first pipeline leaves, per half, a column's sum and sum of squares. Sixteen host operations follow: each pair of
  halves is added onto the zero word, the [1, 32] row is read as a vector of 32, both are divided by the word for one
  million (the mean, and the mean of squares), the squared mean is subtracted, the variance's offset is added and the
  reciprocal square root taken. The rectified array, the scale and the shift pass through untouched.
-/
import proofs.«180816_j45861660786969_2_alg».proof.Proof.Gen.KernelIdeal.Frame
import proofs.«180816_j45861660786969_2_alg».proof.Proof.Spec
import Idealize.ShloMosaic.Lib.StableHlo.Run
import Idealize.ShloMosaic.Lib.Pipeline.Value
import Idealize.ShloMosaic.PureOps.Ideal.Laws

noncomputable section

open scoped BigOperators

namespace Cert.KMid

open Idealize.ShloMosaic Idealize.ShloMosaic.ValueIdx Idealize.ShloMosaic.TcCoe Idealize.SL.Sem Idealize.ShloMosaic.StableHlo
open Cert.KernelIdeal Cert.KernelIdeal.Gen

/-- The two halves of a column added onto the zero word, the [1, 32] row read as a vector: entry o. -/
theorem halves_entry (x : S2x1x32.Idx → EReal) (o : Fin 32) :
    shapeCast S32 (Host.reduceAdd (F := Ideal) x (constant (F := Ideal) S_ .f32 0x00000000#32) reducesTo_S2x1x32_S1x32_d0 h_S_)
        shapeCasts_S1x32_S32 (ix1 o)
      = Cert.Spec.Z + ∑ h : Fin 2, x (ix3 h (0 : Fin 1) o) := by
  rw [shapeCast_apply _ shapeCasts_S1x32_S32 (ix1 o) (ix2 (0 : Fin 1) o)
    (by rewrite [Shape.rowMajor_val_two, Shape.rowMajor_val_one]; show 0 * 32 + o.val = o.val; omega)]
  simp only [Host.reduceAdd, Ideal.hostReduceAdd_def]
  rw [Ideal.hostReduceAdd_single reducesTo_S2x1x32_S1x32_d0 (by decide)]
  refine congrArg (_ + ·) (Finset.sum_congr rfl fun k _ => ?_)
  exact congrArg x (funext fun a => Fin.ext (by match a with | ⟨0, _⟩ => rfl | ⟨1, _⟩ => rfl | ⟨2, _⟩ => rfl))

variable (m : (ℓ : Loc nD τ sig) → Buf (Elt Ideal) ℓ) (ρ : Dev nD → PrngReg)

/-- The halves' column sums and sums of squares as the first pipeline leaves them, and the mean as the second finds it. -/
abbrev halfSums (c : Dev nD) : S2x1x32.Idx → EReal := W19 (F := Ideal) m ρ c (Proc.devRef .tc main_v126_1)
abbrev halfSqs (c : Dev nD) : S2x1x32.Idx → EReal := W19 (F := Ideal) m ρ c (Proc.devRef .tc main_v126_2)
abbrev meanVec (c : Dev nD) : S32.Idx → EReal := V20 (F := Ideal) m ρ c main_v132
abbrev istdVec (c : Dev nD) : S32.Idx → EReal := V20 (F := Ideal) m ρ c main_v139

/-- The mean's buffer as the host operations' term of the halves' sums. -/
theorem mean_term (c : Dev nD) :
    meanVec m ρ c
      = Host.divf (fun i => shapeCast S32 (Host.reduceAdd (F := Ideal) (halfSums m ρ c)
            (constant (F := Ideal) S_ .f32 0x00000000#32) reducesTo_S2x1x32_S1x32_d0 h_S_) shapeCasts_S1x32_S32 i)
          (broadcastInDim S32 ![] bcast_S_S32 (constant (F := Ideal) S_ .f32 0x49742400#32)) := by
  show StableHlo.after hostOps1 (W19 m ρ c) (Proc.devRef .tc main_v132) = _
  after_results
  rfl

/-- The mean of column o from the halves' sums. -/
theorem mean_entry (c : Dev nD) (o : Fin 32) :
    meanVec m ρ c (ix1 o) = Ideal.div (Cert.Spec.Z + ∑ h : Fin 2, halfSums m ρ c (ix3 h (0 : Fin 1) o)) Cert.Spec.count := by
  rw [mean_term]
  show Ideal.div (shapeCast S32 (Host.reduceAdd (F := Ideal) _ _ reducesTo_S2x1x32_S1x32_d0 h_S_) shapeCasts_S1x32_S32 (ix1 o)) _ = _
  rw [halves_entry]
  rfl

/-- The reciprocal standard deviation's buffer as the host operations' term. -/
theorem istd_term (c : Dev nD) :
    istdVec m ρ c
      = Host.rsqrt (addf (subf
          (Host.divf (fun i => shapeCast S32 (Host.reduceAdd (F := Ideal) (halfSqs m ρ c)
              (constant (F := Ideal) S_ .f32 0x00000000#32) reducesTo_S2x1x32_S1x32_d0 h_S_) shapeCasts_S1x32_S32 i)
            (broadcastInDim S32 ![] bcast_S_S32 (constant (F := Ideal) S_ .f32 0x49742400#32)))
          (mulf (meanVec m ρ c) (meanVec m ρ c)))
          (broadcastInDim S32 ![] bcast_S_S32 (constant (F := Ideal) S_ .f32 0x3727C5AC#32))) := by
  rw [mean_term]
  show StableHlo.after hostOps1 (W19 m ρ c) (Proc.devRef .tc main_v139) = _
  after_results
  rfl

/-- The reciprocal standard deviation of column o: the mean of squares less the squared mean, offset, under the reciprocal root. -/
theorem istd_entry (c : Dev nD) (o : Fin 32) :
    istdVec m ρ c (ix1 o)
      = Ideal.rsqrt ((Ideal.div (Cert.Spec.Z + ∑ h : Fin 2, halfSqs m ρ c (ix3 h (0 : Fin 1) o)) Cert.Spec.count
          - meanVec m ρ c (ix1 o) * meanVec m ρ c (ix1 o)) + Cert.Spec.eps) := by
  rw [istd_term]
  show Ideal.rsqrt ((Ideal.div (shapeCast S32 (Host.reduceAdd (F := Ideal) _ _ reducesTo_S2x1x32_S1x32_d0 h_S_) shapeCasts_S1x32_S32 (ix1 o)) _
      - _ * _) + _) = _
  rw [halves_entry]
  rfl

/-- The rectified array passes through the sixteen operations. -/
theorem act_kept (c : Dev nD) :
    (V20 (F := Ideal) m ρ c main_v126_0 : S1000000x32.Idx → EReal) = W19 m ρ c (Proc.devRef .tc main_v126_0) := by
  show StableHlo.after hostOps1 (W19 m ρ c) (Proc.devRef .tc main_v126_0) = _
  after_results

end Cert.KMid

end
-- ==== Proof.KTapsKeep.lean ====
/-
  What the host stretches before the first kernel leave alone.

  The program runs eighteen stretches of host operations before its first kernel: for each of the nine taps, one
  that computes the gathered rows, the mask column and the zeros, and one that selects between them. Each stretch
  writes a known list of buffers and leaves every other buffer as it found it. So a buffer keeps, through all the
  stretches after the one that wrote it, what that stretch left in it, and an argument of the program, which no
  stretch writes, holds its launch contents at every boundary.
-/
import proofs.«180816_j45861660786969_2_alg».proof.Proof.Gen.KernelIdeal.Frame
import Idealize.ShloMosaic.PureOps.Ideal

noncomputable section

namespace Cert.KTaps

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-! ## The buffers each stretch writes, and every other buffer kept -/

/-- The buffers stretch 0 writes. -/
abbrev wr0 : List (Ref sig .tc) := [main_v0, main_v1, main_c, main_v2, main_v3, main_c_0, main_v4, main_v5, main_v6, main_v7, main_v8, main_v9, main_v10, main_v11, main_cst, main_v12]
theorem writes0 : (hostOps0 : List (HloOp τ sig (Elt Ideal))).Forall fun op => op.writes ⊆ (wr0.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- Stretch 0 leaves a buffer it does not write as it was. -/
theorem skip0 (c : Dev nD) (r : Ref sig .tc) (hr : r ∉ wr0) :
    W1 (F := Ideal) m ρ c (Proc.devRef .tc r) = W0 (F := Ideal) m ρ c (Proc.devRef .tc r) :=
  StableHlo.after_of_writes_sub hostOps0 _ writes0 hr

/-- The buffers stretch 1 writes. -/
abbrev wr1 : List (Ref sig .tc) := [main_call0_v0, main_v13]
theorem writes1 : (hostOps0_1 : List (HloOp τ sig (Elt Ideal))).Forall fun op => op.writes ⊆ (wr1.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- Stretch 1 leaves a buffer it does not write as it was. -/
theorem skip1 (c : Dev nD) (r : Ref sig .tc) (hr : r ∉ wr1) :
    W2 (F := Ideal) m ρ c (Proc.devRef .tc r) = W1 (F := Ideal) m ρ c (Proc.devRef .tc r) :=
  StableHlo.after_of_writes_sub hostOps0_1 _ writes1 hr

/-- The buffers stretch 2 writes. -/
abbrev wr2 : List (Ref sig .tc) := [main_v14, main_v15, main_c_1, main_v16, main_v17, main_c_2, main_v18, main_v19, main_v20, main_v21, main_v22, main_v23, main_v24, main_v25, main_cst_3, main_v26]
theorem writes2 : (hostOps0_2 : List (HloOp τ sig (Elt Ideal))).Forall fun op => op.writes ⊆ (wr2.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- Stretch 2 leaves a buffer it does not write as it was. -/
theorem skip2 (c : Dev nD) (r : Ref sig .tc) (hr : r ∉ wr2) :
    W3 (F := Ideal) m ρ c (Proc.devRef .tc r) = W2 (F := Ideal) m ρ c (Proc.devRef .tc r) :=
  StableHlo.after_of_writes_sub hostOps0_2 _ writes2 hr

/-- The buffers stretch 3 writes. -/
abbrev wr3 : List (Ref sig .tc) := [main_call1_v0, main_v27]
theorem writes3 : (hostOps0_3 : List (HloOp τ sig (Elt Ideal))).Forall fun op => op.writes ⊆ (wr3.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- Stretch 3 leaves a buffer it does not write as it was. -/
theorem skip3 (c : Dev nD) (r : Ref sig .tc) (hr : r ∉ wr3) :
    W4 (F := Ideal) m ρ c (Proc.devRef .tc r) = W3 (F := Ideal) m ρ c (Proc.devRef .tc r) :=
  StableHlo.after_of_writes_sub hostOps0_3 _ writes3 hr

/-- The buffers stretch 4 writes. -/
abbrev wr4 : List (Ref sig .tc) := [main_v28, main_v29, main_c_4, main_v30, main_v31, main_c_5, main_v32, main_v33, main_v34, main_v35, main_v36, main_v37, main_v38, main_v39, main_cst_6, main_v40]
theorem writes4 : (hostOps0_4 : List (HloOp τ sig (Elt Ideal))).Forall fun op => op.writes ⊆ (wr4.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- Stretch 4 leaves a buffer it does not write as it was. -/
theorem skip4 (c : Dev nD) (r : Ref sig .tc) (hr : r ∉ wr4) :
    W5 (F := Ideal) m ρ c (Proc.devRef .tc r) = W4 (F := Ideal) m ρ c (Proc.devRef .tc r) :=
  StableHlo.after_of_writes_sub hostOps0_4 _ writes4 hr

/-- The buffers stretch 5 writes. -/
abbrev wr5 : List (Ref sig .tc) := [main_call2_v0, main_v41]
theorem writes5 : (hostOps0_5 : List (HloOp τ sig (Elt Ideal))).Forall fun op => op.writes ⊆ (wr5.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- Stretch 5 leaves a buffer it does not write as it was. -/
theorem skip5 (c : Dev nD) (r : Ref sig .tc) (hr : r ∉ wr5) :
    W6 (F := Ideal) m ρ c (Proc.devRef .tc r) = W5 (F := Ideal) m ρ c (Proc.devRef .tc r) :=
  StableHlo.after_of_writes_sub hostOps0_5 _ writes5 hr

/-- The buffers stretch 6 writes. -/
abbrev wr6 : List (Ref sig .tc) := [main_v42, main_v43, main_c_7, main_v44, main_v45, main_c_8, main_v46, main_v47, main_v48, main_v49, main_v50, main_v51, main_v52, main_v53, main_cst_9, main_v54]
theorem writes6 : (hostOps0_6 : List (HloOp τ sig (Elt Ideal))).Forall fun op => op.writes ⊆ (wr6.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- Stretch 6 leaves a buffer it does not write as it was. -/
theorem skip6 (c : Dev nD) (r : Ref sig .tc) (hr : r ∉ wr6) :
    W7 (F := Ideal) m ρ c (Proc.devRef .tc r) = W6 (F := Ideal) m ρ c (Proc.devRef .tc r) :=
  StableHlo.after_of_writes_sub hostOps0_6 _ writes6 hr

/-- The buffers stretch 7 writes. -/
abbrev wr7 : List (Ref sig .tc) := [main_call3_v0, main_v55]
theorem writes7 : (hostOps0_7 : List (HloOp τ sig (Elt Ideal))).Forall fun op => op.writes ⊆ (wr7.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- Stretch 7 leaves a buffer it does not write as it was. -/
theorem skip7 (c : Dev nD) (r : Ref sig .tc) (hr : r ∉ wr7) :
    W8 (F := Ideal) m ρ c (Proc.devRef .tc r) = W7 (F := Ideal) m ρ c (Proc.devRef .tc r) :=
  StableHlo.after_of_writes_sub hostOps0_7 _ writes7 hr

/-- The buffers stretch 8 writes. -/
abbrev wr8 : List (Ref sig .tc) := [main_v56, main_v57, main_c_10, main_v58, main_v59, main_c_11, main_v60, main_v61, main_v62, main_v63, main_v64, main_v65, main_v66, main_v67, main_cst_12, main_v68]
theorem writes8 : (hostOps0_8 : List (HloOp τ sig (Elt Ideal))).Forall fun op => op.writes ⊆ (wr8.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- Stretch 8 leaves a buffer it does not write as it was. -/
theorem skip8 (c : Dev nD) (r : Ref sig .tc) (hr : r ∉ wr8) :
    W9 (F := Ideal) m ρ c (Proc.devRef .tc r) = W8 (F := Ideal) m ρ c (Proc.devRef .tc r) :=
  StableHlo.after_of_writes_sub hostOps0_8 _ writes8 hr

/-- The buffers stretch 9 writes. -/
abbrev wr9 : List (Ref sig .tc) := [main_call4_v0, main_v69]
theorem writes9 : (hostOps0_9 : List (HloOp τ sig (Elt Ideal))).Forall fun op => op.writes ⊆ (wr9.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- Stretch 9 leaves a buffer it does not write as it was. -/
theorem skip9 (c : Dev nD) (r : Ref sig .tc) (hr : r ∉ wr9) :
    W10 (F := Ideal) m ρ c (Proc.devRef .tc r) = W9 (F := Ideal) m ρ c (Proc.devRef .tc r) :=
  StableHlo.after_of_writes_sub hostOps0_9 _ writes9 hr

/-- The buffers stretch 10 writes. -/
abbrev wr10 : List (Ref sig .tc) := [main_v70, main_v71, main_c_13, main_v72, main_v73, main_c_14, main_v74, main_v75, main_v76, main_v77, main_v78, main_v79, main_v80, main_v81, main_cst_15, main_v82]
theorem writes10 : (hostOps0_10 : List (HloOp τ sig (Elt Ideal))).Forall fun op => op.writes ⊆ (wr10.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- Stretch 10 leaves a buffer it does not write as it was. -/
theorem skip10 (c : Dev nD) (r : Ref sig .tc) (hr : r ∉ wr10) :
    W11 (F := Ideal) m ρ c (Proc.devRef .tc r) = W10 (F := Ideal) m ρ c (Proc.devRef .tc r) :=
  StableHlo.after_of_writes_sub hostOps0_10 _ writes10 hr

/-- The buffers stretch 11 writes. -/
abbrev wr11 : List (Ref sig .tc) := [main_call5_v0, main_v83]
theorem writes11 : (hostOps0_11 : List (HloOp τ sig (Elt Ideal))).Forall fun op => op.writes ⊆ (wr11.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- Stretch 11 leaves a buffer it does not write as it was. -/
theorem skip11 (c : Dev nD) (r : Ref sig .tc) (hr : r ∉ wr11) :
    W12 (F := Ideal) m ρ c (Proc.devRef .tc r) = W11 (F := Ideal) m ρ c (Proc.devRef .tc r) :=
  StableHlo.after_of_writes_sub hostOps0_11 _ writes11 hr

/-- The buffers stretch 12 writes. -/
abbrev wr12 : List (Ref sig .tc) := [main_v84, main_v85, main_c_16, main_v86, main_v87, main_c_17, main_v88, main_v89, main_v90, main_v91, main_v92, main_v93, main_v94, main_v95, main_cst_18, main_v96]
theorem writes12 : (hostOps0_12 : List (HloOp τ sig (Elt Ideal))).Forall fun op => op.writes ⊆ (wr12.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- Stretch 12 leaves a buffer it does not write as it was. -/
theorem skip12 (c : Dev nD) (r : Ref sig .tc) (hr : r ∉ wr12) :
    W13 (F := Ideal) m ρ c (Proc.devRef .tc r) = W12 (F := Ideal) m ρ c (Proc.devRef .tc r) :=
  StableHlo.after_of_writes_sub hostOps0_12 _ writes12 hr

/-- The buffers stretch 13 writes. -/
abbrev wr13 : List (Ref sig .tc) := [main_call6_v0, main_v97]
theorem writes13 : (hostOps0_13 : List (HloOp τ sig (Elt Ideal))).Forall fun op => op.writes ⊆ (wr13.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- Stretch 13 leaves a buffer it does not write as it was. -/
theorem skip13 (c : Dev nD) (r : Ref sig .tc) (hr : r ∉ wr13) :
    W14 (F := Ideal) m ρ c (Proc.devRef .tc r) = W13 (F := Ideal) m ρ c (Proc.devRef .tc r) :=
  StableHlo.after_of_writes_sub hostOps0_13 _ writes13 hr

/-- The buffers stretch 14 writes. -/
abbrev wr14 : List (Ref sig .tc) := [main_v98, main_v99, main_c_19, main_v100, main_v101, main_c_20, main_v102, main_v103, main_v104, main_v105, main_v106, main_v107, main_v108, main_v109, main_cst_21, main_v110]
theorem writes14 : (hostOps0_14 : List (HloOp τ sig (Elt Ideal))).Forall fun op => op.writes ⊆ (wr14.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- Stretch 14 leaves a buffer it does not write as it was. -/
theorem skip14 (c : Dev nD) (r : Ref sig .tc) (hr : r ∉ wr14) :
    W15 (F := Ideal) m ρ c (Proc.devRef .tc r) = W14 (F := Ideal) m ρ c (Proc.devRef .tc r) :=
  StableHlo.after_of_writes_sub hostOps0_14 _ writes14 hr

/-- The buffers stretch 15 writes. -/
abbrev wr15 : List (Ref sig .tc) := [main_call7_v0, main_v111]
theorem writes15 : (hostOps0_15 : List (HloOp τ sig (Elt Ideal))).Forall fun op => op.writes ⊆ (wr15.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- Stretch 15 leaves a buffer it does not write as it was. -/
theorem skip15 (c : Dev nD) (r : Ref sig .tc) (hr : r ∉ wr15) :
    W16 (F := Ideal) m ρ c (Proc.devRef .tc r) = W15 (F := Ideal) m ρ c (Proc.devRef .tc r) :=
  StableHlo.after_of_writes_sub hostOps0_15 _ writes15 hr

/-- The buffers stretch 16 writes. -/
abbrev wr16 : List (Ref sig .tc) := [main_v112, main_v113, main_c_22, main_v114, main_v115, main_c_23, main_v116, main_v117, main_v118, main_v119, main_v120, main_v121, main_v122, main_v123, main_cst_24, main_v124]
theorem writes16 : (hostOps0_16 : List (HloOp τ sig (Elt Ideal))).Forall fun op => op.writes ⊆ (wr16.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- Stretch 16 leaves a buffer it does not write as it was. -/
theorem skip16 (c : Dev nD) (r : Ref sig .tc) (hr : r ∉ wr16) :
    W17 (F := Ideal) m ρ c (Proc.devRef .tc r) = W16 (F := Ideal) m ρ c (Proc.devRef .tc r) :=
  StableHlo.after_of_writes_sub hostOps0_16 _ writes16 hr

/-- The buffers stretch 17 writes. -/
abbrev wr17 : List (Ref sig .tc) := [main_call8_v0, main_v125]
theorem writes17 : (hostOps0_17 : List (HloOp τ sig (Elt Ideal))).Forall fun op => op.writes ⊆ (wr17.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- Stretch 17 leaves a buffer it does not write as it was. -/
theorem skip17 (c : Dev nD) (r : Ref sig .tc) (hr : r ∉ wr17) :
    W18 (F := Ideal) m ρ c (Proc.devRef .tc r) = W17 (F := Ideal) m ρ c (Proc.devRef .tc r) :=
  StableHlo.after_of_writes_sub hostOps0_17 _ writes17 hr

/-! ## The arguments at every boundary: their launch contents -/

theorem arg0_at0 (c : Dev nD) : W0 (F := Ideal) m ρ c (Proc.devRef .tc main_arg0) = m ((c.tc : Thread nD τ).loc main_arg0) := rfl
theorem arg0_at1 (c : Dev nD) : W1 (F := Ideal) m ρ c (Proc.devRef .tc main_arg0) = m ((c.tc : Thread nD τ).loc main_arg0) :=
  (skip0 m ρ c main_arg0 (by decide)).trans (arg0_at0 m ρ c)
theorem arg0_at2 (c : Dev nD) : W2 (F := Ideal) m ρ c (Proc.devRef .tc main_arg0) = m ((c.tc : Thread nD τ).loc main_arg0) :=
  (skip1 m ρ c main_arg0 (by decide)).trans (arg0_at1 m ρ c)
theorem arg0_at3 (c : Dev nD) : W3 (F := Ideal) m ρ c (Proc.devRef .tc main_arg0) = m ((c.tc : Thread nD τ).loc main_arg0) :=
  (skip2 m ρ c main_arg0 (by decide)).trans (arg0_at2 m ρ c)
theorem arg0_at4 (c : Dev nD) : W4 (F := Ideal) m ρ c (Proc.devRef .tc main_arg0) = m ((c.tc : Thread nD τ).loc main_arg0) :=
  (skip3 m ρ c main_arg0 (by decide)).trans (arg0_at3 m ρ c)
theorem arg0_at5 (c : Dev nD) : W5 (F := Ideal) m ρ c (Proc.devRef .tc main_arg0) = m ((c.tc : Thread nD τ).loc main_arg0) :=
  (skip4 m ρ c main_arg0 (by decide)).trans (arg0_at4 m ρ c)
theorem arg0_at6 (c : Dev nD) : W6 (F := Ideal) m ρ c (Proc.devRef .tc main_arg0) = m ((c.tc : Thread nD τ).loc main_arg0) :=
  (skip5 m ρ c main_arg0 (by decide)).trans (arg0_at5 m ρ c)
theorem arg0_at7 (c : Dev nD) : W7 (F := Ideal) m ρ c (Proc.devRef .tc main_arg0) = m ((c.tc : Thread nD τ).loc main_arg0) :=
  (skip6 m ρ c main_arg0 (by decide)).trans (arg0_at6 m ρ c)
theorem arg0_at8 (c : Dev nD) : W8 (F := Ideal) m ρ c (Proc.devRef .tc main_arg0) = m ((c.tc : Thread nD τ).loc main_arg0) :=
  (skip7 m ρ c main_arg0 (by decide)).trans (arg0_at7 m ρ c)
theorem arg0_at9 (c : Dev nD) : W9 (F := Ideal) m ρ c (Proc.devRef .tc main_arg0) = m ((c.tc : Thread nD τ).loc main_arg0) :=
  (skip8 m ρ c main_arg0 (by decide)).trans (arg0_at8 m ρ c)
theorem arg0_at10 (c : Dev nD) : W10 (F := Ideal) m ρ c (Proc.devRef .tc main_arg0) = m ((c.tc : Thread nD τ).loc main_arg0) :=
  (skip9 m ρ c main_arg0 (by decide)).trans (arg0_at9 m ρ c)
theorem arg0_at11 (c : Dev nD) : W11 (F := Ideal) m ρ c (Proc.devRef .tc main_arg0) = m ((c.tc : Thread nD τ).loc main_arg0) :=
  (skip10 m ρ c main_arg0 (by decide)).trans (arg0_at10 m ρ c)
theorem arg0_at12 (c : Dev nD) : W12 (F := Ideal) m ρ c (Proc.devRef .tc main_arg0) = m ((c.tc : Thread nD τ).loc main_arg0) :=
  (skip11 m ρ c main_arg0 (by decide)).trans (arg0_at11 m ρ c)
theorem arg0_at13 (c : Dev nD) : W13 (F := Ideal) m ρ c (Proc.devRef .tc main_arg0) = m ((c.tc : Thread nD τ).loc main_arg0) :=
  (skip12 m ρ c main_arg0 (by decide)).trans (arg0_at12 m ρ c)
theorem arg0_at14 (c : Dev nD) : W14 (F := Ideal) m ρ c (Proc.devRef .tc main_arg0) = m ((c.tc : Thread nD τ).loc main_arg0) :=
  (skip13 m ρ c main_arg0 (by decide)).trans (arg0_at13 m ρ c)
theorem arg0_at15 (c : Dev nD) : W15 (F := Ideal) m ρ c (Proc.devRef .tc main_arg0) = m ((c.tc : Thread nD τ).loc main_arg0) :=
  (skip14 m ρ c main_arg0 (by decide)).trans (arg0_at14 m ρ c)
theorem arg0_at16 (c : Dev nD) : W16 (F := Ideal) m ρ c (Proc.devRef .tc main_arg0) = m ((c.tc : Thread nD τ).loc main_arg0) :=
  (skip15 m ρ c main_arg0 (by decide)).trans (arg0_at15 m ρ c)
theorem arg0_at17 (c : Dev nD) : W17 (F := Ideal) m ρ c (Proc.devRef .tc main_arg0) = m ((c.tc : Thread nD τ).loc main_arg0) :=
  (skip16 m ρ c main_arg0 (by decide)).trans (arg0_at16 m ρ c)
theorem arg0_at18 (c : Dev nD) : W18 (F := Ideal) m ρ c (Proc.devRef .tc main_arg0) = m ((c.tc : Thread nD τ).loc main_arg0) :=
  (skip17 m ρ c main_arg0 (by decide)).trans (arg0_at17 m ρ c)

theorem arg4_at0 (c : Dev nD) : W0 (F := Ideal) m ρ c (Proc.devRef .tc main_arg4) = m ((c.tc : Thread nD τ).loc main_arg4) := rfl
theorem arg4_at1 (c : Dev nD) : W1 (F := Ideal) m ρ c (Proc.devRef .tc main_arg4) = m ((c.tc : Thread nD τ).loc main_arg4) :=
  (skip0 m ρ c main_arg4 (by decide)).trans (arg4_at0 m ρ c)
theorem arg4_at2 (c : Dev nD) : W2 (F := Ideal) m ρ c (Proc.devRef .tc main_arg4) = m ((c.tc : Thread nD τ).loc main_arg4) :=
  (skip1 m ρ c main_arg4 (by decide)).trans (arg4_at1 m ρ c)
theorem arg4_at3 (c : Dev nD) : W3 (F := Ideal) m ρ c (Proc.devRef .tc main_arg4) = m ((c.tc : Thread nD τ).loc main_arg4) :=
  (skip2 m ρ c main_arg4 (by decide)).trans (arg4_at2 m ρ c)
theorem arg4_at4 (c : Dev nD) : W4 (F := Ideal) m ρ c (Proc.devRef .tc main_arg4) = m ((c.tc : Thread nD τ).loc main_arg4) :=
  (skip3 m ρ c main_arg4 (by decide)).trans (arg4_at3 m ρ c)
theorem arg4_at5 (c : Dev nD) : W5 (F := Ideal) m ρ c (Proc.devRef .tc main_arg4) = m ((c.tc : Thread nD τ).loc main_arg4) :=
  (skip4 m ρ c main_arg4 (by decide)).trans (arg4_at4 m ρ c)
theorem arg4_at6 (c : Dev nD) : W6 (F := Ideal) m ρ c (Proc.devRef .tc main_arg4) = m ((c.tc : Thread nD τ).loc main_arg4) :=
  (skip5 m ρ c main_arg4 (by decide)).trans (arg4_at5 m ρ c)
theorem arg4_at7 (c : Dev nD) : W7 (F := Ideal) m ρ c (Proc.devRef .tc main_arg4) = m ((c.tc : Thread nD τ).loc main_arg4) :=
  (skip6 m ρ c main_arg4 (by decide)).trans (arg4_at6 m ρ c)
theorem arg4_at8 (c : Dev nD) : W8 (F := Ideal) m ρ c (Proc.devRef .tc main_arg4) = m ((c.tc : Thread nD τ).loc main_arg4) :=
  (skip7 m ρ c main_arg4 (by decide)).trans (arg4_at7 m ρ c)
theorem arg4_at9 (c : Dev nD) : W9 (F := Ideal) m ρ c (Proc.devRef .tc main_arg4) = m ((c.tc : Thread nD τ).loc main_arg4) :=
  (skip8 m ρ c main_arg4 (by decide)).trans (arg4_at8 m ρ c)
theorem arg4_at10 (c : Dev nD) : W10 (F := Ideal) m ρ c (Proc.devRef .tc main_arg4) = m ((c.tc : Thread nD τ).loc main_arg4) :=
  (skip9 m ρ c main_arg4 (by decide)).trans (arg4_at9 m ρ c)
theorem arg4_at11 (c : Dev nD) : W11 (F := Ideal) m ρ c (Proc.devRef .tc main_arg4) = m ((c.tc : Thread nD τ).loc main_arg4) :=
  (skip10 m ρ c main_arg4 (by decide)).trans (arg4_at10 m ρ c)
theorem arg4_at12 (c : Dev nD) : W12 (F := Ideal) m ρ c (Proc.devRef .tc main_arg4) = m ((c.tc : Thread nD τ).loc main_arg4) :=
  (skip11 m ρ c main_arg4 (by decide)).trans (arg4_at11 m ρ c)
theorem arg4_at13 (c : Dev nD) : W13 (F := Ideal) m ρ c (Proc.devRef .tc main_arg4) = m ((c.tc : Thread nD τ).loc main_arg4) :=
  (skip12 m ρ c main_arg4 (by decide)).trans (arg4_at12 m ρ c)
theorem arg4_at14 (c : Dev nD) : W14 (F := Ideal) m ρ c (Proc.devRef .tc main_arg4) = m ((c.tc : Thread nD τ).loc main_arg4) :=
  (skip13 m ρ c main_arg4 (by decide)).trans (arg4_at13 m ρ c)
theorem arg4_at15 (c : Dev nD) : W15 (F := Ideal) m ρ c (Proc.devRef .tc main_arg4) = m ((c.tc : Thread nD τ).loc main_arg4) :=
  (skip14 m ρ c main_arg4 (by decide)).trans (arg4_at14 m ρ c)
theorem arg4_at16 (c : Dev nD) : W16 (F := Ideal) m ρ c (Proc.devRef .tc main_arg4) = m ((c.tc : Thread nD τ).loc main_arg4) :=
  (skip15 m ρ c main_arg4 (by decide)).trans (arg4_at15 m ρ c)
theorem arg4_at17 (c : Dev nD) : W17 (F := Ideal) m ρ c (Proc.devRef .tc main_arg4) = m ((c.tc : Thread nD τ).loc main_arg4) :=
  (skip16 m ρ c main_arg4 (by decide)).trans (arg4_at16 m ρ c)
theorem arg4_at18 (c : Dev nD) : W18 (F := Ideal) m ρ c (Proc.devRef .tc main_arg4) = m ((c.tc : Thread nD τ).loc main_arg4) :=
  (skip17 m ρ c main_arg4 (by decide)).trans (arg4_at17 m ρ c)

theorem arg5_at0 (c : Dev nD) : W0 (F := Ideal) m ρ c (Proc.devRef .tc main_arg5) = m ((c.tc : Thread nD τ).loc main_arg5) := rfl
theorem arg5_at1 (c : Dev nD) : W1 (F := Ideal) m ρ c (Proc.devRef .tc main_arg5) = m ((c.tc : Thread nD τ).loc main_arg5) :=
  (skip0 m ρ c main_arg5 (by decide)).trans (arg5_at0 m ρ c)
theorem arg5_at2 (c : Dev nD) : W2 (F := Ideal) m ρ c (Proc.devRef .tc main_arg5) = m ((c.tc : Thread nD τ).loc main_arg5) :=
  (skip1 m ρ c main_arg5 (by decide)).trans (arg5_at1 m ρ c)
theorem arg5_at3 (c : Dev nD) : W3 (F := Ideal) m ρ c (Proc.devRef .tc main_arg5) = m ((c.tc : Thread nD τ).loc main_arg5) :=
  (skip2 m ρ c main_arg5 (by decide)).trans (arg5_at2 m ρ c)
theorem arg5_at4 (c : Dev nD) : W4 (F := Ideal) m ρ c (Proc.devRef .tc main_arg5) = m ((c.tc : Thread nD τ).loc main_arg5) :=
  (skip3 m ρ c main_arg5 (by decide)).trans (arg5_at3 m ρ c)
theorem arg5_at5 (c : Dev nD) : W5 (F := Ideal) m ρ c (Proc.devRef .tc main_arg5) = m ((c.tc : Thread nD τ).loc main_arg5) :=
  (skip4 m ρ c main_arg5 (by decide)).trans (arg5_at4 m ρ c)
theorem arg5_at6 (c : Dev nD) : W6 (F := Ideal) m ρ c (Proc.devRef .tc main_arg5) = m ((c.tc : Thread nD τ).loc main_arg5) :=
  (skip5 m ρ c main_arg5 (by decide)).trans (arg5_at5 m ρ c)
theorem arg5_at7 (c : Dev nD) : W7 (F := Ideal) m ρ c (Proc.devRef .tc main_arg5) = m ((c.tc : Thread nD τ).loc main_arg5) :=
  (skip6 m ρ c main_arg5 (by decide)).trans (arg5_at6 m ρ c)
theorem arg5_at8 (c : Dev nD) : W8 (F := Ideal) m ρ c (Proc.devRef .tc main_arg5) = m ((c.tc : Thread nD τ).loc main_arg5) :=
  (skip7 m ρ c main_arg5 (by decide)).trans (arg5_at7 m ρ c)
theorem arg5_at9 (c : Dev nD) : W9 (F := Ideal) m ρ c (Proc.devRef .tc main_arg5) = m ((c.tc : Thread nD τ).loc main_arg5) :=
  (skip8 m ρ c main_arg5 (by decide)).trans (arg5_at8 m ρ c)
theorem arg5_at10 (c : Dev nD) : W10 (F := Ideal) m ρ c (Proc.devRef .tc main_arg5) = m ((c.tc : Thread nD τ).loc main_arg5) :=
  (skip9 m ρ c main_arg5 (by decide)).trans (arg5_at9 m ρ c)
theorem arg5_at11 (c : Dev nD) : W11 (F := Ideal) m ρ c (Proc.devRef .tc main_arg5) = m ((c.tc : Thread nD τ).loc main_arg5) :=
  (skip10 m ρ c main_arg5 (by decide)).trans (arg5_at10 m ρ c)
theorem arg5_at12 (c : Dev nD) : W12 (F := Ideal) m ρ c (Proc.devRef .tc main_arg5) = m ((c.tc : Thread nD τ).loc main_arg5) :=
  (skip11 m ρ c main_arg5 (by decide)).trans (arg5_at11 m ρ c)
theorem arg5_at13 (c : Dev nD) : W13 (F := Ideal) m ρ c (Proc.devRef .tc main_arg5) = m ((c.tc : Thread nD τ).loc main_arg5) :=
  (skip12 m ρ c main_arg5 (by decide)).trans (arg5_at12 m ρ c)
theorem arg5_at14 (c : Dev nD) : W14 (F := Ideal) m ρ c (Proc.devRef .tc main_arg5) = m ((c.tc : Thread nD τ).loc main_arg5) :=
  (skip13 m ρ c main_arg5 (by decide)).trans (arg5_at13 m ρ c)
theorem arg5_at15 (c : Dev nD) : W15 (F := Ideal) m ρ c (Proc.devRef .tc main_arg5) = m ((c.tc : Thread nD τ).loc main_arg5) :=
  (skip14 m ρ c main_arg5 (by decide)).trans (arg5_at14 m ρ c)
theorem arg5_at16 (c : Dev nD) : W16 (F := Ideal) m ρ c (Proc.devRef .tc main_arg5) = m ((c.tc : Thread nD τ).loc main_arg5) :=
  (skip15 m ρ c main_arg5 (by decide)).trans (arg5_at15 m ρ c)
theorem arg5_at17 (c : Dev nD) : W17 (F := Ideal) m ρ c (Proc.devRef .tc main_arg5) = m ((c.tc : Thread nD τ).loc main_arg5) :=
  (skip16 m ρ c main_arg5 (by decide)).trans (arg5_at16 m ρ c)
theorem arg5_at18 (c : Dev nD) : W18 (F := Ideal) m ρ c (Proc.devRef .tc main_arg5) = m ((c.tc : Thread nD τ).loc main_arg5) :=
  (skip17 m ρ c main_arg5 (by decide)).trans (arg5_at17 m ρ c)

/-! ## Each tap's array at the kernel's entry: what its own two stretches left -/

theorem tap0_kept (c : Dev nD) :
    W18 (F := Ideal) m ρ c (Proc.devRef .tc main_v13) = W2 (F := Ideal) m ρ c (Proc.devRef .tc main_v13) :=
  (skip17 m ρ c main_v13 (by decide)).trans ((skip16 m ρ c main_v13 (by decide)).trans ((skip15 m ρ c main_v13 (by decide)).trans ((skip14 m ρ c main_v13 (by decide)).trans ((skip13 m ρ c main_v13 (by decide)).trans ((skip12 m ρ c main_v13 (by decide)).trans ((skip11 m ρ c main_v13 (by decide)).trans ((skip10 m ρ c main_v13 (by decide)).trans ((skip9 m ρ c main_v13 (by decide)).trans ((skip8 m ρ c main_v13 (by decide)).trans ((skip7 m ρ c main_v13 (by decide)).trans ((skip6 m ρ c main_v13 (by decide)).trans ((skip5 m ρ c main_v13 (by decide)).trans ((skip4 m ρ c main_v13 (by decide)).trans ((skip3 m ρ c main_v13 (by decide)).trans ((skip2 m ρ c main_v13 (by decide)))))))))))))))))

theorem tap1_kept (c : Dev nD) :
    W18 (F := Ideal) m ρ c (Proc.devRef .tc main_v27) = W4 (F := Ideal) m ρ c (Proc.devRef .tc main_v27) :=
  (skip17 m ρ c main_v27 (by decide)).trans ((skip16 m ρ c main_v27 (by decide)).trans ((skip15 m ρ c main_v27 (by decide)).trans ((skip14 m ρ c main_v27 (by decide)).trans ((skip13 m ρ c main_v27 (by decide)).trans ((skip12 m ρ c main_v27 (by decide)).trans ((skip11 m ρ c main_v27 (by decide)).trans ((skip10 m ρ c main_v27 (by decide)).trans ((skip9 m ρ c main_v27 (by decide)).trans ((skip8 m ρ c main_v27 (by decide)).trans ((skip7 m ρ c main_v27 (by decide)).trans ((skip6 m ρ c main_v27 (by decide)).trans ((skip5 m ρ c main_v27 (by decide)).trans ((skip4 m ρ c main_v27 (by decide)))))))))))))))

theorem tap2_kept (c : Dev nD) :
    W18 (F := Ideal) m ρ c (Proc.devRef .tc main_v41) = W6 (F := Ideal) m ρ c (Proc.devRef .tc main_v41) :=
  (skip17 m ρ c main_v41 (by decide)).trans ((skip16 m ρ c main_v41 (by decide)).trans ((skip15 m ρ c main_v41 (by decide)).trans ((skip14 m ρ c main_v41 (by decide)).trans ((skip13 m ρ c main_v41 (by decide)).trans ((skip12 m ρ c main_v41 (by decide)).trans ((skip11 m ρ c main_v41 (by decide)).trans ((skip10 m ρ c main_v41 (by decide)).trans ((skip9 m ρ c main_v41 (by decide)).trans ((skip8 m ρ c main_v41 (by decide)).trans ((skip7 m ρ c main_v41 (by decide)).trans ((skip6 m ρ c main_v41 (by decide)))))))))))))

theorem tap3_kept (c : Dev nD) :
    W18 (F := Ideal) m ρ c (Proc.devRef .tc main_v55) = W8 (F := Ideal) m ρ c (Proc.devRef .tc main_v55) :=
  (skip17 m ρ c main_v55 (by decide)).trans ((skip16 m ρ c main_v55 (by decide)).trans ((skip15 m ρ c main_v55 (by decide)).trans ((skip14 m ρ c main_v55 (by decide)).trans ((skip13 m ρ c main_v55 (by decide)).trans ((skip12 m ρ c main_v55 (by decide)).trans ((skip11 m ρ c main_v55 (by decide)).trans ((skip10 m ρ c main_v55 (by decide)).trans ((skip9 m ρ c main_v55 (by decide)).trans ((skip8 m ρ c main_v55 (by decide)))))))))))

theorem tap4_kept (c : Dev nD) :
    W18 (F := Ideal) m ρ c (Proc.devRef .tc main_v69) = W10 (F := Ideal) m ρ c (Proc.devRef .tc main_v69) :=
  (skip17 m ρ c main_v69 (by decide)).trans ((skip16 m ρ c main_v69 (by decide)).trans ((skip15 m ρ c main_v69 (by decide)).trans ((skip14 m ρ c main_v69 (by decide)).trans ((skip13 m ρ c main_v69 (by decide)).trans ((skip12 m ρ c main_v69 (by decide)).trans ((skip11 m ρ c main_v69 (by decide)).trans ((skip10 m ρ c main_v69 (by decide)))))))))

theorem tap5_kept (c : Dev nD) :
    W18 (F := Ideal) m ρ c (Proc.devRef .tc main_v83) = W12 (F := Ideal) m ρ c (Proc.devRef .tc main_v83) :=
  (skip17 m ρ c main_v83 (by decide)).trans ((skip16 m ρ c main_v83 (by decide)).trans ((skip15 m ρ c main_v83 (by decide)).trans ((skip14 m ρ c main_v83 (by decide)).trans ((skip13 m ρ c main_v83 (by decide)).trans ((skip12 m ρ c main_v83 (by decide)))))))

theorem tap6_kept (c : Dev nD) :
    W18 (F := Ideal) m ρ c (Proc.devRef .tc main_v97) = W14 (F := Ideal) m ρ c (Proc.devRef .tc main_v97) :=
  (skip17 m ρ c main_v97 (by decide)).trans ((skip16 m ρ c main_v97 (by decide)).trans ((skip15 m ρ c main_v97 (by decide)).trans ((skip14 m ρ c main_v97 (by decide)))))

theorem tap7_kept (c : Dev nD) :
    W18 (F := Ideal) m ρ c (Proc.devRef .tc main_v111) = W16 (F := Ideal) m ρ c (Proc.devRef .tc main_v111) :=
  (skip17 m ρ c main_v111 (by decide)).trans ((skip16 m ρ c main_v111 (by decide)))

theorem tap8_kept (c : Dev nD) :
    W18 (F := Ideal) m ρ c (Proc.devRef .tc main_v125) = W18 (F := Ideal) m ρ c (Proc.devRef .tc main_v125) :=
  rfl

end Cert.KTaps

end
-- ==== Proof.LibScatterGather.lean ====
/-
  A gather and an accumulating scatter along the leading axis, read at an index.

  `x[idx]` of an array `x` at an integer array `idx : [E]` lowers to a gather whose start indices are printed
  `[E, 1]` (the index vector on axis 1): of a flat array `[N]` the result's element `e` is `x` at the start index
  `idx[e, 0]` read signed and clamped into `[0, N − 1]`; of a matrix `[N, C]` the result's element `(e, f)` is
  `x` at that row and column `f`. The accumulating scatter with the same index array (a segment sum) adds update
  `e` (update `(e, f)` into column `f`) at the row `idx[e, 0]` read signed and NOT clamped: an update whose row
  is outside `[0, N)` is dropped. On the extended reals the scatter's value at a row is therefore the operand
  plus the sum of the updates whose index word is that row.
-/
import Idealize.ShloMosaic.PureOps.Ideal
import Idealize.ShloMosaic.Lib.ValueIdx

noncomputable section

open scoped BigOperators

namespace Cert.Lib.ScatterGather

open Idealize.ShloMosaic Idealize.ShloMosaic.ValueIdx

/-! ## The gathers -/

section Gather
variable {α : Type}

/-- The dimension numbers of `x[idx]` for a flat operand `[N]`, start indices `[E, 1]` and result `[E]`. -/
abbrev take1Dims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The flat gather read at `e`: the operand at the start index `idx[e, 0]`, read signed and clamped. -/
theorem gather_take1_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (take1Dims N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (take1Dims N E wf).start (ix1 e) idx 0 + (take1Dims N E wf).batchCoord (ix1 e) 0
    + (take1Dims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (take1Dims N E wf).startIndexMap from List.mem_singleton.mpr rfl)]
  have hsi : (take1Dims N E wf).siIdx (ix1 e) ⟨List.idxOf (0 : Fin 1) (take1Dims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The dimension numbers of `x[idx]` for a matrix operand `[N, C]`, start indices `[E, 1]` and result `[E, C]`. -/
abbrev rowsDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem rows_coord0 {N C E w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (f : Fin C) :
    (rowsDims N C E wf).start (ix2 e f) idx (0 : Fin 2) + (rowsDims N C E wf).batchCoord (ix2 e f) (0 : Fin 2)
      + (rowsDims N C E wf).offCoord (ix2 e f) (0 : Fin 2) = min (idx (ix2 e (0 : Fin 1))).toInt.toNat (N - 1) := by
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 2) ∈ (rowsDims N C E wf).startIndexMap from List.mem_singleton.mpr rfl)]
  have hsi : (rowsDims N C E wf).siIdx (ix2 e f) ⟨List.idxOf (0 : Fin 2) (rowsDims N C E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem rows_coord1 {N C E w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (f : Fin C) :
    (rowsDims N C E wf).start (ix2 e f) idx (1 : Fin 2) + (rowsDims N C E wf).batchCoord (ix2 e f) (1 : Fin 2)
      + (rowsDims N C E wf).offCoord (ix2 e f) (1 : Fin 2) = f.val := by
  rw [GatherDims.batchCoord_eq_zero _ _ _ List.not_mem_nil, Nat.add_zero]
  have hs : (rowsDims N C E wf).start (ix2 e f) idx (1 : Fin 2) = 0 := by
    unfold GatherDims.start
    rw [dif_neg (show (1 : Fin 2) ∉ [(0 : Fin 2)] by decide)]
  have ho : (rowsDims N C E wf).offCoord (ix2 e f) (1 : Fin 2) = f.val := by
    unfold GatherDims.offCoord
    rw [dif_pos ((GatherDims.mem_sKept _ _).2 ⟨(show (1 : Fin 2) ∉ [(0 : Fin 2)] by decide), List.not_mem_nil⟩)]
    rfl
  rw [hs, ho, Nat.zero_add]

/-- The row gather read at `(e, f)`: the operand at the row `idx[e, 0]`, read signed and clamped, and column `f`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowsDims N C E wf) x idx (ix2 e f)
      = x (ix2 ⟨min (idx (ix2 e (0 : Fin 1))).toInt.toNat (N - 1), by omega⟩ f) := by
  unfold Host.gather
  congr 1
  funext a
  refine Fin.ext ?_
  match a with
  | ⟨0, _⟩ => exact rows_coord0 wf idx e f
  | ⟨1, _⟩ => exact rows_coord1 wf idx e f

end Gather

/-! ## The accumulating scatters -/

section Scatter

/-- The dimension numbers of `x.at[idx].add(u)` for a flat operand `[N]`, scatter indices `[E, 1]`, updates `[E]`. -/
abbrev scat1Dims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem scat1_start {N E w : Nat} (wf : ScatterDims.WF ⟨1, ![N]⟩ ⟨2, ![E, 1]⟩ ⟨1, ![E]⟩ [] [0] [0] 1)
    (idx : IVec ⟨2, ![E, 1]⟩ w) (e : Fin E) :
    (scat1Dims N E wf).start (ix1 e) idx (0 : Fin 1) = (idx (ix2 e (0 : Fin 1))).toInt := by
  unfold ScatterDims.start
  rw [dif_pos (show (0 : Fin 1) ∈ (scat1Dims N E wf).scatterDimsToOperandDims from List.mem_singleton.mpr rfl)]
  have hsi : (scat1Dims N E wf).siIdx (ix1 e) ⟨List.idxOf (0 : Fin 1) (scat1Dims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scat1_window {N E : Nat} (wf : ScatterDims.WF ⟨1, ![N]⟩ ⟨2, ![E, 1]⟩ ⟨1, ![E]⟩ [] [0] [0] 1) (e : Fin E) :
    (scat1Dims N E wf).window (ix1 e) (0 : Fin 1) = 0 := by
  unfold ScatterDims.window
  rw [dif_neg (show (0 : Fin 1) ∉ (scat1Dims N E wf).sKept by simp [ScatterDims.sKept, Shape.kept])]

/-- Update `e` of the flat scatter lands on row `n` exactly when its index word, read signed, is `n`. -/
theorem scat1_resultIdx?_eq_some_iff {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (scat1Dims N E wf).resultIdx? (ix1 e) idx = some (ix1 n) ↔ (idx (ix2 e (0 : Fin 1))).toInt = (n.val : Int) := by
  unfold ScatterDims.resultIdx?
  constructor
  · intro h
    split at h
    · rename_i hr
      have h0 := congrFun (Option.some.inj h) (0 : Fin 1)
      have hv := congrArg Fin.val h0
      have hr0 := hr (0 : Fin 1)
      rw [scat1_start, scat1_window] at hr0
      simp only [scat1_start, scat1_window] at hv
      change ((idx (ix2 e (0 : Fin 1))).toInt + ((0 : Nat) : Int)).toNat = n.val at hv
      omega
    · exact absurd h (by simp)
  · intro hv
    have hr : ∀ a, 0 ≤ (scat1Dims N E wf).start (ix1 e) idx a + ((scat1Dims N E wf).window (ix1 e) a : Int)
        ∧ (scat1Dims N E wf).start (ix1 e) idx a + ((scat1Dims N E wf).window (ix1 e) a : Int) < ((⟨1, ![N]⟩ : Shape).size a : Int) := by
      intro a
      obtain rfl : a = 0 := Subsingleton.elim _ _
      rw [scat1_start, scat1_window, hv]
      have := n.isLt
      change (0 : Int) ≤ (n.val : Int) + ((0 : Nat) : Int) ∧ (n.val : Int) + ((0 : Nat) : Int) < (N : Int)
      omega
    rw [dif_pos hr]
    congr 1
    funext a
    obtain rfl : a = 0 := Subsingleton.elim _ _
    refine Fin.ext ?_
    show ((scat1Dims N E wf).start (ix1 e) idx 0 + ((scat1Dims N E wf).window (ix1 e) 0 : Int)).toNat = n.val
    rw [scat1_start, scat1_window, hv]
    omega

/-- The dimension numbers of `x.at[idx].add(u)` for a matrix operand `[N, C]`, scatter indices `[E, 1]`, updates `[E, C]`. -/
abbrev scatRowsDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

theorem scatRows_start0 {N C E w : Nat} (wf : ScatterDims.WF ⟨2, ![N, C]⟩ ⟨2, ![E, 1]⟩ ⟨2, ![E, C]⟩ [1] [0] [0] 1)
    (idx : IVec ⟨2, ![E, 1]⟩ w) (e : Fin E) (f : Fin C) :
    (scatRowsDims N C E wf).start (ix2 e f) idx (0 : Fin 2) = (idx (ix2 e (0 : Fin 1))).toInt := by
  unfold ScatterDims.start
  rw [dif_pos (show (0 : Fin 2) ∈ (scatRowsDims N C E wf).scatterDimsToOperandDims from List.mem_singleton.mpr rfl)]
  have hsi : (scatRowsDims N C E wf).siIdx (ix2 e f) ⟨List.idxOf (0 : Fin 2) (scatRowsDims N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scatRows_start1 {N C E w : Nat} (wf : ScatterDims.WF ⟨2, ![N, C]⟩ ⟨2, ![E, 1]⟩ ⟨2, ![E, C]⟩ [1] [0] [0] 1)
    (idx : IVec ⟨2, ![E, 1]⟩ w) (e : Fin E) (f : Fin C) :
    (scatRowsDims N C E wf).start (ix2 e f) idx (1 : Fin 2) = 0 := by
  unfold ScatterDims.start
  rw [dif_neg (show (1 : Fin 2) ∉ [(0 : Fin 2)] by decide)]

theorem scatRows_window0 {N C E : Nat} (wf : ScatterDims.WF ⟨2, ![N, C]⟩ ⟨2, ![E, 1]⟩ ⟨2, ![E, C]⟩ [1] [0] [0] 1)
    (e : Fin E) (f : Fin C) : (scatRowsDims N C E wf).window (ix2 e f) (0 : Fin 2) = 0 := by
  unfold ScatterDims.window
  rw [dif_neg (show (0 : Fin 2) ∉ (scatRowsDims N C E wf).sKept by simp [ScatterDims.sKept, Shape.kept])]

theorem scatRows_window1 {N C E : Nat} (wf : ScatterDims.WF ⟨2, ![N, C]⟩ ⟨2, ![E, 1]⟩ ⟨2, ![E, C]⟩ [1] [0] [0] 1)
    (e : Fin E) (f : Fin C) : (scatRowsDims N C E wf).window (ix2 e f) (1 : Fin 2) = f.val := by
  unfold ScatterDims.window
  rw [dif_pos (show (1 : Fin 2) ∈ (scatRowsDims N C E wf).sKept by simp [ScatterDims.sKept, Shape.kept])]
  rfl

/-- Update `(e, f)` of the row scatter lands on `(n, g)` exactly when its index word, read signed, is `n` and `f = g`. -/
theorem scatRows_resultIdx?_eq_some_iff {N C E w : Nat}
    (wf : ScatterDims.WF ⟨2, ![N, C]⟩ ⟨2, ![E, 1]⟩ ⟨2, ![E, C]⟩ [1] [0] [0] 1)
    (idx : IVec ⟨2, ![E, 1]⟩ w) (e : Fin E) (f : Fin C) (n : Fin N) (g : Fin C) :
    (scatRowsDims N C E wf).resultIdx? (ix2 e f) idx = some (ix2 n g)
      ↔ (idx (ix2 e (0 : Fin 1))).toInt = (n.val : Int) ∧ f = g := by
  unfold ScatterDims.resultIdx?
  constructor
  · intro h
    split at h
    · rename_i hr
      have hfun := Option.some.inj h
      have hv0 := congrArg Fin.val (congrFun hfun (0 : Fin 2))
      have hv1 := congrArg Fin.val (congrFun hfun (1 : Fin 2))
      have hr0 := hr (0 : Fin 2)
      rw [scatRows_start0, scatRows_window0] at hr0
      simp only [scatRows_start0, scatRows_window0] at hv0
      simp only [scatRows_start1, scatRows_window1] at hv1
      change ((idx (ix2 e (0 : Fin 1))).toInt + ((0 : Nat) : Int)).toNat = n.val at hv0
      change ((0 : Int) + ((f.val : Nat) : Int)).toNat = g.val at hv1
      refine ⟨by omega, Fin.ext (by omega)⟩
    · exact absurd h (by simp)
  · rintro ⟨hv, rfl⟩
    have hr : ∀ a, 0 ≤ (scatRowsDims N C E wf).start (ix2 e f) idx a + ((scatRowsDims N C E wf).window (ix2 e f) a : Int)
        ∧ (scatRowsDims N C E wf).start (ix2 e f) idx a + ((scatRowsDims N C E wf).window (ix2 e f) a : Int)
            < ((⟨2, ![N, C]⟩ : Shape).size a : Int) := by
      intro a
      match a with
      | ⟨0, _⟩ =>
        have := n.isLt
        change 0 ≤ (scatRowsDims N C E wf).start (ix2 e f) idx (0 : Fin 2) + ((scatRowsDims N C E wf).window (ix2 e f) (0 : Fin 2) : Int)
          ∧ (scatRowsDims N C E wf).start (ix2 e f) idx (0 : Fin 2) + ((scatRowsDims N C E wf).window (ix2 e f) (0 : Fin 2) : Int) < (N : Int)
        rw [scatRows_start0, scatRows_window0, hv]
        omega
      | ⟨1, _⟩ =>
        have := f.isLt
        change 0 ≤ (scatRowsDims N C E wf).start (ix2 e f) idx (1 : Fin 2) + ((scatRowsDims N C E wf).window (ix2 e f) (1 : Fin 2) : Int)
          ∧ (scatRowsDims N C E wf).start (ix2 e f) idx (1 : Fin 2) + ((scatRowsDims N C E wf).window (ix2 e f) (1 : Fin 2) : Int) < (C : Int)
        rw [scatRows_start1, scatRows_window1]
        omega
    rw [dif_pos hr]
    congr 1
    funext a
    refine Fin.ext ?_
    match a with
    | ⟨0, _⟩ =>
      show ((scatRowsDims N C E wf).start (ix2 e f) idx (0 : Fin 2) + ((scatRowsDims N C E wf).window (ix2 e f) (0 : Fin 2) : Int)).toNat = n.val
      rw [scatRows_start0, scatRows_window0, hv]
      omega
    | ⟨1, _⟩ =>
      show ((scatRowsDims N C E wf).start (ix2 e f) idx (1 : Fin 2) + ((scatRowsDims N C E wf).window (ix2 e f) (1 : Fin 2) : Int)).toNat = f.val
      rw [scatRows_start1, scatRows_window1]
      omega

/-! ## The scatters' values on the extended reals -/

/-- A flat index is its one coordinate. -/
def idxEquiv1 {n : Nat} : (⟨1, ![n]⟩ : Shape).Idx ≃ Fin n where
  toFun j := j 0
  invFun := ix1
  left_inv j := (eq_ix1 j).symm
  right_inv _ := rfl

theorem sum_idx1 {M : Type*} [AddCommMonoid M] {n : Nat} (f : (⟨1, ![n]⟩ : Shape).Idx → M) :
    ∑ j, f j = ∑ a : Fin n, f (ix1 a) :=
  (Equiv.sum_comp (idxEquiv1 (n := n)).symm f).symm

/-- The flat accumulating scatter at row `n`: the operand plus the updates whose index word is `n`. -/
theorem scatterAdd1_apply {N E w : Nat} {φ : FTy} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (scat1Dims N E wf) x idx upd (ix1 n)
      = x (ix1 n) + ∑ e ∈ Finset.univ.filter (fun e : Fin E => (idx (ix2 e (0 : Fin 1))).toInt = (n.val : Int)), upd (ix1 e) := by
  show Ideal.hostScatterAdd (scat1Dims N E wf) x idx upd (ix1 n) = _
  unfold Ideal.hostScatterAdd
  congr 1
  rw [Finset.sum_filter, Finset.sum_filter, sum_idx1]
  exact Finset.sum_congr rfl fun e _ => if_congr (scat1_resultIdx?_eq_some_iff wf idx e n) rfl rfl

/-- The row accumulating scatter at `(n, g)`: the operand plus column `g` of the updates whose index word is `n`. -/
theorem scatterAddRows_apply {N C E w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (g : Fin C) :
    Host.scatterAdd (scatRowsDims N C E wf) x idx upd (ix2 n g)
      = x (ix2 n g) + ∑ e ∈ Finset.univ.filter (fun e : Fin E => (idx (ix2 e (0 : Fin 1))).toInt = (n.val : Int)), upd (ix2 e g) := by
  show Ideal.hostScatterAdd (scatRowsDims N C E wf) x idx upd (ix2 n g) = _
  unfold Ideal.hostScatterAdd
  congr 1
  rw [Finset.sum_filter, Finset.sum_filter, sum_idx2]
  refine Finset.sum_congr rfl fun e _ => ?_
  have h : ∀ f : Fin C, (if (scatRowsDims N C E wf).resultIdx? (ix2 e f) idx = some (ix2 n g) then upd (ix2 e f) else 0)
      = if f = g then (if (idx (ix2 e (0 : Fin 1))).toInt = (n.val : Int) then upd (ix2 e f) else 0) else 0 := by
    intro f
    rw [if_congr (scatRows_resultIdx?_eq_some_iff wf idx e f n g) rfl rfl]
    by_cases hf : f = g
    · rw [if_pos hf]; exact if_congr (and_iff_left hf) rfl rfl
    · rw [if_neg hf, if_neg (fun h => hf h.2)]
  rw [Finset.sum_congr rfl fun f _ => h f, Finset.sum_ite_eq' Finset.univ g]
  rw [if_pos (Finset.mem_univ g)]

end Scatter

end Cert.Lib.ScatterGather

end
-- ==== Proof.KTapsRead.lean ====
/-
  One tap's masked gathered array, read at an entry.

  A tap takes row k of the index words [9, N] and of the mask bits [9, N], each as a flat array of N entries
  (a slice of one row, then the reshape [1, N] → [N], which keeps the row-major position). The index word has the
  row count added when it is negative; the words, as a column [N, 1], are the start indices of a row gather from
  the feature table [N, 32]: entry (i, f) of the gathered array is the table at the row named by word i, read
  signed and clamped into the table, and column f. The mask bits, as a column [N, 1] spread over the 32 columns,
  select between the gathered entry and the zero word. Read at (i, f), this is the masked gathered entry of the
  specification, masked by selection.

  The chain is stated over variable arrays and over the slice's offsets; the row number enters through the two
  equations "the offset on the tap axis is k" and "the offset on the row axis is 0".
-/
import proofs.«180816_j45861660786969_2_alg».proof.Proof.Gen.KernelIdeal
import proofs.«180816_j45861660786969_2_alg».proof.Proof.Spec
import proofs.«180816_j45861660786969_2_alg».proof.Proof.LibScatterGather
import Idealize.ShloMosaic.Lib.Pipeline.Value
import Idealize.ShloMosaic.Lib.ValueIdx
import Idealize.ShloMosaic.Lib.IdealHost

noncomputable section

namespace Cert.KTaps

open Idealize.ShloMosaic Idealize.ShloMosaic.ValueIdx
open Cert.KernelIdeal Cert.KernelIdeal.Gen

section Chain
variable {α : Type} (off : Fin 2 → Nat) (h : S9x1000000.Slices off S1x1000000)

/-- The row of a [9, N] array the slice at offsets `off` takes, as a flat array of N entries. -/
def rowOf (x : S9x1000000.Idx → α) : S1000000.Idx → α :=
  shapeCast S1000000 (extractStridedSlice S1x1000000 off x h) shapeCasts_S1x1000000_S1000000

/-- Entry i of that flat array is the array at (k, i), when the offsets are (k, 0). -/
theorem rowOf_apply (x : S9x1000000.Idx → α) (k : Fin 9) (h0 : off 0 = k.val) (h1 : off 1 = 0) (i : Fin 1000000) :
    rowOf off h x (ix1 i) = x (ix2 k i) := by
  unfold rowOf
  refine (shapeCast_apply _ shapeCasts_S1x1000000_S1000000 (ix1 i) (ix2 (0 : Fin 1) i) ?_).trans ?_
  · rw [Shape.rowMajor_val_two, Shape.rowMajor_val_one]
    show 0 * 1000000 + i.val = i.val
    omega
  · exact extractStridedSlice_apply off x h (ix2 (0 : Fin 1) i) (ix2 k i) (fun a => match a with
      | ⟨0, _⟩ => by show k.val = off 0 + 0; omega
      | ⟨1, _⟩ => by show i.val = off 1 + i.val; omega)

/-- A flat array of N entries as a column [N, 1], read at (i, 0). -/
theorem column_apply (y : S1000000.Idx → α) (i : Fin 1000000) :
    broadcastInDim S1000000x1 ![0] bcast_S1000000_S1000000x1_0 y (ix2 i (0 : Fin 1)) = y (ix1 i) :=
  broadcastInDim_apply _ bcast_S1000000_S1000000x1_0 y (ix2 i (0 : Fin 1)) (ix1 i) (fun a => match a with
    | ⟨0, _⟩ => by show i.val = if (1000000 : Nat) = 1 then 0 else i.val; rw [if_neg (by decide)])

/-- A column [N, 1] spread over 32 columns, read at (i, f). -/
theorem spread_apply (y : S1000000x1.Idx → α) (i : Fin 1000000) (f : Fin 32) :
    broadcastInDim S1000000x32 ![0, 1] bcast_S1000000x1_S1000000x32_0_1 y (ix2 i f) = y (ix2 i (0 : Fin 1)) :=
  broadcastInDim_apply _ bcast_S1000000x1_S1000000x32_0_1 y (ix2 i f) (ix2 i (0 : Fin 1)) (fun a => match a with
    | ⟨0, _⟩ => by show i.val = if (1000000 : Nat) = 1 then 0 else i.val; rw [if_neg (by decide)]
    | ⟨1, _⟩ => by show 0 = if (1 : Nat) = 1 then 0 else f.val; rw [if_pos rfl])

variable (x0 : S1000000x32.Idx → EReal) (x4 : IVec S9x1000000 32) (x5 : IVec S9x1000000 1)

/-- The tap's index words, each with the row count added when it is negative. -/
def wordVec : IVec S1000000 32 :=
  select (cmpi .slt (rowOf off h x4) (broadcastInDim S1000000 ![] bcast_S_S1000000 (constantI S_ 32 0#32)))
    (addi (rowOf off h x4) (broadcastInDim S1000000 ![] bcast_S_S1000000 (constantI S_ 32 1000000#32)))
    (rowOf off h x4)

theorem wordVec_apply (k : Fin 9) (h0 : off 0 = k.val) (h1 : off 1 = 0) (i : Fin 1000000) :
    wordVec off h x4 (ix1 i) = Cert.Spec.word x4 k i := by
  show Scalar.select
      (IntOp.cmpi .slt (rowOf off h x4 (ix1 i)) (broadcastInDim S1000000 ![] bcast_S_S1000000 (constantI S_ 32 0#32) (ix1 i)))
      (IntOp.addi (rowOf off h x4 (ix1 i)) (broadcastInDim S1000000 ![] bcast_S_S1000000 (constantI S_ 32 1000000#32) (ix1 i)))
      (rowOf off h x4 (ix1 i)) = _
  rw [rowOf_apply off h x4 k h0 h1 i, broadcastInDim_scalar_apply, broadcastInDim_scalar_apply]
  rfl

/-- The tap's masked gathered array. -/
def tapTerm : S1000000x32.Idx → EReal :=
  select
    (broadcastInDim S1000000x32 ![0, 1] bcast_S1000000x1_S1000000x32_0_1
      (broadcastInDim S1000000x1 ![0] bcast_S1000000_S1000000x1_0 (rowOf off h x5)))
    (Host.gather gather_S1000000x32_S1000000x1_S1000000x32_1_0_n_n_0_1_132 x0
      (broadcastInDim S1000000x1 ![0] bcast_S1000000_S1000000x1_0 (wordVec off h x4)))
    (broadcastInDim S1000000x32 ![] bcast_S_S1000000x32 (constant (F := Ideal) S_ .f32 0x00000000#32))

/-- The feature table at a row given by a word read signed and clamped depends on the word only. -/
theorem table_congr (a b : BitVec 32) (e : a = b) (f : Fin 32)
    (pa : min a.toInt.toNat (1000000 - 1) < 1000000) (pb : min b.toInt.toNat (1000000 - 1) < 1000000) :
    x0 (ix2 (⟨min a.toInt.toNat (1000000 - 1), pa⟩ : Fin 1000000) f)
      = x0 (ix2 (⟨min b.toInt.toNat (1000000 - 1), pb⟩ : Fin 1000000) f) := by
  subst e; rfl

/-- The tap's array at (i, f) is the specification's masked gathered entry. -/
theorem tapTerm_apply (k : Fin 9) (h0 : off 0 = k.val) (h1 : off 1 = 0) (i : Fin 1000000) (f : Fin 32) :
    tapTerm off h x0 x4 x5 (ix2 i f) = Cert.Spec.tapSel x0 x4 x5 k i f := by
  have hm : broadcastInDim S1000000x32 ![0, 1] bcast_S1000000x1_S1000000x32_0_1
      (broadcastInDim S1000000x1 ![0] bcast_S1000000_S1000000x1_0 (rowOf off h x5)) (ix2 i f) = x5 (ix2 k i) := by
    rw [spread_apply, column_apply, rowOf_apply off h x5 k h0 h1 i]
  have hw : broadcastInDim S1000000x1 ![0] bcast_S1000000_S1000000x1_0 (wordVec off h x4) (ix2 i (0 : Fin 1))
      = Cert.Spec.word x4 k i := by
    rw [column_apply, wordVec_apply off h x4 k h0 h1 i]
  have hg : Host.gather gather_S1000000x32_S1000000x1_S1000000x32_1_0_n_n_0_1_132 x0
      (broadcastInDim S1000000x1 ![0] bcast_S1000000_S1000000x1_0 (wordVec off h x4)) (ix2 i f)
      = x0 (ix2 (Cert.Spec.row x4 k i) f) := by
    have e : gather_S1000000x32_S1000000x1_S1000000x32_1_0_n_n_0_1_132
        = Cert.Lib.ScatterGather.rowsDims 1000000 32 1000000 gather_S1000000x32_S1000000x1_S1000000x32_1_0_n_n_0_1_132_wf := rfl
    rw [e, Cert.Lib.ScatterGather.gather_rows_apply (by decide)]
    exact table_congr x0 _ _ hw f _ _
  show Scalar.select
      (broadcastInDim S1000000x32 ![0, 1] bcast_S1000000x1_S1000000x32_0_1
        (broadcastInDim S1000000x1 ![0] bcast_S1000000_S1000000x1_0 (rowOf off h x5)) (ix2 i f))
      (Host.gather gather_S1000000x32_S1000000x1_S1000000x32_1_0_n_n_0_1_132 x0
        (broadcastInDim S1000000x1 ![0] bcast_S1000000_S1000000x1_0 (wordVec off h x4)) (ix2 i f))
      (broadcastInDim S1000000x32 ![] bcast_S_S1000000x32 (constant (F := Ideal) S_ .f32 0x00000000#32) (ix2 i f))
    = Scalar.select (x5 (ix2 k i)) (x0 (ix2 (Cert.Spec.row x4 k i) f)) Cert.Spec.Z
  rw [hm, hg, broadcastInDim_scalar_apply]
  rfl

end Chain

end Cert.KTaps

end
-- ==== Proof.KTapsAfter.lean ====
/-
  Each tap's two stretches as one array expression.

  From any contents of the buffers, the stretch that gathers for tap k followed by the stretch that selects leaves,
  in the tap's buffer, the masked gathered array of the feature table, the index words and the mask bits found in
  the three argument buffers: the slice of row k of the words and of the bits, the reshape to a flat array, the
  wrap of negative words, the column of start indices, the row gather, the mask column spread over the features,
  the zeros, the selection.
-/
import proofs.«180816_j45861660786969_2_alg».proof.Proof.Gen.KernelIdeal.Frame
import proofs.«180816_j45861660786969_2_alg».proof.Proof.KTapsRead

noncomputable section

namespace Cert.KTaps

open Idealize.ShloMosaic Idealize.ShloMosaic.ValueIdx Idealize.ShloMosaic.TcCoe Idealize.SL.Sem
open Cert.KernelIdeal Cert.KernelIdeal.Gen

theorem tap0_after (V0 : Valuation τ sig (Elt Ideal))
    (x0 : S1000000x32.Idx → EReal) (x4 : IVec S9x1000000 32) (x5 : IVec S9x1000000 1)
    (e0 : V0 (Proc.devRef .tc main_arg0) = x0) (e4 : V0 (Proc.devRef .tc main_arg4) = x4)
    (e5 : V0 (Proc.devRef .tc main_arg5) = x5) :
    StableHlo.after hostOps0_1 (StableHlo.after hostOps0 V0) (Proc.devRef .tc main_v13)
      = tapTerm ![0, 0] slices_S9x1000000_S1x1000000_0_0 x0 x4 x5 := by
  subst e0 e4 e5
  after_results_simp
  rfl

theorem tap1_after (V0 : Valuation τ sig (Elt Ideal))
    (x0 : S1000000x32.Idx → EReal) (x4 : IVec S9x1000000 32) (x5 : IVec S9x1000000 1)
    (e0 : V0 (Proc.devRef .tc main_arg0) = x0) (e4 : V0 (Proc.devRef .tc main_arg4) = x4)
    (e5 : V0 (Proc.devRef .tc main_arg5) = x5) :
    StableHlo.after hostOps0_3 (StableHlo.after hostOps0_2 V0) (Proc.devRef .tc main_v27)
      = tapTerm ![1, 0] slices_S9x1000000_S1x1000000_1_0 x0 x4 x5 := by
  subst e0 e4 e5
  after_results_simp
  rfl

theorem tap2_after (V0 : Valuation τ sig (Elt Ideal))
    (x0 : S1000000x32.Idx → EReal) (x4 : IVec S9x1000000 32) (x5 : IVec S9x1000000 1)
    (e0 : V0 (Proc.devRef .tc main_arg0) = x0) (e4 : V0 (Proc.devRef .tc main_arg4) = x4)
    (e5 : V0 (Proc.devRef .tc main_arg5) = x5) :
    StableHlo.after hostOps0_5 (StableHlo.after hostOps0_4 V0) (Proc.devRef .tc main_v41)
      = tapTerm ![2, 0] slices_S9x1000000_S1x1000000_2_0 x0 x4 x5 := by
  subst e0 e4 e5
  after_results_simp
  rfl

theorem tap3_after (V0 : Valuation τ sig (Elt Ideal))
    (x0 : S1000000x32.Idx → EReal) (x4 : IVec S9x1000000 32) (x5 : IVec S9x1000000 1)
    (e0 : V0 (Proc.devRef .tc main_arg0) = x0) (e4 : V0 (Proc.devRef .tc main_arg4) = x4)
    (e5 : V0 (Proc.devRef .tc main_arg5) = x5) :
    StableHlo.after hostOps0_7 (StableHlo.after hostOps0_6 V0) (Proc.devRef .tc main_v55)
      = tapTerm ![3, 0] slices_S9x1000000_S1x1000000_3_0 x0 x4 x5 := by
  subst e0 e4 e5
  after_results_simp
  rfl

theorem tap4_after (V0 : Valuation τ sig (Elt Ideal))
    (x0 : S1000000x32.Idx → EReal) (x4 : IVec S9x1000000 32) (x5 : IVec S9x1000000 1)
    (e0 : V0 (Proc.devRef .tc main_arg0) = x0) (e4 : V0 (Proc.devRef .tc main_arg4) = x4)
    (e5 : V0 (Proc.devRef .tc main_arg5) = x5) :
    StableHlo.after hostOps0_9 (StableHlo.after hostOps0_8 V0) (Proc.devRef .tc main_v69)
      = tapTerm ![4, 0] slices_S9x1000000_S1x1000000_4_0 x0 x4 x5 := by
  subst e0 e4 e5
  after_results_simp
  rfl

theorem tap5_after (V0 : Valuation τ sig (Elt Ideal))
    (x0 : S1000000x32.Idx → EReal) (x4 : IVec S9x1000000 32) (x5 : IVec S9x1000000 1)
    (e0 : V0 (Proc.devRef .tc main_arg0) = x0) (e4 : V0 (Proc.devRef .tc main_arg4) = x4)
    (e5 : V0 (Proc.devRef .tc main_arg5) = x5) :
    StableHlo.after hostOps0_11 (StableHlo.after hostOps0_10 V0) (Proc.devRef .tc main_v83)
      = tapTerm ![5, 0] slices_S9x1000000_S1x1000000_5_0 x0 x4 x5 := by
  subst e0 e4 e5
  after_results_simp
  rfl

theorem tap6_after (V0 : Valuation τ sig (Elt Ideal))
    (x0 : S1000000x32.Idx → EReal) (x4 : IVec S9x1000000 32) (x5 : IVec S9x1000000 1)
    (e0 : V0 (Proc.devRef .tc main_arg0) = x0) (e4 : V0 (Proc.devRef .tc main_arg4) = x4)
    (e5 : V0 (Proc.devRef .tc main_arg5) = x5) :
    StableHlo.after hostOps0_13 (StableHlo.after hostOps0_12 V0) (Proc.devRef .tc main_v97)
      = tapTerm ![6, 0] slices_S9x1000000_S1x1000000_6_0 x0 x4 x5 := by
  subst e0 e4 e5
  after_results_simp
  rfl

theorem tap7_after (V0 : Valuation τ sig (Elt Ideal))
    (x0 : S1000000x32.Idx → EReal) (x4 : IVec S9x1000000 32) (x5 : IVec S9x1000000 1)
    (e0 : V0 (Proc.devRef .tc main_arg0) = x0) (e4 : V0 (Proc.devRef .tc main_arg4) = x4)
    (e5 : V0 (Proc.devRef .tc main_arg5) = x5) :
    StableHlo.after hostOps0_15 (StableHlo.after hostOps0_14 V0) (Proc.devRef .tc main_v111)
      = tapTerm ![7, 0] slices_S9x1000000_S1x1000000_7_0 x0 x4 x5 := by
  subst e0 e4 e5
  after_results_simp
  rfl

theorem tap8_after (V0 : Valuation τ sig (Elt Ideal))
    (x0 : S1000000x32.Idx → EReal) (x4 : IVec S9x1000000 32) (x5 : IVec S9x1000000 1)
    (e0 : V0 (Proc.devRef .tc main_arg0) = x0) (e4 : V0 (Proc.devRef .tc main_arg4) = x4)
    (e5 : V0 (Proc.devRef .tc main_arg5) = x5) :
    StableHlo.after hostOps0_17 (StableHlo.after hostOps0_16 V0) (Proc.devRef .tc main_v125)
      = tapTerm ![8, 0] slices_S9x1000000_S1x1000000_8_0 x0 x4 x5 := by
  subst e0 e4 e5
  after_results_simp
  rfl

end Cert.KTaps

end
-- ==== Proof.KTaps.lean ====
/-
  The nine masked gathered arrays as the first kernel finds them.

  Tap k's buffer at the kernel's entry holds what the tap's own two stretches of host operations left there — no
  later stretch writes it —, and those two stretches read the feature table, the index words and the mask bits from
  argument buffers that no stretch writes, so from the launch contents. Read at (i, f) the buffer is the
  specification's entry of tap k masked by selection.
-/
import proofs.«180816_j45861660786969_2_alg».proof.Proof.KTapsKeep
import proofs.«180816_j45861660786969_2_alg».proof.Proof.KTapsAfter
import proofs.«180816_j45861660786969_2_alg».proof.Proof.Spec

noncomputable section

namespace Cert.KTaps

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ) (ρ : Dev nD → PrngReg)

/-- Tap 0's buffer at the kernel's entry, as an array expression over the launch contents. -/
theorem tap0_array (c : Dev nD) :
    (V18 (F := Ideal) m ρ c main_v13 : S1000000x32.Idx → EReal)
      = tapTerm ![0, 0] slices_S9x1000000_S1x1000000_0_0 (m ((c.tc : Thread nD τ).loc main_arg0))
          (m ((c.tc : Thread nD τ).loc main_arg4)) (m ((c.tc : Thread nD τ).loc main_arg5)) :=
  (tap0_kept m ρ c).trans
    (tap0_after (W0 (F := Ideal) m ρ c) _ _ _ (arg0_at0 m ρ c) (arg4_at0 m ρ c) (arg5_at0 m ρ c))

theorem tap0_entry (c : Dev nD) (i : Fin 1000000) (f : Fin 32) :
    (V18 (F := Ideal) m ρ c main_v13 : S1000000x32.Idx → EReal) (ix2 i f)
      = Cert.Spec.tapSel (m ((c.tc : Thread nD τ).loc main_arg0)) (m ((c.tc : Thread nD τ).loc main_arg4))
          (m ((c.tc : Thread nD τ).loc main_arg5)) 0 i f :=
  (congrFun (tap0_array m ρ c) (ix2 i f)).trans
    (tapTerm_apply ![0, 0] slices_S9x1000000_S1x1000000_0_0 _ _ _ 0 rfl rfl i f)

/-- Tap 1's buffer at the kernel's entry, as an array expression over the launch contents. -/
theorem tap1_array (c : Dev nD) :
    (V18 (F := Ideal) m ρ c main_v27 : S1000000x32.Idx → EReal)
      = tapTerm ![1, 0] slices_S9x1000000_S1x1000000_1_0 (m ((c.tc : Thread nD τ).loc main_arg0))
          (m ((c.tc : Thread nD τ).loc main_arg4)) (m ((c.tc : Thread nD τ).loc main_arg5)) :=
  (tap1_kept m ρ c).trans
    (tap1_after (W2 (F := Ideal) m ρ c) _ _ _ (arg0_at2 m ρ c) (arg4_at2 m ρ c) (arg5_at2 m ρ c))

theorem tap1_entry (c : Dev nD) (i : Fin 1000000) (f : Fin 32) :
    (V18 (F := Ideal) m ρ c main_v27 : S1000000x32.Idx → EReal) (ix2 i f)
      = Cert.Spec.tapSel (m ((c.tc : Thread nD τ).loc main_arg0)) (m ((c.tc : Thread nD τ).loc main_arg4))
          (m ((c.tc : Thread nD τ).loc main_arg5)) 1 i f :=
  (congrFun (tap1_array m ρ c) (ix2 i f)).trans
    (tapTerm_apply ![1, 0] slices_S9x1000000_S1x1000000_1_0 _ _ _ 1 rfl rfl i f)

/-- Tap 2's buffer at the kernel's entry, as an array expression over the launch contents. -/
theorem tap2_array (c : Dev nD) :
    (V18 (F := Ideal) m ρ c main_v41 : S1000000x32.Idx → EReal)
      = tapTerm ![2, 0] slices_S9x1000000_S1x1000000_2_0 (m ((c.tc : Thread nD τ).loc main_arg0))
          (m ((c.tc : Thread nD τ).loc main_arg4)) (m ((c.tc : Thread nD τ).loc main_arg5)) :=
  (tap2_kept m ρ c).trans
    (tap2_after (W4 (F := Ideal) m ρ c) _ _ _ (arg0_at4 m ρ c) (arg4_at4 m ρ c) (arg5_at4 m ρ c))

theorem tap2_entry (c : Dev nD) (i : Fin 1000000) (f : Fin 32) :
    (V18 (F := Ideal) m ρ c main_v41 : S1000000x32.Idx → EReal) (ix2 i f)
      = Cert.Spec.tapSel (m ((c.tc : Thread nD τ).loc main_arg0)) (m ((c.tc : Thread nD τ).loc main_arg4))
          (m ((c.tc : Thread nD τ).loc main_arg5)) 2 i f :=
  (congrFun (tap2_array m ρ c) (ix2 i f)).trans
    (tapTerm_apply ![2, 0] slices_S9x1000000_S1x1000000_2_0 _ _ _ 2 rfl rfl i f)

/-- Tap 3's buffer at the kernel's entry, as an array expression over the launch contents. -/
theorem tap3_array (c : Dev nD) :
    (V18 (F := Ideal) m ρ c main_v55 : S1000000x32.Idx → EReal)
      = tapTerm ![3, 0] slices_S9x1000000_S1x1000000_3_0 (m ((c.tc : Thread nD τ).loc main_arg0))
          (m ((c.tc : Thread nD τ).loc main_arg4)) (m ((c.tc : Thread nD τ).loc main_arg5)) :=
  (tap3_kept m ρ c).trans
    (tap3_after (W6 (F := Ideal) m ρ c) _ _ _ (arg0_at6 m ρ c) (arg4_at6 m ρ c) (arg5_at6 m ρ c))

theorem tap3_entry (c : Dev nD) (i : Fin 1000000) (f : Fin 32) :
    (V18 (F := Ideal) m ρ c main_v55 : S1000000x32.Idx → EReal) (ix2 i f)
      = Cert.Spec.tapSel (m ((c.tc : Thread nD τ).loc main_arg0)) (m ((c.tc : Thread nD τ).loc main_arg4))
          (m ((c.tc : Thread nD τ).loc main_arg5)) 3 i f :=
  (congrFun (tap3_array m ρ c) (ix2 i f)).trans
    (tapTerm_apply ![3, 0] slices_S9x1000000_S1x1000000_3_0 _ _ _ 3 rfl rfl i f)

/-- Tap 4's buffer at the kernel's entry, as an array expression over the launch contents. -/
theorem tap4_array (c : Dev nD) :
    (V18 (F := Ideal) m ρ c main_v69 : S1000000x32.Idx → EReal)
      = tapTerm ![4, 0] slices_S9x1000000_S1x1000000_4_0 (m ((c.tc : Thread nD τ).loc main_arg0))
          (m ((c.tc : Thread nD τ).loc main_arg4)) (m ((c.tc : Thread nD τ).loc main_arg5)) :=
  (tap4_kept m ρ c).trans
    (tap4_after (W8 (F := Ideal) m ρ c) _ _ _ (arg0_at8 m ρ c) (arg4_at8 m ρ c) (arg5_at8 m ρ c))

theorem tap4_entry (c : Dev nD) (i : Fin 1000000) (f : Fin 32) :
    (V18 (F := Ideal) m ρ c main_v69 : S1000000x32.Idx → EReal) (ix2 i f)
      = Cert.Spec.tapSel (m ((c.tc : Thread nD τ).loc main_arg0)) (m ((c.tc : Thread nD τ).loc main_arg4))
          (m ((c.tc : Thread nD τ).loc main_arg5)) 4 i f :=
  (congrFun (tap4_array m ρ c) (ix2 i f)).trans
    (tapTerm_apply ![4, 0] slices_S9x1000000_S1x1000000_4_0 _ _ _ 4 rfl rfl i f)

/-- Tap 5's buffer at the kernel's entry, as an array expression over the launch contents. -/
theorem tap5_array (c : Dev nD) :
    (V18 (F := Ideal) m ρ c main_v83 : S1000000x32.Idx → EReal)
      = tapTerm ![5, 0] slices_S9x1000000_S1x1000000_5_0 (m ((c.tc : Thread nD τ).loc main_arg0))
          (m ((c.tc : Thread nD τ).loc main_arg4)) (m ((c.tc : Thread nD τ).loc main_arg5)) :=
  (tap5_kept m ρ c).trans
    (tap5_after (W10 (F := Ideal) m ρ c) _ _ _ (arg0_at10 m ρ c) (arg4_at10 m ρ c) (arg5_at10 m ρ c))

theorem tap5_entry (c : Dev nD) (i : Fin 1000000) (f : Fin 32) :
    (V18 (F := Ideal) m ρ c main_v83 : S1000000x32.Idx → EReal) (ix2 i f)
      = Cert.Spec.tapSel (m ((c.tc : Thread nD τ).loc main_arg0)) (m ((c.tc : Thread nD τ).loc main_arg4))
          (m ((c.tc : Thread nD τ).loc main_arg5)) 5 i f :=
  (congrFun (tap5_array m ρ c) (ix2 i f)).trans
    (tapTerm_apply ![5, 0] slices_S9x1000000_S1x1000000_5_0 _ _ _ 5 rfl rfl i f)

/-- Tap 6's buffer at the kernel's entry, as an array expression over the launch contents. -/
theorem tap6_array (c : Dev nD) :
    (V18 (F := Ideal) m ρ c main_v97 : S1000000x32.Idx → EReal)
      = tapTerm ![6, 0] slices_S9x1000000_S1x1000000_6_0 (m ((c.tc : Thread nD τ).loc main_arg0))
          (m ((c.tc : Thread nD τ).loc main_arg4)) (m ((c.tc : Thread nD τ).loc main_arg5)) :=
  (tap6_kept m ρ c).trans
    (tap6_after (W12 (F := Ideal) m ρ c) _ _ _ (arg0_at12 m ρ c) (arg4_at12 m ρ c) (arg5_at12 m ρ c))

theorem tap6_entry (c : Dev nD) (i : Fin 1000000) (f : Fin 32) :
    (V18 (F := Ideal) m ρ c main_v97 : S1000000x32.Idx → EReal) (ix2 i f)
      = Cert.Spec.tapSel (m ((c.tc : Thread nD τ).loc main_arg0)) (m ((c.tc : Thread nD τ).loc main_arg4))
          (m ((c.tc : Thread nD τ).loc main_arg5)) 6 i f :=
  (congrFun (tap6_array m ρ c) (ix2 i f)).trans
    (tapTerm_apply ![6, 0] slices_S9x1000000_S1x1000000_6_0 _ _ _ 6 rfl rfl i f)

/-- Tap 7's buffer at the kernel's entry, as an array expression over the launch contents. -/
theorem tap7_array (c : Dev nD) :
    (V18 (F := Ideal) m ρ c main_v111 : S1000000x32.Idx → EReal)
      = tapTerm ![7, 0] slices_S9x1000000_S1x1000000_7_0 (m ((c.tc : Thread nD τ).loc main_arg0))
          (m ((c.tc : Thread nD τ).loc main_arg4)) (m ((c.tc : Thread nD τ).loc main_arg5)) :=
  (tap7_kept m ρ c).trans
    (tap7_after (W14 (F := Ideal) m ρ c) _ _ _ (arg0_at14 m ρ c) (arg4_at14 m ρ c) (arg5_at14 m ρ c))

theorem tap7_entry (c : Dev nD) (i : Fin 1000000) (f : Fin 32) :
    (V18 (F := Ideal) m ρ c main_v111 : S1000000x32.Idx → EReal) (ix2 i f)
      = Cert.Spec.tapSel (m ((c.tc : Thread nD τ).loc main_arg0)) (m ((c.tc : Thread nD τ).loc main_arg4))
          (m ((c.tc : Thread nD τ).loc main_arg5)) 7 i f :=
  (congrFun (tap7_array m ρ c) (ix2 i f)).trans
    (tapTerm_apply ![7, 0] slices_S9x1000000_S1x1000000_7_0 _ _ _ 7 rfl rfl i f)

/-- Tap 8's buffer at the kernel's entry, as an array expression over the launch contents. -/
theorem tap8_array (c : Dev nD) :
    (V18 (F := Ideal) m ρ c main_v125 : S1000000x32.Idx → EReal)
      = tapTerm ![8, 0] slices_S9x1000000_S1x1000000_8_0 (m ((c.tc : Thread nD τ).loc main_arg0))
          (m ((c.tc : Thread nD τ).loc main_arg4)) (m ((c.tc : Thread nD τ).loc main_arg5)) :=
  (tap8_kept m ρ c).trans
    (tap8_after (W16 (F := Ideal) m ρ c) _ _ _ (arg0_at16 m ρ c) (arg4_at16 m ρ c) (arg5_at16 m ρ c))

theorem tap8_entry (c : Dev nD) (i : Fin 1000000) (f : Fin 32) :
    (V18 (F := Ideal) m ρ c main_v125 : S1000000x32.Idx → EReal) (ix2 i f)
      = Cert.Spec.tapSel (m ((c.tc : Thread nD τ).loc main_arg0)) (m ((c.tc : Thread nD τ).loc main_arg4))
          (m ((c.tc : Thread nD τ).loc main_arg5)) 8 i f :=
  (congrFun (tap8_array m ρ c) (ix2 i f)).trans
    (tapTerm_apply ![8, 0] slices_S9x1000000_S1x1000000_8_0 _ _ _ 8 rfl rfl i f)

end Cert.KTaps

end
-- ==== Proof.R0ArrayBlocks.lean ====
import proofs.«180816_j45861660786969_2_alg».proof.Proof.Gen.KernelIdeal.Frame
import proofs.«180816_j45861660786969_2_alg».proof.Proof.Spec
import Idealize.ShloMosaic.Lib.Pipeline.Value
import Idealize.ShloMosaic.Lib.ValueIdx

noncomputable section

open scoped BigOperators

namespace Cert.R0Array

open Idealize.ShloMosaic Idealize.ShloMosaic.ValueIdx Idealize.ShloMosaic.TcCoe Idealize.SL.Sem
open Cert.KernelIdeal Cert.KernelIdeal.Gen

variable (V : (c : Dev nD) → (b : Ref sig .tc) → Buf (Elt Ideal) ((c : Thread nD τ).loc b))

/-! Region 0's input blocks, read as entries of the arrays the region finds.

The nine masked gathered tables are staged in tiles of 2000 rows: at the grid's linear point `t` the tile is block row
`t`, block column 0, so row `p` of the tile is row `t * 2000 + p` of the table. The weights are staged whole. The
block positions are decided once over the 500 points. -/

/-- Tap 0's tile sits, at the grid's linear point `t`, at block row `t` and block column 0. -/
theorem idx_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Row `p` of tap 0's tile at point `t` is row `t * 2000 + p` of its table. -/
theorem blk_0 (c : Dev nD) (t : Fin cfg0.N) (p : Fin 2000) (f : Fin 32) (h : t.val * 2000 + p.val < 1000000) :
    (iblk0 (F := Ideal) V c 0 t : Vec Ideal S2000x32 .f32) (ix2 p f)
      = (V c main_v13 : S1000000x32.Idx → EReal) (ix2 ⟨t.val * 2000 + p.val, h⟩ f) := by
  obtain ⟨e0, e1⟩ := idx_0 t
  unfold iblk0
  rw [View.read_apply]
  show V c main_v13 _ = V c main_v13 _
  congr 1
  funext a
  apply Fin.ext
  match a with
  | ⟨0, _⟩ => show win0_0.index t (0 : Fin 2) * 2000 + 1 * p.val = t.val * 2000 + p.val; rw [e0]; omega
  | ⟨1, _⟩ => show win0_0.index t (1 : Fin 2) * 32 + 1 * f.val = f.val; rw [e1]; omega

/-- Tap 1's tile sits, at the grid's linear point `t`, at block row `t` and block column 0. -/
theorem idx_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Row `p` of tap 1's tile at point `t` is row `t * 2000 + p` of its table. -/
theorem blk_1 (c : Dev nD) (t : Fin cfg0.N) (p : Fin 2000) (f : Fin 32) (h : t.val * 2000 + p.val < 1000000) :
    (iblk0 (F := Ideal) V c 1 t : Vec Ideal S2000x32 .f32) (ix2 p f)
      = (V c main_v27 : S1000000x32.Idx → EReal) (ix2 ⟨t.val * 2000 + p.val, h⟩ f) := by
  obtain ⟨e0, e1⟩ := idx_1 t
  unfold iblk0
  rw [View.read_apply]
  show V c main_v27 _ = V c main_v27 _
  congr 1
  funext a
  apply Fin.ext
  match a with
  | ⟨0, _⟩ => show win0_1.index t (0 : Fin 2) * 2000 + 1 * p.val = t.val * 2000 + p.val; rw [e0]; omega
  | ⟨1, _⟩ => show win0_1.index t (1 : Fin 2) * 32 + 1 * f.val = f.val; rw [e1]; omega

/-- Tap 2's tile sits, at the grid's linear point `t`, at block row `t` and block column 0. -/
theorem idx_2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- Row `p` of tap 2's tile at point `t` is row `t * 2000 + p` of its table. -/
theorem blk_2 (c : Dev nD) (t : Fin cfg0.N) (p : Fin 2000) (f : Fin 32) (h : t.val * 2000 + p.val < 1000000) :
    (iblk0 (F := Ideal) V c 2 t : Vec Ideal S2000x32 .f32) (ix2 p f)
      = (V c main_v41 : S1000000x32.Idx → EReal) (ix2 ⟨t.val * 2000 + p.val, h⟩ f) := by
  obtain ⟨e0, e1⟩ := idx_2 t
  unfold iblk0
  rw [View.read_apply]
  show V c main_v41 _ = V c main_v41 _
  congr 1
  funext a
  apply Fin.ext
  match a with
  | ⟨0, _⟩ => show win0_2.index t (0 : Fin 2) * 2000 + 1 * p.val = t.val * 2000 + p.val; rw [e0]; omega
  | ⟨1, _⟩ => show win0_2.index t (1 : Fin 2) * 32 + 1 * f.val = f.val; rw [e1]; omega

/-- Tap 3's tile sits, at the grid's linear point `t`, at block row `t` and block column 0. -/
theorem idx_3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

/-- Row `p` of tap 3's tile at point `t` is row `t * 2000 + p` of its table. -/
theorem blk_3 (c : Dev nD) (t : Fin cfg0.N) (p : Fin 2000) (f : Fin 32) (h : t.val * 2000 + p.val < 1000000) :
    (iblk0 (F := Ideal) V c 3 t : Vec Ideal S2000x32 .f32) (ix2 p f)
      = (V c main_v55 : S1000000x32.Idx → EReal) (ix2 ⟨t.val * 2000 + p.val, h⟩ f) := by
  obtain ⟨e0, e1⟩ := idx_3 t
  unfold iblk0
  rw [View.read_apply]
  show V c main_v55 _ = V c main_v55 _
  congr 1
  funext a
  apply Fin.ext
  match a with
  | ⟨0, _⟩ => show win0_3.index t (0 : Fin 2) * 2000 + 1 * p.val = t.val * 2000 + p.val; rw [e0]; omega
  | ⟨1, _⟩ => show win0_3.index t (1 : Fin 2) * 32 + 1 * f.val = f.val; rw [e1]; omega

/-- Tap 4's tile sits, at the grid's linear point `t`, at block row `t` and block column 0. -/
theorem idx_4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

/-- Row `p` of tap 4's tile at point `t` is row `t * 2000 + p` of its table. -/
theorem blk_4 (c : Dev nD) (t : Fin cfg0.N) (p : Fin 2000) (f : Fin 32) (h : t.val * 2000 + p.val < 1000000) :
    (iblk0 (F := Ideal) V c 4 t : Vec Ideal S2000x32 .f32) (ix2 p f)
      = (V c main_v69 : S1000000x32.Idx → EReal) (ix2 ⟨t.val * 2000 + p.val, h⟩ f) := by
  obtain ⟨e0, e1⟩ := idx_4 t
  unfold iblk0
  rw [View.read_apply]
  show V c main_v69 _ = V c main_v69 _
  congr 1
  funext a
  apply Fin.ext
  match a with
  | ⟨0, _⟩ => show win0_4.index t (0 : Fin 2) * 2000 + 1 * p.val = t.val * 2000 + p.val; rw [e0]; omega
  | ⟨1, _⟩ => show win0_4.index t (1 : Fin 2) * 32 + 1 * f.val = f.val; rw [e1]; omega

/-- Tap 5's tile sits, at the grid's linear point `t`, at block row `t` and block column 0. -/
theorem idx_5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

/-- Row `p` of tap 5's tile at point `t` is row `t * 2000 + p` of its table. -/
theorem blk_5 (c : Dev nD) (t : Fin cfg0.N) (p : Fin 2000) (f : Fin 32) (h : t.val * 2000 + p.val < 1000000) :
    (iblk0 (F := Ideal) V c 5 t : Vec Ideal S2000x32 .f32) (ix2 p f)
      = (V c main_v83 : S1000000x32.Idx → EReal) (ix2 ⟨t.val * 2000 + p.val, h⟩ f) := by
  obtain ⟨e0, e1⟩ := idx_5 t
  unfold iblk0
  rw [View.read_apply]
  show V c main_v83 _ = V c main_v83 _
  congr 1
  funext a
  apply Fin.ext
  match a with
  | ⟨0, _⟩ => show win0_5.index t (0 : Fin 2) * 2000 + 1 * p.val = t.val * 2000 + p.val; rw [e0]; omega
  | ⟨1, _⟩ => show win0_5.index t (1 : Fin 2) * 32 + 1 * f.val = f.val; rw [e1]; omega

/-- Tap 6's tile sits, at the grid's linear point `t`, at block row `t` and block column 0. -/
theorem idx_6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)

/-- Row `p` of tap 6's tile at point `t` is row `t * 2000 + p` of its table. -/
theorem blk_6 (c : Dev nD) (t : Fin cfg0.N) (p : Fin 2000) (f : Fin 32) (h : t.val * 2000 + p.val < 1000000) :
    (iblk0 (F := Ideal) V c 6 t : Vec Ideal S2000x32 .f32) (ix2 p f)
      = (V c main_v97 : S1000000x32.Idx → EReal) (ix2 ⟨t.val * 2000 + p.val, h⟩ f) := by
  obtain ⟨e0, e1⟩ := idx_6 t
  unfold iblk0
  rw [View.read_apply]
  show V c main_v97 _ = V c main_v97 _
  congr 1
  funext a
  apply Fin.ext
  match a with
  | ⟨0, _⟩ => show win0_6.index t (0 : Fin 2) * 2000 + 1 * p.val = t.val * 2000 + p.val; rw [e0]; omega
  | ⟨1, _⟩ => show win0_6.index t (1 : Fin 2) * 32 + 1 * f.val = f.val; rw [e1]; omega

/-- Tap 7's tile sits, at the grid's linear point `t`, at block row `t` and block column 0. -/
theorem idx_7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)

/-- Row `p` of tap 7's tile at point `t` is row `t * 2000 + p` of its table. -/
theorem blk_7 (c : Dev nD) (t : Fin cfg0.N) (p : Fin 2000) (f : Fin 32) (h : t.val * 2000 + p.val < 1000000) :
    (iblk0 (F := Ideal) V c 7 t : Vec Ideal S2000x32 .f32) (ix2 p f)
      = (V c main_v111 : S1000000x32.Idx → EReal) (ix2 ⟨t.val * 2000 + p.val, h⟩ f) := by
  obtain ⟨e0, e1⟩ := idx_7 t
  unfold iblk0
  rw [View.read_apply]
  show V c main_v111 _ = V c main_v111 _
  congr 1
  funext a
  apply Fin.ext
  match a with
  | ⟨0, _⟩ => show win0_7.index t (0 : Fin 2) * 2000 + 1 * p.val = t.val * 2000 + p.val; rw [e0]; omega
  | ⟨1, _⟩ => show win0_7.index t (1 : Fin 2) * 32 + 1 * f.val = f.val; rw [e1]; omega

/-- Tap 8's tile sits, at the grid's linear point `t`, at block row `t` and block column 0. -/
theorem idx_8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)

/-- Row `p` of tap 8's tile at point `t` is row `t * 2000 + p` of its table. -/
theorem blk_8 (c : Dev nD) (t : Fin cfg0.N) (p : Fin 2000) (f : Fin 32) (h : t.val * 2000 + p.val < 1000000) :
    (iblk0 (F := Ideal) V c 8 t : Vec Ideal S2000x32 .f32) (ix2 p f)
      = (V c main_v125 : S1000000x32.Idx → EReal) (ix2 ⟨t.val * 2000 + p.val, h⟩ f) := by
  obtain ⟨e0, e1⟩ := idx_8 t
  unfold iblk0
  rw [View.read_apply]
  show V c main_v125 _ = V c main_v125 _
  congr 1
  funext a
  apply Fin.ext
  match a with
  | ⟨0, _⟩ => show win0_8.index t (0 : Fin 2) * 2000 + 1 * p.val = t.val * 2000 + p.val; rw [e0]; omega
  | ⟨1, _⟩ => show win0_8.index t (1 : Fin 2) * 32 + 1 * f.val = f.val; rw [e1]; omega

/-- The weights' block is at the origin at every point. -/
theorem idx_9 : ∀ t : Fin cfg0.N, win0_9.index t (0 : Fin 3) = 0 ∧ win0_9.index t (1 : Fin 3) = 0 ∧ win0_9.index t (2 : Fin 3) = 0 :=
  (by decide +kernel : ∀ t : Fin grid0.N, win0_9.index t (0 : Fin 3) = 0 ∧ win0_9.index t (1 : Fin 3) = 0 ∧ win0_9.index t (2 : Fin 3) = 0)

/-- So the weights' block is the whole weights array, at every point. -/
theorem blk_9 (c : Dev nD) (t : Fin cfg0.N) :
    (iblk0 (F := Ideal) V c 9 t : Vec Ideal S9x32x32 .f32) = (V c main_arg1 : S9x32x32.Idx → EReal) := by
  obtain ⟨e0, e1, e2⟩ := idx_9 t
  funext j
  unfold iblk0
  rw [View.read_apply]
  show V c main_arg1 _ = V c main_arg1 _
  congr 1
  funext a
  apply Fin.ext
  match a with
  | ⟨0, _⟩ => show win0_9.index t (0 : Fin 3) * 9 + 1 * (j 0).val = (j 0).val; rw [e0]; omega
  | ⟨1, _⟩ => show win0_9.index t (1 : Fin 3) * 32 + 1 * (j 1).val = (j 1).val; rw [e1]; omega
  | ⟨2, _⟩ => show win0_9.index t (2 : Fin 3) * 32 + 1 * (j 2).val = (j 2).val; rw [e2]; omega

/-- A point's 2000 rows lie inside the million: there are 500 points. -/
theorem row_lt (t : Fin cfg0.N) (p : Fin 2000) : t.val * 2000 + p.val < 1000000 := by
  have hN : cfg0.N = 500 := N_0
  have := t.isLt
  have := p.isLt
  omega

end Cert.R0Array

end
-- ==== Proof.R0ArrayFold.lean ====
import proofs.«180816_j45861660786969_2_alg».proof.Proof.Gen.KernelIdeal.Frame
import proofs.«180816_j45861660786969_2_alg».proof.Proof.Spec
import proofs.«180816_j45861660786969_2_alg».proof.Proof.R0ArrayBlocks
import Idealize.ShloMosaic.Lib.Pipeline.Value
import Idealize.ShloMosaic.PureOps.Ideal.Laws

noncomputable section

open scoped BigOperators

namespace Cert.R0Array

open Idealize.ShloMosaic Idealize.ShloMosaic.ValueIdx Idealize.ShloMosaic.TcCoe Idealize.SL.Sem
open Cert.KernelIdeal Cert.KernelIdeal.Gen

variable (V : (c : Dev nD) → (b : Ref sig .tc) → Buf (Elt Ideal) ((c : Thread nD τ).loc b))

/-! A running column statistic over one half of the grid, summed.

A quantity indexed by the grid's points that restarts at the first point of each half (points 0 and 250) from the zero
word plus the point's tile sum, and at every other point adds its tile sum onto what the point before left, holds at the
half's last point the sum over the half's 250 tiles of the tile sums: the zero word is the number zero, and the chain
of additions is the sum. -/

/-- Row `p` of the tile of point `t`, as a row of the whole table. -/
abbrev rowOf (t : Fin cfg0.N) (p : Fin 2000) : Fin 1000000 := ⟨t.val * 2000 + p.val, row_lt t p⟩

/-- The column sums of the tile of point `n` (zero past the grid, where it is never read). -/
def pointSum (W : Fin 1000000 → Fin 32 → EReal) (n : Nat) (q : Fin 32) : EReal :=
  if h : n < 500 then ∑ p : Fin 2000, W ⟨n * 2000 + p.val, by have := p.isLt; omega⟩ q else 0

theorem fold_half (W : Fin 1000000 → Fin 32 → EReal) (f : (n : Nat) → n < cfg0.N → Fin 32 → EReal)
    (hA : ∀ t : Fin cfg0.N, t.val % 250 = 0 → ∀ q, f t.val t.isLt q = Cert.Spec.Z + ∑ p : Fin 2000, W (rowOf t p) q)
    (hB : ∀ t : Fin cfg0.N, ¬t.val % 250 = 0 → ∀ q, f t.val t.isLt q
        = f (t.val - 1) (Nat.lt_of_le_of_lt (Nat.sub_le _ _) t.isLt) q + ∑ p : Fin 2000, W (rowOf t p) q)
    (h : Fin 2) (hlt : 250 * h.val + 249 < cfg0.N) (q : Fin 32) :
    f (250 * h.val + 249) hlt q = ∑ j : Fin 250, ∑ p : Fin 2000, W (Cert.Spec.tileRow h j p) q := by
  have hN : cfg0.N = 500 := N_0
  have hps : ∀ (n : Nat) (hn : n < cfg0.N) (q : Fin 32), ∑ p : Fin 2000, W (rowOf ⟨n, hn⟩ p) q = pointSum W n q := by
    intro n hn q
    unfold pointSum
    rw [dif_pos (by omega)]
  have h0 : ∀ (n : Nat) (hn : n < cfg0.N), n % 250 = 0 → f n hn = fun q => Cert.Spec.Z + pointSum W n q :=
    fun n hn hm => funext fun q => (hA ⟨n, hn⟩ hm q).trans (congrArg (fun s => Cert.Spec.Z + s) (hps n hn q))
  have hs : ∀ (n : Nat) (hn : n + 1 < cfg0.N), ¬(n + 1) % 250 = 0 →
      f (n + 1) hn = (fun q => f n (Nat.lt_of_succ_lt hn) q + pointSum W (n + 1) q) :=
    fun n hn hm => funext fun q =>
      (hB ⟨n + 1, hn⟩ hm q).trans (congrArg (fun s => f n (Nat.lt_of_succ_lt hn) q + s) (hps (n + 1) hn q))
  have key := Pipeline.eq_accAt (N := cfg0.N) f 250 (fun n _ q => Cert.Spec.Z + pointSum W n q)
    (fun n _ acc q => acc q + pointSum W n q) h0 hs h.val 249 (by omega) hlt
  have key2 := Pipeline.accAt_add_apply (N := cfg0.N) (fun n _ q => Cert.Spec.Z + pointSum W n q)
    (fun n _ acc q => acc q + pointSum W n q) (fun _ => Cert.Spec.Z) (pointSum W) (250 * h.val) 249
    (fun _ _ => rfl) (fun _ _ _ _ _ _ => rfl) 249 (le_refl _) hlt q
  rw [key, key2]
  show Cert.Spec.Z + ∑ s ∈ Finset.range 250, pointSum W (250 * h.val + s) q = _
  rw [show Cert.Spec.Z = 0 from Ideal.ofBits_zero_f32, zero_add, Finset.sum_range]
  refine Finset.sum_congr rfl fun j _ => ?_
  unfold pointSum
  rw [dif_pos (by have := h.isLt; have := j.isLt; omega)]
  refine Finset.sum_congr rfl fun p _ => ?_
  exact congrArg (fun i => W i q) (Fin.ext (by
    show (250 * h.val + j.val) * 2000 + p.val = (h.val * 250 + j.val) * 2000 + p.val
    omega))

end Cert.R0Array

end
-- ==== Proof.R0PointPieces.lean ====
/-
  Region 0's body at one grid point, as pure terms of the blocks it loads.

  The body loads nine tiles of 2000 rows and, nine times, one 1×32×32 slab of the weights; it stores the tile of
  the rectified convolution, and adds the tile's column sums and column sums of squares onto what the two small
  outputs held (zeros, freshly stored, at the first point of a half; the running values at every other point).
  Here each output's staging contents after the body are identified with one composition of the body's arithmetic,
  whatever the float model: the stores cover their buffers, every load through a whole rectangle reads the buffer's
  contents, and a load of the weights reads them through its slab.
-/
import proofs.«180816_j45861660786969_2_alg».proof.Proof.Gen.KernelIdeal.Frame
import Idealize.ShloMosaic.Lib.ValueIdx
import Idealize.ShloMosaic.Lib.Pipeline.Value
import Idealize.ShloMosaic.Lib.Tactic

set_option maxRecDepth 16384

noncomputable section

open scoped BigOperators
open Idealize.ShloMosaic Idealize.ShloMosaic.ValueIdx Idealize.ShloMosaic.TcCoe Idealize.SL.Sem
open Cert.KernelIdeal Cert.KernelIdeal.Gen

namespace Cert.R0Point

variable {F : FTy → Type} [FloatOps F]

theorem off2_zero : (![0, 0] : Fin 2 → Nat) = fun _ => 0 := funext fun a => by fin_cases a <;> rfl
theorem off3_zero : (![0, 0, 0] : Fin 3 → Nat) = fun _ => 0 := funext fun a => by fin_cases a <;> rfl

/-- The running sum of the first seven taps' products, as the body computes it from the tiles and the weight slabs. -/
def acc7 (x0 x1 x2 x3 x4 x5 x6 : Vec F S2000x32 .f32) (x9 : Vec F S9x32x32 .f32) : FVec F S2000x32 .f32 :=
  k0_pay5 (k0_pay3 x0 (View.ld x9 (Rect.unit (s := S9x32x32) ![0, 0, 0] S1x32x32.size inb_S9x32x32_S1x32x32_0_0_0)) x1 (View.ld x9 (Rect.unit (s := S9x32x32) ![1, 0, 0] S1x32x32.size inb_S9x32x32_S1x32x32_1_0_0)) x2 (View.ld x9 (Rect.unit (s := S9x32x32) ![2, 0, 0] S1x32x32.size inb_S9x32x32_S1x32x32_2_0_0)))
    (k0_pay4 x3) (View.ld x9 (Rect.unit (s := S9x32x32) ![3, 0, 0] S1x32x32.size inb_S9x32x32_S1x32x32_3_0_0)) x4 (View.ld x9 (Rect.unit (s := S9x32x32) ![4, 0, 0] S1x32x32.size inb_S9x32x32_S1x32x32_4_0_0)) x5 (View.ld x9 (Rect.unit (s := S9x32x32) ![5, 0, 0] S1x32x32.size inb_S9x32x32_S1x32x32_5_0_0)) x6 (View.ld x9 (Rect.unit (s := S9x32x32) ![6, 0, 0] S1x32x32.size inb_S9x32x32_S1x32x32_6_0_0))

/-- The tile of the rectified convolution, as the body computes it. -/
def bodyAct (x0 x1 x2 x3 x4 x5 x6 x7 x8 : Vec F S2000x32 .f32) (x9 : Vec F S9x32x32 .f32) : FVec F S2000x32 .f32 :=
  k0_pay8 (acc7 x0 x1 x2 x3 x4 x5 x6 x9) (k0_pay6 x7) (k0_pay7 (View.ld x9 (Rect.unit (s := S9x32x32) ![7, 0, 0] S1x32x32.size inb_S9x32x32_S1x32x32_7_0_0))) (constant S2000x32 .f32 0x00000000#32) x8 (View.ld x9 (Rect.unit (s := S9x32x32) ![8, 0, 0] S1x32x32.size inb_S9x32x32_S1x32x32_8_0_0))

/-- The tile's column sums added onto `prev`, as the body computes them. -/
def bodySum (x0 x1 x2 x3 x4 x5 x6 x7 x8 : Vec F S2000x32 .f32) (x9 : Vec F S9x32x32 .f32) (prev : Vec F S1x1x32 .f32) : FVec F S1x1x32 .f32 :=
  k0_pay9 (acc7 x0 x1 x2 x3 x4 x5 x6 x9) (k0_pay6 x7) (k0_pay7 (View.ld x9 (Rect.unit (s := S9x32x32) ![7, 0, 0] S1x32x32.size inb_S9x32x32_S1x32x32_7_0_0))) (constant S2000x32 .f32 0x00000000#32) x8 (View.ld x9 (Rect.unit (s := S9x32x32) ![8, 0, 0] S1x32x32.size inb_S9x32x32_S1x32x32_8_0_0)) prev

/-- The tile's column sums of squares added onto `prev`, as the body computes them. -/
def bodySq (x0 x1 x2 x3 x4 x5 x6 x7 x8 : Vec F S2000x32 .f32) (x9 : Vec F S9x32x32 .f32) (prev : Vec F S1x1x32 .f32) : FVec F S1x1x32 .f32 :=
  k0_pay10 (acc7 x0 x1 x2 x3 x4 x5 x6 x9) (k0_pay6 x7) (k0_pay7 (View.ld x9 (Rect.unit (s := S9x32x32) ![7, 0, 0] S1x32x32.size inb_S9x32x32_S1x32x32_7_0_0))) (constant S2000x32 .f32 0x00000000#32) x8 (View.ld x9 (Rect.unit (s := S9x32x32) ![8, 0, 0] S1x32x32.size inb_S9x32x32_S1x32x32_8_0_0)) prev

section
variable (c : Dev nD) (i : grid0.Coords) (arg2 : Memref sig .tc .vmem S2000x32 .f32) (harg2 : arg2.IsWhole) (arg3 : Memref sig .tc .vmem S2000x32 .f32) (harg3 : arg3.IsWhole) (arg4 : Memref sig .tc .vmem S2000x32 .f32) (harg4 : arg4.IsWhole) (arg5 : Memref sig .tc .vmem S2000x32 .f32) (harg5 : arg5.IsWhole) (arg6 : Memref sig .tc .vmem S2000x32 .f32) (harg6 : arg6.IsWhole) (arg7 : Memref sig .tc .vmem S2000x32 .f32) (harg7 : arg7.IsWhole) (arg8 : Memref sig .tc .vmem S2000x32 .f32) (harg8 : arg8.IsWhole) (arg9 : Memref sig .tc .vmem S2000x32 .f32) (harg9 : arg9.IsWhole) (arg10 : Memref sig .tc .vmem S2000x32 .f32) (harg10 : arg10.IsWhole) (arg11 : Memref sig .tc .vmem S9x32x32 .f32) (harg11 : arg11.IsWhole) (arg12 : Memref sig .tc .vmem S2000x32 .f32) (harg12 : arg12.IsWhole) (arg13 : Memref sig .tc .vmem S1x1x32 .f32) (harg13 : arg13.IsWhole) (arg14 : Memref sig .tc .vmem S1x1x32 .f32) (harg14 : arg14.IsWhole)

/-- First point of a half: the one store of output 10 holds the rectified convolution of the tile. -/
theorem outA10_piece (hc0 : cond0_0 i) (x0 x1 x2 x3 x4 x5 x6 x7 x8 : Vec F S2000x32 .f32) (x9 : Vec F S9x32x32 .f32) :
    out0_A_10 (F := F) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = bodyAct x0 x1 x2 x3 x4 x5 x6 x7 x8 x9 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  sl_unfold_words
  rw [View.canon_unit_zero off2_zero]
  simp only [View.readAt_eq_ld, harg2.read_unread, harg3.read_unread, harg4.read_unread, harg5.read_unread, harg6.read_unread, harg7.read_unread, harg8.read_unread, harg9.read_unread, harg10.read_unread, harg11.read_unread, View.ld_unit_zero (S := S2000x32) off2_zero]
  rfl

/-- Any other point: the same. -/
theorem outB10_piece (hc0 : ¬cond0_0 i) (x0 x1 x2 x3 x4 x5 x6 x7 x8 : Vec F S2000x32 .f32) (x9 : Vec F S9x32x32 .f32) (xo11 xo12 : Vec F S1x1x32 .f32) :
    out0_B_10 (F := F) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo11 xo12 = bodyAct x0 x1 x2 x3 x4 x5 x6 x7 x8 x9 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo11 xo12)]
  unfold kernelRun0_B
  dsimp only
  sl_unfold_words
  rw [View.canon_unit_zero off2_zero]
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread, View.ld_unit_zero (S := S2000x32) off2_zero]
  rfl

/-- First point of a half: output 11 is zeroed, read back, and the tile's column sums are added onto the zeros. -/
theorem outA11_piece (hc0 : cond0_0 i) (x0 x1 x2 x3 x4 x5 x6 x7 x8 : Vec F S2000x32 .f32) (x9 : Vec F S9x32x32 .f32) :
    out0_A_11 (F := F) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = bodySum x0 x1 x2 x3 x4 x5 x6 x7 x8 x9 k0_pay1 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  sl_unfold_words
  rw [View.canon_cons_unit_zero (S := S1x1x32) off3_zero, View.readCov_unit_zero (S := S1x1x32) _ off3_zero]
  simp only [View.readAt_eq_ld, harg2.read_unread, harg3.read_unread, harg4.read_unread, harg5.read_unread, harg6.read_unread, harg7.read_unread, harg8.read_unread, harg9.read_unread, harg10.read_unread, harg11.read_unread, View.ld_unit_zero (S := S2000x32) off2_zero]
  rfl

/-- Any other point: the tile's column sums are added onto the running contents. -/
theorem outB11_piece (hc0 : ¬cond0_0 i) (x0 x1 x2 x3 x4 x5 x6 x7 x8 : Vec F S2000x32 .f32) (x9 : Vec F S9x32x32 .f32) (xo11 xo12 : Vec F S1x1x32 .f32) :
    out0_B_11 (F := F) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo11 xo12 = bodySum x0 x1 x2 x3 x4 x5 x6 x7 x8 x9 xo11 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo11 xo12)]
  unfold kernelRun0_B
  dsimp only
  sl_unfold_words
  rw [View.canon_unit_zero off3_zero]
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread, View.ld_unit_zero (S := S2000x32) off2_zero, View.ld_unit_zero (S := S1x1x32) off3_zero]
  rfl

/-- First point of a half: output 12 is zeroed, read back, and the tile's column sums of squares are added onto the zeros. -/
theorem outA12_piece (hc0 : cond0_0 i) (x0 x1 x2 x3 x4 x5 x6 x7 x8 : Vec F S2000x32 .f32) (x9 : Vec F S9x32x32 .f32) :
    out0_A_12 (F := F) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = bodySq x0 x1 x2 x3 x4 x5 x6 x7 x8 x9 k0_pay2 := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  sl_unfold_words
  rw [View.canon_cons_unit_zero (S := S1x1x32) off3_zero, View.readCov_unit_zero (S := S1x1x32) _ off3_zero]
  simp only [View.readAt_eq_ld, harg2.read_unread, harg3.read_unread, harg4.read_unread, harg5.read_unread, harg6.read_unread, harg7.read_unread, harg8.read_unread, harg9.read_unread, harg10.read_unread, harg11.read_unread, View.ld_unit_zero (S := S2000x32) off2_zero]
  rfl

/-- Any other point: the tile's column sums of squares are added onto the running contents. -/
theorem outB12_piece (hc0 : ¬cond0_0 i) (x0 x1 x2 x3 x4 x5 x6 x7 x8 : Vec F S2000x32 .f32) (x9 : Vec F S9x32x32 .f32) (xo11 xo12 : Vec F S1x1x32 .f32) :
    out0_B_12 (F := F) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo11 xo12 = bodySq x0 x1 x2 x3 x4 x5 x6 x7 x8 x9 xo12 := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo11 xo12)]
  unfold kernelRun0_B
  dsimp only
  sl_unfold_words
  rw [View.canon_unit_zero off3_zero]
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread, View.ld_unit_zero (S := S2000x32) off2_zero, View.ld_unit_zero (S := S1x1x32) off3_zero]
  rfl
end

end Cert.R0Point
end
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.R0PointConv.lean ====
/-
  The convolution's arithmetic inside region 0's body, read at one entry of the tile.

  Each tap multiplies a 2000×32 tile into a 32×32 matrix on the matrix unit, into a zero accumulator: at the ideal
  values the entry (p, q) of that product is the sum over the 32 input channels of the tile's row p against the
  matrix's column q. The roundings of the operands to the narrower format are the identity at the ideal values, and
  the matrix arrives with a leading unit axis that the body drops. The nine products are added in tap order onto the
  zero word, in three groups as the body is cut; the last group ends with the leaky rectifier.
-/
import proofs.«180816_j45861660786969_2_alg».proof.Proof.Gen.KernelIdeal.Skeleton
import proofs.«180816_j45861660786969_2_alg».proof.Proof.Spec
import proofs.«180816_j45861660786969_2_alg».proof.Proof.LibMatmul
import Idealize.ShloMosaic.Lib.ValueIdx
import Idealize.ShloMosaic.Lib.ValueLayout
import Idealize.ShloMosaic.Lib.Pipeline.Value

set_option maxRecDepth 16384

noncomputable section

open scoped BigOperators
open Idealize.ShloMosaic Idealize.ShloMosaic.ValueIdx Idealize.ShloMosaic.TcCoe Idealize.SL.Sem
open Cert.KernelIdeal Cert.KernelIdeal.Gen

namespace Cert.R0Point

/-- Row p of a tile against column q of a matrix given with a leading unit axis: the sum over the input channels. -/
def rowDot (x : S2000x32.Idx → EReal) (w : S1x32x32.Idx → EReal) (p : Fin 2000) (q : Fin 32) : EReal :=
  ∑ c : Fin 32, x (ix2 p c) * w (ix3 (0 : Fin 1) c q)

/-- One tap's product as the body spells it: both operands narrowed, the matrix's unit axis dropped, the
    accumulator the zero vector. -/
def tapTerm (x : Vec Ideal S2000x32 .f32) (w : Vec Ideal S1x32x32 .f32) : FVec Ideal S2000x32 .f32 :=
  matmul dot_S2000x32_S32x32_S2000x32_1_0_0_1_n_n none
    (truncf .bf16 (shapeCast S2000x32 x shapeCasts_S2000x32_S2000x32 : FVec Ideal S2000x32 .f32) bitsLt_bf16_f32)
    (truncf .bf16 (shapeCast S32x32 w shapeCasts_S1x32x32_S32x32 : FVec Ideal S32x32 .f32) bitsLt_bf16_f32)
    (constant S2000x32 .f32 0x00000000#32)

/-- The product at (p, q) is the row against the column. -/
theorem tapTerm_apply (x : Vec Ideal S2000x32 .f32) (w : Vec Ideal S1x32x32 .f32) (p : Fin 2000) (q : Fin 32) :
    tapTerm x w (ix2 p q) = rowDot x w p q := by
  unfold tapTerm rowDot
  refine (Cert.MatOps.matmul_plain_zero_apply (M := 2000) (K := 32) (N := 32) none _ _ p q).trans ?_
  refine Finset.sum_congr rfl fun c _ => ?_
  refine congrArg₂ (fun a b : EReal => a * b) ?_ ?_
  · exact congrFun (shapeCast_self x shapeCasts_S2000x32_S2000x32) (ix2 p c)
  · exact shapeCast_1ab_ab_apply w shapeCasts_S1x32x32_S32x32 c q

/-- The first group: three products added in order onto the zero word. -/
theorem pay3_apply (x0 x1 x2 : Vec Ideal S2000x32 .f32) (w0 w1 w2 : Vec Ideal S1x32x32 .f32) (p : Fin 2000) (q : Fin 32) :
    k0_pay3 (F := Ideal) x0 w0 x1 w1 x2 w2 (ix2 p q)
      = ((Cert.Spec.Z + rowDot x0 w0 p q) + rowDot x1 w1 p q) + rowDot x2 w2 p q := by
  unfold k0_pay3
  show ((Cert.Spec.Z + tapTerm x0 w0 (ix2 p q)) + tapTerm x1 w1 (ix2 p q)) + tapTerm x2 w2 (ix2 p q) = _
  rw [tapTerm_apply, tapTerm_apply, tapTerm_apply]

/-- The second group: four more products added in order onto what the first left. -/
theorem pay5_apply (a : FVec Ideal S2000x32 .f32) (x3 x4 x5 x6 : Vec Ideal S2000x32 .f32) (w3 w4 w5 w6 : Vec Ideal S1x32x32 .f32)
    (p : Fin 2000) (q : Fin 32) :
    k0_pay5 (F := Ideal) a (k0_pay4 x3) w3 x4 w4 x5 w5 x6 w6 (ix2 p q)
      = (((a (ix2 p q) + rowDot x3 w3 p q) + rowDot x4 w4 p q) + rowDot x5 w5 p q) + rowDot x6 w6 p q := by
  unfold k0_pay5
  show (((a (ix2 p q) + tapTerm x3 w3 (ix2 p q)) + tapTerm x4 w4 (ix2 p q)) + tapTerm x5 w5 (ix2 p q)) + tapTerm x6 w6 (ix2 p q) = _
  rw [tapTerm_apply, tapTerm_apply, tapTerm_apply, tapTerm_apply]

/-- The third group: the last two products, then the leaky rectifier. -/
theorem pay8_apply (a : FVec Ideal S2000x32 .f32) (x7 x8 : Vec Ideal S2000x32 .f32) (w7 w8 : Vec Ideal S1x32x32 .f32)
    (p : Fin 2000) (q : Fin 32) :
    k0_pay8 (F := Ideal) a (k0_pay6 x7) (k0_pay7 w7) (constant S2000x32 .f32 0x00000000#32) x8 w8 (ix2 p q)
      = Cert.Spec.leaky ((a (ix2 p q) + rowDot x7 w7 p q) + rowDot x8 w8 p q) := by
  unfold k0_pay8
  show Cert.Spec.leaky ((a (ix2 p q) + tapTerm x7 w7 (ix2 p q)) + tapTerm x8 w8 (ix2 p q)) = _
  rw [tapTerm_apply, tapTerm_apply]

end Cert.R0Point
end
-- ==== Proof.R0PointSums.lean ====
/-
  The two column reductions inside region 0's body, read at one channel.

  The body sums the tile of the rectified convolution, and the tile of its squares, over the 2000 rows; each sum is a
  vector of 32 channels, given two leading unit axes and added onto what the small output held before. At the ideal
  values the entry (0, 0, q) of the result is the previous entry plus the sum over the rows of column q.
-/
import proofs.«180816_j45861660786969_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators
open Idealize.ShloMosaic Idealize.ShloMosaic.ValueIdx Idealize.ShloMosaic.TcCoe Idealize.SL.Sem
open Cert.KernelIdeal Cert.KernelIdeal.Gen

namespace Cert.R0Point

/-- The column sums of a tile with two leading unit axes, as the body spells them. -/
def colSum (y : FVec Ideal S2000x32 .f32) : FVec Ideal S1x1x32 .f32 :=
  shapeCast S1x1x32
    (shapeCast S1x32 (multiReduction (F := Ideal) .add [0] S32 y 0x00000000#32 reduces_S2000x32_S32 (.inl rfl) rfl : FVec Ideal S32 .f32)
      shapeCasts_S32_S1x32 : FVec Ideal S1x32 .f32)
    shapeCasts_S1x32_S1x1x32

/-- The row index a reduced channel index lifts to is (p, q). -/
theorem lift_row (q : Fin 32) (p : Fin 2000) : reduces_S2000x32_S32.lift (ix1 q) p = ix2 p q :=
  funext fun a => Fin.ext (by
    match a with
    | ⟨0, _⟩ => rfl
    | ⟨1, _⟩ => rfl)

/-- Channel q of the column sums is the sum of column q over the rows. -/
theorem colSum_apply (y : FVec Ideal S2000x32 .f32) (q : Fin 32) :
    colSum y (ix3 (0 : Fin 1) (0 : Fin 1) q) = ∑ p : Fin 2000, y (ix2 p q) := by
  unfold colSum
  refine (shapeCast_ab_1ab_apply _ shapeCasts_S1x32_S1x1x32 (0 : Fin 1) (0 : Fin 1) q).trans ?_
  refine (shapeCast_a_1a_apply _ shapeCasts_S32_S1x32 (0 : Fin 1) q).trans ?_
  refine (Ideal.multiReduction_add_single y 0x00000000#32 reduces_S2000x32_S32 (.inl rfl) rfl (ix1 q)).trans ?_
  exact Finset.sum_congr rfl fun p _ => congrArg y (lift_row q p)

/-- The sums: the previous entry plus the column's sum of the rectified convolution's tile. -/
theorem pay9_apply (a : FVec Ideal S2000x32 .f32) (b : FVec Ideal S2000x32 .bf16) (d : FVec Ideal S32x32 .bf16)
    (z : FVec Ideal S2000x32 .f32) (x8 : Vec Ideal S2000x32 .f32) (w8 : Vec Ideal S1x32x32 .f32) (prev : Vec Ideal S1x1x32 .f32)
    (q : Fin 32) :
    k0_pay9 (F := Ideal) a b d z x8 w8 prev (ix3 (0 : Fin 1) (0 : Fin 1) q)
      = (prev (ix3 (0 : Fin 1) (0 : Fin 1) q) : EReal) + ∑ p : Fin 2000, k0_pay8 (F := Ideal) a b d z x8 w8 (ix2 p q) := by
  unfold k0_pay9
  show (shapeCast S1x1x32 prev shapeCasts_S1x1x32_S1x1x32 (ix3 (0 : Fin 1) (0 : Fin 1) q) : EReal)
      + colSum (k0_pay8 (F := Ideal) a b d z x8 w8) (ix3 (0 : Fin 1) (0 : Fin 1) q) = _
  rw [shapeCast_self, colSum_apply]

/-- The sums of squares: the previous entry plus the column's sum of the squared entries. -/
theorem pay10_apply (a : FVec Ideal S2000x32 .f32) (b : FVec Ideal S2000x32 .bf16) (d : FVec Ideal S32x32 .bf16)
    (z : FVec Ideal S2000x32 .f32) (x8 : Vec Ideal S2000x32 .f32) (w8 : Vec Ideal S1x32x32 .f32) (prev : Vec Ideal S1x1x32 .f32)
    (q : Fin 32) :
    k0_pay10 (F := Ideal) a b d z x8 w8 prev (ix3 (0 : Fin 1) (0 : Fin 1) q)
      = (prev (ix3 (0 : Fin 1) (0 : Fin 1) q) : EReal)
        + ∑ p : Fin 2000, k0_pay8 (F := Ideal) a b d z x8 w8 (ix2 p q) * k0_pay8 (F := Ideal) a b d z x8 w8 (ix2 p q) := by
  unfold k0_pay10
  show (shapeCast S1x1x32 prev shapeCasts_S1x1x32_S1x1x32 (ix3 (0 : Fin 1) (0 : Fin 1) q) : EReal)
      + colSum (mulf (k0_pay8 (F := Ideal) a b d z x8 w8) (k0_pay8 (F := Ideal) a b d z x8 w8)) (ix3 (0 : Fin 1) (0 : Fin 1) q) = _
  rw [shapeCast_self, colSum_apply]
  rfl

end Cert.R0Point
end
-- ==== Proof.R0Point.lean ====
/-
  Region 0's body at one grid point, at the ideal values, against the specification.

  Over any nine tiles of 2000 rows and any weights: the tile the body stores is the rectified convolution of the
  tiles, entry by entry; the small outputs receive, channel by channel, the sum over the tile's rows of that
  convolution and of its square, added onto the zero word at the first point of a half and onto the running
  contents at every other point. The weights of tap k enter through the k-th slab: its entry (0, c, q) is the
  weights' entry (k, c, q).
-/
import proofs.«180816_j45861660786969_2_alg».proof.Proof.R0PointPieces
import proofs.«180816_j45861660786969_2_alg».proof.Proof.R0PointConv
import proofs.«180816_j45861660786969_2_alg».proof.Proof.R0PointSums
import proofs.«180816_j45861660786969_2_alg».proof.Proof.Spec

set_option maxRecDepth 16384

noncomputable section

open scoped BigOperators
open Idealize.ShloMosaic Idealize.ShloMosaic.ValueIdx Idealize.ShloMosaic.TcCoe Idealize.SL.Sem
open Cert.KernelIdeal Cert.KernelIdeal.Gen

namespace Cert.R0Point

/-- The entry (0, c, q) of the k-th slab of the weights is their entry (k, c, q). -/
theorem slab_apply (x9 : Vec Ideal S9x32x32 .f32) (k : Fin 9)
    (inb : ∀ a, (![k.val, 0, 0] : Fin 3 → Nat) a + S1x32x32.size a ≤ S9x32x32.size a) (c q : Fin 32) :
    View.ld x9 (Rect.unit (s := S9x32x32) ![k.val, 0, 0] S1x32x32.size inb) (ix3 (0 : Fin 1) c q) = x9 (ix3 k c q) := by
  refine congrArg x9 (funext fun a => Fin.ext ?_)
  match a with
  | ⟨0, _⟩ => show k.val + 1 * 0 = k.val; omega
  | ⟨1, _⟩ => show 0 + 1 * c.val = c.val; omega
  | ⟨2, _⟩ => show 0 + 1 * q.val = q.val; omega

/-- A tile's row against a slab's column is the specification's product of that tap. -/
theorem rowDot_slab (T : Fin 9 → Fin 2000 → Fin 32 → EReal) (x : Vec Ideal S2000x32 .f32) (x9 : Vec Ideal S9x32x32 .f32) (k : Fin 9)
    (inb : ∀ a, (![k.val, 0, 0] : Fin 3 → Nat) a + S1x32x32.size a ≤ S9x32x32.size a)
    (hT : ∀ p c, T k p c = x (ix2 p c)) (p : Fin 2000) (q : Fin 32) :
    rowDot x (View.ld x9 (Rect.unit (s := S9x32x32) ![k.val, 0, 0] S1x32x32.size inb)) p q = Cert.Spec.tapDot T x9 k p q := by
  unfold rowDot Cert.Spec.tapDot
  refine Finset.sum_congr rfl fun c _ => ?_
  exact congrArg₂ (fun a b : EReal => a * b) (hT p c).symm (slab_apply x9 k inb c q)

/-- The tile the body stores is the rectified convolution of the nine tiles. -/
theorem bodyAct_apply (x0 x1 x2 x3 x4 x5 x6 x7 x8 : Vec Ideal S2000x32 .f32) (x9 : Vec Ideal S9x32x32 .f32) (p : Fin 2000) (q : Fin 32) :
    bodyAct (F := Ideal) x0 x1 x2 x3 x4 x5 x6 x7 x8 x9 (ix2 p q) = Cert.Spec.act (Cert.Spec.tiles ![x0, x1, x2, x3, x4, x5, x6, x7, x8]) x9 p q := by
  have h0 : rowDot x0 (View.ld x9 (Rect.unit (s := S9x32x32) ![0, 0, 0] S1x32x32.size inb_S9x32x32_S1x32x32_0_0_0)) p q = Cert.Spec.tapDot (Cert.Spec.tiles ![x0, x1, x2, x3, x4, x5, x6, x7, x8]) x9 0 p q :=
    rowDot_slab _ x0 x9 0 inb_S9x32x32_S1x32x32_0_0_0 (fun _ _ => rfl) p q
  have h1 : rowDot x1 (View.ld x9 (Rect.unit (s := S9x32x32) ![1, 0, 0] S1x32x32.size inb_S9x32x32_S1x32x32_1_0_0)) p q = Cert.Spec.tapDot (Cert.Spec.tiles ![x0, x1, x2, x3, x4, x5, x6, x7, x8]) x9 1 p q :=
    rowDot_slab _ x1 x9 1 inb_S9x32x32_S1x32x32_1_0_0 (fun _ _ => rfl) p q
  have h2 : rowDot x2 (View.ld x9 (Rect.unit (s := S9x32x32) ![2, 0, 0] S1x32x32.size inb_S9x32x32_S1x32x32_2_0_0)) p q = Cert.Spec.tapDot (Cert.Spec.tiles ![x0, x1, x2, x3, x4, x5, x6, x7, x8]) x9 2 p q :=
    rowDot_slab _ x2 x9 2 inb_S9x32x32_S1x32x32_2_0_0 (fun _ _ => rfl) p q
  have h3 : rowDot x3 (View.ld x9 (Rect.unit (s := S9x32x32) ![3, 0, 0] S1x32x32.size inb_S9x32x32_S1x32x32_3_0_0)) p q = Cert.Spec.tapDot (Cert.Spec.tiles ![x0, x1, x2, x3, x4, x5, x6, x7, x8]) x9 3 p q :=
    rowDot_slab _ x3 x9 3 inb_S9x32x32_S1x32x32_3_0_0 (fun _ _ => rfl) p q
  have h4 : rowDot x4 (View.ld x9 (Rect.unit (s := S9x32x32) ![4, 0, 0] S1x32x32.size inb_S9x32x32_S1x32x32_4_0_0)) p q = Cert.Spec.tapDot (Cert.Spec.tiles ![x0, x1, x2, x3, x4, x5, x6, x7, x8]) x9 4 p q :=
    rowDot_slab _ x4 x9 4 inb_S9x32x32_S1x32x32_4_0_0 (fun _ _ => rfl) p q
  have h5 : rowDot x5 (View.ld x9 (Rect.unit (s := S9x32x32) ![5, 0, 0] S1x32x32.size inb_S9x32x32_S1x32x32_5_0_0)) p q = Cert.Spec.tapDot (Cert.Spec.tiles ![x0, x1, x2, x3, x4, x5, x6, x7, x8]) x9 5 p q :=
    rowDot_slab _ x5 x9 5 inb_S9x32x32_S1x32x32_5_0_0 (fun _ _ => rfl) p q
  have h6 : rowDot x6 (View.ld x9 (Rect.unit (s := S9x32x32) ![6, 0, 0] S1x32x32.size inb_S9x32x32_S1x32x32_6_0_0)) p q = Cert.Spec.tapDot (Cert.Spec.tiles ![x0, x1, x2, x3, x4, x5, x6, x7, x8]) x9 6 p q :=
    rowDot_slab _ x6 x9 6 inb_S9x32x32_S1x32x32_6_0_0 (fun _ _ => rfl) p q
  have h7 : rowDot x7 (View.ld x9 (Rect.unit (s := S9x32x32) ![7, 0, 0] S1x32x32.size inb_S9x32x32_S1x32x32_7_0_0)) p q = Cert.Spec.tapDot (Cert.Spec.tiles ![x0, x1, x2, x3, x4, x5, x6, x7, x8]) x9 7 p q :=
    rowDot_slab _ x7 x9 7 inb_S9x32x32_S1x32x32_7_0_0 (fun _ _ => rfl) p q
  have h8 : rowDot x8 (View.ld x9 (Rect.unit (s := S9x32x32) ![8, 0, 0] S1x32x32.size inb_S9x32x32_S1x32x32_8_0_0)) p q = Cert.Spec.tapDot (Cert.Spec.tiles ![x0, x1, x2, x3, x4, x5, x6, x7, x8]) x9 8 p q :=
    rowDot_slab _ x8 x9 8 inb_S9x32x32_S1x32x32_8_0_0 (fun _ _ => rfl) p q
  unfold bodyAct acc7
  rw [pay8_apply, pay5_apply, pay3_apply, h0, h1, h2, h3, h4, h5, h6, h7, h8]
  rfl

section
variable (c : Dev nD) (i : grid0.Coords) (arg2 : Memref sig .tc .vmem S2000x32 .f32) (harg2 : arg2.IsWhole) (arg3 : Memref sig .tc .vmem S2000x32 .f32) (harg3 : arg3.IsWhole) (arg4 : Memref sig .tc .vmem S2000x32 .f32) (harg4 : arg4.IsWhole) (arg5 : Memref sig .tc .vmem S2000x32 .f32) (harg5 : arg5.IsWhole) (arg6 : Memref sig .tc .vmem S2000x32 .f32) (harg6 : arg6.IsWhole) (arg7 : Memref sig .tc .vmem S2000x32 .f32) (harg7 : arg7.IsWhole) (arg8 : Memref sig .tc .vmem S2000x32 .f32) (harg8 : arg8.IsWhole) (arg9 : Memref sig .tc .vmem S2000x32 .f32) (harg9 : arg9.IsWhole) (arg10 : Memref sig .tc .vmem S2000x32 .f32) (harg10 : arg10.IsWhole) (arg11 : Memref sig .tc .vmem S9x32x32 .f32) (harg11 : arg11.IsWhole) (arg12 : Memref sig .tc .vmem S2000x32 .f32) (harg12 : arg12.IsWhole) (arg13 : Memref sig .tc .vmem S1x1x32 .f32) (harg13 : arg13.IsWhole) (arg14 : Memref sig .tc .vmem S1x1x32 .f32) (harg14 : arg14.IsWhole)

theorem outA10_entry (hc0 : cond0_0 i) (x0 x1 x2 x3 x4 x5 x6 x7 x8 : Vec Ideal S2000x32 .f32) (x9 : Vec Ideal S9x32x32 .f32) (p : Fin 2000) (q : Fin 32) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 (ix2 p q) = Cert.Spec.act (Cert.Spec.tiles ![x0, x1, x2, x3, x4, x5, x6, x7, x8]) x9 p q := by
  rw [outA10_piece]
  exact bodyAct_apply x0 x1 x2 x3 x4 x5 x6 x7 x8 x9 p q

theorem outB10_entry (hc0 : ¬cond0_0 i) (x0 x1 x2 x3 x4 x5 x6 x7 x8 : Vec Ideal S2000x32 .f32) (x9 : Vec Ideal S9x32x32 .f32) (xo11 xo12 : Vec Ideal S1x1x32 .f32) (p : Fin 2000) (q : Fin 32) :
    out0_B_10 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo11 xo12 (ix2 p q) = Cert.Spec.act (Cert.Spec.tiles ![x0, x1, x2, x3, x4, x5, x6, x7, x8]) x9 p q := by
  rw [outB10_piece]
  exact bodyAct_apply x0 x1 x2 x3 x4 x5 x6 x7 x8 x9 p q

/-- The column sums of the stored tile onto a previous entry. -/
theorem bodySum_apply (x0 x1 x2 x3 x4 x5 x6 x7 x8 : Vec Ideal S2000x32 .f32) (x9 : Vec Ideal S9x32x32 .f32) (prev : Vec Ideal S1x1x32 .f32) (q : Fin 32) :
    bodySum (F := Ideal) x0 x1 x2 x3 x4 x5 x6 x7 x8 x9 prev (ix3 (0 : Fin 1) (0 : Fin 1) q)
      = (prev (ix3 (0 : Fin 1) (0 : Fin 1) q) : EReal) + ∑ p : Fin 2000, Cert.Spec.act (Cert.Spec.tiles ![x0, x1, x2, x3, x4, x5, x6, x7, x8]) x9 p q := by
  unfold bodySum
  refine (pay9_apply _ _ _ _ _ _ prev q).trans ?_
  exact congrArg (fun s : EReal => (prev (ix3 (0 : Fin 1) (0 : Fin 1) q) : EReal) + s)
    (Finset.sum_congr rfl fun p _ => bodyAct_apply x0 x1 x2 x3 x4 x5 x6 x7 x8 x9 p q)

/-- The column sums of the stored tile's squares onto a previous entry. -/
theorem bodySq_apply (x0 x1 x2 x3 x4 x5 x6 x7 x8 : Vec Ideal S2000x32 .f32) (x9 : Vec Ideal S9x32x32 .f32) (prev : Vec Ideal S1x1x32 .f32) (q : Fin 32) :
    bodySq (F := Ideal) x0 x1 x2 x3 x4 x5 x6 x7 x8 x9 prev (ix3 (0 : Fin 1) (0 : Fin 1) q)
      = (prev (ix3 (0 : Fin 1) (0 : Fin 1) q) : EReal)
        + ∑ p : Fin 2000, Cert.Spec.act (Cert.Spec.tiles ![x0, x1, x2, x3, x4, x5, x6, x7, x8]) x9 p q * Cert.Spec.act (Cert.Spec.tiles ![x0, x1, x2, x3, x4, x5, x6, x7, x8]) x9 p q := by
  unfold bodySq
  refine (pay10_apply _ _ _ _ _ _ prev q).trans ?_
  exact congrArg (fun s : EReal => (prev (ix3 (0 : Fin 1) (0 : Fin 1) q) : EReal) + s)
    (Finset.sum_congr rfl fun p _ => congrArg₂ (fun a b : EReal => a * b) (bodyAct_apply x0 x1 x2 x3 x4 x5 x6 x7 x8 x9 p q) (bodyAct_apply x0 x1 x2 x3 x4 x5 x6 x7 x8 x9 p q))

theorem outA11_entry (hc0 : cond0_0 i) (x0 x1 x2 x3 x4 x5 x6 x7 x8 : Vec Ideal S2000x32 .f32) (x9 : Vec Ideal S9x32x32 .f32) (q : Fin 32) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 (ix3 (0 : Fin 1) (0 : Fin 1) q)
      = Cert.Spec.Z + ∑ p : Fin 2000, Cert.Spec.act (Cert.Spec.tiles ![x0, x1, x2, x3, x4, x5, x6, x7, x8]) x9 p q := by
  rw [outA11_piece]
  exact bodySum_apply x0 x1 x2 x3 x4 x5 x6 x7 x8 x9 (k0_pay1 (F := Ideal)) q

theorem outB11_entry (hc0 : ¬cond0_0 i) (x0 x1 x2 x3 x4 x5 x6 x7 x8 : Vec Ideal S2000x32 .f32) (x9 : Vec Ideal S9x32x32 .f32) (xo11 xo12 : Vec Ideal S1x1x32 .f32) (q : Fin 32) :
    out0_B_11 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo11 xo12 (ix3 (0 : Fin 1) (0 : Fin 1) q)
      = (xo11 (ix3 (0 : Fin 1) (0 : Fin 1) q) : EReal) + ∑ p : Fin 2000, Cert.Spec.act (Cert.Spec.tiles ![x0, x1, x2, x3, x4, x5, x6, x7, x8]) x9 p q := by
  rw [outB11_piece]
  exact bodySum_apply x0 x1 x2 x3 x4 x5 x6 x7 x8 x9 xo11 q

theorem outA12_entry (hc0 : cond0_0 i) (x0 x1 x2 x3 x4 x5 x6 x7 x8 : Vec Ideal S2000x32 .f32) (x9 : Vec Ideal S9x32x32 .f32) (q : Fin 32) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 (ix3 (0 : Fin 1) (0 : Fin 1) q)
      = Cert.Spec.Z + ∑ p : Fin 2000, Cert.Spec.act (Cert.Spec.tiles ![x0, x1, x2, x3, x4, x5, x6, x7, x8]) x9 p q * Cert.Spec.act (Cert.Spec.tiles ![x0, x1, x2, x3, x4, x5, x6, x7, x8]) x9 p q := by
  rw [outA12_piece]
  exact bodySq_apply x0 x1 x2 x3 x4 x5 x6 x7 x8 x9 (k0_pay2 (F := Ideal)) q

theorem outB12_entry (hc0 : ¬cond0_0 i) (x0 x1 x2 x3 x4 x5 x6 x7 x8 : Vec Ideal S2000x32 .f32) (x9 : Vec Ideal S9x32x32 .f32) (xo11 xo12 : Vec Ideal S1x1x32 .f32) (q : Fin 32) :
    out0_B_12 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo11 xo12 (ix3 (0 : Fin 1) (0 : Fin 1) q)
      = (xo12 (ix3 (0 : Fin 1) (0 : Fin 1) q) : EReal) + ∑ p : Fin 2000, Cert.Spec.act (Cert.Spec.tiles ![x0, x1, x2, x3, x4, x5, x6, x7, x8]) x9 p q * Cert.Spec.act (Cert.Spec.tiles ![x0, x1, x2, x3, x4, x5, x6, x7, x8]) x9 p q := by
  rw [outB12_piece]
  exact bodySq_apply x0 x1 x2 x3 x4 x5 x6 x7 x8 x9 xo12 q
end

end Cert.R0Point
end
-- ==== Proof.R0ArrayPoints.lean ====
import proofs.«180816_j45861660786969_2_alg».proof.Proof.Gen.KernelIdeal.Frame
import proofs.«180816_j45861660786969_2_alg».proof.Proof.Spec
import proofs.«180816_j45861660786969_2_alg».proof.Proof.R0ArrayBlocks
import proofs.«180816_j45861660786969_2_alg».proof.Proof.R0ArrayFold
import proofs.«180816_j45861660786969_2_alg».proof.Proof.R0Point
import Idealize.ShloMosaic.Lib.Pipeline.Value
import Idealize.ShloMosaic.Lib.ValueIdx

noncomputable section

open scoped BigOperators

namespace Cert.R0Array

open Idealize.ShloMosaic Idealize.ShloMosaic.ValueIdx Idealize.ShloMosaic.TcCoe Idealize.SL.Sem
open Cert.KernelIdeal Cert.KernelIdeal.Gen

variable (V : (c : Dev nD) → (b : Ref sig .tc) → Buf (Elt Ideal) ((c : Thread nD τ).loc b))

/-! Region 0's three outputs after each grid point, entry by entry.

With `Y` the rectified convolution of the nine tap tables `X` and the weights `wt` the region finds, the tile
output after point `t` holds rows `t * 2000 … t * 2000 + 1999` of `Y`; the two running column statistics restart
from the zero word at the first point of a half and otherwise add the point's column sums (of `Y`, of its squares)
onto what the point before left. -/

/-- What the region finds in its ten input arrays, named: the nine tap tables and the weights. -/
structure Finds (c : Dev nD) (X : Fin 9 → Fin 1000000 → Fin 32 → EReal) (wt : Cert.Spec.SW.Idx → EReal) : Prop where
  h0 : ∀ i f, (V c main_v13 : S1000000x32.Idx → EReal) (ix2 i f) = X 0 i f
  h1 : ∀ i f, (V c main_v27 : S1000000x32.Idx → EReal) (ix2 i f) = X 1 i f
  h2 : ∀ i f, (V c main_v41 : S1000000x32.Idx → EReal) (ix2 i f) = X 2 i f
  h3 : ∀ i f, (V c main_v55 : S1000000x32.Idx → EReal) (ix2 i f) = X 3 i f
  h4 : ∀ i f, (V c main_v69 : S1000000x32.Idx → EReal) (ix2 i f) = X 4 i f
  h5 : ∀ i f, (V c main_v83 : S1000000x32.Idx → EReal) (ix2 i f) = X 5 i f
  h6 : ∀ i f, (V c main_v97 : S1000000x32.Idx → EReal) (ix2 i f) = X 6 i f
  h7 : ∀ i f, (V c main_v111 : S1000000x32.Idx → EReal) (ix2 i f) = X 7 i f
  h8 : ∀ i f, (V c main_v125 : S1000000x32.Idx → EReal) (ix2 i f) = X 8 i f
  hw : (V c main_arg1 : S9x32x32.Idx → EReal) = wt

/-- Nine tiles that are rows `r p` of nine tables, and the whole weights: the tiles' rectified convolution at row `p`
    is the tables' at row `r p`. -/
theorem act_tiles (X : Fin 9 → Fin 1000000 → Fin 32 → EReal) (wt : Cert.Spec.SW.Idx → EReal)
    (x0 x1 x2 x3 x4 x5 x6 x7 x8 : Vec Ideal S2000x32 .f32) (x9 : Vec Ideal S9x32x32 .f32) (r : Fin 2000 → Fin 1000000)
    (e0 : ∀ p f, x0 (ix2 p f) = X 0 (r p) f)
    (e1 : ∀ p f, x1 (ix2 p f) = X 1 (r p) f)
    (e2 : ∀ p f, x2 (ix2 p f) = X 2 (r p) f)
    (e3 : ∀ p f, x3 (ix2 p f) = X 3 (r p) f)
    (e4 : ∀ p f, x4 (ix2 p f) = X 4 (r p) f)
    (e5 : ∀ p f, x5 (ix2 p f) = X 5 (r p) f)
    (e6 : ∀ p f, x6 (ix2 p f) = X 6 (r p) f)
    (e7 : ∀ p f, x7 (ix2 p f) = X 7 (r p) f)
    (e8 : ∀ p f, x8 (ix2 p f) = X 8 (r p) f)
    (e9 : (x9 : S9x32x32.Idx → EReal) = wt) (p : Fin 2000) (q : Fin 32) :
    Cert.Spec.act (Cert.Spec.tiles ![x0, x1, x2, x3, x4, x5, x6, x7, x8]) x9 p q = Cert.Spec.act X wt (r p) q := by
  have hT : Cert.Spec.tiles ![x0, x1, x2, x3, x4, x5, x6, x7, x8] = fun k i f => X k (r i) f := by
    funext k i f
    match k with
    | ⟨0, _⟩ => exact e0 i f
    | ⟨1, _⟩ => exact e1 i f
    | ⟨2, _⟩ => exact e2 i f
    | ⟨3, _⟩ => exact e3 i f
    | ⟨4, _⟩ => exact e4 i f
    | ⟨5, _⟩ => exact e5 i f
    | ⟨6, _⟩ => exact e6 i f
    | ⟨7, _⟩ => exact e7 i f
    | ⟨8, _⟩ => exact e8 i f
  rw [hT, e9]
  exact Cert.Spec.act_rows X wt r p q

section
variable (c : Dev nD) (X : Fin 9 → Fin 1000000 → Fin 32 → EReal) (wt : Cert.Spec.SW.Idx → EReal) (H : Finds V c X wt)
include H

/-- The blocks of point `t` are such tiles: the rectified convolution of the blocks at row `p` is the tables' at
    row `t * 2000 + p`. -/
theorem tile_act (t : Fin cfg0.N) (p : Fin 2000) (q : Fin 32) :
    Cert.Spec.act (Cert.Spec.tiles ![iblk0 (F := Ideal) V c 0 t, iblk0 (F := Ideal) V c 1 t, iblk0 (F := Ideal) V c 2 t, iblk0 (F := Ideal) V c 3 t, iblk0 (F := Ideal) V c 4 t, iblk0 (F := Ideal) V c 5 t, iblk0 (F := Ideal) V c 6 t, iblk0 (F := Ideal) V c 7 t, iblk0 (F := Ideal) V c 8 t]) (iblk0 (F := Ideal) V c 9 t) p q = Cert.Spec.act X wt (rowOf t p) q :=
  act_tiles X wt (iblk0 (F := Ideal) V c 0 t) (iblk0 (F := Ideal) V c 1 t) (iblk0 (F := Ideal) V c 2 t) (iblk0 (F := Ideal) V c 3 t) (iblk0 (F := Ideal) V c 4 t) (iblk0 (F := Ideal) V c 5 t) (iblk0 (F := Ideal) V c 6 t) (iblk0 (F := Ideal) V c 7 t) (iblk0 (F := Ideal) V c 8 t) (iblk0 (F := Ideal) V c 9 t) (rowOf t)
    (fun p f => (blk_0 V c t p f (row_lt t p)).trans (H.h0 _ f))
    (fun p f => (blk_1 V c t p f (row_lt t p)).trans (H.h1 _ f))
    (fun p f => (blk_2 V c t p f (row_lt t p)).trans (H.h2 _ f))
    (fun p f => (blk_3 V c t p f (row_lt t p)).trans (H.h3 _ f))
    (fun p f => (blk_4 V c t p f (row_lt t p)).trans (H.h4 _ f))
    (fun p f => (blk_5 V c t p f (row_lt t p)).trans (H.h5 _ f))
    (fun p f => (blk_6 V c t p f (row_lt t p)).trans (H.h6 _ f))
    (fun p f => (blk_7 V c t p f (row_lt t p)).trans (H.h7 _ f))
    (fun p f => (blk_8 V c t p f (row_lt t p)).trans (H.h8 _ f))
    ((blk_9 V c t).trans H.hw) p q

/-- The tile output after point `t`: rows `t * 2000 + p` of the rectified convolution, in both cases of the point. -/
theorem out10_entry (t : Fin cfg0.N) (p : Fin 2000) (q : Fin 32) :
    ((outsAt0 (F := Ideal) V c t.val t.isLt).1 : Vec Ideal S2000x32 .f32) (ix2 p q) = Cert.Spec.act X wt (rowOf t p) q := by
  by_cases hA : t.val % 250 = 0
  · rw [outsAt0_A V c t hA]
    dsimp only
    exact (Cert.R0Point.outA10_entry (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := ms0_9 t) (harg11 := hs0_9 t) (arg12 := ms0_10 t) (harg12 := hs0_10 t) (arg13 := ms0_11 t) (harg13 := hs0_11 t) (arg14 := ms0_12 t) (harg14 := hs0_12 t) (hc0 := (hcond0_0 t).mpr hA) (x0 := iblk0 (F := Ideal) V c 0 t) (x1 := iblk0 (F := Ideal) V c 1 t) (x2 := iblk0 (F := Ideal) V c 2 t) (x3 := iblk0 (F := Ideal) V c 3 t) (x4 := iblk0 (F := Ideal) V c 4 t) (x5 := iblk0 (F := Ideal) V c 5 t) (x6 := iblk0 (F := Ideal) V c 6 t) (x7 := iblk0 (F := Ideal) V c 7 t) (x8 := iblk0 (F := Ideal) V c 8 t) (x9 := iblk0 (F := Ideal) V c 9 t) (p := p) (q := q)).trans (tile_act V c X wt H t p q)
  · have hB := hA
    rw [outsAt0_B V c t hB]
    dsimp only
    exact (Cert.R0Point.outB10_entry (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := ms0_9 t) (harg11 := hs0_9 t) (arg12 := ms0_10 t) (harg12 := hs0_10 t) (arg13 := ms0_11 t) (harg13 := hs0_11 t) (arg14 := ms0_12 t) (harg14 := hs0_12 t) (hc0 := fun h => hB ((hcond0_0 t).mp h)) (x0 := iblk0 (F := Ideal) V c 0 t) (x1 := iblk0 (F := Ideal) V c 1 t) (x2 := iblk0 (F := Ideal) V c 2 t) (x3 := iblk0 (F := Ideal) V c 3 t) (x4 := iblk0 (F := Ideal) V c 4 t) (x5 := iblk0 (F := Ideal) V c 5 t) (x6 := iblk0 (F := Ideal) V c 6 t) (x7 := iblk0 (F := Ideal) V c 7 t) (x8 := iblk0 (F := Ideal) V c 8 t) (x9 := iblk0 (F := Ideal) V c 9 t) (xo11 := (outsAt0 (F := Ideal) V c (t.val - 1) (Nat.lt_of_le_of_lt (Nat.sub_le _ _) t.isLt)).2.1) (xo12 := (outsAt0 (F := Ideal) V c (t.val - 1) (Nat.lt_of_le_of_lt (Nat.sub_le _ _) t.isLt)).2.2) (p := p) (q := q)).trans (tile_act V c X wt H t p q)

/-- The running column sum at the first point of a half: the zero word plus the tile's column sum. -/
theorem out11_A (t : Fin cfg0.N) (hA : t.val % 250 = 0) (q : Fin 32) :
    ((outsAt0 (F := Ideal) V c t.val t.isLt).2.1 : Vec Ideal S1x1x32 .f32) (ix3 (0 : Fin 1) (0 : Fin 1) q)
      = Cert.Spec.Z + ∑ p : Fin 2000, Cert.Spec.act X wt (rowOf t p) q := by
  rw [outsAt0_A V c t hA]
  dsimp only
  refine (Cert.R0Point.outA11_entry (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := ms0_9 t) (harg11 := hs0_9 t) (arg12 := ms0_10 t) (harg12 := hs0_10 t) (arg13 := ms0_11 t) (harg13 := hs0_11 t) (arg14 := ms0_12 t) (harg14 := hs0_12 t) (hc0 := (hcond0_0 t).mpr hA) (x0 := iblk0 (F := Ideal) V c 0 t) (x1 := iblk0 (F := Ideal) V c 1 t) (x2 := iblk0 (F := Ideal) V c 2 t) (x3 := iblk0 (F := Ideal) V c 3 t) (x4 := iblk0 (F := Ideal) V c 4 t) (x5 := iblk0 (F := Ideal) V c 5 t) (x6 := iblk0 (F := Ideal) V c 6 t) (x7 := iblk0 (F := Ideal) V c 7 t) (x8 := iblk0 (F := Ideal) V c 8 t) (x9 := iblk0 (F := Ideal) V c 9 t) (q := q)).trans ?_
  exact congrArg (fun s => Cert.Spec.Z + s) (Finset.sum_congr rfl fun p _ => tile_act V c X wt H t p q)

/-- The running column sum at any other point: what the point before left plus the tile's column sum. -/
theorem out11_B (t : Fin cfg0.N) (hB : ¬t.val % 250 = 0) (q : Fin 32) :
    ((outsAt0 (F := Ideal) V c t.val t.isLt).2.1 : Vec Ideal S1x1x32 .f32) (ix3 (0 : Fin 1) (0 : Fin 1) q)
      = ((outsAt0 (F := Ideal) V c (t.val - 1) (Nat.lt_of_le_of_lt (Nat.sub_le _ _) t.isLt)).2.1 : Vec Ideal S1x1x32 .f32) (ix3 (0 : Fin 1) (0 : Fin 1) q) + ∑ p : Fin 2000, Cert.Spec.act X wt (rowOf t p) q := by
  rw [outsAt0_B V c t hB]
  dsimp only
  refine (Cert.R0Point.outB11_entry (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := ms0_9 t) (harg11 := hs0_9 t) (arg12 := ms0_10 t) (harg12 := hs0_10 t) (arg13 := ms0_11 t) (harg13 := hs0_11 t) (arg14 := ms0_12 t) (harg14 := hs0_12 t) (hc0 := fun h => hB ((hcond0_0 t).mp h)) (x0 := iblk0 (F := Ideal) V c 0 t) (x1 := iblk0 (F := Ideal) V c 1 t) (x2 := iblk0 (F := Ideal) V c 2 t) (x3 := iblk0 (F := Ideal) V c 3 t) (x4 := iblk0 (F := Ideal) V c 4 t) (x5 := iblk0 (F := Ideal) V c 5 t) (x6 := iblk0 (F := Ideal) V c 6 t) (x7 := iblk0 (F := Ideal) V c 7 t) (x8 := iblk0 (F := Ideal) V c 8 t) (x9 := iblk0 (F := Ideal) V c 9 t) (xo11 := (outsAt0 (F := Ideal) V c (t.val - 1) (Nat.lt_of_le_of_lt (Nat.sub_le _ _) t.isLt)).2.1) (xo12 := (outsAt0 (F := Ideal) V c (t.val - 1) (Nat.lt_of_le_of_lt (Nat.sub_le _ _) t.isLt)).2.2) (q := q)).trans ?_
  exact congrArg (fun s => ((outsAt0 (F := Ideal) V c (t.val - 1) (Nat.lt_of_le_of_lt (Nat.sub_le _ _) t.isLt)).2.1 : Vec Ideal S1x1x32 .f32) (ix3 (0 : Fin 1) (0 : Fin 1) q) + s) (Finset.sum_congr rfl fun p _ => tile_act V c X wt H t p q)

/-- The running column sum of squares at the first point of a half. -/
theorem out12_A (t : Fin cfg0.N) (hA : t.val % 250 = 0) (q : Fin 32) :
    ((outsAt0 (F := Ideal) V c t.val t.isLt).2.2 : Vec Ideal S1x1x32 .f32) (ix3 (0 : Fin 1) (0 : Fin 1) q)
      = Cert.Spec.Z + ∑ p : Fin 2000, Cert.Spec.act X wt (rowOf t p) q * Cert.Spec.act X wt (rowOf t p) q := by
  rw [outsAt0_A V c t hA]
  dsimp only
  refine (Cert.R0Point.outA12_entry (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := ms0_9 t) (harg11 := hs0_9 t) (arg12 := ms0_10 t) (harg12 := hs0_10 t) (arg13 := ms0_11 t) (harg13 := hs0_11 t) (arg14 := ms0_12 t) (harg14 := hs0_12 t) (hc0 := (hcond0_0 t).mpr hA) (x0 := iblk0 (F := Ideal) V c 0 t) (x1 := iblk0 (F := Ideal) V c 1 t) (x2 := iblk0 (F := Ideal) V c 2 t) (x3 := iblk0 (F := Ideal) V c 3 t) (x4 := iblk0 (F := Ideal) V c 4 t) (x5 := iblk0 (F := Ideal) V c 5 t) (x6 := iblk0 (F := Ideal) V c 6 t) (x7 := iblk0 (F := Ideal) V c 7 t) (x8 := iblk0 (F := Ideal) V c 8 t) (x9 := iblk0 (F := Ideal) V c 9 t) (q := q)).trans ?_
  exact congrArg (fun s => Cert.Spec.Z + s) (Finset.sum_congr rfl fun p _ => congrArg₂ (· * ·) (tile_act V c X wt H t p q) (tile_act V c X wt H t p q))

/-- The running column sum of squares at any other point. -/
theorem out12_B (t : Fin cfg0.N) (hB : ¬t.val % 250 = 0) (q : Fin 32) :
    ((outsAt0 (F := Ideal) V c t.val t.isLt).2.2 : Vec Ideal S1x1x32 .f32) (ix3 (0 : Fin 1) (0 : Fin 1) q)
      = ((outsAt0 (F := Ideal) V c (t.val - 1) (Nat.lt_of_le_of_lt (Nat.sub_le _ _) t.isLt)).2.2 : Vec Ideal S1x1x32 .f32) (ix3 (0 : Fin 1) (0 : Fin 1) q) + ∑ p : Fin 2000, Cert.Spec.act X wt (rowOf t p) q * Cert.Spec.act X wt (rowOf t p) q := by
  rw [outsAt0_B V c t hB]
  dsimp only
  refine (Cert.R0Point.outB12_entry (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := ms0_9 t) (harg11 := hs0_9 t) (arg12 := ms0_10 t) (harg12 := hs0_10 t) (arg13 := ms0_11 t) (harg13 := hs0_11 t) (arg14 := ms0_12 t) (harg14 := hs0_12 t) (hc0 := fun h => hB ((hcond0_0 t).mp h)) (x0 := iblk0 (F := Ideal) V c 0 t) (x1 := iblk0 (F := Ideal) V c 1 t) (x2 := iblk0 (F := Ideal) V c 2 t) (x3 := iblk0 (F := Ideal) V c 3 t) (x4 := iblk0 (F := Ideal) V c 4 t) (x5 := iblk0 (F := Ideal) V c 5 t) (x6 := iblk0 (F := Ideal) V c 6 t) (x7 := iblk0 (F := Ideal) V c 7 t) (x8 := iblk0 (F := Ideal) V c 8 t) (x9 := iblk0 (F := Ideal) V c 9 t) (xo11 := (outsAt0 (F := Ideal) V c (t.val - 1) (Nat.lt_of_le_of_lt (Nat.sub_le _ _) t.isLt)).2.1) (xo12 := (outsAt0 (F := Ideal) V c (t.val - 1) (Nat.lt_of_le_of_lt (Nat.sub_le _ _) t.isLt)).2.2) (q := q)).trans ?_
  exact congrArg (fun s => ((outsAt0 (F := Ideal) V c (t.val - 1) (Nat.lt_of_le_of_lt (Nat.sub_le _ _) t.isLt)).2.2 : Vec Ideal S1x1x32 .f32) (ix3 (0 : Fin 1) (0 : Fin 1) q) + s) (Finset.sum_congr rfl fun p _ => congrArg₂ (· * ·) (tile_act V c X wt H t p q) (tile_act V c X wt H t p q))

end

end Cert.R0Array

end
-- ==== Proof.R0Array.lean ====
import proofs.«180816_j45861660786969_2_alg».proof.Proof.Gen.KernelIdeal.Frame
import proofs.«180816_j45861660786969_2_alg».proof.Proof.Spec
import proofs.«180816_j45861660786969_2_alg».proof.Proof.R0ArrayBlocks
import proofs.«180816_j45861660786969_2_alg».proof.Proof.R0ArrayFold
import proofs.«180816_j45861660786969_2_alg».proof.Proof.R0ArrayPoints
import Idealize.ShloMosaic.Lib.Pipeline.Value
import Idealize.ShloMosaic.Lib.ValueIdx

noncomputable section

open scoped BigOperators

namespace Cert.R0Array

open Idealize.ShloMosaic Idealize.ShloMosaic.ValueIdx Idealize.ShloMosaic.TcCoe Idealize.SL.Sem
open Cert.KernelIdeal Cert.KernelIdeal.Gen

variable (V : (c : Dev nD) → (b : Ref sig .tc) → Buf (Elt Ideal) ((c : Thread nD τ).loc b))

/-! Region 0's three output arrays after the whole grid.

Every point writes its tile of the first output back, and the tiles cover the million rows: the array ends holding the
rectified convolution `Y`, entry by entry. The two column statistics are written back by the last point of each half
only (points 249 and 499), each into its half's row of a [2,1,32] array, and what is written is the half's running
total: the sum over the half's 250 tiles of the tile's column sums of `Y`, and of its squares. -/

/-- The first output's whole array: `Y` read by coordinates. -/
abbrev G10 (Y : Fin 1000000 → Fin 32 → EReal) : S1000000x32.Idx → EReal := fun i => Y (i 0) (i 1)
/-- The second and third outputs' whole arrays: a per-half, per-column statistic read by coordinates. -/
abbrev Gh (S : Fin 2 → Fin 32 → EReal) : S2x1x32.Idx → EReal := fun i => S (i 0) (i 2)

/-- The first output's block sits at block row `t`, block column 0. -/
theorem idx_10 : ∀ t : Fin cfg0.N, win0_10.index t (0 : Fin 2) = t.val ∧ win0_10.index t (1 : Fin 2) = 0 :=
  (by decide +kernel : ∀ t : Fin grid0.N, win0_10.index t (0 : Fin 2) = t.val ∧ win0_10.index t (1 : Fin 2) = 0)

/-- An index of the table is in point `t`'s block iff each coordinate is in the block's range on its axis. -/
theorem mem_blk_10 (t : Fin cfg0.N) (i : S1000000x32.Idx) :
    i ∈ ((cfg0.win 10).blk t).view.set ↔ ∀ a : Fin 2, win0_10.index t a * S2000x32.size a ≤ (i a).val ∧ (i a).val < win0_10.index t a * S2000x32.size a + S2000x32.size a := by
  show i ∈ ((View.whole main_v126_0).slice (win0_10.rect t)).set ↔ _
  rw [View.set_slice_whole, Rect.mem_set_unit]
  exact Iff.rfl

/-- Row `r` of the table is covered by point `r / 2000`, which writes its tile back. -/
theorem cover_10 (i : S1000000x32.Idx) : ∃ t : Fin cfg0.N, (cfg0.win 10).flush t = true ∧ i ∈ ((cfg0.win 10).blk t).view.set := by
  have hN : cfg0.N = 500 := N_0
  have hi0 : (i 0).val < 1000000 := (i 0).isLt
  have hi1 : (i 1).val < 32 := (i 1).isLt
  have hlt : (i 0).val / 2000 < cfg0.N := by omega
  obtain ⟨e0, e1⟩ := idx_10 ⟨(i 0).val / 2000, hlt⟩
  refine ⟨⟨(i 0).val / 2000, hlt⟩, flush0_10 _, ?_⟩
  rw [mem_blk_10]
  intro a
  match a with
  | ⟨0, _⟩ =>
    show win0_10.index ⟨(i 0).val / 2000, hlt⟩ (0 : Fin 2) * 2000 ≤ (i 0).val ∧ (i 0).val < win0_10.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win0_10.index ⟨(i 0).val / 2000, hlt⟩ (1 : Fin 2) * 32 ≤ (i 1).val ∧ (i 1).val < win0_10.index ⟨(i 0).val / 2000, hlt⟩ (1 : Fin 2) * 32 + 32
    rw [e1]; omega

/-- Output 11's block sits at block row `t / 250` (the half), at the origin of the other two axes. -/
theorem idx_11 : ∀ t : Fin cfg0.N, win0_11.index t (0 : Fin 3) = t.val / 250 ∧ win0_11.index t (1 : Fin 3) = 0 ∧ win0_11.index t (2 : Fin 3) = 0 :=
  (by decide +kernel : ∀ t : Fin grid0.N, win0_11.index t (0 : Fin 3) = t.val / 250 ∧ win0_11.index t (1 : Fin 3) = 0 ∧ win0_11.index t (2 : Fin 3) = 0)

/-- An index of the [2,1,32] array is in point `t`'s block iff each coordinate is in the block's range on its axis. -/
theorem mem_blk_11 (t : Fin cfg0.N) (i : S2x1x32.Idx) :
    i ∈ ((cfg0.win 11).blk t).view.set ↔ ∀ a : Fin 3, win0_11.index t a * S1x1x32.size a ≤ (i a).val ∧ (i a).val < win0_11.index t a * S1x1x32.size a + S1x1x32.size a := by
  show i ∈ ((View.whole main_v126_1).slice (win0_11.rect t)).set ↔ _
  rw [View.set_slice_whole, Rect.mem_set_unit]
  exact Iff.rfl

/-- Each half's last point covers that half's row of the array, and writes it back. -/
theorem cover_11 (i : S2x1x32.Idx) : ∃ t : Fin cfg0.N, (cfg0.win 11).flush t = true ∧ i ∈ ((cfg0.win 11).blk t).view.set := by
  have hN : cfg0.N = 500 := N_0
  have hi0 : (i 0).val < 2 := (i 0).isLt
  have hi1 : (i 1).val < 1 := (i 1).isLt
  have hi2 : (i 2).val < 32 := (i 2).isLt
  have hlt : 250 * (i 0).val + 249 < cfg0.N := by omega
  obtain ⟨e0, e1, e2⟩ := idx_11 ⟨250 * (i 0).val + 249, hlt⟩
  refine ⟨⟨250 * (i 0).val + 249, hlt⟩, (flush0_11 _).mpr (by show (250 * (i 0).val + 249) % 250 = 249; omega), ?_⟩
  rw [mem_blk_11]
  intro a
  match a with
  | ⟨0, _⟩ =>
    show win0_11.index ⟨250 * (i 0).val + 249, hlt⟩ (0 : Fin 3) * 1 ≤ (i 0).val ∧ (i 0).val < win0_11.index ⟨250 * (i 0).val + 249, hlt⟩ (0 : Fin 3) * 1 + 1
    rw [e0]
    show (250 * (i 0).val + 249) / 250 * 1 ≤ (i 0).val ∧ (i 0).val < (250 * (i 0).val + 249) / 250 * 1 + 1
    omega
  | ⟨1, _⟩ =>
    show win0_11.index ⟨250 * (i 0).val + 249, hlt⟩ (1 : Fin 3) * 1 ≤ (i 1).val ∧ (i 1).val < win0_11.index ⟨250 * (i 0).val + 249, hlt⟩ (1 : Fin 3) * 1 + 1
    rw [e1]; omega
  | ⟨2, _⟩ =>
    show win0_11.index ⟨250 * (i 0).val + 249, hlt⟩ (2 : Fin 3) * 32 ≤ (i 2).val ∧ (i 2).val < win0_11.index ⟨250 * (i 0).val + 249, hlt⟩ (2 : Fin 3) * 32 + 32
    rw [e2]; omega

/-- Output 12's block sits at block row `t / 250` (the half), at the origin of the other two axes. -/
theorem idx_12 : ∀ t : Fin cfg0.N, win0_12.index t (0 : Fin 3) = t.val / 250 ∧ win0_12.index t (1 : Fin 3) = 0 ∧ win0_12.index t (2 : Fin 3) = 0 :=
  (by decide +kernel : ∀ t : Fin grid0.N, win0_12.index t (0 : Fin 3) = t.val / 250 ∧ win0_12.index t (1 : Fin 3) = 0 ∧ win0_12.index t (2 : Fin 3) = 0)

/-- An index of the [2,1,32] array is in point `t`'s block iff each coordinate is in the block's range on its axis. -/
theorem mem_blk_12 (t : Fin cfg0.N) (i : S2x1x32.Idx) :
    i ∈ ((cfg0.win 12).blk t).view.set ↔ ∀ a : Fin 3, win0_12.index t a * S1x1x32.size a ≤ (i a).val ∧ (i a).val < win0_12.index t a * S1x1x32.size a + S1x1x32.size a := by
  show i ∈ ((View.whole main_v126_2).slice (win0_12.rect t)).set ↔ _
  rw [View.set_slice_whole, Rect.mem_set_unit]
  exact Iff.rfl

/-- Each half's last point covers that half's row of the array, and writes it back. -/
theorem cover_12 (i : S2x1x32.Idx) : ∃ t : Fin cfg0.N, (cfg0.win 12).flush t = true ∧ i ∈ ((cfg0.win 12).blk t).view.set := by
  have hN : cfg0.N = 500 := N_0
  have hi0 : (i 0).val < 2 := (i 0).isLt
  have hi1 : (i 1).val < 1 := (i 1).isLt
  have hi2 : (i 2).val < 32 := (i 2).isLt
  have hlt : 250 * (i 0).val + 249 < cfg0.N := by omega
  obtain ⟨e0, e1, e2⟩ := idx_12 ⟨250 * (i 0).val + 249, hlt⟩
  refine ⟨⟨250 * (i 0).val + 249, hlt⟩, (flush0_12 _).mpr (by show (250 * (i 0).val + 249) % 250 = 249; omega), ?_⟩
  rw [mem_blk_12]
  intro a
  match a with
  | ⟨0, _⟩ =>
    show win0_12.index ⟨250 * (i 0).val + 249, hlt⟩ (0 : Fin 3) * 1 ≤ (i 0).val ∧ (i 0).val < win0_12.index ⟨250 * (i 0).val + 249, hlt⟩ (0 : Fin 3) * 1 + 1
    rw [e0]
    show (250 * (i 0).val + 249) / 250 * 1 ≤ (i 0).val ∧ (i 0).val < (250 * (i 0).val + 249) / 250 * 1 + 1
    omega
  | ⟨1, _⟩ =>
    show win0_12.index ⟨250 * (i 0).val + 249, hlt⟩ (1 : Fin 3) * 1 ≤ (i 1).val ∧ (i 1).val < win0_12.index ⟨250 * (i 0).val + 249, hlt⟩ (1 : Fin 3) * 1 + 1
    rw [e1]; omega
  | ⟨2, _⟩ =>
    show win0_12.index ⟨250 * (i 0).val + 249, hlt⟩ (2 : Fin 3) * 32 ≤ (i 2).val ∧ (i 2).val < win0_12.index ⟨250 * (i 0).val + 249, hlt⟩ (2 : Fin 3) * 32 + 32
    rw [e2]; omega

section
variable (c : Dev nD) (X : Fin 9 → Fin 1000000 → Fin 32 → EReal) (wt : Cert.Spec.SW.Idx → EReal) (H : Finds V c X wt)
include H

/-- What point `t` writes back of the first output is its block of `Y`. -/
theorem flushed_10 (t : Fin cfg0.N) :
    (dat0 (F := Ideal) V c).flushed 10 t = ((cfg0.win 10).blk t).view.read (Elt Ideal) (G10 (Cert.Spec.act X wt)) := by
  obtain ⟨e0, e1⟩ := idx_10 t
  show (cfg0.win 10).cut (grid0.coords t) ((dat0 (F := Ideal) V c).after 10 t) = _
  rw [after0_10]
  funext j
  obtain ⟨p, q, rfl⟩ : ∃ (p : Fin 2000) (q : Fin 32), j = ix2 p q := ⟨j 0, j 1, eq_ix2 j⟩
  rw [View.read_apply]
  show ((outsAt0 (F := Ideal) V c t.val t.isLt).1 : Vec Ideal S2000x32 .f32) (ix2 p q)
    = Cert.Spec.act X wt ((((cfg0.win 10).blk t).view.emb (ix2 p q)) 0) ((((cfg0.win 10).blk t).view.emb (ix2 p q)) 1)
  rw [out10_entry V c X wt H t p q]
  refine congrArg₂ (Cert.Spec.act X wt) (Fin.ext ?_) (Fin.ext ?_)
  · show t.val * 2000 + p.val = win0_10.index t (0 : Fin 2) * 2000 + 1 * p.val
    rw [e0]; omega
  · show q.val = win0_10.index t (1 : Fin 2) * 32 + 1 * q.val
    rw [e1]; omega

/-- At the last point of half `h` the running column sum is the half's: the sum over its tiles of the tiles' sums. -/
theorem half_sum_at (t : Fin cfg0.N) (hm : t.val % 250 = 249) (h : Fin 2) (hh : h.val = t.val / 250) (q : Fin 32) :
    ((outsAt0 (F := Ideal) V c t.val t.isLt).2.1 : Vec Ideal S1x1x32 .f32) (ix3 (0 : Fin 1) (0 : Fin 1) q)
      = Cert.Spec.halfSum (Cert.Spec.act X wt) h q := by
  have hN : cfg0.N = 500 := N_0
  have hlt : 250 * h.val + 249 < cfg0.N := by have := h.isLt; omega
  obtain rfl : t = ⟨250 * h.val + 249, hlt⟩ := Fin.ext (by show t.val = 250 * h.val + 249; omega)
  exact fold_half (Cert.Spec.act X wt)
    (fun n hn q => ((outsAt0 (F := Ideal) V c n hn).2.1 : Vec Ideal S1x1x32 .f32) (ix3 (0 : Fin 1) (0 : Fin 1) q))
    (fun t hA q => out11_A V c X wt H t hA q) (fun t hB q => out11_B V c X wt H t hB q) h hlt q

/-- The same for the running column sum of squares. -/
theorem half_sq_at (t : Fin cfg0.N) (hm : t.val % 250 = 249) (h : Fin 2) (hh : h.val = t.val / 250) (q : Fin 32) :
    ((outsAt0 (F := Ideal) V c t.val t.isLt).2.2 : Vec Ideal S1x1x32 .f32) (ix3 (0 : Fin 1) (0 : Fin 1) q)
      = Cert.Spec.halfSq (Cert.Spec.act X wt) h q := by
  have hN : cfg0.N = 500 := N_0
  have hlt : 250 * h.val + 249 < cfg0.N := by have := h.isLt; omega
  obtain rfl : t = ⟨250 * h.val + 249, hlt⟩ := Fin.ext (by show t.val = 250 * h.val + 249; omega)
  exact fold_half (fun r o => Cert.Spec.act X wt r o * Cert.Spec.act X wt r o)
    (fun n hn q => ((outsAt0 (F := Ideal) V c n hn).2.2 : Vec Ideal S1x1x32 .f32) (ix3 (0 : Fin 1) (0 : Fin 1) q))
    (fun t hA q => out12_A V c X wt H t hA q) (fun t hB q => out12_B V c X wt H t hB q) h hlt q

/-- What a half's last point writes back of the second output is its block of the per-half column sums. -/
theorem flushed_11 (t : Fin cfg0.N) (hf : (cfg0.win 11).flush t = true) :
    (dat0 (F := Ideal) V c).flushed 11 t = ((cfg0.win 11).blk t).view.read (Elt Ideal) (Gh (Cert.Spec.halfSum (Cert.Spec.act X wt))) := by
  have hN : cfg0.N = 500 := N_0
  have hm : t.val % 250 = 249 := (flush0_11 t).mp hf
  obtain ⟨e0, e1, e2⟩ := idx_11 t
  show (cfg0.win 11).cut (grid0.coords t) ((dat0 (F := Ideal) V c).after 11 t) = _
  rw [after0_11]
  funext j
  obtain ⟨a, b, q, rfl⟩ : ∃ (a : Fin 1) (b : Fin 1) (q : Fin 32), j = ix3 a b q := ⟨j 0, j 1, j 2, eq_ix3 j⟩
  obtain rfl : a = 0 := Subsingleton.elim _ _
  obtain rfl : b = 0 := Subsingleton.elim _ _
  rw [View.read_apply]
  show ((outsAt0 (F := Ideal) V c t.val t.isLt).2.1 : Vec Ideal S1x1x32 .f32) (ix3 (0 : Fin 1) (0 : Fin 1) q)
    = Cert.Spec.halfSum (Cert.Spec.act X wt) ((((cfg0.win 11).blk t).view.emb (ix3 (0 : Fin 1) (0 : Fin 1) q)) 0) ((((cfg0.win 11).blk t).view.emb (ix3 (0 : Fin 1) (0 : Fin 1) q)) 2)
  rw [half_sum_at V c X wt H t hm ⟨t.val / 250, by have := t.isLt; omega⟩ rfl q]
  refine congrArg₂ (Cert.Spec.halfSum (Cert.Spec.act X wt)) (Fin.ext ?_) (Fin.ext ?_)
  · show t.val / 250 = win0_11.index t (0 : Fin 3) * 1 + 1 * 0
    rw [e0]; omega
  · show q.val = win0_11.index t (2 : Fin 3) * 32 + 1 * q.val
    rw [e2]; omega

/-- What a half's last point writes back of the third output is its block of the per-half column sums of squares. -/
theorem flushed_12 (t : Fin cfg0.N) (hf : (cfg0.win 12).flush t = true) :
    (dat0 (F := Ideal) V c).flushed 12 t = ((cfg0.win 12).blk t).view.read (Elt Ideal) (Gh (Cert.Spec.halfSq (Cert.Spec.act X wt))) := by
  have hN : cfg0.N = 500 := N_0
  have hm : t.val % 250 = 249 := (flush0_12 t).mp hf
  obtain ⟨e0, e1, e2⟩ := idx_12 t
  show (cfg0.win 12).cut (grid0.coords t) ((dat0 (F := Ideal) V c).after 12 t) = _
  rw [after0_12]
  funext j
  obtain ⟨a, b, q, rfl⟩ : ∃ (a : Fin 1) (b : Fin 1) (q : Fin 32), j = ix3 a b q := ⟨j 0, j 1, j 2, eq_ix3 j⟩
  obtain rfl : a = 0 := Subsingleton.elim _ _
  obtain rfl : b = 0 := Subsingleton.elim _ _
  rw [View.read_apply]
  show ((outsAt0 (F := Ideal) V c t.val t.isLt).2.2 : Vec Ideal S1x1x32 .f32) (ix3 (0 : Fin 1) (0 : Fin 1) q)
    = Cert.Spec.halfSq (Cert.Spec.act X wt) ((((cfg0.win 12).blk t).view.emb (ix3 (0 : Fin 1) (0 : Fin 1) q)) 0) ((((cfg0.win 12).blk t).view.emb (ix3 (0 : Fin 1) (0 : Fin 1) q)) 2)
  rw [half_sq_at V c X wt H t hm ⟨t.val / 250, by have := t.isLt; omega⟩ rfl q]
  refine congrArg₂ (Cert.Spec.halfSq (Cert.Spec.act X wt)) (Fin.ext ?_) (Fin.ext ?_)
  · show t.val / 250 = win0_12.index t (0 : Fin 3) * 1 + 1 * 0
    rw [e0]; omega
  · show q.val = win0_12.index t (2 : Fin 3) * 32 + 1 * q.val
    rw [e2]; omega

/-- The three arrays after the grid. -/
theorem arr_10 : (dat0 (F := Ideal) V c).arrAt 10 cfg0.N = G10 (Cert.Spec.act X wt) :=
  (dat0 (F := Ideal) V c).arrAt_eq_of_cover 10 (G10 (Cert.Spec.act X wt)) (fun t _ => flushed_10 V c X wt H t) cover_10
theorem arr_11 : (dat0 (F := Ideal) V c).arrAt 11 cfg0.N = Gh (Cert.Spec.halfSum (Cert.Spec.act X wt)) :=
  (dat0 (F := Ideal) V c).arrAt_eq_of_cover 11 (Gh (Cert.Spec.halfSum (Cert.Spec.act X wt))) (fun t hf => flushed_11 V c X wt H t hf) cover_11
theorem arr_12 : (dat0 (F := Ideal) V c).arrAt 12 cfg0.N = Gh (Cert.Spec.halfSq (Cert.Spec.act X wt)) :=
  (dat0 (F := Ideal) V c).arrAt_eq_of_cover 12 (Gh (Cert.Spec.halfSq (Cert.Spec.act X wt))) (fun t hf => flushed_12 V c X wt H t hf) cover_12

end

/-- The first output array after the grid, at an entry: the rectified convolution of what the region found. -/
theorem act_array (c : Dev nD) (X : Fin 9 → Fin 1000000 → Fin 32 → EReal) (wt : Cert.Spec.SW.Idx → EReal)
    (h0 : ∀ i f, (V c main_v13 : S1000000x32.Idx → EReal) (ix2 i f) = X 0 i f)
    (h1 : ∀ i f, (V c main_v27 : S1000000x32.Idx → EReal) (ix2 i f) = X 1 i f)
    (h2 : ∀ i f, (V c main_v41 : S1000000x32.Idx → EReal) (ix2 i f) = X 2 i f)
    (h3 : ∀ i f, (V c main_v55 : S1000000x32.Idx → EReal) (ix2 i f) = X 3 i f)
    (h4 : ∀ i f, (V c main_v69 : S1000000x32.Idx → EReal) (ix2 i f) = X 4 i f)
    (h5 : ∀ i f, (V c main_v83 : S1000000x32.Idx → EReal) (ix2 i f) = X 5 i f)
    (h6 : ∀ i f, (V c main_v97 : S1000000x32.Idx → EReal) (ix2 i f) = X 6 i f)
    (h7 : ∀ i f, (V c main_v111 : S1000000x32.Idx → EReal) (ix2 i f) = X 7 i f)
    (h8 : ∀ i f, (V c main_v125 : S1000000x32.Idx → EReal) (ix2 i f) = X 8 i f)
    (hw : (V c main_arg1 : S9x32x32.Idx → EReal) = wt) (i : Fin 1000000) (o : Fin 32) :
    ((dat0 (F := Ideal) V c).arrAt 10 cfg0.N : S1000000x32.Idx → EReal) (ix2 i o) = Cert.Spec.act X wt i o :=
  congrFun (arr_10 V c X wt ⟨h0, h1, h2, h3, h4, h5, h6, h7, h8, hw⟩) (ix2 i o)

/-- The second output array after the grid: each half's column sums of the rectified convolution. -/
theorem sum_array (c : Dev nD) (X : Fin 9 → Fin 1000000 → Fin 32 → EReal) (wt : Cert.Spec.SW.Idx → EReal)
    (h0 : ∀ i f, (V c main_v13 : S1000000x32.Idx → EReal) (ix2 i f) = X 0 i f)
    (h1 : ∀ i f, (V c main_v27 : S1000000x32.Idx → EReal) (ix2 i f) = X 1 i f)
    (h2 : ∀ i f, (V c main_v41 : S1000000x32.Idx → EReal) (ix2 i f) = X 2 i f)
    (h3 : ∀ i f, (V c main_v55 : S1000000x32.Idx → EReal) (ix2 i f) = X 3 i f)
    (h4 : ∀ i f, (V c main_v69 : S1000000x32.Idx → EReal) (ix2 i f) = X 4 i f)
    (h5 : ∀ i f, (V c main_v83 : S1000000x32.Idx → EReal) (ix2 i f) = X 5 i f)
    (h6 : ∀ i f, (V c main_v97 : S1000000x32.Idx → EReal) (ix2 i f) = X 6 i f)
    (h7 : ∀ i f, (V c main_v111 : S1000000x32.Idx → EReal) (ix2 i f) = X 7 i f)
    (h8 : ∀ i f, (V c main_v125 : S1000000x32.Idx → EReal) (ix2 i f) = X 8 i f)
    (hw : (V c main_arg1 : S9x32x32.Idx → EReal) = wt) (h : Fin 2) (o : Fin 32) :
    ((dat0 (F := Ideal) V c).arrAt 11 cfg0.N : S2x1x32.Idx → EReal) (ix3 h (0 : Fin 1) o) = Cert.Spec.halfSum (Cert.Spec.act X wt) h o :=
  congrFun (arr_11 V c X wt ⟨h0, h1, h2, h3, h4, h5, h6, h7, h8, hw⟩) (ix3 h (0 : Fin 1) o)

/-- The third output array after the grid: each half's column sums of squares. -/
theorem sq_array (c : Dev nD) (X : Fin 9 → Fin 1000000 → Fin 32 → EReal) (wt : Cert.Spec.SW.Idx → EReal)
    (h0 : ∀ i f, (V c main_v13 : S1000000x32.Idx → EReal) (ix2 i f) = X 0 i f)
    (h1 : ∀ i f, (V c main_v27 : S1000000x32.Idx → EReal) (ix2 i f) = X 1 i f)
    (h2 : ∀ i f, (V c main_v41 : S1000000x32.Idx → EReal) (ix2 i f) = X 2 i f)
    (h3 : ∀ i f, (V c main_v55 : S1000000x32.Idx → EReal) (ix2 i f) = X 3 i f)
    (h4 : ∀ i f, (V c main_v69 : S1000000x32.Idx → EReal) (ix2 i f) = X 4 i f)
    (h5 : ∀ i f, (V c main_v83 : S1000000x32.Idx → EReal) (ix2 i f) = X 5 i f)
    (h6 : ∀ i f, (V c main_v97 : S1000000x32.Idx → EReal) (ix2 i f) = X 6 i f)
    (h7 : ∀ i f, (V c main_v111 : S1000000x32.Idx → EReal) (ix2 i f) = X 7 i f)
    (h8 : ∀ i f, (V c main_v125 : S1000000x32.Idx → EReal) (ix2 i f) = X 8 i f)
    (hw : (V c main_arg1 : S9x32x32.Idx → EReal) = wt) (h : Fin 2) (o : Fin 32) :
    ((dat0 (F := Ideal) V c).arrAt 12 cfg0.N : S2x1x32.Idx → EReal) (ix3 h (0 : Fin 1) o) = Cert.Spec.halfSq (Cert.Spec.act X wt) h o :=
  congrFun (arr_12 V c X wt ⟨h0, h1, h2, h3, h4, h5, h6, h7, h8, hw⟩) (ix3 h (0 : Fin 1) o)

end Cert.R0Array

end
-- ==== Proof.R1Pay.lean ====
/-
  Batch normalisation's arithmetic on one tile, entry by entry.

  The tile has 2000 rows of 32 channels; the mean, the reciprocal deviation, the scale and the shift are vectors of
  32 numbers, one per channel. Each vector is laid out as a single row and that row is repeated under every row of the
  tile, so at row p and channel q the tile meets the vector's q-th number. The tile's entry less the mean, times the
  reciprocal deviation, times the scale, plus the shift is the normalised entry.
-/
import proofs.«180816_j45861660786969_2_alg».proof.Proof.Gen.KernelIdeal.Frame
import proofs.«180816_j45861660786969_2_alg».proof.Proof.Spec
import Idealize.ShloMosaic.Lib.ValueLayout

noncomputable section

namespace Cert.R1Array

open Idealize.ShloMosaic Idealize.ShloMosaic.ValueIdx Idealize.ShloMosaic.TcCoe Idealize.SL.Sem
open Cert.KernelIdeal Cert.KernelIdeal.Gen

/-- A vector of 32 numbers written as one row and repeated under all 2000 rows: at (p, q) it is the vector's q-th. -/
theorem row_repeated (v : Vec Ideal S32 .f32) (p : Fin 2000) (q : Fin 32) :
    broadcastTo S2000x32 (shapeCast S1x32 v shapeCasts_S32_S1x32) broadcasts_S1x32_S2000x32 (ix2 p q) = v (ix1 q) := by
  rw [broadcastTo_1b_ab_apply, shapeCast_a_1a_apply]

/-- The body's arithmetic at row p and channel q of the tile is the normalisation of that entry by channel q's four
    numbers. -/
theorem pay_entry (x0 : Vec Ideal S2000x32 .f32) (x1 x2 x3 x4 : Vec Ideal S32 .f32) (p : Fin 2000) (q : Fin 32) :
    k1_pay1 (F := Ideal) x0 x1 x2 x3 x4 (ix2 p q)
      = Cert.Spec.norm (x0 (ix2 p q)) (x1 (ix1 q)) (x2 (ix1 q)) (x3 (ix1 q)) (x4 (ix1 q)) := by
  unfold k1_pay1
  rw [addf_apply, mulf_apply, mulf_apply, subf_apply]
  simp only [shapeCast_self]
  rw [row_repeated x1 p q, row_repeated x2 p q, row_repeated x3 p q, row_repeated x4 p q]
  rfl

end Cert.R1Array

end
-- ==== Proof.R1Block.lean ====
/-
  One tile's normalisation read against the whole arrays.

  Grid point t works on rows 2000 t … 2000 t + 1999 of the million-row table: its tile's entry (p, q) is the table's
  entry (2000 t + p, q). The four per-channel vectors are staged whole at every point. The point stores one full tile,
  so what it leaves is the body's arithmetic of the tile and the four vectors.
-/
import proofs.«180816_j45861660786969_2_alg».proof.Proof.R1Pay

noncomputable section

namespace Cert.R1Array

open Idealize.ShloMosaic Idealize.ShloMosaic.ValueIdx Idealize.ShloMosaic.TcCoe Idealize.SL.Sem
open Cert.KernelIdeal Cert.KernelIdeal.Gen

theorem zeros2 : (![0, 0] : Fin 2 → Nat) = fun _ => 0 := funext fun a => by fin_cases a <;> rfl
theorem zeros1 : (![0] : Fin 1 → Nat) = fun _ => 0 := funext fun a => by fin_cases a <;> rfl

/-- A single store of the whole tile leaves exactly what was stored: the arithmetic of what was loaded, and each load
    is of a whole buffer. -/
theorem out_eq_pay (x0 : Vec Ideal S2000x32 .f32) (x1 x2 x3 x4 : Vec Ideal S32 .f32) :
    out1_5 (F := Ideal) x0 x1 x2 x3 x4 = k1_pay1 x0 x1 x2 x3 x4 := by
  unfold out1_5
  rw [View.canon_unit_zero zeros2]
  simp only [View.ld_unit_zero (S := S2000x32) zeros2, View.ld_unit_zero (S := S32) zeros1]

/-- Where each window's block sits at grid point t: the tiles of the table and of the result are the t-th block of
    rows and the only block of columns; a vector's block is the only one. -/
theorem block_places : ∀ t : Fin cfg1.N,
    win1_0.index t (0 : Fin 2) = t.val ∧ win1_0.index t (1 : Fin 2) = 0
    ∧ win1_5.index t (0 : Fin 2) = t.val ∧ win1_5.index t (1 : Fin 2) = 0
    ∧ win1_1.index t (0 : Fin 1) = 0 ∧ win1_2.index t (0 : Fin 1) = 0
    ∧ win1_3.index t (0 : Fin 1) = 0 ∧ win1_4.index t (0 : Fin 1) = 0 :=
  (by decide +kernel : ∀ t : Fin grid1.N, _)

variable (V : (c : Dev nD) → (b : Ref sig .tc) → Buf (Elt Ideal) ((c : Thread nD τ).loc b))

/-- The table's tile at point t, entry y, is the table's entry at row 2000 t + y₀ and column y₁ — stated against any
    index k with those coordinates. -/
theorem tile_entry (c : Dev nD) (t : Fin cfg1.N) (y : S2000x32.Idx) (k : S1000000x32.Idx)
    (hk0 : (k 0).val = t.val * 2000 + (y 0).val) (hk1 : (k 1).val = (y 1).val) :
    (iblk1 (F := Ideal) V c 0 t : Vec Ideal S2000x32 .f32) y = (V c main_v126_0 : S1000000x32.Idx → EReal) k := by
  obtain ⟨e0, e1, -⟩ := block_places t
  unfold iblk1
  rw [View.read_apply]
  show V c main_v126_0 _ = V c main_v126_0 k
  refine congrArg _ (funext fun a => Fin.ext ?_)
  match a with
  | ⟨0, _⟩ => show win1_0.index t (0 : Fin 2) * 2000 + 1 * (y 0).val = (k 0).val; rw [e0, hk0]; omega
  | ⟨1, _⟩ => show win1_0.index t (1 : Fin 2) * 32 + 1 * (y 1).val = (k 1).val; rw [e1, hk1]; omega

/-- The vector of the means is staged whole at every point. -/
theorem vec1_block (c : Dev nD) (t : Fin cfg1.N) :
    (iblk1 (F := Ideal) V c 1 t : Vec Ideal S32 .f32) = (V c main_v132 : S32.Idx → EReal) := by
  obtain ⟨-, -, -, -, e, -⟩ := block_places t
  funext y
  unfold iblk1
  rw [View.read_apply]
  show V c main_v132 _ = V c main_v132 y
  refine congrArg _ (funext fun a => Fin.ext ?_)
  match a with
  | ⟨0, _⟩ => show win1_1.index t (0 : Fin 1) * 32 + 1 * (y 0).val = (y 0).val; rw [e]; omega

/-- The vector of the reciprocal deviations is staged whole at every point. -/
theorem vec2_block (c : Dev nD) (t : Fin cfg1.N) :
    (iblk1 (F := Ideal) V c 2 t : Vec Ideal S32 .f32) = (V c main_v139 : S32.Idx → EReal) := by
  obtain ⟨-, -, -, -, -, e, -⟩ := block_places t
  funext y
  unfold iblk1
  rw [View.read_apply]
  show V c main_v139 _ = V c main_v139 y
  refine congrArg _ (funext fun a => Fin.ext ?_)
  match a with
  | ⟨0, _⟩ => show win1_2.index t (0 : Fin 1) * 32 + 1 * (y 0).val = (y 0).val; rw [e]; omega

/-- The vector of the scales is staged whole at every point. -/
theorem vec3_block (c : Dev nD) (t : Fin cfg1.N) :
    (iblk1 (F := Ideal) V c 3 t : Vec Ideal S32 .f32) = (V c main_arg2 : S32.Idx → EReal) := by
  obtain ⟨-, -, -, -, -, -, e, -⟩ := block_places t
  funext y
  unfold iblk1
  rw [View.read_apply]
  show V c main_arg2 _ = V c main_arg2 y
  refine congrArg _ (funext fun a => Fin.ext ?_)
  match a with
  | ⟨0, _⟩ => show win1_3.index t (0 : Fin 1) * 32 + 1 * (y 0).val = (y 0).val; rw [e]; omega

/-- The vector of the shifts is staged whole at every point. -/
theorem vec4_block (c : Dev nD) (t : Fin cfg1.N) :
    (iblk1 (F := Ideal) V c 4 t : Vec Ideal S32 .f32) = (V c main_arg3 : S32.Idx → EReal) := by
  obtain ⟨-, -, -, -, -, -, -, e⟩ := block_places t
  funext y
  unfold iblk1
  rw [View.read_apply]
  show V c main_arg3 _ = V c main_arg3 y
  refine congrArg _ (funext fun a => Fin.ext ?_)
  match a with
  | ⟨0, _⟩ => show win1_4.index t (0 : Fin 1) * 32 + 1 * (y 0).val = (y 0).val; rw [e]; omega

end Cert.R1Array

end
-- ==== Proof.R1Array.lean ====
/-
  Batch normalisation over the whole table.

  Grid point t normalises rows 2000 t … 2000 t + 1999 and writes them back to the same rows of the result. Row r of
  the result therefore belongs to point r / 2000, every point writes, and the 500 points between them reach every
  row: the result is, entry by entry, the table's entry normalised by its channel's four numbers.
-/
import proofs.«180816_j45861660786969_2_alg».proof.Proof.R1Block

noncomputable section

namespace Cert.R1Array

open Idealize.ShloMosaic Idealize.ShloMosaic.ValueIdx Idealize.ShloMosaic.TcCoe Idealize.SL.Sem
open Cert.KernelIdeal Cert.KernelIdeal.Gen
open Idealize.ShloMosaic.Pipeline (Dat)

/-- The normalised table, entry by entry: entry (r, o) of the table against channel o's mean, reciprocal deviation,
    scale and shift. -/
abbrev normAll (a0 : S1000000x32.Idx → EReal) (a1 a2 a3 a4 : S32.Idx → EReal) : S1000000x32.Idx → EReal :=
  fun i => Cert.Spec.norm (a0 i) (a1 (ix1 (i 1 : Fin 32))) (a2 (ix1 (i 1 : Fin 32))) (a3 (ix1 (i 1 : Fin 32)))
    (a4 (ix1 (i 1 : Fin 32)))

/-- A tile entry that is the table's entry k, in k's channel, is normalised to the normalised table's entry k. -/
theorem point_entry (a0 : S1000000x32.Idx → EReal) (a1 a2 a3 a4 : S32.Idx → EReal)
    (x0 : Vec Ideal S2000x32 .f32) (y : S2000x32.Idx) (k : S1000000x32.Idx)
    (h0 : x0 y = a0 k) (hk1 : (k 1).val = (y 1).val) :
    k1_pay1 (F := Ideal) x0 a1 a2 a3 a4 y = normAll a0 a1 a2 a3 a4 k := by
  obtain ⟨p, q, rfl⟩ : ∃ (p : Fin 2000) (q : Fin 32), y = ix2 p q := ⟨y 0, y 1, eq_ix2 y⟩
  rw [pay_entry, h0]
  have hq : (k 1 : Fin 32) = q := Fin.ext hk1
  show Cert.Spec.norm (a0 k) (a1 (ix1 q)) (a2 (ix1 q)) (a3 (ix1 q)) (a4 (ix1 q))
    = Cert.Spec.norm (a0 k) (a1 (ix1 (k 1 : Fin 32))) (a2 (ix1 (k 1 : Fin 32))) (a3 (ix1 (k 1 : Fin 32))) (a4 (ix1 (k 1 : Fin 32)))
  rw [hq]

variable (V : (c : Dev nD) → (b : Ref sig .tc) → Buf (Elt Ideal) ((c : Thread nD τ).loc b))

/-- What point t writes back is the t-th block of rows of the normalised table. -/
theorem flushed_eq (c : Dev nD) (t : Fin cfg1.N) :
    (dat1 (F := Ideal) V c).flushed 5 t
      = ((cfg1.win 5).blk t).view.read (Elt Ideal)
          (normAll (V c main_v126_0) (V c main_v132) (V c main_v139) (V c main_arg2) (V c main_arg3)) := by
  show (cfg1.win 5).cut (grid1.coords t) ((dat1 V c).after 5 t) = _
  rw [after1_5, out_eq_pay, vec1_block, vec2_block, vec3_block, vec4_block]
  obtain ⟨-, -, e0, e1, -⟩ := block_places t
  funext j
  show k1_pay1 (F := Ideal) (iblk1 V c 0 t) (V c main_v132) (V c main_v139) (V c main_arg2) (V c main_arg3) j
    = normAll (V c main_v126_0) (V c main_v132) (V c main_v139) (V c main_arg2) (V c main_arg3)
        (((cfg1.win 5).blk t).view.emb j)
  refine point_entry _ _ _ _ _ _ j _ (tile_entry V c t j _ ?_ ?_) ?_
  · show win1_5.index t (0 : Fin 2) * 2000 + 1 * (j 0).val = t.val * 2000 + (j 0).val
    rw [e0]; omega
  · show win1_5.index t (1 : Fin 2) * 32 + 1 * (j 1).val = (j 1).val
    rw [e1]; omega
  · show win1_5.index t (1 : Fin 2) * 32 + 1 * (j 1).val = (j 1).val
    rw [e1]; omega

/-- An entry of the result lies in point t's block exactly when each coordinate lies in the block's range. -/
theorem mem_blk (t : Fin cfg1.N) (i : S1000000x32.Idx) :
    i ∈ ((cfg1.win 5).blk t).view.set ↔ ∀ a : Fin 2, win1_5.index t a * S2000x32.size a ≤ (i a).val
      ∧ (i a).val < win1_5.index t a * S2000x32.size a + S2000x32.size a := by
  show i ∈ ((View.whole main_v140).slice (win1_5.rect t)).set ↔ _
  rw [View.set_slice_whole, Rect.mem_set_unit]
  exact Iff.rfl

/-- Every entry of the result is written: row r by point r / 2000. -/
theorem covered (i : S1000000x32.Idx) :
    ∃ t : Fin cfg1.N, (cfg1.win 5).flush t = true ∧ i ∈ ((cfg1.win 5).blk t).view.set := by
  have hi0 : (i 0).val < 1000000 := (i 0).isLt
  have hi1 : (i 1).val < 32 := (i 1).isLt
  have ht : (i 0).val / 2000 < cfg1.N := by rw [show cfg1.N = 500 from N_1]; omega
  obtain ⟨-, -, e0, e1, -⟩ := block_places ⟨(i 0).val / 2000, ht⟩
  refine ⟨⟨(i 0).val / 2000, ht⟩, flush1_5 _, ?_⟩
  rw [mem_blk]
  intro a
  match a with
  | ⟨0, _⟩ =>
    show win1_5.index ⟨(i 0).val / 2000, ht⟩ (0 : Fin 2) * 2000 ≤ (i 0).val
      ∧ (i 0).val < win1_5.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win1_5.index ⟨(i 0).val / 2000, ht⟩ (1 : Fin 2) * 32 ≤ (i 1).val
      ∧ (i 1).val < win1_5.index ⟨(i 0).val / 2000, ht⟩ (1 : Fin 2) * 32 + 32
    rw [e1]
    omega

/-- The result after the run is the normalised table. -/
theorem norm_all (c : Dev nD) :
    (dat1 (F := Ideal) V c).arrAt 5 cfg1.N
      = normAll (V c main_v126_0) (V c main_v132) (V c main_v139) (V c main_arg2) (V c main_arg3) :=
  (dat1 V c).arrAt_eq_of_cover 5 _ (fun t _ => flushed_eq V c t) covered

/-- Entry (i, o) of the result: the table's entry normalised by channel o's mean, reciprocal deviation, scale and
    shift. -/
theorem norm_array (c : Dev nD) (i : Fin 1000000) (o : Fin 32) :
    ((dat1 (F := Ideal) V c).arrAt 5 cfg1.N : S1000000x32.Idx → EReal) (ix2 i o)
      = Cert.Spec.norm ((V c main_v126_0 : S1000000x32.Idx → EReal) (ix2 i o)) ((V c main_v132 : S32.Idx → EReal) (ix1 o))
          ((V c main_v139 : S32.Idx → EReal) (ix1 o)) ((V c main_arg2 : S32.Idx → EReal) (ix1 o)) ((V c main_arg3 : S32.Idx → EReal) (ix1 o)) := by
  rw [norm_all]

end Cert.R1Array

end
-- ==== Proof.KValue.lean ====
/-
  The idealized kernel's result, entry by entry, is the specification's first spelling.

  The result buffer ends at what the second pipeline writes: the normalisation of the rectified array by the mean, the
  reciprocal standard deviation, the scale and the shift it finds on entry. The rectified array is what the first
  pipeline wrote, from the nine masked gathered arrays the host operations prepared and the weights as launched; the mean and
  the reciprocal standard deviation are the sixteen host operations' functions of the halves' sums the first pipeline
  wrote; the scale and the shift are the arguments as launched, which nothing writes.
-/
import proofs.«180816_j45861660786969_2_alg».proof.Proof.Gen.KernelIdeal.Frame
import proofs.«180816_j45861660786969_2_alg».proof.Proof.Spec
import proofs.«180816_j45861660786969_2_alg».proof.Proof.KMid
import proofs.«180816_j45861660786969_2_alg».proof.Proof.KTaps
import proofs.«180816_j45861660786969_2_alg».proof.Proof.R0Array
import proofs.«180816_j45861660786969_2_alg».proof.Proof.R1Array

noncomputable section

open scoped BigOperators

namespace Cert.KValue

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The sixteen operations between the pipelines write none of the arguments. -/
theorem mid_arg1 (c : Dev nD) : W20 (F := Ideal) m ρ c (Proc.devRef .tc main_arg1) = W19 m ρ c (Proc.devRef .tc main_arg1) := by
  show StableHlo.after hostOps1 (W19 m ρ c) (Proc.devRef .tc main_arg1) = _
  after_results

/-- The weights as the first pipeline finds them are the weights as launched: an input window's array is left as
    found, and nothing after the first pipeline writes it. -/
theorem wt_kept (c : Dev nD) : (V18 (F := Ideal) m ρ c main_arg1 : S9x32x32.Idx → EReal) = m ((c.tc : Thread nD τ).loc main_arg1) := by
  have e9 : W19 (F := Ideal) m ρ c (Proc.devRef .tc main_arg1) = V18 m ρ c main_arg1 :=
    (W19_arr m ρ c 9).trans (((dat0 (V18 m ρ) c).arrAt_in 9 rfl cfg0.N).trans (A_eq0 (V18 m ρ) c 9))
  exact e9.symm.trans ((mid_arg1 m ρ c).symm.trans ((W21_of_ne m ρ c main_arg1 (by decide)).symm.trans (W21_main_arg1 m ρ c)))

/-- The scale and the shift as the second pipeline finds them are the arguments as launched. -/
theorem gam_kept (c : Dev nD) : (V20 (F := Ideal) m ρ c main_arg2 : S32.Idx → EReal) = m ((c.tc : Thread nD τ).loc main_arg2) :=
  ((W21_arr m ρ c 3).trans (((dat1 (V20 m ρ) c).arrAt_in 3 rfl cfg1.N).trans (A_eq1 (V20 m ρ) c 3))).symm.trans (W21_main_arg2 m ρ c)
theorem bet_kept (c : Dev nD) : (V20 (F := Ideal) m ρ c main_arg3 : S32.Idx → EReal) = m ((c.tc : Thread nD τ).loc main_arg3) :=
  ((W21_arr m ρ c 4).trans (((dat1 (V20 m ρ) c).arrAt_in 4 rfl cfg1.N).trans (A_eq1 (V20 m ρ) c 4))).symm.trans (W21_main_arg3 m ρ c)

/-- The arguments, named. -/
abbrev a0 (c : Dev nD) : Cert.Spec.SF.Idx → EReal := m ((c.tc : Thread nD τ).loc main_arg0)
abbrev a1 (c : Dev nD) : Cert.Spec.SW.Idx → EReal := m ((c.tc : Thread nD τ).loc main_arg1)
abbrev a2 (c : Dev nD) : Cert.Spec.SV.Idx → EReal := m ((c.tc : Thread nD τ).loc main_arg2)
abbrev a3 (c : Dev nD) : Cert.Spec.SV.Idx → EReal := m ((c.tc : Thread nD τ).loc main_arg3)
abbrev a4 (c : Dev nD) : IVec Cert.Spec.SI 32 := m ((c.tc : Thread nD τ).loc main_arg4)
abbrev a5 (c : Dev nD) : IVec Cert.Spec.SI 1 := m ((c.tc : Thread nD τ).loc main_arg5)

/-- The rectified convolution of the launched arguments, masked by selection. -/
abbrev Y (c : Dev nD) : Fin 1000000 → Fin 32 → EReal := Cert.Spec.act (Cert.Spec.tapSel (a0 m c) (a4 m c) (a5 m c)) (a1 m c)

/-- The rectified array as the second pipeline finds it. -/
theorem act_entry (c : Dev nD) (i : Fin 1000000) (o : Fin 32) :
    (V20 (F := Ideal) m ρ c main_v126_0 : S1000000x32.Idx → EReal) (ix2 i o) = Y m c i o := by
  rw [Cert.KMid.act_kept m ρ c, show W19 (F := Ideal) m ρ c (Proc.devRef .tc main_v126_0) = (dat0 (V18 m ρ) c).arrAt 10 cfg0.N from W19_arr m ρ c 10]
  exact Cert.R0Array.act_array (V18 m ρ) c _ _ (Cert.KTaps.tap0_entry m ρ c) (Cert.KTaps.tap1_entry m ρ c) (Cert.KTaps.tap2_entry m ρ c)
    (Cert.KTaps.tap3_entry m ρ c) (Cert.KTaps.tap4_entry m ρ c) (Cert.KTaps.tap5_entry m ρ c) (Cert.KTaps.tap6_entry m ρ c)
    (Cert.KTaps.tap7_entry m ρ c) (Cert.KTaps.tap8_entry m ρ c) (wt_kept m ρ c) i o

/-- The halves' sums as the first pipeline leaves them. -/
theorem halfSums_entry (c : Dev nD) (h : Fin 2) (o : Fin 32) :
    Cert.KMid.halfSums m ρ c (ix3 h (0 : Fin 1) o) = Cert.Spec.halfSum (Y m c) h o := by
  show (W19 (F := Ideal) m ρ c (Proc.devRef .tc main_v126_1) : S2x1x32.Idx → EReal) (ix3 h (0 : Fin 1) o) = _
  rw [show W19 (F := Ideal) m ρ c (Proc.devRef .tc main_v126_1) = (dat0 (V18 m ρ) c).arrAt 11 cfg0.N from W19_arr m ρ c 11]
  exact Cert.R0Array.sum_array (V18 m ρ) c _ _ (Cert.KTaps.tap0_entry m ρ c) (Cert.KTaps.tap1_entry m ρ c) (Cert.KTaps.tap2_entry m ρ c)
    (Cert.KTaps.tap3_entry m ρ c) (Cert.KTaps.tap4_entry m ρ c) (Cert.KTaps.tap5_entry m ρ c) (Cert.KTaps.tap6_entry m ρ c)
    (Cert.KTaps.tap7_entry m ρ c) (Cert.KTaps.tap8_entry m ρ c) (wt_kept m ρ c) h o

theorem halfSqs_entry (c : Dev nD) (h : Fin 2) (o : Fin 32) :
    Cert.KMid.halfSqs m ρ c (ix3 h (0 : Fin 1) o) = Cert.Spec.halfSq (Y m c) h o := by
  show (W19 (F := Ideal) m ρ c (Proc.devRef .tc main_v126_2) : S2x1x32.Idx → EReal) (ix3 h (0 : Fin 1) o) = _
  rw [show W19 (F := Ideal) m ρ c (Proc.devRef .tc main_v126_2) = (dat0 (V18 m ρ) c).arrAt 12 cfg0.N from W19_arr m ρ c 12]
  exact Cert.R0Array.sq_array (V18 m ρ) c _ _ (Cert.KTaps.tap0_entry m ρ c) (Cert.KTaps.tap1_entry m ρ c) (Cert.KTaps.tap2_entry m ρ c)
    (Cert.KTaps.tap3_entry m ρ c) (Cert.KTaps.tap4_entry m ρ c) (Cert.KTaps.tap5_entry m ρ c) (Cert.KTaps.tap6_entry m ρ c)
    (Cert.KTaps.tap7_entry m ρ c) (Cert.KTaps.tap8_entry m ρ c) (wt_kept m ρ c) h o

/-- The mean as the second pipeline finds it is the first spelling's. -/
theorem mean_entry (c : Dev nD) (o : Fin 32) : Cert.KMid.meanVec m ρ c (ix1 o) = Cert.Spec.meanT (Y m c) o := by
  rw [Cert.KMid.mean_entry m ρ c o]
  unfold Cert.Spec.meanT
  exact congrArg (fun s => Ideal.div (Cert.Spec.Z + s) Cert.Spec.count) (Finset.sum_congr rfl fun h _ => halfSums_entry m ρ c h o)

/-- The reciprocal standard deviation as the second pipeline finds it is the first spelling's. -/
theorem istd_entry (c : Dev nD) (o : Fin 32) : Cert.KMid.istdVec m ρ c (ix1 o) = Cert.Spec.istdT (Y m c) o := by
  rw [Cert.KMid.istd_entry m ρ c o, mean_entry m ρ c o]
  unfold Cert.Spec.istdT Cert.Spec.varT
  exact congrArg (fun s => Ideal.rsqrt ((Ideal.div (Cert.Spec.Z + s) Cert.Spec.count - Cert.Spec.meanT (Y m c) o * Cert.Spec.meanT (Y m c) o) + Cert.Spec.eps))
    (Finset.sum_congr rfl fun h _ => halfSqs_entry m ρ c h o)

/-- The result buffer at (i, o) is the first spelling of the specification at the launched arguments. -/
theorem kernel_entry (c : Dev nD) (i : Fin 1000000) (o : Fin 32) :
    (W21 (F := Ideal) m ρ c (Proc.devRef .tc main_v140) : S1000000x32.Idx → EReal) (ix2 i o)
      = Cert.Spec.outT (a0 m c) (a1 m c) (a2 m c) (a3 m c) (a4 m c) (a5 m c) i o := by
  rw [show W21 (F := Ideal) m ρ c (Proc.devRef .tc main_v140) = (dat1 (V20 m ρ) c).arrAt 5 cfg1.N from W21_arr m ρ c 5,
    Cert.R1Array.norm_array (V20 m ρ) c i o, act_entry m ρ c i o]
  show Cert.Spec.norm _ (Cert.KMid.meanVec m ρ c (ix1 o)) (Cert.KMid.istdVec m ρ c (ix1 o)) _ _ = _
  rw [mean_entry m ρ c o, istd_entry m ρ c o, gam_kept m ρ c, bet_kept m ρ c]
  rfl

end Cert.KValue

end
-- ==== Proof.Consts.lean ====
/-
  The float words the two programs spell, as extended reals: the zero word is 0, the word 0x49742400 is one million
  (the number of rows, which is why dividing a column's sum by it gives the mean), and the rectifier's slope
  0x3C23D70A is a real number (its value, a little under one hundredth, is the same on both sides and is never used).
-/
import Idealize.ShloMosaic.PureOps.Ideal

noncomputable section

namespace Cert.Consts

open Idealize.ShloMosaic

theorem zero_word : Ideal.ofBits .f32 0x00000000#32 = 0 := by
  simp [Ideal.ofBits, Ideal.ieee]

theorem count_word : Ideal.ofBits .f32 0x49742400#32 = ((1000000 : ℝ) : EReal) := by
  simp [Ideal.ofBits, Ideal.ieee, -EReal.coe_mul]; norm_num

theorem slope_real : ∃ r : ℝ, Ideal.ofBits .f32 0x3C23D70A#32 = (r : EReal) := by
  have hb : Ideal.ofBits .f32 0x3C23D70A#32 ≠ ⊥ := by simp [Ideal.ofBits, Ideal.ieee, -EReal.coe_mul]
  have ht : Ideal.ofBits .f32 0x3C23D70A#32 ≠ ⊤ := by simp [Ideal.ofBits, Ideal.ieee, -EReal.coe_mul]
  exact ⟨(Ideal.ofBits .f32 0x3C23D70A#32).toReal, (EReal.coe_toReal ht hb).symm⟩

end Cert.Consts

end
-- ==== Proof.LibTileSums.lean ====
/-
  Sums over a tiled axis and over a rank-3 index set, in any additive commutative monoid; no program is mentioned.

  * A sum over an axis of length A · B is the double sum over the A tiles and the B positions inside a tile
    (`sum_tiles`): position j of tile k is the column k · B + j.
  * A sum over the K · L − 1 consecutive steps (t, t + 1) of an axis cut into K tiles of length L is the sum of the
    steps inside the K tiles plus the K − 1 steps that straddle two tiles (`sum_consecutive_split_gen`, stated with
    K + 1 tiles of length L = L' + 1 so that no subtraction appears).
  * A sum over a rank-3 index set is the triple sum over the coordinates (`sum_idx3`).
  Only commutativity and associativity of addition are used.
-/
import Idealize.ShloMosaic.Lib.ValueIdx

noncomputable section

open scoped BigOperators

namespace Cert.LibTileSums

open Idealize.ShloMosaic Idealize.ShloMosaic.ValueIdx

variable {M : Type*} [AddCommMonoid M]

/-! ## A tiled axis -/

/-- Column `j` of tile `k`, of `A` tiles of length `B`, is a column of the whole axis. -/
theorem tile_lt {A B : ℕ} (k : Fin A) (j : Fin B) : k.val * B + j.val < A * B :=
  calc k.val * B + j.val < k.val * B + B := Nat.add_lt_add_left j.isLt _
    _ = (k.val + 1) * B := (Nat.succ_mul _ _).symm
    _ ≤ A * B := Nat.mul_le_mul_right B k.isLt

/-- A sum over an axis of length `A * B` is the sum over the `A` tiles of the sums over each tile's `B` columns. -/
theorem sum_tiles (A B : ℕ) (f : Fin (A * B) → M) :
    ∑ t : Fin (A * B), f t = ∑ k : Fin A, ∑ j : Fin B, f ⟨k.val * B + j.val, tile_lt k j⟩ := by
  rw [← Equiv.sum_comp (finProdFinEquiv (m := A) (n := B)) f, Fintype.sum_prod_type]
  refine Finset.sum_congr rfl fun k _ => Finset.sum_congr rfl fun j _ => congrArg f (Fin.ext ?_)
  show j.val + B * k.val = k.val * B + j.val
  rw [Nat.mul_comm, Nat.add_comm]

/-- The consecutive pairs `(t, t + 1)` of an axis cut into `K + 1` tiles of length `L = L' + 1`: the pair starting at
    `t = k * L + j` lies inside tile `k` when `j < L'`, and straddles tiles `k` and `k + 1` when `j = L'`. So a sum
    over all `K * L + L'` pairs is the sum of the inside ones, tile by tile, plus the `K` straddling ones. By induction
    on the number of tiles: one more tile adds one straddling pair and then `L'` inside ones. -/
theorem sum_consecutive_split_gen (f : ℕ → M) (L L' : ℕ) (hL : L = L' + 1) (K : ℕ) :
    ∑ t ∈ Finset.range (K * L + L'), f t
      = (∑ k ∈ Finset.range (K + 1), ∑ j ∈ Finset.range L', f (k * L + j)) + ∑ k ∈ Finset.range K, f (k * L + L') := by
  induction K with
  | zero =>
    rw [Nat.zero_mul, Nat.zero_add, Finset.sum_range_one, Finset.range_zero, Finset.sum_empty, add_zero]
    exact Finset.sum_congr rfl fun j _ => by rw [Nat.zero_mul, Nat.zero_add]
  | succ K ih =>
    have h1 : (K + 1) * L + L' = (K * L + L') + (L' + 1) := by rw [Nat.succ_mul, hL]; omega
    have h2 : ∑ x ∈ Finset.range (L' + 1), f (K * L + L' + x)
        = (∑ j ∈ Finset.range L', f ((K + 1) * L + j)) + f (K * L + L') := by
      rw [Finset.sum_range_succ', Nat.add_zero]
      refine congrArg (· + _) (Finset.sum_congr rfl fun j _ => congrArg f ?_)
      rw [Nat.succ_mul, hL]; omega
    rw [h1, Finset.sum_range_add, ih, h2,
      Finset.sum_range_succ (fun k => ∑ j ∈ Finset.range L', f (k * L + j)) (K + 1),
      Finset.sum_range_succ (fun k => f (k * L + L')) K, add_add_add_comm]

/-! ## A rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibTileSums

end
-- ==== Proof.Algebra.lean ====
/-
  The two spellings of the specification agree when the features and the weights are real numbers.

  * Masking. The mask bit is 0 or 1; read as a number it is 0 or 1, so the product with it is the gathered entry or
    zero, which is what the selection against the zero word gives.
  * Reals. A gathered entry is an entry of the feature table, so it is real; products and finite sums of reals are
    real, and the rectifier returns its argument or a real multiple of it. So every rectified entry is real.
  * Sums. The million rows are two halves of 250 tiles of 2000 rows: row (h·250 + j)·2000 + p. Addition on the extended
    reals is commutative and associative, so a column's sum over all rows is the sum over halves, tiles and positions.
  * Variance. For reals r_1 … r_N with mean μ = (Σ r_i)/N:  (Σ (r_i − μ)²)/N = (Σ r_i²)/N − μ²,
    because Σ (r_i − μ)² = Σ r_i² − 2μ·Σ r_i + N·μ² and Σ r_i = N·μ. The divisor the programs spell is N = 10⁶, the number of rows.
-/
import proofs.«180816_j45861660786969_2_alg».proof.Proof.Spec
import proofs.«180816_j45861660786969_2_alg».proof.Proof.Consts
import proofs.«180816_j45861660786969_2_alg».proof.Proof.LibTileSums

noncomputable section

open scoped BigOperators

namespace Cert.Algebra

open Idealize.ShloMosaic Idealize.ShloMosaic.ValueIdx Cert.Spec

/-! ## Real entries -/

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.zero : IsReal 0 := ⟨0, EReal.coe_zero.symm⟩

theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h _ (Finset.mem_insert_self _ _)).add (ih fun i hi => h i (Finset.mem_insert_of_mem hi))

/-- The coercion of a finite sum of reals is the sum of the coercions. -/
theorem coe_sum {ι : Type*} (s : Finset ι) (r : ι → ℝ) : ((∑ i ∈ s, r i : ℝ) : EReal) = ∑ i ∈ s, (r i : EReal) := by
  classical
  induction s using Finset.induction_on with
  | empty => rw [Finset.sum_empty, Finset.sum_empty]; exact EReal.coe_zero
  | insert a s ha ih => rw [Finset.sum_insert ha, Finset.sum_insert ha, EReal.coe_add, ih]

theorem Z_eq : Z = 0 := Consts.zero_word

theorem Z_real : IsReal Z := Z_eq ▸ IsReal.zero

/-! ## Masking by selection is masking by multiplication -/

theorem tapSel_eq_tapMul (feat : SF.Idx → EReal) (idx : IVec SI 32) (msk : IVec SI 1) (k : Fin 9) (i : Fin 1000000) (c : Fin 32) :
    tapSel feat idx msk k i c = tapMul feat idx msk k i c := by
  unfold tapSel tapMul
  by_cases h : msk (ix2 k i) = 1#1
  · rw [h, select_one]
    show _ = gat feat idx k i c * (((1#1 : BitVec 1).toNat : ℝ) : EReal)
    simp
  · rw [eq_zero_of_ne_one h, select_zero, Z_eq]
    show _ = gat feat idx k i c * (((0#1 : BitVec 1).toNat : ℝ) : EReal)
    simp

/-! ## The rectified convolution of real inputs is real -/

section Reals
variable {n : Nat} (X : Fin 9 → Fin n → Fin 32 → EReal) (wt : SW.Idx → EReal)
  (hX : ∀ k i c, IsReal (X k i c)) (hw : ∀ j, IsReal (wt j))
include hX hw

theorem tapDot_real (k : Fin 9) (i : Fin n) (o : Fin 32) : IsReal (tapDot X wt k i o) :=
  IsReal.sum _ _ fun c _ => (hX k i c).mul (hw _)

theorem conv_real (i : Fin n) (o : Fin 32) : IsReal (conv X wt i o) := by
  unfold conv
  exact ((((((((Z_real.add (tapDot_real X wt hX hw 0 i o)).add (tapDot_real X wt hX hw 1 i o)).add
    (tapDot_real X wt hX hw 2 i o)).add (tapDot_real X wt hX hw 3 i o)).add (tapDot_real X wt hX hw 4 i o)).add
    (tapDot_real X wt hX hw 5 i o)).add (tapDot_real X wt hX hw 6 i o)).add (tapDot_real X wt hX hw 7 i o)).add
    (tapDot_real X wt hX hw 8 i o)
end Reals

theorem leaky_real {a : EReal} (ha : IsReal a) : IsReal (leaky a) := by
  unfold leaky Scalar.select
  split_ifs
  · exact ha
  · exact (show IsReal slope from Consts.slope_real).mul ha

theorem act_real {n : Nat} (X : Fin 9 → Fin n → Fin 32 → EReal) (wt : SW.Idx → EReal)
    (hX : ∀ k i c, IsReal (X k i c)) (hw : ∀ j, IsReal (wt j)) (i : Fin n) (o : Fin 32) : IsReal (act X wt i o) :=
  leaky_real (conv_real X wt hX hw i o)

theorem tapMul_real (feat : SF.Idx → EReal) (idx : IVec SI 32) (msk : IVec SI 1) (hf : ∀ j, IsReal (feat j))
    (k : Fin 9) (i : Fin 1000000) (c : Fin 32) : IsReal (tapMul feat idx msk k i c) :=
  (hf _).mul ⟨((msk (ix2 k i)).toNat : ℝ), rfl⟩

/-! ## A column's sum, tile by tile -/

/-- An axis of length (A·B)·C, read as A groups of B tiles of C positions through any map that sends (h, j, p) to
    position (h·B + j)·C + p. -/
theorem sum_groups {M : Type*} [AddCommMonoid M] (A B C n : ℕ) (hn : n = (A * B) * C) (f : Fin n → M)
    (row : Fin A → Fin B → Fin C → Fin n) (hrow : ∀ h j p, (row h j p).val = (h.val * B + j.val) * C + p.val) :
    ∑ i, f i = ∑ h : Fin A, ∑ j : Fin B, ∑ p : Fin C, f (row h j p) := by
  subst hn
  rw [Cert.LibTileSums.sum_tiles (A * B) C f,
    Cert.LibTileSums.sum_tiles A B (fun k : Fin (A * B) => ∑ p : Fin C, f ⟨k.val * C + p.val, Cert.LibTileSums.tile_lt k p⟩)]
  refine Finset.sum_congr rfl fun h _ => Finset.sum_congr rfl fun j _ => Finset.sum_congr rfl fun p _ => ?_
  exact congrArg f (Fin.ext (hrow h j p).symm)

theorem rows_count : (1000000 : ℕ) = (2 * 250) * 2000 := by norm_num

theorem sum_rows {M : Type*} [AddCommMonoid M] (f : Fin 1000000 → M) :
    ∑ i, f i = ∑ h : Fin 2, ∑ j : Fin 250, ∑ p : Fin 2000, f (tileRow h j p) :=
  sum_groups 2 250 2000 1000000 rows_count f tileRow (fun _ _ _ => rfl)

/-! ## The variance, two ways -/

theorem var_two_ways {ι : Type*} [Fintype ι] (r : ι → ℝ) (N : ℝ) (hN : N = (Fintype.card ι : ℝ)) (hN0 : N ≠ 0) :
    (∑ i, (r i - (∑ i, r i) / N) * (r i - (∑ i, r i) / N)) / N
      = (∑ i, r i * r i) / N - ((∑ i, r i) / N) * ((∑ i, r i) / N) := by
  set S := ∑ i, r i with hS
  have hexp : ∑ i, (r i - S / N) * (r i - S / N) = (∑ i, r i * r i) - 2 * (S / N) * S + N * ((S / N) * (S / N)) := by
    have : ∀ i, (r i - S / N) * (r i - S / N) = r i * r i - 2 * (S / N) * r i + (S / N) * (S / N) := fun i => by ring
    simp_rw [this]
    rw [Finset.sum_add_distrib, Finset.sum_sub_distrib, ← Finset.mul_sum, Finset.sum_const, Finset.card_univ, nsmul_eq_mul, ← hN]
  rw [hexp]
  field_simp
  ring

/-! ## The two spellings -/

theorem div_count (a : ℝ) : Ideal.div (a : EReal) count = ((a / 1000000 : ℝ) : EReal) := by
  show Ideal.div (a : EReal) (Ideal.ofBits .f32 0x49742400#32) = _
  rw [Consts.count_word, Ideal.div_coe (by norm_num : (1000000 : ℝ) ≠ 0), ← EReal.coe_mul]
  congr 1
  ring

theorem moments (Y : Fin 1000000 → Fin 32 → EReal) (hY : ∀ i o, IsReal (Y i o)) (o : Fin 32) :
    meanT Y o = meanA Y o ∧ varT Y o = varA Y o := by
  choose r hr using hY
  have hS1 : ∑ h : Fin 2, halfSum Y h o = ((∑ i, r i o : ℝ) : EReal) := by
    unfold halfSum
    rw [← sum_rows (fun i => Y i o), coe_sum]
    exact Finset.sum_congr rfl fun i _ => hr i o
  have hS2 : ∑ h : Fin 2, halfSq Y h o = ((∑ i, r i o * r i o : ℝ) : EReal) := by
    unfold halfSq
    rw [← sum_rows (fun i => Y i o * Y i o), coe_sum]
    exact Finset.sum_congr rfl fun i _ => by rw [hr i o, EReal.coe_mul]
  have hA1 : ∑ i, Y i o = ((∑ i, r i o : ℝ) : EReal) := by
    rw [coe_sum]; exact Finset.sum_congr rfl fun i _ => hr i o
  have hmT : meanT Y o = (((∑ i, r i o) / 1000000 : ℝ) : EReal) := by
    unfold meanT; rw [hS1, Z_eq, zero_add, div_count]
  have hmA : meanA Y o = (((∑ i, r i o) / 1000000 : ℝ) : EReal) := by
    unfold meanA; rw [hA1, Z_eq, zero_add, div_count]
  refine ⟨hmT.trans hmA.symm, ?_⟩
  have hA2 : ∑ i, (Y i o - meanA Y o) * (Y i o - meanA Y o)
      = ((∑ i, (r i o - (∑ i, r i o) / 1000000) * (r i o - (∑ i, r i o) / 1000000) : ℝ) : EReal) := by
    rw [coe_sum]
    exact Finset.sum_congr rfl fun i _ => by rw [hmA, hr i o, ← EReal.coe_sub, ← EReal.coe_mul]
  unfold varT varA
  rw [hA2, hS2, hmT, Z_eq, zero_add, zero_add, div_count, div_count, ← EReal.coe_mul, ← EReal.coe_sub]
  exact congrArg (fun x : ℝ => (x : EReal)) (var_two_ways (fun i => r i o) 1000000 (by simp) (by norm_num)).symm

/-- On real features and weights the two spellings give the same entry. -/
theorem outT_eq_outA (feat : SF.Idx → EReal) (wt : SW.Idx → EReal) (gam bet : SV.Idx → EReal) (idx : IVec SI 32) (msk : IVec SI 1)
    (hf : ∀ j, IsReal (feat j)) (hw : ∀ j, IsReal (wt j)) (i : Fin 1000000) (o : Fin 32) :
    outT feat wt gam bet idx msk i o = outA feat wt gam bet idx msk i o := by
  have hX : tapSel feat idx msk = tapMul feat idx msk :=
    funext fun k => funext fun i => funext fun c => tapSel_eq_tapMul feat idx msk k i c
  have hY : ∀ i o, IsReal (act (tapMul feat idx msk) wt i o) :=
    act_real _ wt (tapMul_real feat idx msk hf) hw
  obtain ⟨hm, hv⟩ := moments (act (tapMul feat idx msk) wt) hY o
  unfold outT outA istdT istdA
  rw [hX, hm, hv]

end Cert.Algebra

end
-- ==== Proof.Finite.lean ====
/-
  From the precondition to real inputs.

  The precondition says of each float argument that every entry's absolute value is below the word 0x7F800000, which
  denotes +∞. An extended real whose absolute value max(x, −x) is below +∞ is neither +∞ nor −∞: it is a real number.
  The four conjuncts are joined by "and" and each is an "all" over its array, so the precondition being 1 gives the
  comparison at every index of the features and of the weights.
-/
import proofs.«180816_j45861660786969_2_alg».proof.Pre_finite_inputs
import proofs.«180816_j45861660786969_2_alg».proof.Proof.Algebra
import Idealize.ShloMosaic.Lib.ReduceAll
import Idealize.ShloMosaic.PureOps.Ideal.Laws

noncomputable section

namespace Cert.Finite

open Idealize.ShloMosaic Cert.Pre_finite_inputs Cert.Algebra

/-- The word the precondition compares against denotes +∞. -/
theorem inf_word : Ideal.ofBits .f32 0x7F800000#32 = ⊤ := by
  simp [Ideal.ofBits, Ideal.ieee]

/-- An extended real whose absolute value is below +∞ is a real. -/
theorem real_of_abs_lt (x : EReal) (h : max x (-x) < ⊤) : IsReal x := by
  induction x using EReal.rec with
  | bot => simp at h
  | coe r => exact ⟨r, rfl⟩
  | top => simp at h

/-- A strict comparison that answers 1 holds. -/
theorem lt_of_cmp {a b : EReal} (h : Ideal.cmp .olt a b = 1#1) : a < b := by
  unfold Ideal.cmp at h
  by_contra hn
  simp [hn] at h

instance : Subsingleton S_.Idx := ⟨fun a b => funext fun d => d.elim0⟩

variable [Facts]

/-- Under the precondition every feature and every weight is a real number. -/
theorem inputs_real (x0 : FVec Ideal S1000000x32 .f32) (x1 : FVec Ideal S9x32x32 .f32) (x2 x3 : FVec Ideal S32 .f32)
    (x4 : IVec S9x1000000 32) (x5 : IVec S9x1000000 1)
    (h : fn (F := Ideal) x0 x1 x2 x3 x4 x5 = fun _ => 1#1) : (∀ j, IsReal (x0 j)) ∧ (∀ j, IsReal (x1 j)) := by
  have h0 := congrFun h ValueIdx.ix0
  dsimp only [fn, fn_part1] at h0
  obtain ⟨h13, -⟩ := IntOp.andi_eq_one.1 h0
  obtain ⟨h8, -⟩ := IntOp.andi_eq_one.1 h13
  obtain ⟨h3, h7⟩ := IntOp.andi_eq_one.1 h8
  refine ⟨fun j => ?_, fun j => ?_⟩
  · have e := Host.reduce_andi_all _ _ _ _ ValueIdx.ix0 h3 j
    refine real_of_abs_lt _ ?_
    have := lt_of_cmp (a := max (x0 j) (-(x0 j))) (b := Ideal.ofBits .f32 0x7F800000#32) e
    rwa [inf_word] at this
  · have e := Host.reduce_andi_all _ _ _ _ ValueIdx.ix0 h7 j
    refine real_of_abs_lt _ ?_
    have := lt_of_cmp (a := max (x1 j) (-(x1 j))) (b := Ideal.ofBits .f32 0x7F800000#32) e
    rwa [inf_word] at this

end Cert.Finite

end
-- ==== Proof.RefSegs.lean ====
/-
  The reference program's 228 host operations, cut into ten consecutive segments: the zeros and tap 0 (23 operations), taps 1 to 8
  (21 operations each), and the 37 operations after the taps. The whole list is the segments laid end to end.
-/
import proofs.«180816_j45861660786969_2_alg».proof.Proof.RefOps

noncomputable section

namespace Cert.RefSegs

open Cert.ReferenceIdeal Cert.ReferenceIdeal.Gen Idealize.ShloMosaic Idealize.ShloMosaic.TcCoe Idealize.SL.Sem Idealize.ShloMosaic.StableHlo

variable {F : FTy → Type} [FloatOps F]

/-- The table of zeros, then tap 0: its index row wrapped, the row gather, the mask row as numbers, the product, the tap's matrix, the contraction, the first running sum. -/
abbrev seg0 : List (HloOp τ sig (Elt F)) :=
  [ nullary main_cst (constant S_ .f32 0x00000000#32),
    unary main_cst main_v0 (broadcastInDim S1000000x32 ![] bcast_S_S1000000x32 : (⟨S_, .f32⟩ : BufTy).Contents (Elt F) → (⟨S1000000x32, .f32⟩ : BufTy).Contents (Elt F)),
    unary main_arg4 main_v1 ((extractStridedSlice S1x1000000 ![0, 0] · slices_S9x1000000_S1x1000000_0_0) : (⟨S9x1000000, .i32⟩ : BufTy).Contents (Elt F) → (⟨S1x1000000, .i32⟩ : BufTy).Contents (Elt F)),
    reshape main_v1 main_v2 rfl shapeCasts_S1x1000000_S1000000,
    nullary main_c (constantI S_ 32 0#32),
    unary main_c main_v3 (broadcastInDim S1000000 ![] bcast_S_S1000000 : (⟨S_, .i32⟩ : BufTy).Contents (Elt F) → (⟨S1000000, .i32⟩ : BufTy).Contents (Elt F)),
    binary main_v2 main_v3 main_v4 (cmpi .slt : (⟨S1000000, .i32⟩ : BufTy).Contents (Elt F) → (⟨S1000000, .i32⟩ : BufTy).Contents (Elt F) → (⟨S1000000, .i1⟩ : BufTy).Contents (Elt F)),
    nullary main_c_0 (constantI S_ 32 1000000#32),
    unary main_c_0 main_v5 (broadcastInDim S1000000 ![] bcast_S_S1000000 : (⟨S_, .i32⟩ : BufTy).Contents (Elt F) → (⟨S1000000, .i32⟩ : BufTy).Contents (Elt F)),
    binary main_v2 main_v5 main_v6 (addi : (⟨S1000000, .i32⟩ : BufTy).Contents (Elt F) → (⟨S1000000, .i32⟩ : BufTy).Contents (Elt F) → (⟨S1000000, .i32⟩ : BufTy).Contents (Elt F)),
    ternary main_v4 main_v6 main_v2 main_v7 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v7 main_v8 (broadcastInDim S1000000x1 ![0] bcast_S1000000_S1000000x1_0 : (⟨S1000000, .i32⟩ : BufTy).Contents (Elt F) → (⟨S1000000x1, .i32⟩ : BufTy).Contents (Elt F)),
    binary main_arg0 main_v8 main_v9 ((fun x i => Host.gather gather_S1000000x32_S1000000x1_S1000000x32_1_0_n_n_0_1_132 x i) : (⟨S1000000x32, .f32⟩ : BufTy).Contents (Elt F) → (⟨S1000000x1, .i32⟩ : BufTy).Contents (Elt F) → (⟨S1000000x32, .f32⟩ : BufTy).Contents (Elt F)),
    unary main_arg5 main_v10 ((extractStridedSlice S1x1000000 ![0, 0] · slices_S9x1000000_S1x1000000_0_0) : (⟨S9x1000000, .i1⟩ : BufTy).Contents (Elt F) → (⟨S1x1000000, .i1⟩ : BufTy).Contents (Elt F)),
    reshape main_v10 main_v11 rfl shapeCasts_S1x1000000_S1000000,
    unary main_v11 main_v12 (broadcastInDim S1000000x1 ![0] bcast_S1000000_S1000000x1_0 : (⟨S1000000, .i1⟩ : BufTy).Contents (Elt F) → (⟨S1000000x1, .i1⟩ : BufTy).Contents (Elt F)),
    unary main_v12 main_v13 (uitofp .f32 : (⟨S1000000x1, .i1⟩ : BufTy).Contents (Elt F) → (⟨S1000000x1, .f32⟩ : BufTy).Contents (Elt F)),
    unary main_v13 main_v14 (broadcastInDim S1000000x32 ![0, 1] bcast_S1000000x1_S1000000x32_0_1 : (⟨S1000000x1, .f32⟩ : BufTy).Contents (Elt F) → (⟨S1000000x32, .f32⟩ : BufTy).Contents (Elt F)),
    binary main_v9 main_v14 main_v15 (mulf : (⟨S1000000x32, .f32⟩ : BufTy).Contents (Elt F) → (⟨S1000000x32, .f32⟩ : BufTy).Contents (Elt F) → (⟨S1000000x32, .f32⟩ : BufTy).Contents (Elt F)),
    unary main_arg1 main_v16 ((extractStridedSlice S1x32x32 ![0, 0, 0] · slices_S9x32x32_S1x32x32_0_0_0) : (⟨S9x32x32, .f32⟩ : BufTy).Contents (Elt F) → (⟨S1x32x32, .f32⟩ : BufTy).Contents (Elt F)),
    reshape main_v16 main_v17 rfl shapeCasts_S1x32x32_S32x32,
    binary main_v15 main_v17 main_v18 ((fun l r => Host.dotGeneral dot_S1000000x32_S32x32_S1000000x32_1_0_0_1_n_n none l r) : (⟨S1000000x32, .f32⟩ : BufTy).Contents (Elt F) → (⟨S32x32, .f32⟩ : BufTy).Contents (Elt F) → (⟨S1000000x32, .f32⟩ : BufTy).Contents (Elt F)),
    binary main_v0 main_v18 main_v19 (addf : (⟨S1000000x32, .f32⟩ : BufTy).Contents (Elt F) → (⟨S1000000x32, .f32⟩ : BufTy).Contents (Elt F) → (⟨S1000000x32, .f32⟩ : BufTy).Contents (Elt F)) ]

/-- Tap 1: its index row wrapped, the row gather, the mask row as numbers, the product, the tap's matrix, the contraction, the running sum. -/
abbrev seg1 : List (HloOp τ sig (Elt F)) :=
  [ unary main_arg4 main_v20 ((extractStridedSlice S1x1000000 ![1, 0] · slices_S9x1000000_S1x1000000_1_0) : (⟨S9x1000000, .i32⟩ : BufTy).Contents (Elt F) → (⟨S1x1000000, .i32⟩ : BufTy).Contents (Elt F)),
    reshape main_v20 main_v21 rfl shapeCasts_S1x1000000_S1000000,
    nullary main_c_1 (constantI S_ 32 0#32),
    unary main_c_1 main_v22 (broadcastInDim S1000000 ![] bcast_S_S1000000 : (⟨S_, .i32⟩ : BufTy).Contents (Elt F) → (⟨S1000000, .i32⟩ : BufTy).Contents (Elt F)),
    binary main_v21 main_v22 main_v23 (cmpi .slt : (⟨S1000000, .i32⟩ : BufTy).Contents (Elt F) → (⟨S1000000, .i32⟩ : BufTy).Contents (Elt F) → (⟨S1000000, .i1⟩ : BufTy).Contents (Elt F)),
    nullary main_c_2 (constantI S_ 32 1000000#32),
    unary main_c_2 main_v24 (broadcastInDim S1000000 ![] bcast_S_S1000000 : (⟨S_, .i32⟩ : BufTy).Contents (Elt F) → (⟨S1000000, .i32⟩ : BufTy).Contents (Elt F)),
    binary main_v21 main_v24 main_v25 (addi : (⟨S1000000, .i32⟩ : BufTy).Contents (Elt F) → (⟨S1000000, .i32⟩ : BufTy).Contents (Elt F) → (⟨S1000000, .i32⟩ : BufTy).Contents (Elt F)),
    ternary main_v23 main_v25 main_v21 main_v26 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v26 main_v27 (broadcastInDim S1000000x1 ![0] bcast_S1000000_S1000000x1_0 : (⟨S1000000, .i32⟩ : BufTy).Contents (Elt F) → (⟨S1000000x1, .i32⟩ : BufTy).Contents (Elt F)),
    binary main_arg0 main_v27 main_v28 ((fun x i => Host.gather gather_S1000000x32_S1000000x1_S1000000x32_1_0_n_n_0_1_132 x i) : (⟨S1000000x32, .f32⟩ : BufTy).Contents (Elt F) → (⟨S1000000x1, .i32⟩ : BufTy).Contents (Elt F) → (⟨S1000000x32, .f32⟩ : BufTy).Contents (Elt F)),
    unary main_arg5 main_v29 ((extractStridedSlice S1x1000000 ![1, 0] · slices_S9x1000000_S1x1000000_1_0) : (⟨S9x1000000, .i1⟩ : BufTy).Contents (Elt F) → (⟨S1x1000000, .i1⟩ : BufTy).Contents (Elt F)),
    reshape main_v29 main_v30 rfl shapeCasts_S1x1000000_S1000000,
    unary main_v30 main_v31 (broadcastInDim S1000000x1 ![0] bcast_S1000000_S1000000x1_0 : (⟨S1000000, .i1⟩ : BufTy).Contents (Elt F) → (⟨S1000000x1, .i1⟩ : BufTy).Contents (Elt F)),
    unary main_v31 main_v32 (uitofp .f32 : (⟨S1000000x1, .i1⟩ : BufTy).Contents (Elt F) → (⟨S1000000x1, .f32⟩ : BufTy).Contents (Elt F)),
    unary main_v32 main_v33 (broadcastInDim S1000000x32 ![0, 1] bcast_S1000000x1_S1000000x32_0_1 : (⟨S1000000x1, .f32⟩ : BufTy).Contents (Elt F) → (⟨S1000000x32, .f32⟩ : BufTy).Contents (Elt F)),
    binary main_v28 main_v33 main_v34 (mulf : (⟨S1000000x32, .f32⟩ : BufTy).Contents (Elt F) → (⟨S1000000x32, .f32⟩ : BufTy).Contents (Elt F) → (⟨S1000000x32, .f32⟩ : BufTy).Contents (Elt F)),
    unary main_arg1 main_v35 ((extractStridedSlice S1x32x32 ![1, 0, 0] · slices_S9x32x32_S1x32x32_1_0_0) : (⟨S9x32x32, .f32⟩ : BufTy).Contents (Elt F) → (⟨S1x32x32, .f32⟩ : BufTy).Contents (Elt F)),
    reshape main_v35 main_v36 rfl shapeCasts_S1x32x32_S32x32,
    binary main_v34 main_v36 main_v37 ((fun l r => Host.dotGeneral dot_S1000000x32_S32x32_S1000000x32_1_0_0_1_n_n none l r) : (⟨S1000000x32, .f32⟩ : BufTy).Contents (Elt F) → (⟨S32x32, .f32⟩ : BufTy).Contents (Elt F) → (⟨S1000000x32, .f32⟩ : BufTy).Contents (Elt F)),
    binary main_v19 main_v37 main_v38 (addf : (⟨S1000000x32, .f32⟩ : BufTy).Contents (Elt F) → (⟨S1000000x32, .f32⟩ : BufTy).Contents (Elt F) → (⟨S1000000x32, .f32⟩ : BufTy).Contents (Elt F)) ]

/-- Tap 2: its index row wrapped, the row gather, the mask row as numbers, the product, the tap's matrix, the contraction, the running sum. -/
abbrev seg2 : List (HloOp τ sig (Elt F)) :=
  [ unary main_arg4 main_v39 ((extractStridedSlice S1x1000000 ![2, 0] · slices_S9x1000000_S1x1000000_2_0) : (⟨S9x1000000, .i32⟩ : BufTy).Contents (Elt F) → (⟨S1x1000000, .i32⟩ : BufTy).Contents (Elt F)),
    reshape main_v39 main_v40 rfl shapeCasts_S1x1000000_S1000000,
    nullary main_c_3 (constantI S_ 32 0#32),
    unary main_c_3 main_v41 (broadcastInDim S1000000 ![] bcast_S_S1000000 : (⟨S_, .i32⟩ : BufTy).Contents (Elt F) → (⟨S1000000, .i32⟩ : BufTy).Contents (Elt F)),
    binary main_v40 main_v41 main_v42 (cmpi .slt : (⟨S1000000, .i32⟩ : BufTy).Contents (Elt F) → (⟨S1000000, .i32⟩ : BufTy).Contents (Elt F) → (⟨S1000000, .i1⟩ : BufTy).Contents (Elt F)),
    nullary main_c_4 (constantI S_ 32 1000000#32),
    unary main_c_4 main_v43 (broadcastInDim S1000000 ![] bcast_S_S1000000 : (⟨S_, .i32⟩ : BufTy).Contents (Elt F) → (⟨S1000000, .i32⟩ : BufTy).Contents (Elt F)),
    binary main_v40 main_v43 main_v44 (addi : (⟨S1000000, .i32⟩ : BufTy).Contents (Elt F) → (⟨S1000000, .i32⟩ : BufTy).Contents (Elt F) → (⟨S1000000, .i32⟩ : BufTy).Contents (Elt F)),
    ternary main_v42 main_v44 main_v40 main_v45 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v45 main_v46 (broadcastInDim S1000000x1 ![0] bcast_S1000000_S1000000x1_0 : (⟨S1000000, .i32⟩ : BufTy).Contents (Elt F) → (⟨S1000000x1, .i32⟩ : BufTy).Contents (Elt F)),
    binary main_arg0 main_v46 main_v47 ((fun x i => Host.gather gather_S1000000x32_S1000000x1_S1000000x32_1_0_n_n_0_1_132 x i) : (⟨S1000000x32, .f32⟩ : BufTy).Contents (Elt F) → (⟨S1000000x1, .i32⟩ : BufTy).Contents (Elt F) → (⟨S1000000x32, .f32⟩ : BufTy).Contents (Elt F)),
    unary main_arg5 main_v48 ((extractStridedSlice S1x1000000 ![2, 0] · slices_S9x1000000_S1x1000000_2_0) : (⟨S9x1000000, .i1⟩ : BufTy).Contents (Elt F) → (⟨S1x1000000, .i1⟩ : BufTy).Contents (Elt F)),
    reshape main_v48 main_v49 rfl shapeCasts_S1x1000000_S1000000,
    unary main_v49 main_v50 (broadcastInDim S1000000x1 ![0] bcast_S1000000_S1000000x1_0 : (⟨S1000000, .i1⟩ : BufTy).Contents (Elt F) → (⟨S1000000x1, .i1⟩ : BufTy).Contents (Elt F)),
    unary main_v50 main_v51 (uitofp .f32 : (⟨S1000000x1, .i1⟩ : BufTy).Contents (Elt F) → (⟨S1000000x1, .f32⟩ : BufTy).Contents (Elt F)),
    unary main_v51 main_v52 (broadcastInDim S1000000x32 ![0, 1] bcast_S1000000x1_S1000000x32_0_1 : (⟨S1000000x1, .f32⟩ : BufTy).Contents (Elt F) → (⟨S1000000x32, .f32⟩ : BufTy).Contents (Elt F)),
    binary main_v47 main_v52 main_v53 (mulf : (⟨S1000000x32, .f32⟩ : BufTy).Contents (Elt F) → (⟨S1000000x32, .f32⟩ : BufTy).Contents (Elt F) → (⟨S1000000x32, .f32⟩ : BufTy).Contents (Elt F)),
    unary main_arg1 main_v54 ((extractStridedSlice S1x32x32 ![2, 0, 0] · slices_S9x32x32_S1x32x32_2_0_0) : (⟨S9x32x32, .f32⟩ : BufTy).Contents (Elt F) → (⟨S1x32x32, .f32⟩ : BufTy).Contents (Elt F)),
    reshape main_v54 main_v55 rfl shapeCasts_S1x32x32_S32x32,
    binary main_v53 main_v55 main_v56 ((fun l r => Host.dotGeneral dot_S1000000x32_S32x32_S1000000x32_1_0_0_1_n_n none l r) : (⟨S1000000x32, .f32⟩ : BufTy).Contents (Elt F) → (⟨S32x32, .f32⟩ : BufTy).Contents (Elt F) → (⟨S1000000x32, .f32⟩ : BufTy).Contents (Elt F)),
    binary main_v38 main_v56 main_v57 (addf : (⟨S1000000x32, .f32⟩ : BufTy).Contents (Elt F) → (⟨S1000000x32, .f32⟩ : BufTy).Contents (Elt F) → (⟨S1000000x32, .f32⟩ : BufTy).Contents (Elt F)) ]

/-- Tap 3: its index row wrapped, the row gather, the mask row as numbers, the product, the tap's matrix, the contraction, the running sum. -/
abbrev seg3 : List (HloOp τ sig (Elt F)) :=
  [ unary main_arg4 main_v58 ((extractStridedSlice S1x1000000 ![3, 0] · slices_S9x1000000_S1x1000000_3_0) : (⟨S9x1000000, .i32⟩ : BufTy).Contents (Elt F) → (⟨S1x1000000, .i32⟩ : BufTy).Contents (Elt F)),
    reshape main_v58 main_v59 rfl shapeCasts_S1x1000000_S1000000,
    nullary main_c_5 (constantI S_ 32 0#32),
    unary main_c_5 main_v60 (broadcastInDim S1000000 ![] bcast_S_S1000000 : (⟨S_, .i32⟩ : BufTy).Contents (Elt F) → (⟨S1000000, .i32⟩ : BufTy).Contents (Elt F)),
    binary main_v59 main_v60 main_v61 (cmpi .slt : (⟨S1000000, .i32⟩ : BufTy).Contents (Elt F) → (⟨S1000000, .i32⟩ : BufTy).Contents (Elt F) → (⟨S1000000, .i1⟩ : BufTy).Contents (Elt F)),
    nullary main_c_6 (constantI S_ 32 1000000#32),
    unary main_c_6 main_v62 (broadcastInDim S1000000 ![] bcast_S_S1000000 : (⟨S_, .i32⟩ : BufTy).Contents (Elt F) → (⟨S1000000, .i32⟩ : BufTy).Contents (Elt F)),
    binary main_v59 main_v62 main_v63 (addi : (⟨S1000000, .i32⟩ : BufTy).Contents (Elt F) → (⟨S1000000, .i32⟩ : BufTy).Contents (Elt F) → (⟨S1000000, .i32⟩ : BufTy).Contents (Elt F)),
    ternary main_v61 main_v63 main_v59 main_v64 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v64 main_v65 (broadcastInDim S1000000x1 ![0] bcast_S1000000_S1000000x1_0 : (⟨S1000000, .i32⟩ : BufTy).Contents (Elt F) → (⟨S1000000x1, .i32⟩ : BufTy).Contents (Elt F)),
    binary main_arg0 main_v65 main_v66 ((fun x i => Host.gather gather_S1000000x32_S1000000x1_S1000000x32_1_0_n_n_0_1_132 x i) : (⟨S1000000x32, .f32⟩ : BufTy).Contents (Elt F) → (⟨S1000000x1, .i32⟩ : BufTy).Contents (Elt F) → (⟨S1000000x32, .f32⟩ : BufTy).Contents (Elt F)),
    unary main_arg5 main_v67 ((extractStridedSlice S1x1000000 ![3, 0] · slices_S9x1000000_S1x1000000_3_0) : (⟨S9x1000000, .i1⟩ : BufTy).Contents (Elt F) → (⟨S1x1000000, .i1⟩ : BufTy).Contents (Elt F)),
    reshape main_v67 main_v68 rfl shapeCasts_S1x1000000_S1000000,
    unary main_v68 main_v69 (broadcastInDim S1000000x1 ![0] bcast_S1000000_S1000000x1_0 : (⟨S1000000, .i1⟩ : BufTy).Contents (Elt F) → (⟨S1000000x1, .i1⟩ : BufTy).Contents (Elt F)),
    unary main_v69 main_v70 (uitofp .f32 : (⟨S1000000x1, .i1⟩ : BufTy).Contents (Elt F) → (⟨S1000000x1, .f32⟩ : BufTy).Contents (Elt F)),
    unary main_v70 main_v71 (broadcastInDim S1000000x32 ![0, 1] bcast_S1000000x1_S1000000x32_0_1 : (⟨S1000000x1, .f32⟩ : BufTy).Contents (Elt F) → (⟨S1000000x32, .f32⟩ : BufTy).Contents (Elt F)),
    binary main_v66 main_v71 main_v72 (mulf : (⟨S1000000x32, .f32⟩ : BufTy).Contents (Elt F) → (⟨S1000000x32, .f32⟩ : BufTy).Contents (Elt F) → (⟨S1000000x32, .f32⟩ : BufTy).Contents (Elt F)),
    unary main_arg1 main_v73 ((extractStridedSlice S1x32x32 ![3, 0, 0] · slices_S9x32x32_S1x32x32_3_0_0) : (⟨S9x32x32, .f32⟩ : BufTy).Contents (Elt F) → (⟨S1x32x32, .f32⟩ : BufTy).Contents (Elt F)),
    reshape main_v73 main_v74 rfl shapeCasts_S1x32x32_S32x32,
    binary main_v72 main_v74 main_v75 ((fun l r => Host.dotGeneral dot_S1000000x32_S32x32_S1000000x32_1_0_0_1_n_n none l r) : (⟨S1000000x32, .f32⟩ : BufTy).Contents (Elt F) → (⟨S32x32, .f32⟩ : BufTy).Contents (Elt F) → (⟨S1000000x32, .f32⟩ : BufTy).Contents (Elt F)),
    binary main_v57 main_v75 main_v76 (addf : (⟨S1000000x32, .f32⟩ : BufTy).Contents (Elt F) → (⟨S1000000x32, .f32⟩ : BufTy).Contents (Elt F) → (⟨S1000000x32, .f32⟩ : BufTy).Contents (Elt F)) ]

/-- Tap 4: its index row wrapped, the row gather, the mask row as numbers, the product, the tap's matrix, the contraction, the running sum. -/
abbrev seg4 : List (HloOp τ sig (Elt F)) :=
  [ unary main_arg4 main_v77 ((extractStridedSlice S1x1000000 ![4, 0] · slices_S9x1000000_S1x1000000_4_0) : (⟨S9x1000000, .i32⟩ : BufTy).Contents (Elt F) → (⟨S1x1000000, .i32⟩ : BufTy).Contents (Elt F)),
    reshape main_v77 main_v78 rfl shapeCasts_S1x1000000_S1000000,
    nullary main_c_7 (constantI S_ 32 0#32),
    unary main_c_7 main_v79 (broadcastInDim S1000000 ![] bcast_S_S1000000 : (⟨S_, .i32⟩ : BufTy).Contents (Elt F) → (⟨S1000000, .i32⟩ : BufTy).Contents (Elt F)),
    binary main_v78 main_v79 main_v80 (cmpi .slt : (⟨S1000000, .i32⟩ : BufTy).Contents (Elt F) → (⟨S1000000, .i32⟩ : BufTy).Contents (Elt F) → (⟨S1000000, .i1⟩ : BufTy).Contents (Elt F)),
    nullary main_c_8 (constantI S_ 32 1000000#32),
    unary main_c_8 main_v81 (broadcastInDim S1000000 ![] bcast_S_S1000000 : (⟨S_, .i32⟩ : BufTy).Contents (Elt F) → (⟨S1000000, .i32⟩ : BufTy).Contents (Elt F)),
    binary main_v78 main_v81 main_v82 (addi : (⟨S1000000, .i32⟩ : BufTy).Contents (Elt F) → (⟨S1000000, .i32⟩ : BufTy).Contents (Elt F) → (⟨S1000000, .i32⟩ : BufTy).Contents (Elt F)),
    ternary main_v80 main_v82 main_v78 main_v83 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v83 main_v84 (broadcastInDim S1000000x1 ![0] bcast_S1000000_S1000000x1_0 : (⟨S1000000, .i32⟩ : BufTy).Contents (Elt F) → (⟨S1000000x1, .i32⟩ : BufTy).Contents (Elt F)),
    binary main_arg0 main_v84 main_v85 ((fun x i => Host.gather gather_S1000000x32_S1000000x1_S1000000x32_1_0_n_n_0_1_132 x i) : (⟨S1000000x32, .f32⟩ : BufTy).Contents (Elt F) → (⟨S1000000x1, .i32⟩ : BufTy).Contents (Elt F) → (⟨S1000000x32, .f32⟩ : BufTy).Contents (Elt F)),
    unary main_arg5 main_v86 ((extractStridedSlice S1x1000000 ![4, 0] · slices_S9x1000000_S1x1000000_4_0) : (⟨S9x1000000, .i1⟩ : BufTy).Contents (Elt F) → (⟨S1x1000000, .i1⟩ : BufTy).Contents (Elt F)),
    reshape main_v86 main_v87 rfl shapeCasts_S1x1000000_S1000000,
    unary main_v87 main_v88 (broadcastInDim S1000000x1 ![0] bcast_S1000000_S1000000x1_0 : (⟨S1000000, .i1⟩ : BufTy).Contents (Elt F) → (⟨S1000000x1, .i1⟩ : BufTy).Contents (Elt F)),
    unary main_v88 main_v89 (uitofp .f32 : (⟨S1000000x1, .i1⟩ : BufTy).Contents (Elt F) → (⟨S1000000x1, .f32⟩ : BufTy).Contents (Elt F)),
    unary main_v89 main_v90 (broadcastInDim S1000000x32 ![0, 1] bcast_S1000000x1_S1000000x32_0_1 : (⟨S1000000x1, .f32⟩ : BufTy).Contents (Elt F) → (⟨S1000000x32, .f32⟩ : BufTy).Contents (Elt F)),
    binary main_v85 main_v90 main_v91 (mulf : (⟨S1000000x32, .f32⟩ : BufTy).Contents (Elt F) → (⟨S1000000x32, .f32⟩ : BufTy).Contents (Elt F) → (⟨S1000000x32, .f32⟩ : BufTy).Contents (Elt F)),
    unary main_arg1 main_v92 ((extractStridedSlice S1x32x32 ![4, 0, 0] · slices_S9x32x32_S1x32x32_4_0_0) : (⟨S9x32x32, .f32⟩ : BufTy).Contents (Elt F) → (⟨S1x32x32, .f32⟩ : BufTy).Contents (Elt F)),
    reshape main_v92 main_v93 rfl shapeCasts_S1x32x32_S32x32,
    binary main_v91 main_v93 main_v94 ((fun l r => Host.dotGeneral dot_S1000000x32_S32x32_S1000000x32_1_0_0_1_n_n none l r) : (⟨S1000000x32, .f32⟩ : BufTy).Contents (Elt F) → (⟨S32x32, .f32⟩ : BufTy).Contents (Elt F) → (⟨S1000000x32, .f32⟩ : BufTy).Contents (Elt F)),
    binary main_v76 main_v94 main_v95 (addf : (⟨S1000000x32, .f32⟩ : BufTy).Contents (Elt F) → (⟨S1000000x32, .f32⟩ : BufTy).Contents (Elt F) → (⟨S1000000x32, .f32⟩ : BufTy).Contents (Elt F)) ]

/-- Tap 5: its index row wrapped, the row gather, the mask row as numbers, the product, the tap's matrix, the contraction, the running sum. -/
abbrev seg5 : List (HloOp τ sig (Elt F)) :=
  [ unary main_arg4 main_v96 ((extractStridedSlice S1x1000000 ![5, 0] · slices_S9x1000000_S1x1000000_5_0) : (⟨S9x1000000, .i32⟩ : BufTy).Contents (Elt F) → (⟨S1x1000000, .i32⟩ : BufTy).Contents (Elt F)),
    reshape main_v96 main_v97 rfl shapeCasts_S1x1000000_S1000000,
    nullary main_c_9 (constantI S_ 32 0#32),
    unary main_c_9 main_v98 (broadcastInDim S1000000 ![] bcast_S_S1000000 : (⟨S_, .i32⟩ : BufTy).Contents (Elt F) → (⟨S1000000, .i32⟩ : BufTy).Contents (Elt F)),
    binary main_v97 main_v98 main_v99 (cmpi .slt : (⟨S1000000, .i32⟩ : BufTy).Contents (Elt F) → (⟨S1000000, .i32⟩ : BufTy).Contents (Elt F) → (⟨S1000000, .i1⟩ : BufTy).Contents (Elt F)),
    nullary main_c_10 (constantI S_ 32 1000000#32),
    unary main_c_10 main_v100 (broadcastInDim S1000000 ![] bcast_S_S1000000 : (⟨S_, .i32⟩ : BufTy).Contents (Elt F) → (⟨S1000000, .i32⟩ : BufTy).Contents (Elt F)),
    binary main_v97 main_v100 main_v101 (addi : (⟨S1000000, .i32⟩ : BufTy).Contents (Elt F) → (⟨S1000000, .i32⟩ : BufTy).Contents (Elt F) → (⟨S1000000, .i32⟩ : BufTy).Contents (Elt F)),
    ternary main_v99 main_v101 main_v97 main_v102 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v102 main_v103 (broadcastInDim S1000000x1 ![0] bcast_S1000000_S1000000x1_0 : (⟨S1000000, .i32⟩ : BufTy).Contents (Elt F) → (⟨S1000000x1, .i32⟩ : BufTy).Contents (Elt F)),
    binary main_arg0 main_v103 main_v104 ((fun x i => Host.gather gather_S1000000x32_S1000000x1_S1000000x32_1_0_n_n_0_1_132 x i) : (⟨S1000000x32, .f32⟩ : BufTy).Contents (Elt F) → (⟨S1000000x1, .i32⟩ : BufTy).Contents (Elt F) → (⟨S1000000x32, .f32⟩ : BufTy).Contents (Elt F)),
    unary main_arg5 main_v105 ((extractStridedSlice S1x1000000 ![5, 0] · slices_S9x1000000_S1x1000000_5_0) : (⟨S9x1000000, .i1⟩ : BufTy).Contents (Elt F) → (⟨S1x1000000, .i1⟩ : BufTy).Contents (Elt F)),
    reshape main_v105 main_v106 rfl shapeCasts_S1x1000000_S1000000,
    unary main_v106 main_v107 (broadcastInDim S1000000x1 ![0] bcast_S1000000_S1000000x1_0 : (⟨S1000000, .i1⟩ : BufTy).Contents (Elt F) → (⟨S1000000x1, .i1⟩ : BufTy).Contents (Elt F)),
    unary main_v107 main_v108 (uitofp .f32 : (⟨S1000000x1, .i1⟩ : BufTy).Contents (Elt F) → (⟨S1000000x1, .f32⟩ : BufTy).Contents (Elt F)),
    unary main_v108 main_v109 (broadcastInDim S1000000x32 ![0, 1] bcast_S1000000x1_S1000000x32_0_1 : (⟨S1000000x1, .f32⟩ : BufTy).Contents (Elt F) → (⟨S1000000x32, .f32⟩ : BufTy).Contents (Elt F)),
    binary main_v104 main_v109 main_v110 (mulf : (⟨S1000000x32, .f32⟩ : BufTy).Contents (Elt F) → (⟨S1000000x32, .f32⟩ : BufTy).Contents (Elt F) → (⟨S1000000x32, .f32⟩ : BufTy).Contents (Elt F)),
    unary main_arg1 main_v111 ((extractStridedSlice S1x32x32 ![5, 0, 0] · slices_S9x32x32_S1x32x32_5_0_0) : (⟨S9x32x32, .f32⟩ : BufTy).Contents (Elt F) → (⟨S1x32x32, .f32⟩ : BufTy).Contents (Elt F)),
    reshape main_v111 main_v112 rfl shapeCasts_S1x32x32_S32x32,
    binary main_v110 main_v112 main_v113 ((fun l r => Host.dotGeneral dot_S1000000x32_S32x32_S1000000x32_1_0_0_1_n_n none l r) : (⟨S1000000x32, .f32⟩ : BufTy).Contents (Elt F) → (⟨S32x32, .f32⟩ : BufTy).Contents (Elt F) → (⟨S1000000x32, .f32⟩ : BufTy).Contents (Elt F)),
    binary main_v95 main_v113 main_v114 (addf : (⟨S1000000x32, .f32⟩ : BufTy).Contents (Elt F) → (⟨S1000000x32, .f32⟩ : BufTy).Contents (Elt F) → (⟨S1000000x32, .f32⟩ : BufTy).Contents (Elt F)) ]

/-- Tap 6: its index row wrapped, the row gather, the mask row as numbers, the product, the tap's matrix, the contraction, the running sum. -/
abbrev seg6 : List (HloOp τ sig (Elt F)) :=
  [ unary main_arg4 main_v115 ((extractStridedSlice S1x1000000 ![6, 0] · slices_S9x1000000_S1x1000000_6_0) : (⟨S9x1000000, .i32⟩ : BufTy).Contents (Elt F) → (⟨S1x1000000, .i32⟩ : BufTy).Contents (Elt F)),
    reshape main_v115 main_v116 rfl shapeCasts_S1x1000000_S1000000,
    nullary main_c_11 (constantI S_ 32 0#32),
    unary main_c_11 main_v117 (broadcastInDim S1000000 ![] bcast_S_S1000000 : (⟨S_, .i32⟩ : BufTy).Contents (Elt F) → (⟨S1000000, .i32⟩ : BufTy).Contents (Elt F)),
    binary main_v116 main_v117 main_v118 (cmpi .slt : (⟨S1000000, .i32⟩ : BufTy).Contents (Elt F) → (⟨S1000000, .i32⟩ : BufTy).Contents (Elt F) → (⟨S1000000, .i1⟩ : BufTy).Contents (Elt F)),
    nullary main_c_12 (constantI S_ 32 1000000#32),
    unary main_c_12 main_v119 (broadcastInDim S1000000 ![] bcast_S_S1000000 : (⟨S_, .i32⟩ : BufTy).Contents (Elt F) → (⟨S1000000, .i32⟩ : BufTy).Contents (Elt F)),
    binary main_v116 main_v119 main_v120 (addi : (⟨S1000000, .i32⟩ : BufTy).Contents (Elt F) → (⟨S1000000, .i32⟩ : BufTy).Contents (Elt F) → (⟨S1000000, .i32⟩ : BufTy).Contents (Elt F)),
    ternary main_v118 main_v120 main_v116 main_v121 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v121 main_v122 (broadcastInDim S1000000x1 ![0] bcast_S1000000_S1000000x1_0 : (⟨S1000000, .i32⟩ : BufTy).Contents (Elt F) → (⟨S1000000x1, .i32⟩ : BufTy).Contents (Elt F)),
    binary main_arg0 main_v122 main_v123 ((fun x i => Host.gather gather_S1000000x32_S1000000x1_S1000000x32_1_0_n_n_0_1_132 x i) : (⟨S1000000x32, .f32⟩ : BufTy).Contents (Elt F) → (⟨S1000000x1, .i32⟩ : BufTy).Contents (Elt F) → (⟨S1000000x32, .f32⟩ : BufTy).Contents (Elt F)),
    unary main_arg5 main_v124 ((extractStridedSlice S1x1000000 ![6, 0] · slices_S9x1000000_S1x1000000_6_0) : (⟨S9x1000000, .i1⟩ : BufTy).Contents (Elt F) → (⟨S1x1000000, .i1⟩ : BufTy).Contents (Elt F)),
    reshape main_v124 main_v125 rfl shapeCasts_S1x1000000_S1000000,
    unary main_v125 main_v126 (broadcastInDim S1000000x1 ![0] bcast_S1000000_S1000000x1_0 : (⟨S1000000, .i1⟩ : BufTy).Contents (Elt F) → (⟨S1000000x1, .i1⟩ : BufTy).Contents (Elt F)),
    unary main_v126 main_v127 (uitofp .f32 : (⟨S1000000x1, .i1⟩ : BufTy).Contents (Elt F) → (⟨S1000000x1, .f32⟩ : BufTy).Contents (Elt F)),
    unary main_v127 main_v128 (broadcastInDim S1000000x32 ![0, 1] bcast_S1000000x1_S1000000x32_0_1 : (⟨S1000000x1, .f32⟩ : BufTy).Contents (Elt F) → (⟨S1000000x32, .f32⟩ : BufTy).Contents (Elt F)),
    binary main_v123 main_v128 main_v129 (mulf : (⟨S1000000x32, .f32⟩ : BufTy).Contents (Elt F) → (⟨S1000000x32, .f32⟩ : BufTy).Contents (Elt F) → (⟨S1000000x32, .f32⟩ : BufTy).Contents (Elt F)),
    unary main_arg1 main_v130 ((extractStridedSlice S1x32x32 ![6, 0, 0] · slices_S9x32x32_S1x32x32_6_0_0) : (⟨S9x32x32, .f32⟩ : BufTy).Contents (Elt F) → (⟨S1x32x32, .f32⟩ : BufTy).Contents (Elt F)),
    reshape main_v130 main_v131 rfl shapeCasts_S1x32x32_S32x32,
    binary main_v129 main_v131 main_v132 ((fun l r => Host.dotGeneral dot_S1000000x32_S32x32_S1000000x32_1_0_0_1_n_n none l r) : (⟨S1000000x32, .f32⟩ : BufTy).Contents (Elt F) → (⟨S32x32, .f32⟩ : BufTy).Contents (Elt F) → (⟨S1000000x32, .f32⟩ : BufTy).Contents (Elt F)),
    binary main_v114 main_v132 main_v133 (addf : (⟨S1000000x32, .f32⟩ : BufTy).Contents (Elt F) → (⟨S1000000x32, .f32⟩ : BufTy).Contents (Elt F) → (⟨S1000000x32, .f32⟩ : BufTy).Contents (Elt F)) ]

/-- Tap 7: its index row wrapped, the row gather, the mask row as numbers, the product, the tap's matrix, the contraction, the running sum. -/
abbrev seg7 : List (HloOp τ sig (Elt F)) :=
  [ unary main_arg4 main_v134 ((extractStridedSlice S1x1000000 ![7, 0] · slices_S9x1000000_S1x1000000_7_0) : (⟨S9x1000000, .i32⟩ : BufTy).Contents (Elt F) → (⟨S1x1000000, .i32⟩ : BufTy).Contents (Elt F)),
    reshape main_v134 main_v135 rfl shapeCasts_S1x1000000_S1000000,
    nullary main_c_13 (constantI S_ 32 0#32),
    unary main_c_13 main_v136 (broadcastInDim S1000000 ![] bcast_S_S1000000 : (⟨S_, .i32⟩ : BufTy).Contents (Elt F) → (⟨S1000000, .i32⟩ : BufTy).Contents (Elt F)),
    binary main_v135 main_v136 main_v137 (cmpi .slt : (⟨S1000000, .i32⟩ : BufTy).Contents (Elt F) → (⟨S1000000, .i32⟩ : BufTy).Contents (Elt F) → (⟨S1000000, .i1⟩ : BufTy).Contents (Elt F)),
    nullary main_c_14 (constantI S_ 32 1000000#32),
    unary main_c_14 main_v138 (broadcastInDim S1000000 ![] bcast_S_S1000000 : (⟨S_, .i32⟩ : BufTy).Contents (Elt F) → (⟨S1000000, .i32⟩ : BufTy).Contents (Elt F)),
    binary main_v135 main_v138 main_v139 (addi : (⟨S1000000, .i32⟩ : BufTy).Contents (Elt F) → (⟨S1000000, .i32⟩ : BufTy).Contents (Elt F) → (⟨S1000000, .i32⟩ : BufTy).Contents (Elt F)),
    ternary main_v137 main_v139 main_v135 main_v140 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v140 main_v141 (broadcastInDim S1000000x1 ![0] bcast_S1000000_S1000000x1_0 : (⟨S1000000, .i32⟩ : BufTy).Contents (Elt F) → (⟨S1000000x1, .i32⟩ : BufTy).Contents (Elt F)),
    binary main_arg0 main_v141 main_v142 ((fun x i => Host.gather gather_S1000000x32_S1000000x1_S1000000x32_1_0_n_n_0_1_132 x i) : (⟨S1000000x32, .f32⟩ : BufTy).Contents (Elt F) → (⟨S1000000x1, .i32⟩ : BufTy).Contents (Elt F) → (⟨S1000000x32, .f32⟩ : BufTy).Contents (Elt F)),
    unary main_arg5 main_v143 ((extractStridedSlice S1x1000000 ![7, 0] · slices_S9x1000000_S1x1000000_7_0) : (⟨S9x1000000, .i1⟩ : BufTy).Contents (Elt F) → (⟨S1x1000000, .i1⟩ : BufTy).Contents (Elt F)),
    reshape main_v143 main_v144 rfl shapeCasts_S1x1000000_S1000000,
    unary main_v144 main_v145 (broadcastInDim S1000000x1 ![0] bcast_S1000000_S1000000x1_0 : (⟨S1000000, .i1⟩ : BufTy).Contents (Elt F) → (⟨S1000000x1, .i1⟩ : BufTy).Contents (Elt F)),
    unary main_v145 main_v146 (uitofp .f32 : (⟨S1000000x1, .i1⟩ : BufTy).Contents (Elt F) → (⟨S1000000x1, .f32⟩ : BufTy).Contents (Elt F)),
    unary main_v146 main_v147 (broadcastInDim S1000000x32 ![0, 1] bcast_S1000000x1_S1000000x32_0_1 : (⟨S1000000x1, .f32⟩ : BufTy).Contents (Elt F) → (⟨S1000000x32, .f32⟩ : BufTy).Contents (Elt F)),
    binary main_v142 main_v147 main_v148 (mulf : (⟨S1000000x32, .f32⟩ : BufTy).Contents (Elt F) → (⟨S1000000x32, .f32⟩ : BufTy).Contents (Elt F) → (⟨S1000000x32, .f32⟩ : BufTy).Contents (Elt F)),
    unary main_arg1 main_v149 ((extractStridedSlice S1x32x32 ![7, 0, 0] · slices_S9x32x32_S1x32x32_7_0_0) : (⟨S9x32x32, .f32⟩ : BufTy).Contents (Elt F) → (⟨S1x32x32, .f32⟩ : BufTy).Contents (Elt F)),
    reshape main_v149 main_v150 rfl shapeCasts_S1x32x32_S32x32,
    binary main_v148 main_v150 main_v151 ((fun l r => Host.dotGeneral dot_S1000000x32_S32x32_S1000000x32_1_0_0_1_n_n none l r) : (⟨S1000000x32, .f32⟩ : BufTy).Contents (Elt F) → (⟨S32x32, .f32⟩ : BufTy).Contents (Elt F) → (⟨S1000000x32, .f32⟩ : BufTy).Contents (Elt F)),
    binary main_v133 main_v151 main_v152 (addf : (⟨S1000000x32, .f32⟩ : BufTy).Contents (Elt F) → (⟨S1000000x32, .f32⟩ : BufTy).Contents (Elt F) → (⟨S1000000x32, .f32⟩ : BufTy).Contents (Elt F)) ]

/-- Tap 8: its index row wrapped, the row gather, the mask row as numbers, the product, the tap's matrix, the contraction, the running sum. -/
abbrev seg8 : List (HloOp τ sig (Elt F)) :=
  [ unary main_arg4 main_v153 ((extractStridedSlice S1x1000000 ![8, 0] · slices_S9x1000000_S1x1000000_8_0) : (⟨S9x1000000, .i32⟩ : BufTy).Contents (Elt F) → (⟨S1x1000000, .i32⟩ : BufTy).Contents (Elt F)),
    reshape main_v153 main_v154 rfl shapeCasts_S1x1000000_S1000000,
    nullary main_c_15 (constantI S_ 32 0#32),
    unary main_c_15 main_v155 (broadcastInDim S1000000 ![] bcast_S_S1000000 : (⟨S_, .i32⟩ : BufTy).Contents (Elt F) → (⟨S1000000, .i32⟩ : BufTy).Contents (Elt F)),
    binary main_v154 main_v155 main_v156 (cmpi .slt : (⟨S1000000, .i32⟩ : BufTy).Contents (Elt F) → (⟨S1000000, .i32⟩ : BufTy).Contents (Elt F) → (⟨S1000000, .i1⟩ : BufTy).Contents (Elt F)),
    nullary main_c_16 (constantI S_ 32 1000000#32),
    unary main_c_16 main_v157 (broadcastInDim S1000000 ![] bcast_S_S1000000 : (⟨S_, .i32⟩ : BufTy).Contents (Elt F) → (⟨S1000000, .i32⟩ : BufTy).Contents (Elt F)),
    binary main_v154 main_v157 main_v158 (addi : (⟨S1000000, .i32⟩ : BufTy).Contents (Elt F) → (⟨S1000000, .i32⟩ : BufTy).Contents (Elt F) → (⟨S1000000, .i32⟩ : BufTy).Contents (Elt F)),
    ternary main_v156 main_v158 main_v154 main_v159 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v159 main_v160 (broadcastInDim S1000000x1 ![0] bcast_S1000000_S1000000x1_0 : (⟨S1000000, .i32⟩ : BufTy).Contents (Elt F) → (⟨S1000000x1, .i32⟩ : BufTy).Contents (Elt F)),
    binary main_arg0 main_v160 main_v161 ((fun x i => Host.gather gather_S1000000x32_S1000000x1_S1000000x32_1_0_n_n_0_1_132 x i) : (⟨S1000000x32, .f32⟩ : BufTy).Contents (Elt F) → (⟨S1000000x1, .i32⟩ : BufTy).Contents (Elt F) → (⟨S1000000x32, .f32⟩ : BufTy).Contents (Elt F)),
    unary main_arg5 main_v162 ((extractStridedSlice S1x1000000 ![8, 0] · slices_S9x1000000_S1x1000000_8_0) : (⟨S9x1000000, .i1⟩ : BufTy).Contents (Elt F) → (⟨S1x1000000, .i1⟩ : BufTy).Contents (Elt F)),
    reshape main_v162 main_v163 rfl shapeCasts_S1x1000000_S1000000,
    unary main_v163 main_v164 (broadcastInDim S1000000x1 ![0] bcast_S1000000_S1000000x1_0 : (⟨S1000000, .i1⟩ : BufTy).Contents (Elt F) → (⟨S1000000x1, .i1⟩ : BufTy).Contents (Elt F)),
    unary main_v164 main_v165 (uitofp .f32 : (⟨S1000000x1, .i1⟩ : BufTy).Contents (Elt F) → (⟨S1000000x1, .f32⟩ : BufTy).Contents (Elt F)),
    unary main_v165 main_v166 (broadcastInDim S1000000x32 ![0, 1] bcast_S1000000x1_S1000000x32_0_1 : (⟨S1000000x1, .f32⟩ : BufTy).Contents (Elt F) → (⟨S1000000x32, .f32⟩ : BufTy).Contents (Elt F)),
    binary main_v161 main_v166 main_v167 (mulf : (⟨S1000000x32, .f32⟩ : BufTy).Contents (Elt F) → (⟨S1000000x32, .f32⟩ : BufTy).Contents (Elt F) → (⟨S1000000x32, .f32⟩ : BufTy).Contents (Elt F)),
    unary main_arg1 main_v168 ((extractStridedSlice S1x32x32 ![8, 0, 0] · slices_S9x32x32_S1x32x32_8_0_0) : (⟨S9x32x32, .f32⟩ : BufTy).Contents (Elt F) → (⟨S1x32x32, .f32⟩ : BufTy).Contents (Elt F)),
    reshape main_v168 main_v169 rfl shapeCasts_S1x32x32_S32x32,
    binary main_v167 main_v169 main_v170 ((fun l r => Host.dotGeneral dot_S1000000x32_S32x32_S1000000x32_1_0_0_1_n_n none l r) : (⟨S1000000x32, .f32⟩ : BufTy).Contents (Elt F) → (⟨S32x32, .f32⟩ : BufTy).Contents (Elt F) → (⟨S1000000x32, .f32⟩ : BufTy).Contents (Elt F)),
    binary main_v152 main_v170 main_v171 (addf : (⟨S1000000x32, .f32⟩ : BufTy).Contents (Elt F) → (⟨S1000000x32, .f32⟩ : BufTy).Contents (Elt F) → (⟨S1000000x32, .f32⟩ : BufTy).Contents (Elt F)) ]

/-- After the nine taps: the rectifier, the column means, the mean of squared deviations, the normalisation, the scale and the shift. -/
abbrev segT : List (HloOp τ sig (Elt F)) :=
  [ nullary main_cst_17 (constant S_ .f32 0x00000000#32),
    unary main_cst_17 main_v172 (broadcastInDim S1000000x32 ![] bcast_S_S1000000x32 : (⟨S_, .f32⟩ : BufTy).Contents (Elt F) → (⟨S1000000x32, .f32⟩ : BufTy).Contents (Elt F)),
    binary main_v171 main_v172 main_v173 (cmpf .oge : (⟨S1000000x32, .f32⟩ : BufTy).Contents (Elt F) → (⟨S1000000x32, .f32⟩ : BufTy).Contents (Elt F) → (⟨S1000000x32, .i1⟩ : BufTy).Contents (Elt F)),
    nullary main_cst_18 (constant S_ .f32 0x3C23D70A#32),
    unary main_cst_18 main_v174 (broadcastInDim S1000000x32 ![] bcast_S_S1000000x32 : (⟨S_, .f32⟩ : BufTy).Contents (Elt F) → (⟨S1000000x32, .f32⟩ : BufTy).Contents (Elt F)),
    binary main_v174 main_v171 main_v175 (mulf : (⟨S1000000x32, .f32⟩ : BufTy).Contents (Elt F) → (⟨S1000000x32, .f32⟩ : BufTy).Contents (Elt F) → (⟨S1000000x32, .f32⟩ : BufTy).Contents (Elt F)),
    TRef.ternary (TRef.of (T := ⟨S1000000x32, .i1⟩) main_v173) (TRef.of (T := ⟨S1000000x32, .f32⟩) main_v171) (TRef.of (T := ⟨S1000000x32, .f32⟩) main_v175) (TRef.of (T := ⟨S1000000x32, .f32⟩) main_v176) select,
    nullary main_cst_19 (constant S_ .f32 0x00000000#32),
    binary main_v176 main_cst_19 main_v177 ((fun x v => Host.reduceAdd x v reducesTo_S1000000x32_S32_d0 h_S_) : (⟨S1000000x32, .f32⟩ : BufTy).Contents (Elt F) → (⟨S_, .f32⟩ : BufTy).Contents (Elt F) → (⟨S32, .f32⟩ : BufTy).Contents (Elt F)),
    nullary main_cst_20 (constant S_ .f32 0x49742400#32),
    unary main_cst_20 main_v178 (broadcastInDim S32 ![] bcast_S_S32 : (⟨S_, .f32⟩ : BufTy).Contents (Elt F) → (⟨S32, .f32⟩ : BufTy).Contents (Elt F)),
    binary main_v177 main_v178 main_v179 (Host.divf : (⟨S32, .f32⟩ : BufTy).Contents (Elt F) → (⟨S32, .f32⟩ : BufTy).Contents (Elt F) → (⟨S32, .f32⟩ : BufTy).Contents (Elt F)),
    unary main_v179 main_v180 (broadcastInDim S1x32 ![1] bcast_S32_S1x32_1 : (⟨S32, .f32⟩ : BufTy).Contents (Elt F) → (⟨S1x32, .f32⟩ : BufTy).Contents (Elt F)),
    unary main_v180 main_v181 (broadcastInDim S1000000x32 ![0, 1] bcast_S1x32_S1000000x32_0_1 : (⟨S1x32, .f32⟩ : BufTy).Contents (Elt F) → (⟨S1000000x32, .f32⟩ : BufTy).Contents (Elt F)),
    binary main_v176 main_v181 main_v182 (subf : (⟨S1000000x32, .f32⟩ : BufTy).Contents (Elt F) → (⟨S1000000x32, .f32⟩ : BufTy).Contents (Elt F) → (⟨S1000000x32, .f32⟩ : BufTy).Contents (Elt F)),
    binary main_v182 main_v182 main_v183 (mulf : (⟨S1000000x32, .f32⟩ : BufTy).Contents (Elt F) → (⟨S1000000x32, .f32⟩ : BufTy).Contents (Elt F) → (⟨S1000000x32, .f32⟩ : BufTy).Contents (Elt F)),
    nullary main_cst_21 (constant S_ .f32 0x00000000#32),
    binary main_v183 main_cst_21 main_v184 ((fun x v => Host.reduceAdd x v reducesTo_S1000000x32_S32_d0 h_S_) : (⟨S1000000x32, .f32⟩ : BufTy).Contents (Elt F) → (⟨S_, .f32⟩ : BufTy).Contents (Elt F) → (⟨S32, .f32⟩ : BufTy).Contents (Elt F)),
    nullary main_cst_22 (constant S_ .f32 0x49742400#32),
    unary main_cst_22 main_v185 (broadcastInDim S32 ![] bcast_S_S32 : (⟨S_, .f32⟩ : BufTy).Contents (Elt F) → (⟨S32, .f32⟩ : BufTy).Contents (Elt F)),
    binary main_v184 main_v185 main_v186 (Host.divf : (⟨S32, .f32⟩ : BufTy).Contents (Elt F) → (⟨S32, .f32⟩ : BufTy).Contents (Elt F) → (⟨S32, .f32⟩ : BufTy).Contents (Elt F)),
    unary main_v179 main_v187 (broadcastInDim S1x32 ![1] bcast_S32_S1x32_1 : (⟨S32, .f32⟩ : BufTy).Contents (Elt F) → (⟨S1x32, .f32⟩ : BufTy).Contents (Elt F)),
    unary main_v187 main_v188 (broadcastInDim S1000000x32 ![0, 1] bcast_S1x32_S1000000x32_0_1 : (⟨S1x32, .f32⟩ : BufTy).Contents (Elt F) → (⟨S1000000x32, .f32⟩ : BufTy).Contents (Elt F)),
    binary main_v176 main_v188 main_v189 (subf : (⟨S1000000x32, .f32⟩ : BufTy).Contents (Elt F) → (⟨S1000000x32, .f32⟩ : BufTy).Contents (Elt F) → (⟨S1000000x32, .f32⟩ : BufTy).Contents (Elt F)),
    nullary main_cst_23 (constant S_ .f32 0x3727C5AC#32),
    unary main_cst_23 main_v190 (broadcastInDim S32 ![] bcast_S_S32 : (⟨S_, .f32⟩ : BufTy).Contents (Elt F) → (⟨S32, .f32⟩ : BufTy).Contents (Elt F)),
    binary main_v186 main_v190 main_v191 (addf : (⟨S32, .f32⟩ : BufTy).Contents (Elt F) → (⟨S32, .f32⟩ : BufTy).Contents (Elt F) → (⟨S32, .f32⟩ : BufTy).Contents (Elt F)),
    unary main_v191 main_v192 (Host.rsqrt : (⟨S32, .f32⟩ : BufTy).Contents (Elt F) → (⟨S32, .f32⟩ : BufTy).Contents (Elt F)),
    unary main_v192 main_v193 (broadcastInDim S1x32 ![1] bcast_S32_S1x32_1 : (⟨S32, .f32⟩ : BufTy).Contents (Elt F) → (⟨S1x32, .f32⟩ : BufTy).Contents (Elt F)),
    unary main_v193 main_v194 (broadcastInDim S1000000x32 ![0, 1] bcast_S1x32_S1000000x32_0_1 : (⟨S1x32, .f32⟩ : BufTy).Contents (Elt F) → (⟨S1000000x32, .f32⟩ : BufTy).Contents (Elt F)),
    binary main_v189 main_v194 main_v195 (mulf : (⟨S1000000x32, .f32⟩ : BufTy).Contents (Elt F) → (⟨S1000000x32, .f32⟩ : BufTy).Contents (Elt F) → (⟨S1000000x32, .f32⟩ : BufTy).Contents (Elt F)),
    unary main_arg2 main_v196 (broadcastInDim S1x32 ![1] bcast_S32_S1x32_1 : (⟨S32, .f32⟩ : BufTy).Contents (Elt F) → (⟨S1x32, .f32⟩ : BufTy).Contents (Elt F)),
    unary main_v196 main_v197 (broadcastInDim S1000000x32 ![0, 1] bcast_S1x32_S1000000x32_0_1 : (⟨S1x32, .f32⟩ : BufTy).Contents (Elt F) → (⟨S1000000x32, .f32⟩ : BufTy).Contents (Elt F)),
    binary main_v195 main_v197 main_v198 (mulf : (⟨S1000000x32, .f32⟩ : BufTy).Contents (Elt F) → (⟨S1000000x32, .f32⟩ : BufTy).Contents (Elt F) → (⟨S1000000x32, .f32⟩ : BufTy).Contents (Elt F)),
    unary main_arg3 main_v199 (broadcastInDim S1x32 ![1] bcast_S32_S1x32_1 : (⟨S32, .f32⟩ : BufTy).Contents (Elt F) → (⟨S1x32, .f32⟩ : BufTy).Contents (Elt F)),
    unary main_v199 main_v200 (broadcastInDim S1000000x32 ![0, 1] bcast_S1x32_S1000000x32_0_1 : (⟨S1x32, .f32⟩ : BufTy).Contents (Elt F) → (⟨S1000000x32, .f32⟩ : BufTy).Contents (Elt F)),
    binary main_v198 main_v200 main_v201 (addf : (⟨S1000000x32, .f32⟩ : BufTy).Contents (Elt F) → (⟨S1000000x32, .f32⟩ : BufTy).Contents (Elt F) → (⟨S1000000x32, .f32⟩ : BufTy).Contents (Elt F)) ]

set_option maxRecDepth 8192 in
/-- The program's operations are the ten segments in order. -/
theorem ops_eq : (Cert.ReferenceIdeal.ValueP.ops : List (HloOp τ sig (Elt F)))
    = seg0 ++ (seg1 ++ (seg2 ++ (seg3 ++ (seg4 ++ (seg5 ++ (seg6 ++ (seg7 ++ (seg8 ++ segT)))))))) := rfl

end Cert.RefSegs

end
-- ==== Proof.RefLightKeep.lean ====
/-
  The reference program's operations, ten segments run in order.

  The reference is a straight line of host operations: a first segment that makes the zeros and adds the first
  tap's product onto them, eight segments that each add one more tap's product onto the running sum, and a last
  segment for the rectifier, the two column moments and the normalisation. Running a list made of two parts is
  running the first part and then the second from what the first left, so the program's run is the ten segments'
  runs composed. Each segment writes a known list of buffers and leaves every other buffer as it found it, and
  every operation determines what it writes.
-/
import proofs.«180816_j45861660786969_2_alg».proof.Proof.RefSegs

noncomputable section

namespace Cert.RefLight

open Cert.ReferenceIdeal Cert.ReferenceIdeal.Gen Idealize.ShloMosaic Idealize.ShloMosaic.TcCoe Idealize.SL.Sem Idealize.ShloMosaic.StableHlo
open Cert.RefSegs

variable {F : FTy → Type} [FloatOps F]

/-- Running two lists in a row is running the first, then the second from what the first left. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih (op.result V)

/-- The program's run is the ten segments' runs composed. -/
theorem after_ops (V : Valuation τ sig (Elt F)) :
    StableHlo.after Cert.ReferenceIdeal.ValueP.ops V
      = StableHlo.after segT (StableHlo.after seg8 (StableHlo.after seg7 (StableHlo.after seg6 (StableHlo.after seg5
          (StableHlo.after seg4 (StableHlo.after seg3 (StableHlo.after seg2 (StableHlo.after seg1 (StableHlo.after seg0 V))))))))) := by
  rw [ops_eq, after_append, after_append, after_append, after_append, after_append, after_append, after_append,
    after_append, after_append]

/-! ## The buffers each segment writes; every other buffer kept; every operation determines its results -/

/-- The buffers segment 0 writes. -/
abbrev wr0 : List (Ref sig .tc) := [main_cst, main_v0, main_v1, main_v2, main_c, main_v3, main_v4, main_c_0, main_v5, main_v6, main_v7, main_v8, main_v9, main_v10, main_v11, main_v12, main_v13, main_v14, main_v15, main_v16, main_v17, main_v18, main_v19]
theorem writes0 : (seg0 : List (HloOp τ sig (Elt F))).Forall fun op => op.writes ⊆ (wr0.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- Segment 0 leaves a buffer it does not write as it was. -/
theorem keep0 (V : Valuation τ sig (Elt F)) (r : Ref sig .tc) (hr : r ∉ wr0) :
    StableHlo.after seg0 V (Proc.devRef .tc r) = V (Proc.devRef .tc r) :=
  StableHlo.after_of_writes_sub seg0 V writes0 hr
theorem fresh0 : ∀ op ∈ (seg0 : List (HloOp τ sig (Elt F))), op.fresh = ∅ := by
  intro _ h
  (repeat (cases h with | head => rfl | tail _ h => ?_))
  exact nomatch h

/-- The buffers segment 1 writes. -/
abbrev wr1 : List (Ref sig .tc) := [main_v20, main_v21, main_c_1, main_v22, main_v23, main_c_2, main_v24, main_v25, main_v26, main_v27, main_v28, main_v29, main_v30, main_v31, main_v32, main_v33, main_v34, main_v35, main_v36, main_v37, main_v38]
theorem writes1 : (seg1 : List (HloOp τ sig (Elt F))).Forall fun op => op.writes ⊆ (wr1.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- Segment 1 leaves a buffer it does not write as it was. -/
theorem keep1 (V : Valuation τ sig (Elt F)) (r : Ref sig .tc) (hr : r ∉ wr1) :
    StableHlo.after seg1 V (Proc.devRef .tc r) = V (Proc.devRef .tc r) :=
  StableHlo.after_of_writes_sub seg1 V writes1 hr
theorem fresh1 : ∀ op ∈ (seg1 : List (HloOp τ sig (Elt F))), op.fresh = ∅ := by
  intro _ h
  (repeat (cases h with | head => rfl | tail _ h => ?_))
  exact nomatch h

/-- The buffers segment 2 writes. -/
abbrev wr2 : List (Ref sig .tc) := [main_v39, main_v40, main_c_3, main_v41, main_v42, main_c_4, main_v43, main_v44, main_v45, main_v46, main_v47, main_v48, main_v49, main_v50, main_v51, main_v52, main_v53, main_v54, main_v55, main_v56, main_v57]
theorem writes2 : (seg2 : List (HloOp τ sig (Elt F))).Forall fun op => op.writes ⊆ (wr2.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- Segment 2 leaves a buffer it does not write as it was. -/
theorem keep2 (V : Valuation τ sig (Elt F)) (r : Ref sig .tc) (hr : r ∉ wr2) :
    StableHlo.after seg2 V (Proc.devRef .tc r) = V (Proc.devRef .tc r) :=
  StableHlo.after_of_writes_sub seg2 V writes2 hr
theorem fresh2 : ∀ op ∈ (seg2 : List (HloOp τ sig (Elt F))), op.fresh = ∅ := by
  intro _ h
  (repeat (cases h with | head => rfl | tail _ h => ?_))
  exact nomatch h

/-- The buffers segment 3 writes. -/
abbrev wr3 : List (Ref sig .tc) := [main_v58, main_v59, main_c_5, main_v60, main_v61, main_c_6, main_v62, main_v63, main_v64, main_v65, main_v66, main_v67, main_v68, main_v69, main_v70, main_v71, main_v72, main_v73, main_v74, main_v75, main_v76]
theorem writes3 : (seg3 : List (HloOp τ sig (Elt F))).Forall fun op => op.writes ⊆ (wr3.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- Segment 3 leaves a buffer it does not write as it was. -/
theorem keep3 (V : Valuation τ sig (Elt F)) (r : Ref sig .tc) (hr : r ∉ wr3) :
    StableHlo.after seg3 V (Proc.devRef .tc r) = V (Proc.devRef .tc r) :=
  StableHlo.after_of_writes_sub seg3 V writes3 hr
theorem fresh3 : ∀ op ∈ (seg3 : List (HloOp τ sig (Elt F))), op.fresh = ∅ := by
  intro _ h
  (repeat (cases h with | head => rfl | tail _ h => ?_))
  exact nomatch h

/-- The buffers segment 4 writes. -/
abbrev wr4 : List (Ref sig .tc) := [main_v77, main_v78, main_c_7, main_v79, main_v80, main_c_8, main_v81, main_v82, main_v83, main_v84, main_v85, main_v86, main_v87, main_v88, main_v89, main_v90, main_v91, main_v92, main_v93, main_v94, main_v95]
theorem writes4 : (seg4 : List (HloOp τ sig (Elt F))).Forall fun op => op.writes ⊆ (wr4.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- Segment 4 leaves a buffer it does not write as it was. -/
theorem keep4 (V : Valuation τ sig (Elt F)) (r : Ref sig .tc) (hr : r ∉ wr4) :
    StableHlo.after seg4 V (Proc.devRef .tc r) = V (Proc.devRef .tc r) :=
  StableHlo.after_of_writes_sub seg4 V writes4 hr
theorem fresh4 : ∀ op ∈ (seg4 : List (HloOp τ sig (Elt F))), op.fresh = ∅ := by
  intro _ h
  (repeat (cases h with | head => rfl | tail _ h => ?_))
  exact nomatch h

/-- The buffers segment 5 writes. -/
abbrev wr5 : List (Ref sig .tc) := [main_v96, main_v97, main_c_9, main_v98, main_v99, main_c_10, main_v100, main_v101, main_v102, main_v103, main_v104, main_v105, main_v106, main_v107, main_v108, main_v109, main_v110, main_v111, main_v112, main_v113, main_v114]
theorem writes5 : (seg5 : List (HloOp τ sig (Elt F))).Forall fun op => op.writes ⊆ (wr5.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- Segment 5 leaves a buffer it does not write as it was. -/
theorem keep5 (V : Valuation τ sig (Elt F)) (r : Ref sig .tc) (hr : r ∉ wr5) :
    StableHlo.after seg5 V (Proc.devRef .tc r) = V (Proc.devRef .tc r) :=
  StableHlo.after_of_writes_sub seg5 V writes5 hr
theorem fresh5 : ∀ op ∈ (seg5 : List (HloOp τ sig (Elt F))), op.fresh = ∅ := by
  intro _ h
  (repeat (cases h with | head => rfl | tail _ h => ?_))
  exact nomatch h

/-- The buffers segment 6 writes. -/
abbrev wr6 : List (Ref sig .tc) := [main_v115, main_v116, main_c_11, main_v117, main_v118, main_c_12, main_v119, main_v120, main_v121, main_v122, main_v123, main_v124, main_v125, main_v126, main_v127, main_v128, main_v129, main_v130, main_v131, main_v132, main_v133]
theorem writes6 : (seg6 : List (HloOp τ sig (Elt F))).Forall fun op => op.writes ⊆ (wr6.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- Segment 6 leaves a buffer it does not write as it was. -/
theorem keep6 (V : Valuation τ sig (Elt F)) (r : Ref sig .tc) (hr : r ∉ wr6) :
    StableHlo.after seg6 V (Proc.devRef .tc r) = V (Proc.devRef .tc r) :=
  StableHlo.after_of_writes_sub seg6 V writes6 hr
theorem fresh6 : ∀ op ∈ (seg6 : List (HloOp τ sig (Elt F))), op.fresh = ∅ := by
  intro _ h
  (repeat (cases h with | head => rfl | tail _ h => ?_))
  exact nomatch h

/-- The buffers segment 7 writes. -/
abbrev wr7 : List (Ref sig .tc) := [main_v134, main_v135, main_c_13, main_v136, main_v137, main_c_14, main_v138, main_v139, main_v140, main_v141, main_v142, main_v143, main_v144, main_v145, main_v146, main_v147, main_v148, main_v149, main_v150, main_v151, main_v152]
theorem writes7 : (seg7 : List (HloOp τ sig (Elt F))).Forall fun op => op.writes ⊆ (wr7.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- Segment 7 leaves a buffer it does not write as it was. -/
theorem keep7 (V : Valuation τ sig (Elt F)) (r : Ref sig .tc) (hr : r ∉ wr7) :
    StableHlo.after seg7 V (Proc.devRef .tc r) = V (Proc.devRef .tc r) :=
  StableHlo.after_of_writes_sub seg7 V writes7 hr
theorem fresh7 : ∀ op ∈ (seg7 : List (HloOp τ sig (Elt F))), op.fresh = ∅ := by
  intro _ h
  (repeat (cases h with | head => rfl | tail _ h => ?_))
  exact nomatch h

/-- The buffers segment 8 writes. -/
abbrev wr8 : List (Ref sig .tc) := [main_v153, main_v154, main_c_15, main_v155, main_v156, main_c_16, main_v157, main_v158, main_v159, main_v160, main_v161, main_v162, main_v163, main_v164, main_v165, main_v166, main_v167, main_v168, main_v169, main_v170, main_v171]
theorem writes8 : (seg8 : List (HloOp τ sig (Elt F))).Forall fun op => op.writes ⊆ (wr8.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- Segment 8 leaves a buffer it does not write as it was. -/
theorem keep8 (V : Valuation τ sig (Elt F)) (r : Ref sig .tc) (hr : r ∉ wr8) :
    StableHlo.after seg8 V (Proc.devRef .tc r) = V (Proc.devRef .tc r) :=
  StableHlo.after_of_writes_sub seg8 V writes8 hr
theorem fresh8 : ∀ op ∈ (seg8 : List (HloOp τ sig (Elt F))), op.fresh = ∅ := by
  intro _ h
  (repeat (cases h with | head => rfl | tail _ h => ?_))
  exact nomatch h

/-- The buffers segment T writes. -/
abbrev wrT : List (Ref sig .tc) := [main_cst_17, main_v172, main_v173, main_cst_18, main_v174, main_v175, main_v176, main_cst_19, main_v177, main_cst_20, main_v178, main_v179, main_v180, main_v181, main_v182, main_v183, main_cst_21, main_v184, main_cst_22, main_v185, main_v186, main_v187, main_v188, main_v189, main_cst_23, main_v190, main_v191, main_v192, main_v193, main_v194, main_v195, main_v196, main_v197, main_v198, main_v199, main_v200, main_v201]
theorem writesT : (segT : List (HloOp τ sig (Elt F))).Forall fun op => op.writes ⊆ (wrT.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- Segment T leaves a buffer it does not write as it was. -/
theorem keepT (V : Valuation τ sig (Elt F)) (r : Ref sig .tc) (hr : r ∉ wrT) :
    StableHlo.after segT V (Proc.devRef .tc r) = V (Proc.devRef .tc r) :=
  StableHlo.after_of_writes_sub segT V writesT hr
theorem freshT : ∀ op ∈ (segT : List (HloOp τ sig (Elt F))), op.fresh = ∅ := by
  intro _ h
  (repeat (cases h with | head => rfl | tail _ h => ?_))
  exact nomatch h

/-- Every operation of the program determines its results. -/
theorem fresh_ops : ∀ op ∈ (Cert.ReferenceIdeal.ValueP.ops : List (HloOp τ sig (Elt F))), op.fresh = ∅ := by
  rw [ops_eq]
  intro op h
  rcases List.mem_append.mp h with h | h
  · exact fresh0 op h
  rcases List.mem_append.mp h with h | h
  · exact fresh1 op h
  rcases List.mem_append.mp h with h | h
  · exact fresh2 op h
  rcases List.mem_append.mp h with h | h
  · exact fresh3 op h
  rcases List.mem_append.mp h with h | h
  · exact fresh4 op h
  rcases List.mem_append.mp h with h | h
  · exact fresh5 op h
  rcases List.mem_append.mp h with h | h
  · exact fresh6 op h
  rcases List.mem_append.mp h with h | h
  · exact fresh7 op h
  rcases List.mem_append.mp h with h | h
  · exact fresh8 op h
  exact freshT op h

end Cert.RefLight

end
-- ==== Proof.RefLightSteps.lean ====
/-
  Each segment of the reference program, read back against the staged values.

  The staged values name, operation by operation, the array each operation of the reference computes from the
  six arguments. A tap's segment, run from any contents in which the feature table, the weights, the index words
  and the mask bits sit in their argument buffers and the running sum so far sits in its buffer, leaves the next
  running sum in its buffer; the first segment needs no running sum (it makes the zeros itself); the last segment,
  from the scale and the shift in their argument buffers and the ninth running sum, leaves the normalised result.
-/
import proofs.«180816_j45861660786969_2_alg».proof.Proof.RefSegs
import proofs.«180816_j45861660786969_2_alg».proof.Proof.RefRead

noncomputable section

namespace Cert.RefLight

open Cert.ReferenceIdeal Cert.ReferenceIdeal.Gen Idealize.ShloMosaic Idealize.ShloMosaic.TcCoe Idealize.SL.Sem Idealize.ShloMosaic.StableHlo
open Cert.RefSegs
open Cert.ReferenceIdeal.ReadP

variable {F : FTy → Type} [FloatOps F]

theorem seg0_step (V : Valuation τ sig (Elt F))
    (x0 : (⟨S1000000x32, .f32⟩ : BufTy).Contents (Elt F)) (x1 : (⟨S9x32x32, .f32⟩ : BufTy).Contents (Elt F))
    (x4 : (⟨S9x1000000, .i32⟩ : BufTy).Contents (Elt F)) (x5 : (⟨S9x1000000, .i1⟩ : BufTy).Contents (Elt F))
    (e0 : V (Proc.devRef .tc main_arg0) = x0) (e1 : V (Proc.devRef .tc main_arg1) = x1)
    (e4 : V (Proc.devRef .tc main_arg4) = x4) (e5 : V (Proc.devRef .tc main_arg5) = x5) :
    StableHlo.after seg0 V (Proc.devRef .tc main_v19) = val_main_v19 (F := F) x0 x1 x4 x5 := by
  subst e0 e1 e4 e5
  after_results_simp
  rfl

theorem seg1_step (V : Valuation τ sig (Elt F))
    (x0 : (⟨S1000000x32, .f32⟩ : BufTy).Contents (Elt F)) (x1 : (⟨S9x32x32, .f32⟩ : BufTy).Contents (Elt F))
    (x4 : (⟨S9x1000000, .i32⟩ : BufTy).Contents (Elt F)) (x5 : (⟨S9x1000000, .i1⟩ : BufTy).Contents (Elt F))
    (e0 : V (Proc.devRef .tc main_arg0) = x0) (e1 : V (Proc.devRef .tc main_arg1) = x1)
    (e4 : V (Proc.devRef .tc main_arg4) = x4) (e5 : V (Proc.devRef .tc main_arg5) = x5)
    (ea : V (Proc.devRef .tc main_v19) = val_main_v19 (F := F) x0 x1 x4 x5) :
    StableHlo.after seg1 V (Proc.devRef .tc main_v38) = val_main_v38 (F := F) x0 x1 x4 x5 := by
  subst e0 e1 e4 e5
  after_results_simp
  rw [ea]
  rfl

theorem seg2_step (V : Valuation τ sig (Elt F))
    (x0 : (⟨S1000000x32, .f32⟩ : BufTy).Contents (Elt F)) (x1 : (⟨S9x32x32, .f32⟩ : BufTy).Contents (Elt F))
    (x4 : (⟨S9x1000000, .i32⟩ : BufTy).Contents (Elt F)) (x5 : (⟨S9x1000000, .i1⟩ : BufTy).Contents (Elt F))
    (e0 : V (Proc.devRef .tc main_arg0) = x0) (e1 : V (Proc.devRef .tc main_arg1) = x1)
    (e4 : V (Proc.devRef .tc main_arg4) = x4) (e5 : V (Proc.devRef .tc main_arg5) = x5)
    (ea : V (Proc.devRef .tc main_v38) = val_main_v38 (F := F) x0 x1 x4 x5) :
    StableHlo.after seg2 V (Proc.devRef .tc main_v57) = val_main_v57 (F := F) x0 x1 x4 x5 := by
  subst e0 e1 e4 e5
  after_results_simp
  rw [ea]
  rfl

theorem seg3_step (V : Valuation τ sig (Elt F))
    (x0 : (⟨S1000000x32, .f32⟩ : BufTy).Contents (Elt F)) (x1 : (⟨S9x32x32, .f32⟩ : BufTy).Contents (Elt F))
    (x4 : (⟨S9x1000000, .i32⟩ : BufTy).Contents (Elt F)) (x5 : (⟨S9x1000000, .i1⟩ : BufTy).Contents (Elt F))
    (e0 : V (Proc.devRef .tc main_arg0) = x0) (e1 : V (Proc.devRef .tc main_arg1) = x1)
    (e4 : V (Proc.devRef .tc main_arg4) = x4) (e5 : V (Proc.devRef .tc main_arg5) = x5)
    (ea : V (Proc.devRef .tc main_v57) = val_main_v57 (F := F) x0 x1 x4 x5) :
    StableHlo.after seg3 V (Proc.devRef .tc main_v76) = val_main_v76 (F := F) x0 x1 x4 x5 := by
  subst e0 e1 e4 e5
  after_results_simp
  rw [ea]
  rfl

theorem seg4_step (V : Valuation τ sig (Elt F))
    (x0 : (⟨S1000000x32, .f32⟩ : BufTy).Contents (Elt F)) (x1 : (⟨S9x32x32, .f32⟩ : BufTy).Contents (Elt F))
    (x4 : (⟨S9x1000000, .i32⟩ : BufTy).Contents (Elt F)) (x5 : (⟨S9x1000000, .i1⟩ : BufTy).Contents (Elt F))
    (e0 : V (Proc.devRef .tc main_arg0) = x0) (e1 : V (Proc.devRef .tc main_arg1) = x1)
    (e4 : V (Proc.devRef .tc main_arg4) = x4) (e5 : V (Proc.devRef .tc main_arg5) = x5)
    (ea : V (Proc.devRef .tc main_v76) = val_main_v76 (F := F) x0 x1 x4 x5) :
    StableHlo.after seg4 V (Proc.devRef .tc main_v95) = val_main_v95 (F := F) x0 x1 x4 x5 := by
  subst e0 e1 e4 e5
  after_results_simp
  rw [ea]
  rfl

theorem seg5_step (V : Valuation τ sig (Elt F))
    (x0 : (⟨S1000000x32, .f32⟩ : BufTy).Contents (Elt F)) (x1 : (⟨S9x32x32, .f32⟩ : BufTy).Contents (Elt F))
    (x4 : (⟨S9x1000000, .i32⟩ : BufTy).Contents (Elt F)) (x5 : (⟨S9x1000000, .i1⟩ : BufTy).Contents (Elt F))
    (e0 : V (Proc.devRef .tc main_arg0) = x0) (e1 : V (Proc.devRef .tc main_arg1) = x1)
    (e4 : V (Proc.devRef .tc main_arg4) = x4) (e5 : V (Proc.devRef .tc main_arg5) = x5)
    (ea : V (Proc.devRef .tc main_v95) = val_main_v95 (F := F) x0 x1 x4 x5) :
    StableHlo.after seg5 V (Proc.devRef .tc main_v114) = val_main_v114 (F := F) x0 x1 x4 x5 := by
  subst e0 e1 e4 e5
  after_results_simp
  rw [ea]
  rfl

theorem seg6_step (V : Valuation τ sig (Elt F))
    (x0 : (⟨S1000000x32, .f32⟩ : BufTy).Contents (Elt F)) (x1 : (⟨S9x32x32, .f32⟩ : BufTy).Contents (Elt F))
    (x4 : (⟨S9x1000000, .i32⟩ : BufTy).Contents (Elt F)) (x5 : (⟨S9x1000000, .i1⟩ : BufTy).Contents (Elt F))
    (e0 : V (Proc.devRef .tc main_arg0) = x0) (e1 : V (Proc.devRef .tc main_arg1) = x1)
    (e4 : V (Proc.devRef .tc main_arg4) = x4) (e5 : V (Proc.devRef .tc main_arg5) = x5)
    (ea : V (Proc.devRef .tc main_v114) = val_main_v114 (F := F) x0 x1 x4 x5) :
    StableHlo.after seg6 V (Proc.devRef .tc main_v133) = val_main_v133 (F := F) x0 x1 x4 x5 := by
  subst e0 e1 e4 e5
  after_results_simp
  rw [ea]
  rfl

theorem seg7_step (V : Valuation τ sig (Elt F))
    (x0 : (⟨S1000000x32, .f32⟩ : BufTy).Contents (Elt F)) (x1 : (⟨S9x32x32, .f32⟩ : BufTy).Contents (Elt F))
    (x4 : (⟨S9x1000000, .i32⟩ : BufTy).Contents (Elt F)) (x5 : (⟨S9x1000000, .i1⟩ : BufTy).Contents (Elt F))
    (e0 : V (Proc.devRef .tc main_arg0) = x0) (e1 : V (Proc.devRef .tc main_arg1) = x1)
    (e4 : V (Proc.devRef .tc main_arg4) = x4) (e5 : V (Proc.devRef .tc main_arg5) = x5)
    (ea : V (Proc.devRef .tc main_v133) = val_main_v133 (F := F) x0 x1 x4 x5) :
    StableHlo.after seg7 V (Proc.devRef .tc main_v152) = val_main_v152 (F := F) x0 x1 x4 x5 := by
  subst e0 e1 e4 e5
  after_results_simp
  rw [ea]
  rfl

theorem seg8_step (V : Valuation τ sig (Elt F))
    (x0 : (⟨S1000000x32, .f32⟩ : BufTy).Contents (Elt F)) (x1 : (⟨S9x32x32, .f32⟩ : BufTy).Contents (Elt F))
    (x4 : (⟨S9x1000000, .i32⟩ : BufTy).Contents (Elt F)) (x5 : (⟨S9x1000000, .i1⟩ : BufTy).Contents (Elt F))
    (e0 : V (Proc.devRef .tc main_arg0) = x0) (e1 : V (Proc.devRef .tc main_arg1) = x1)
    (e4 : V (Proc.devRef .tc main_arg4) = x4) (e5 : V (Proc.devRef .tc main_arg5) = x5)
    (ea : V (Proc.devRef .tc main_v152) = val_main_v152 (F := F) x0 x1 x4 x5) :
    StableHlo.after seg8 V (Proc.devRef .tc main_v171) = val_main_v171 (F := F) x0 x1 x4 x5 := by
  subst e0 e1 e4 e5
  after_results_simp
  rw [ea]
  rfl

theorem segT_step (V : Valuation τ sig (Elt F))
    (x0 : (⟨S1000000x32, .f32⟩ : BufTy).Contents (Elt F)) (x1 : (⟨S9x32x32, .f32⟩ : BufTy).Contents (Elt F))
    (x2 x3 : (⟨S32, .f32⟩ : BufTy).Contents (Elt F))
    (x4 : (⟨S9x1000000, .i32⟩ : BufTy).Contents (Elt F)) (x5 : (⟨S9x1000000, .i1⟩ : BufTy).Contents (Elt F))
    (e2 : V (Proc.devRef .tc main_arg2) = x2) (e3 : V (Proc.devRef .tc main_arg3) = x3)
    (ea : V (Proc.devRef .tc main_v171) = val_main_v171 (F := F) x0 x1 x4 x5) :
    StableHlo.after segT V (Proc.devRef .tc main_v201) = val_main_v201 (F := F) x0 x1 x2 x3 x4 x5 := by
  subst e2 e3
  after_results_simp
  rw [ea]
  rfl

end Cert.RefLight

end
-- ==== Proof.RefLight.lean ====
/-
  The reference program's run, read back segment by segment.

  From the launch memory the six arguments sit in their buffers, and no segment writes them: they hold their launch
  contents at every boundary between segments and at the end. The first segment leaves the first running sum of
  the staged values in its buffer; each later tap's segment, finding the arguments and the running sum so far,
  leaves the next; the last segment, finding the scale, the shift and the ninth running sum, leaves the staged
  value of the result. Every weakly fair execution of the program ends with the buffers at the ten segments' runs
  composed from the launch contents, so with the result's buffer at the staged value of the six launch arguments
  and the arguments unchanged.
-/
import proofs.«180816_j45861660786969_2_alg».proof.Proof.RefLightKeep
import proofs.«180816_j45861660786969_2_alg».proof.Proof.RefLightSteps

noncomputable section

namespace Cert.RefLight

open Cert.ReferenceIdeal Cert.ReferenceIdeal.Gen Idealize.ShloMosaic Idealize.ShloMosaic.TcCoe Idealize.SL.Sem Idealize.ShloMosaic.StableHlo
open Cert.RefSegs
open Cert.ReferenceIdeal.ReadP

section Chain
variable (m : (ℓ : Loc nD τ sig) → Buf (Elt Ideal) ℓ) (c : Dev nD)

/-- The buffers' contents at the ten boundaries: at launch, then after each segment. -/
abbrev B0 : Valuation τ sig (Elt Ideal) := launchContents m c
abbrev B1 : Valuation τ sig (Elt Ideal) := StableHlo.after seg0 (B0 m c)
abbrev B2 : Valuation τ sig (Elt Ideal) := StableHlo.after seg1 (B1 m c)
abbrev B3 : Valuation τ sig (Elt Ideal) := StableHlo.after seg2 (B2 m c)
abbrev B4 : Valuation τ sig (Elt Ideal) := StableHlo.after seg3 (B3 m c)
abbrev B5 : Valuation τ sig (Elt Ideal) := StableHlo.after seg4 (B4 m c)
abbrev B6 : Valuation τ sig (Elt Ideal) := StableHlo.after seg5 (B5 m c)
abbrev B7 : Valuation τ sig (Elt Ideal) := StableHlo.after seg6 (B6 m c)
abbrev B8 : Valuation τ sig (Elt Ideal) := StableHlo.after seg7 (B7 m c)
abbrev B9 : Valuation τ sig (Elt Ideal) := StableHlo.after seg8 (B8 m c)
abbrev B10 : Valuation τ sig (Elt Ideal) := StableHlo.after segT (B9 m c)

/-! ## The arguments at every boundary -/

theorem arg0_B0 : B0 m c (Proc.devRef .tc main_arg0) = m ((c.tc : Thread nD τ).loc main_arg0) := rfl
theorem arg0_B1 : B1 m c (Proc.devRef .tc main_arg0) = m ((c.tc : Thread nD τ).loc main_arg0) :=
  (keep0 (B0 m c) main_arg0 (by decide)).trans (arg0_B0 m c)
theorem arg0_B2 : B2 m c (Proc.devRef .tc main_arg0) = m ((c.tc : Thread nD τ).loc main_arg0) :=
  (keep1 (B1 m c) main_arg0 (by decide)).trans (arg0_B1 m c)
theorem arg0_B3 : B3 m c (Proc.devRef .tc main_arg0) = m ((c.tc : Thread nD τ).loc main_arg0) :=
  (keep2 (B2 m c) main_arg0 (by decide)).trans (arg0_B2 m c)
theorem arg0_B4 : B4 m c (Proc.devRef .tc main_arg0) = m ((c.tc : Thread nD τ).loc main_arg0) :=
  (keep3 (B3 m c) main_arg0 (by decide)).trans (arg0_B3 m c)
theorem arg0_B5 : B5 m c (Proc.devRef .tc main_arg0) = m ((c.tc : Thread nD τ).loc main_arg0) :=
  (keep4 (B4 m c) main_arg0 (by decide)).trans (arg0_B4 m c)
theorem arg0_B6 : B6 m c (Proc.devRef .tc main_arg0) = m ((c.tc : Thread nD τ).loc main_arg0) :=
  (keep5 (B5 m c) main_arg0 (by decide)).trans (arg0_B5 m c)
theorem arg0_B7 : B7 m c (Proc.devRef .tc main_arg0) = m ((c.tc : Thread nD τ).loc main_arg0) :=
  (keep6 (B6 m c) main_arg0 (by decide)).trans (arg0_B6 m c)
theorem arg0_B8 : B8 m c (Proc.devRef .tc main_arg0) = m ((c.tc : Thread nD τ).loc main_arg0) :=
  (keep7 (B7 m c) main_arg0 (by decide)).trans (arg0_B7 m c)
theorem arg0_B9 : B9 m c (Proc.devRef .tc main_arg0) = m ((c.tc : Thread nD τ).loc main_arg0) :=
  (keep8 (B8 m c) main_arg0 (by decide)).trans (arg0_B8 m c)
theorem arg0_B10 : B10 m c (Proc.devRef .tc main_arg0) = m ((c.tc : Thread nD τ).loc main_arg0) :=
  (keepT (B9 m c) main_arg0 (by decide)).trans (arg0_B9 m c)

theorem arg1_B0 : B0 m c (Proc.devRef .tc main_arg1) = m ((c.tc : Thread nD τ).loc main_arg1) := rfl
theorem arg1_B1 : B1 m c (Proc.devRef .tc main_arg1) = m ((c.tc : Thread nD τ).loc main_arg1) :=
  (keep0 (B0 m c) main_arg1 (by decide)).trans (arg1_B0 m c)
theorem arg1_B2 : B2 m c (Proc.devRef .tc main_arg1) = m ((c.tc : Thread nD τ).loc main_arg1) :=
  (keep1 (B1 m c) main_arg1 (by decide)).trans (arg1_B1 m c)
theorem arg1_B3 : B3 m c (Proc.devRef .tc main_arg1) = m ((c.tc : Thread nD τ).loc main_arg1) :=
  (keep2 (B2 m c) main_arg1 (by decide)).trans (arg1_B2 m c)
theorem arg1_B4 : B4 m c (Proc.devRef .tc main_arg1) = m ((c.tc : Thread nD τ).loc main_arg1) :=
  (keep3 (B3 m c) main_arg1 (by decide)).trans (arg1_B3 m c)
theorem arg1_B5 : B5 m c (Proc.devRef .tc main_arg1) = m ((c.tc : Thread nD τ).loc main_arg1) :=
  (keep4 (B4 m c) main_arg1 (by decide)).trans (arg1_B4 m c)
theorem arg1_B6 : B6 m c (Proc.devRef .tc main_arg1) = m ((c.tc : Thread nD τ).loc main_arg1) :=
  (keep5 (B5 m c) main_arg1 (by decide)).trans (arg1_B5 m c)
theorem arg1_B7 : B7 m c (Proc.devRef .tc main_arg1) = m ((c.tc : Thread nD τ).loc main_arg1) :=
  (keep6 (B6 m c) main_arg1 (by decide)).trans (arg1_B6 m c)
theorem arg1_B8 : B8 m c (Proc.devRef .tc main_arg1) = m ((c.tc : Thread nD τ).loc main_arg1) :=
  (keep7 (B7 m c) main_arg1 (by decide)).trans (arg1_B7 m c)
theorem arg1_B9 : B9 m c (Proc.devRef .tc main_arg1) = m ((c.tc : Thread nD τ).loc main_arg1) :=
  (keep8 (B8 m c) main_arg1 (by decide)).trans (arg1_B8 m c)
theorem arg1_B10 : B10 m c (Proc.devRef .tc main_arg1) = m ((c.tc : Thread nD τ).loc main_arg1) :=
  (keepT (B9 m c) main_arg1 (by decide)).trans (arg1_B9 m c)

theorem arg2_B0 : B0 m c (Proc.devRef .tc main_arg2) = m ((c.tc : Thread nD τ).loc main_arg2) := rfl
theorem arg2_B1 : B1 m c (Proc.devRef .tc main_arg2) = m ((c.tc : Thread nD τ).loc main_arg2) :=
  (keep0 (B0 m c) main_arg2 (by decide)).trans (arg2_B0 m c)
theorem arg2_B2 : B2 m c (Proc.devRef .tc main_arg2) = m ((c.tc : Thread nD τ).loc main_arg2) :=
  (keep1 (B1 m c) main_arg2 (by decide)).trans (arg2_B1 m c)
theorem arg2_B3 : B3 m c (Proc.devRef .tc main_arg2) = m ((c.tc : Thread nD τ).loc main_arg2) :=
  (keep2 (B2 m c) main_arg2 (by decide)).trans (arg2_B2 m c)
theorem arg2_B4 : B4 m c (Proc.devRef .tc main_arg2) = m ((c.tc : Thread nD τ).loc main_arg2) :=
  (keep3 (B3 m c) main_arg2 (by decide)).trans (arg2_B3 m c)
theorem arg2_B5 : B5 m c (Proc.devRef .tc main_arg2) = m ((c.tc : Thread nD τ).loc main_arg2) :=
  (keep4 (B4 m c) main_arg2 (by decide)).trans (arg2_B4 m c)
theorem arg2_B6 : B6 m c (Proc.devRef .tc main_arg2) = m ((c.tc : Thread nD τ).loc main_arg2) :=
  (keep5 (B5 m c) main_arg2 (by decide)).trans (arg2_B5 m c)
theorem arg2_B7 : B7 m c (Proc.devRef .tc main_arg2) = m ((c.tc : Thread nD τ).loc main_arg2) :=
  (keep6 (B6 m c) main_arg2 (by decide)).trans (arg2_B6 m c)
theorem arg2_B8 : B8 m c (Proc.devRef .tc main_arg2) = m ((c.tc : Thread nD τ).loc main_arg2) :=
  (keep7 (B7 m c) main_arg2 (by decide)).trans (arg2_B7 m c)
theorem arg2_B9 : B9 m c (Proc.devRef .tc main_arg2) = m ((c.tc : Thread nD τ).loc main_arg2) :=
  (keep8 (B8 m c) main_arg2 (by decide)).trans (arg2_B8 m c)
theorem arg2_B10 : B10 m c (Proc.devRef .tc main_arg2) = m ((c.tc : Thread nD τ).loc main_arg2) :=
  (keepT (B9 m c) main_arg2 (by decide)).trans (arg2_B9 m c)

theorem arg3_B0 : B0 m c (Proc.devRef .tc main_arg3) = m ((c.tc : Thread nD τ).loc main_arg3) := rfl
theorem arg3_B1 : B1 m c (Proc.devRef .tc main_arg3) = m ((c.tc : Thread nD τ).loc main_arg3) :=
  (keep0 (B0 m c) main_arg3 (by decide)).trans (arg3_B0 m c)
theorem arg3_B2 : B2 m c (Proc.devRef .tc main_arg3) = m ((c.tc : Thread nD τ).loc main_arg3) :=
  (keep1 (B1 m c) main_arg3 (by decide)).trans (arg3_B1 m c)
theorem arg3_B3 : B3 m c (Proc.devRef .tc main_arg3) = m ((c.tc : Thread nD τ).loc main_arg3) :=
  (keep2 (B2 m c) main_arg3 (by decide)).trans (arg3_B2 m c)
theorem arg3_B4 : B4 m c (Proc.devRef .tc main_arg3) = m ((c.tc : Thread nD τ).loc main_arg3) :=
  (keep3 (B3 m c) main_arg3 (by decide)).trans (arg3_B3 m c)
theorem arg3_B5 : B5 m c (Proc.devRef .tc main_arg3) = m ((c.tc : Thread nD τ).loc main_arg3) :=
  (keep4 (B4 m c) main_arg3 (by decide)).trans (arg3_B4 m c)
theorem arg3_B6 : B6 m c (Proc.devRef .tc main_arg3) = m ((c.tc : Thread nD τ).loc main_arg3) :=
  (keep5 (B5 m c) main_arg3 (by decide)).trans (arg3_B5 m c)
theorem arg3_B7 : B7 m c (Proc.devRef .tc main_arg3) = m ((c.tc : Thread nD τ).loc main_arg3) :=
  (keep6 (B6 m c) main_arg3 (by decide)).trans (arg3_B6 m c)
theorem arg3_B8 : B8 m c (Proc.devRef .tc main_arg3) = m ((c.tc : Thread nD τ).loc main_arg3) :=
  (keep7 (B7 m c) main_arg3 (by decide)).trans (arg3_B7 m c)
theorem arg3_B9 : B9 m c (Proc.devRef .tc main_arg3) = m ((c.tc : Thread nD τ).loc main_arg3) :=
  (keep8 (B8 m c) main_arg3 (by decide)).trans (arg3_B8 m c)
theorem arg3_B10 : B10 m c (Proc.devRef .tc main_arg3) = m ((c.tc : Thread nD τ).loc main_arg3) :=
  (keepT (B9 m c) main_arg3 (by decide)).trans (arg3_B9 m c)

theorem arg4_B0 : B0 m c (Proc.devRef .tc main_arg4) = m ((c.tc : Thread nD τ).loc main_arg4) := rfl
theorem arg4_B1 : B1 m c (Proc.devRef .tc main_arg4) = m ((c.tc : Thread nD τ).loc main_arg4) :=
  (keep0 (B0 m c) main_arg4 (by decide)).trans (arg4_B0 m c)
theorem arg4_B2 : B2 m c (Proc.devRef .tc main_arg4) = m ((c.tc : Thread nD τ).loc main_arg4) :=
  (keep1 (B1 m c) main_arg4 (by decide)).trans (arg4_B1 m c)
theorem arg4_B3 : B3 m c (Proc.devRef .tc main_arg4) = m ((c.tc : Thread nD τ).loc main_arg4) :=
  (keep2 (B2 m c) main_arg4 (by decide)).trans (arg4_B2 m c)
theorem arg4_B4 : B4 m c (Proc.devRef .tc main_arg4) = m ((c.tc : Thread nD τ).loc main_arg4) :=
  (keep3 (B3 m c) main_arg4 (by decide)).trans (arg4_B3 m c)
theorem arg4_B5 : B5 m c (Proc.devRef .tc main_arg4) = m ((c.tc : Thread nD τ).loc main_arg4) :=
  (keep4 (B4 m c) main_arg4 (by decide)).trans (arg4_B4 m c)
theorem arg4_B6 : B6 m c (Proc.devRef .tc main_arg4) = m ((c.tc : Thread nD τ).loc main_arg4) :=
  (keep5 (B5 m c) main_arg4 (by decide)).trans (arg4_B5 m c)
theorem arg4_B7 : B7 m c (Proc.devRef .tc main_arg4) = m ((c.tc : Thread nD τ).loc main_arg4) :=
  (keep6 (B6 m c) main_arg4 (by decide)).trans (arg4_B6 m c)
theorem arg4_B8 : B8 m c (Proc.devRef .tc main_arg4) = m ((c.tc : Thread nD τ).loc main_arg4) :=
  (keep7 (B7 m c) main_arg4 (by decide)).trans (arg4_B7 m c)
theorem arg4_B9 : B9 m c (Proc.devRef .tc main_arg4) = m ((c.tc : Thread nD τ).loc main_arg4) :=
  (keep8 (B8 m c) main_arg4 (by decide)).trans (arg4_B8 m c)
theorem arg4_B10 : B10 m c (Proc.devRef .tc main_arg4) = m ((c.tc : Thread nD τ).loc main_arg4) :=
  (keepT (B9 m c) main_arg4 (by decide)).trans (arg4_B9 m c)

theorem arg5_B0 : B0 m c (Proc.devRef .tc main_arg5) = m ((c.tc : Thread nD τ).loc main_arg5) := rfl
theorem arg5_B1 : B1 m c (Proc.devRef .tc main_arg5) = m ((c.tc : Thread nD τ).loc main_arg5) :=
  (keep0 (B0 m c) main_arg5 (by decide)).trans (arg5_B0 m c)
theorem arg5_B2 : B2 m c (Proc.devRef .tc main_arg5) = m ((c.tc : Thread nD τ).loc main_arg5) :=
  (keep1 (B1 m c) main_arg5 (by decide)).trans (arg5_B1 m c)
theorem arg5_B3 : B3 m c (Proc.devRef .tc main_arg5) = m ((c.tc : Thread nD τ).loc main_arg5) :=
  (keep2 (B2 m c) main_arg5 (by decide)).trans (arg5_B2 m c)
theorem arg5_B4 : B4 m c (Proc.devRef .tc main_arg5) = m ((c.tc : Thread nD τ).loc main_arg5) :=
  (keep3 (B3 m c) main_arg5 (by decide)).trans (arg5_B3 m c)
theorem arg5_B5 : B5 m c (Proc.devRef .tc main_arg5) = m ((c.tc : Thread nD τ).loc main_arg5) :=
  (keep4 (B4 m c) main_arg5 (by decide)).trans (arg5_B4 m c)
theorem arg5_B6 : B6 m c (Proc.devRef .tc main_arg5) = m ((c.tc : Thread nD τ).loc main_arg5) :=
  (keep5 (B5 m c) main_arg5 (by decide)).trans (arg5_B5 m c)
theorem arg5_B7 : B7 m c (Proc.devRef .tc main_arg5) = m ((c.tc : Thread nD τ).loc main_arg5) :=
  (keep6 (B6 m c) main_arg5 (by decide)).trans (arg5_B6 m c)
theorem arg5_B8 : B8 m c (Proc.devRef .tc main_arg5) = m ((c.tc : Thread nD τ).loc main_arg5) :=
  (keep7 (B7 m c) main_arg5 (by decide)).trans (arg5_B7 m c)
theorem arg5_B9 : B9 m c (Proc.devRef .tc main_arg5) = m ((c.tc : Thread nD τ).loc main_arg5) :=
  (keep8 (B8 m c) main_arg5 (by decide)).trans (arg5_B8 m c)
theorem arg5_B10 : B10 m c (Proc.devRef .tc main_arg5) = m ((c.tc : Thread nD τ).loc main_arg5) :=
  (keepT (B9 m c) main_arg5 (by decide)).trans (arg5_B9 m c)

/-! ## The running sums, and the result -/

theorem sum_B1 : B1 m c (Proc.devRef .tc main_v19)
      = val_main_v19 (F := Ideal) (m ((c.tc : Thread nD τ).loc main_arg0)) (m ((c.tc : Thread nD τ).loc main_arg1))
        (m ((c.tc : Thread nD τ).loc main_arg4)) (m ((c.tc : Thread nD τ).loc main_arg5)) :=
  seg0_step (B0 m c) _ _ _ _ (arg0_B0 m c) (arg1_B0 m c) (arg4_B0 m c) (arg5_B0 m c)

theorem sum_B2 : B2 m c (Proc.devRef .tc main_v38)
      = val_main_v38 (F := Ideal) (m ((c.tc : Thread nD τ).loc main_arg0)) (m ((c.tc : Thread nD τ).loc main_arg1))
        (m ((c.tc : Thread nD τ).loc main_arg4)) (m ((c.tc : Thread nD τ).loc main_arg5)) :=
  seg1_step (B1 m c) _ _ _ _ (arg0_B1 m c) (arg1_B1 m c) (arg4_B1 m c) (arg5_B1 m c) (sum_B1 m c)

theorem sum_B3 : B3 m c (Proc.devRef .tc main_v57)
      = val_main_v57 (F := Ideal) (m ((c.tc : Thread nD τ).loc main_arg0)) (m ((c.tc : Thread nD τ).loc main_arg1))
        (m ((c.tc : Thread nD τ).loc main_arg4)) (m ((c.tc : Thread nD τ).loc main_arg5)) :=
  seg2_step (B2 m c) _ _ _ _ (arg0_B2 m c) (arg1_B2 m c) (arg4_B2 m c) (arg5_B2 m c) (sum_B2 m c)

theorem sum_B4 : B4 m c (Proc.devRef .tc main_v76)
      = val_main_v76 (F := Ideal) (m ((c.tc : Thread nD τ).loc main_arg0)) (m ((c.tc : Thread nD τ).loc main_arg1))
        (m ((c.tc : Thread nD τ).loc main_arg4)) (m ((c.tc : Thread nD τ).loc main_arg5)) :=
  seg3_step (B3 m c) _ _ _ _ (arg0_B3 m c) (arg1_B3 m c) (arg4_B3 m c) (arg5_B3 m c) (sum_B3 m c)

theorem sum_B5 : B5 m c (Proc.devRef .tc main_v95)
      = val_main_v95 (F := Ideal) (m ((c.tc : Thread nD τ).loc main_arg0)) (m ((c.tc : Thread nD τ).loc main_arg1))
        (m ((c.tc : Thread nD τ).loc main_arg4)) (m ((c.tc : Thread nD τ).loc main_arg5)) :=
  seg4_step (B4 m c) _ _ _ _ (arg0_B4 m c) (arg1_B4 m c) (arg4_B4 m c) (arg5_B4 m c) (sum_B4 m c)

theorem sum_B6 : B6 m c (Proc.devRef .tc main_v114)
      = val_main_v114 (F := Ideal) (m ((c.tc : Thread nD τ).loc main_arg0)) (m ((c.tc : Thread nD τ).loc main_arg1))
        (m ((c.tc : Thread nD τ).loc main_arg4)) (m ((c.tc : Thread nD τ).loc main_arg5)) :=
  seg5_step (B5 m c) _ _ _ _ (arg0_B5 m c) (arg1_B5 m c) (arg4_B5 m c) (arg5_B5 m c) (sum_B5 m c)

theorem sum_B7 : B7 m c (Proc.devRef .tc main_v133)
      = val_main_v133 (F := Ideal) (m ((c.tc : Thread nD τ).loc main_arg0)) (m ((c.tc : Thread nD τ).loc main_arg1))
        (m ((c.tc : Thread nD τ).loc main_arg4)) (m ((c.tc : Thread nD τ).loc main_arg5)) :=
  seg6_step (B6 m c) _ _ _ _ (arg0_B6 m c) (arg1_B6 m c) (arg4_B6 m c) (arg5_B6 m c) (sum_B6 m c)

theorem sum_B8 : B8 m c (Proc.devRef .tc main_v152)
      = val_main_v152 (F := Ideal) (m ((c.tc : Thread nD τ).loc main_arg0)) (m ((c.tc : Thread nD τ).loc main_arg1))
        (m ((c.tc : Thread nD τ).loc main_arg4)) (m ((c.tc : Thread nD τ).loc main_arg5)) :=
  seg7_step (B7 m c) _ _ _ _ (arg0_B7 m c) (arg1_B7 m c) (arg4_B7 m c) (arg5_B7 m c) (sum_B7 m c)

theorem sum_B9 : B9 m c (Proc.devRef .tc main_v171)
      = val_main_v171 (F := Ideal) (m ((c.tc : Thread nD τ).loc main_arg0)) (m ((c.tc : Thread nD τ).loc main_arg1))
        (m ((c.tc : Thread nD τ).loc main_arg4)) (m ((c.tc : Thread nD τ).loc main_arg5)) :=
  seg8_step (B8 m c) _ _ _ _ (arg0_B8 m c) (arg1_B8 m c) (arg4_B8 m c) (arg5_B8 m c) (sum_B8 m c)

theorem result_B10 : B10 m c (Proc.devRef .tc main_v201)
      = val_main_v201 (F := Ideal) (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) :=
  segT_step (B9 m c) _ _ _ _ _ _ (arg2_B9 m c) (arg3_B9 m c) (sum_B9 m c)

/-- The program's run from the launch contents is the last boundary. -/
theorem after_ops_launch : StableHlo.after Cert.ReferenceIdeal.ValueP.ops (launchContents m c) = B10 m c :=
  after_ops (launchContents m c)

end Chain

/-- Every weakly fair execution of the reference program terminates with the result's buffer at the staged value
    of the six launch arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v201)
        = val_main_v201 (F := Ideal) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_v201).trans ((congrFun (after_ops_launch m c) _).trans (result_B10 m c)),
       (h c main_arg0).trans ((congrFun (after_ops_launch m c) _).trans (arg0_B10 m c)),
       (h c main_arg1).trans ((congrFun (after_ops_launch m c) _).trans (arg1_B10 m c)),
       (h c main_arg2).trans ((congrFun (after_ops_launch m c) _).trans (arg2_B10 m c)),
       (h c main_arg3).trans ((congrFun (after_ops_launch m c) _).trans (arg3_B10 m c)),
       (h c main_arg4).trans ((congrFun (after_ops_launch m c) _).trans (arg4_B10 m c)),
       (h c main_arg5).trans ((congrFun (after_ops_launch m c) _).trans (arg5_B10 m c))⟩)
    (run_seq Cert.ReferenceIdeal.ValueP.scopedRefs_eq Cert.ReferenceIdeal.ValueP.scopedSems_eq defs main
      (fun _ => Cert.ReferenceIdeal.ValueP.ops) Cert.ReferenceIdeal.ValueP.main_eq
      (fun _ => Cert.ReferenceIdeal.ValueP.ops_sub) m ρ (fun _ => fresh_ops))

end Cert.RefLight

end
-- ==== Proof.RefTaps.lean ====
/-
  The reference's nine taps, read at an entry.

  For each tap the reference slices the tap's row of index words, wraps a negative word by the row count, gathers
  the feature rows the words name (read signed, clamped into the table), turns the tap's row of mask bits into
  numbers, and multiplies; it slices the tap's 32×32 matrix out of the weights. Each of these arrays is read here
  at one entry and identified with the specification's word, gathered entry, masked entry and weight entry.
-/
import proofs.«180816_j45861660786969_2_alg».proof.Proof.RefRead
import proofs.«180816_j45861660786969_2_alg».proof.Proof.Spec
import proofs.«180816_j45861660786969_2_alg».proof.Proof.LibScatterGather

noncomputable section

open scoped BigOperators
open Idealize.ShloMosaic Idealize.ShloMosaic.ValueIdx
open Cert.ReferenceIdeal Cert.ReferenceIdeal.Facts₀ Cert.ReferenceIdeal.ReadP

namespace Cert.RefTaps

/-! ## Tap 0 -/

/-- The index word of tap 0 for row i, wrapped: the reference's slice, reshape, compare, add and select, read at i. -/
theorem word0 (x4 : IVec Cert.Spec.SI 32) (i : Fin 1000000) :
    val_main_v7 (F := Ideal) x4 (ix1 i) = Cert.Spec.word x4 0 i := by
  have e2 : val_main_v2 (F := Ideal) x4 (ix1 i) = x4 (ix2 (0 : Fin 9) i) := by
    rw [val_main_v2_apply, val_main_v1_apply]
    refine congrArg x4 (funext fun a => Fin.ext ?_)
    match a with
    | ⟨0, _⟩ => rfl
    | ⟨1, _⟩ => exact Nat.mod_eq_of_lt i.isLt
  have e3 : val_main_v3 (F := Ideal) (ix1 i) = 0#32 := (val_main_v3_apply _).trans rfl
  have e5 : val_main_v5 (F := Ideal) (ix1 i) = 1000000#32 := (val_main_v5_apply _).trans rfl
  rw [val_main_v7_apply, val_main_v4_apply, val_main_v6_apply, e2, e3, e5]
  rfl

/-- The row tap 0 gathers for output row i, entry c: the features at the wrapped word read signed and clamped. -/
theorem gat0 (x0 : Cert.Spec.SF.Idx → EReal) (x4 : IVec Cert.Spec.SI 32) (i : Fin 1000000) (c : Fin 32) :
    val_main_v9 (F := Ideal) x0 x4 (ix2 i c) = Cert.Spec.gat x0 x4 0 i c := by
  have e8 : val_main_v8 (F := Ideal) x4 (ix2 i (0 : Fin 1)) = Cert.Spec.word x4 0 i := by
    rw [val_main_v8_apply]
    have hi : idx_main_v8 (ix2 i (0 : Fin 1)) = ix1 i := funext fun a => Fin.ext (by
      match a with
      | ⟨0, _⟩ => rfl)
    rw [hi]
    exact word0 x4 i
  unfold val_main_v9
  refine (Cert.Lib.ScatterGather.gather_rows_apply (N := 1000000) (C := 32) (E := 1000000) (by omega)
    gather_S1000000x32_S1000000x1_S1000000x32_1_0_n_n_0_1_132_wf x0 (val_main_v8 (F := Ideal) x4) i c).trans ?_
  show x0 (ix2 _ c) = x0 (ix2 (Cert.Spec.row x4 0 i) c)
  refine congrArg x0 (congrArg (fun r : Fin 1000000 => ix2 r c) (Fin.ext ?_))
  show min (val_main_v8 (F := Ideal) x4 (ix2 i (0 : Fin 1))).toInt.toNat (1000000 - 1) = min (Cert.Spec.word x4 0 i).toInt.toNat (1000000 - 1)
  rw [e8]

/-- The mask bit of tap 0 for row i as a number, broadcast along the features. -/
theorem msk0 (x5 : IVec Cert.Spec.SI 1) (i : Fin 1000000) (c : Fin 32) :
    val_main_v14 (F := Ideal) x5 (ix2 i c) = FloatOps.uitofp (F := Ideal) .f32 (x5 (ix2 (0 : Fin 9) i)) := by
  rw [val_main_v14_apply, val_main_v13_apply, val_main_v12_apply, val_main_v11_apply, val_main_v10_apply]
  refine congrArg (fun b : BitVec 1 => FloatOps.uitofp (F := Ideal) .f32 b) (congrArg x5 (funext fun a => Fin.ext ?_))
  match a with
  | ⟨0, _⟩ => rfl
  | ⟨1, _⟩ => exact Nat.mod_eq_of_lt i.isLt

/-- Tap 0's masked gathered entry, the mask applied by multiplication. -/
theorem tap0_entry (x0 : Cert.Spec.SF.Idx → EReal) (x4 : IVec Cert.Spec.SI 32) (x5 : IVec Cert.Spec.SI 1) (i : Fin 1000000) (c : Fin 32) :
    val_main_v15 (F := Ideal) x0 x4 x5 (ix2 i c) = Cert.Spec.tapMul x0 x4 x5 0 i c := by
  show (val_main_v9 (F := Ideal) x0 x4 (ix2 i c) : EReal) * val_main_v14 (F := Ideal) x5 (ix2 i c) = _
  rw [gat0, msk0]
  rfl

/-- Tap 0's matrix: the reference's slice of the weights, reshaped, is their entries (0, c, o). -/
theorem wt0_entry (x1 : Cert.Spec.SW.Idx → EReal) (c o : Fin 32) :
    val_main_v17 (F := Ideal) x1 (ix2 c o) = x1 (ix3 (0 : Fin 9) c o) := by
  rw [val_main_v17_apply, val_main_v16_apply]
  refine congrArg x1 (funext fun a => Fin.ext ?_)
  have hc : c.val < 32 := c.isLt
  have ho : o.val < 32 := o.isLt
  match a with
  | ⟨0, _⟩ => rfl
  | ⟨1, _⟩ => show (c.val * 32 + o.val) / 32 % 32 = c.val; omega
  | ⟨2, _⟩ => show (c.val * 32 + o.val) % 32 = o.val; omega

/-! ## Tap 1 -/

/-- The index word of tap 1 for row i, wrapped: the reference's slice, reshape, compare, add and select, read at i. -/
theorem word1 (x4 : IVec Cert.Spec.SI 32) (i : Fin 1000000) :
    val_main_v26 (F := Ideal) x4 (ix1 i) = Cert.Spec.word x4 1 i := by
  have e2 : val_main_v21 (F := Ideal) x4 (ix1 i) = x4 (ix2 (1 : Fin 9) i) := by
    rw [val_main_v21_apply, val_main_v20_apply]
    refine congrArg x4 (funext fun a => Fin.ext ?_)
    match a with
    | ⟨0, _⟩ => rfl
    | ⟨1, _⟩ => exact Nat.mod_eq_of_lt i.isLt
  have e3 : val_main_v22 (F := Ideal) (ix1 i) = 0#32 := (val_main_v22_apply _).trans rfl
  have e5 : val_main_v24 (F := Ideal) (ix1 i) = 1000000#32 := (val_main_v24_apply _).trans rfl
  rw [val_main_v26_apply, val_main_v23_apply, val_main_v25_apply, e2, e3, e5]
  rfl

/-- The row tap 1 gathers for output row i, entry c: the features at the wrapped word read signed and clamped. -/
theorem gat1 (x0 : Cert.Spec.SF.Idx → EReal) (x4 : IVec Cert.Spec.SI 32) (i : Fin 1000000) (c : Fin 32) :
    val_main_v28 (F := Ideal) x0 x4 (ix2 i c) = Cert.Spec.gat x0 x4 1 i c := by
  have e8 : val_main_v27 (F := Ideal) x4 (ix2 i (0 : Fin 1)) = Cert.Spec.word x4 1 i := by
    rw [val_main_v27_apply]
    have hi : idx_main_v27 (ix2 i (0 : Fin 1)) = ix1 i := funext fun a => Fin.ext (by
      match a with
      | ⟨0, _⟩ => rfl)
    rw [hi]
    exact word1 x4 i
  unfold val_main_v28
  refine (Cert.Lib.ScatterGather.gather_rows_apply (N := 1000000) (C := 32) (E := 1000000) (by omega)
    gather_S1000000x32_S1000000x1_S1000000x32_1_0_n_n_0_1_132_wf x0 (val_main_v27 (F := Ideal) x4) i c).trans ?_
  show x0 (ix2 _ c) = x0 (ix2 (Cert.Spec.row x4 1 i) c)
  refine congrArg x0 (congrArg (fun r : Fin 1000000 => ix2 r c) (Fin.ext ?_))
  show min (val_main_v27 (F := Ideal) x4 (ix2 i (0 : Fin 1))).toInt.toNat (1000000 - 1) = min (Cert.Spec.word x4 1 i).toInt.toNat (1000000 - 1)
  rw [e8]

/-- The mask bit of tap 1 for row i as a number, broadcast along the features. -/
theorem msk1 (x5 : IVec Cert.Spec.SI 1) (i : Fin 1000000) (c : Fin 32) :
    val_main_v33 (F := Ideal) x5 (ix2 i c) = FloatOps.uitofp (F := Ideal) .f32 (x5 (ix2 (1 : Fin 9) i)) := by
  rw [val_main_v33_apply, val_main_v32_apply, val_main_v31_apply, val_main_v30_apply, val_main_v29_apply]
  refine congrArg (fun b : BitVec 1 => FloatOps.uitofp (F := Ideal) .f32 b) (congrArg x5 (funext fun a => Fin.ext ?_))
  match a with
  | ⟨0, _⟩ => rfl
  | ⟨1, _⟩ => exact Nat.mod_eq_of_lt i.isLt

/-- Tap 1's masked gathered entry, the mask applied by multiplication. -/
theorem tap1_entry (x0 : Cert.Spec.SF.Idx → EReal) (x4 : IVec Cert.Spec.SI 32) (x5 : IVec Cert.Spec.SI 1) (i : Fin 1000000) (c : Fin 32) :
    val_main_v34 (F := Ideal) x0 x4 x5 (ix2 i c) = Cert.Spec.tapMul x0 x4 x5 1 i c := by
  show (val_main_v28 (F := Ideal) x0 x4 (ix2 i c) : EReal) * val_main_v33 (F := Ideal) x5 (ix2 i c) = _
  rw [gat1, msk1]
  rfl

/-- Tap 1's matrix: the reference's slice of the weights, reshaped, is their entries (1, c, o). -/
theorem wt1_entry (x1 : Cert.Spec.SW.Idx → EReal) (c o : Fin 32) :
    val_main_v36 (F := Ideal) x1 (ix2 c o) = x1 (ix3 (1 : Fin 9) c o) := by
  rw [val_main_v36_apply, val_main_v35_apply]
  refine congrArg x1 (funext fun a => Fin.ext ?_)
  have hc : c.val < 32 := c.isLt
  have ho : o.val < 32 := o.isLt
  match a with
  | ⟨0, _⟩ => rfl
  | ⟨1, _⟩ => show (c.val * 32 + o.val) / 32 % 32 = c.val; omega
  | ⟨2, _⟩ => show (c.val * 32 + o.val) % 32 = o.val; omega

/-! ## Tap 2 -/

/-- The index word of tap 2 for row i, wrapped: the reference's slice, reshape, compare, add and select, read at i. -/
theorem word2 (x4 : IVec Cert.Spec.SI 32) (i : Fin 1000000) :
    val_main_v45 (F := Ideal) x4 (ix1 i) = Cert.Spec.word x4 2 i := by
  have e2 : val_main_v40 (F := Ideal) x4 (ix1 i) = x4 (ix2 (2 : Fin 9) i) := by
    rw [val_main_v40_apply, val_main_v39_apply]
    refine congrArg x4 (funext fun a => Fin.ext ?_)
    match a with
    | ⟨0, _⟩ => rfl
    | ⟨1, _⟩ => exact Nat.mod_eq_of_lt i.isLt
  have e3 : val_main_v41 (F := Ideal) (ix1 i) = 0#32 := (val_main_v41_apply _).trans rfl
  have e5 : val_main_v43 (F := Ideal) (ix1 i) = 1000000#32 := (val_main_v43_apply _).trans rfl
  rw [val_main_v45_apply, val_main_v42_apply, val_main_v44_apply, e2, e3, e5]
  rfl

/-- The row tap 2 gathers for output row i, entry c: the features at the wrapped word read signed and clamped. -/
theorem gat2 (x0 : Cert.Spec.SF.Idx → EReal) (x4 : IVec Cert.Spec.SI 32) (i : Fin 1000000) (c : Fin 32) :
    val_main_v47 (F := Ideal) x0 x4 (ix2 i c) = Cert.Spec.gat x0 x4 2 i c := by
  have e8 : val_main_v46 (F := Ideal) x4 (ix2 i (0 : Fin 1)) = Cert.Spec.word x4 2 i := by
    rw [val_main_v46_apply]
    have hi : idx_main_v46 (ix2 i (0 : Fin 1)) = ix1 i := funext fun a => Fin.ext (by
      match a with
      | ⟨0, _⟩ => rfl)
    rw [hi]
    exact word2 x4 i
  unfold val_main_v47
  refine (Cert.Lib.ScatterGather.gather_rows_apply (N := 1000000) (C := 32) (E := 1000000) (by omega)
    gather_S1000000x32_S1000000x1_S1000000x32_1_0_n_n_0_1_132_wf x0 (val_main_v46 (F := Ideal) x4) i c).trans ?_
  show x0 (ix2 _ c) = x0 (ix2 (Cert.Spec.row x4 2 i) c)
  refine congrArg x0 (congrArg (fun r : Fin 1000000 => ix2 r c) (Fin.ext ?_))
  show min (val_main_v46 (F := Ideal) x4 (ix2 i (0 : Fin 1))).toInt.toNat (1000000 - 1) = min (Cert.Spec.word x4 2 i).toInt.toNat (1000000 - 1)
  rw [e8]

/-- The mask bit of tap 2 for row i as a number, broadcast along the features. -/
theorem msk2 (x5 : IVec Cert.Spec.SI 1) (i : Fin 1000000) (c : Fin 32) :
    val_main_v52 (F := Ideal) x5 (ix2 i c) = FloatOps.uitofp (F := Ideal) .f32 (x5 (ix2 (2 : Fin 9) i)) := by
  rw [val_main_v52_apply, val_main_v51_apply, val_main_v50_apply, val_main_v49_apply, val_main_v48_apply]
  refine congrArg (fun b : BitVec 1 => FloatOps.uitofp (F := Ideal) .f32 b) (congrArg x5 (funext fun a => Fin.ext ?_))
  match a with
  | ⟨0, _⟩ => rfl
  | ⟨1, _⟩ => exact Nat.mod_eq_of_lt i.isLt

/-- Tap 2's masked gathered entry, the mask applied by multiplication. -/
theorem tap2_entry (x0 : Cert.Spec.SF.Idx → EReal) (x4 : IVec Cert.Spec.SI 32) (x5 : IVec Cert.Spec.SI 1) (i : Fin 1000000) (c : Fin 32) :
    val_main_v53 (F := Ideal) x0 x4 x5 (ix2 i c) = Cert.Spec.tapMul x0 x4 x5 2 i c := by
  show (val_main_v47 (F := Ideal) x0 x4 (ix2 i c) : EReal) * val_main_v52 (F := Ideal) x5 (ix2 i c) = _
  rw [gat2, msk2]
  rfl

/-- Tap 2's matrix: the reference's slice of the weights, reshaped, is their entries (2, c, o). -/
theorem wt2_entry (x1 : Cert.Spec.SW.Idx → EReal) (c o : Fin 32) :
    val_main_v55 (F := Ideal) x1 (ix2 c o) = x1 (ix3 (2 : Fin 9) c o) := by
  rw [val_main_v55_apply, val_main_v54_apply]
  refine congrArg x1 (funext fun a => Fin.ext ?_)
  have hc : c.val < 32 := c.isLt
  have ho : o.val < 32 := o.isLt
  match a with
  | ⟨0, _⟩ => rfl
  | ⟨1, _⟩ => show (c.val * 32 + o.val) / 32 % 32 = c.val; omega
  | ⟨2, _⟩ => show (c.val * 32 + o.val) % 32 = o.val; omega

/-! ## Tap 3 -/

/-- The index word of tap 3 for row i, wrapped: the reference's slice, reshape, compare, add and select, read at i. -/
theorem word3 (x4 : IVec Cert.Spec.SI 32) (i : Fin 1000000) :
    val_main_v64 (F := Ideal) x4 (ix1 i) = Cert.Spec.word x4 3 i := by
  have e2 : val_main_v59 (F := Ideal) x4 (ix1 i) = x4 (ix2 (3 : Fin 9) i) := by
    rw [val_main_v59_apply, val_main_v58_apply]
    refine congrArg x4 (funext fun a => Fin.ext ?_)
    match a with
    | ⟨0, _⟩ => rfl
    | ⟨1, _⟩ => exact Nat.mod_eq_of_lt i.isLt
  have e3 : val_main_v60 (F := Ideal) (ix1 i) = 0#32 := (val_main_v60_apply _).trans rfl
  have e5 : val_main_v62 (F := Ideal) (ix1 i) = 1000000#32 := (val_main_v62_apply _).trans rfl
  rw [val_main_v64_apply, val_main_v61_apply, val_main_v63_apply, e2, e3, e5]
  rfl

/-- The row tap 3 gathers for output row i, entry c: the features at the wrapped word read signed and clamped. -/
theorem gat3 (x0 : Cert.Spec.SF.Idx → EReal) (x4 : IVec Cert.Spec.SI 32) (i : Fin 1000000) (c : Fin 32) :
    val_main_v66 (F := Ideal) x0 x4 (ix2 i c) = Cert.Spec.gat x0 x4 3 i c := by
  have e8 : val_main_v65 (F := Ideal) x4 (ix2 i (0 : Fin 1)) = Cert.Spec.word x4 3 i := by
    rw [val_main_v65_apply]
    have hi : idx_main_v65 (ix2 i (0 : Fin 1)) = ix1 i := funext fun a => Fin.ext (by
      match a with
      | ⟨0, _⟩ => rfl)
    rw [hi]
    exact word3 x4 i
  unfold val_main_v66
  refine (Cert.Lib.ScatterGather.gather_rows_apply (N := 1000000) (C := 32) (E := 1000000) (by omega)
    gather_S1000000x32_S1000000x1_S1000000x32_1_0_n_n_0_1_132_wf x0 (val_main_v65 (F := Ideal) x4) i c).trans ?_
  show x0 (ix2 _ c) = x0 (ix2 (Cert.Spec.row x4 3 i) c)
  refine congrArg x0 (congrArg (fun r : Fin 1000000 => ix2 r c) (Fin.ext ?_))
  show min (val_main_v65 (F := Ideal) x4 (ix2 i (0 : Fin 1))).toInt.toNat (1000000 - 1) = min (Cert.Spec.word x4 3 i).toInt.toNat (1000000 - 1)
  rw [e8]

/-- The mask bit of tap 3 for row i as a number, broadcast along the features. -/
theorem msk3 (x5 : IVec Cert.Spec.SI 1) (i : Fin 1000000) (c : Fin 32) :
    val_main_v71 (F := Ideal) x5 (ix2 i c) = FloatOps.uitofp (F := Ideal) .f32 (x5 (ix2 (3 : Fin 9) i)) := by
  rw [val_main_v71_apply, val_main_v70_apply, val_main_v69_apply, val_main_v68_apply, val_main_v67_apply]
  refine congrArg (fun b : BitVec 1 => FloatOps.uitofp (F := Ideal) .f32 b) (congrArg x5 (funext fun a => Fin.ext ?_))
  match a with
  | ⟨0, _⟩ => rfl
  | ⟨1, _⟩ => exact Nat.mod_eq_of_lt i.isLt

/-- Tap 3's masked gathered entry, the mask applied by multiplication. -/
theorem tap3_entry (x0 : Cert.Spec.SF.Idx → EReal) (x4 : IVec Cert.Spec.SI 32) (x5 : IVec Cert.Spec.SI 1) (i : Fin 1000000) (c : Fin 32) :
    val_main_v72 (F := Ideal) x0 x4 x5 (ix2 i c) = Cert.Spec.tapMul x0 x4 x5 3 i c := by
  show (val_main_v66 (F := Ideal) x0 x4 (ix2 i c) : EReal) * val_main_v71 (F := Ideal) x5 (ix2 i c) = _
  rw [gat3, msk3]
  rfl

/-- Tap 3's matrix: the reference's slice of the weights, reshaped, is their entries (3, c, o). -/
theorem wt3_entry (x1 : Cert.Spec.SW.Idx → EReal) (c o : Fin 32) :
    val_main_v74 (F := Ideal) x1 (ix2 c o) = x1 (ix3 (3 : Fin 9) c o) := by
  rw [val_main_v74_apply, val_main_v73_apply]
  refine congrArg x1 (funext fun a => Fin.ext ?_)
  have hc : c.val < 32 := c.isLt
  have ho : o.val < 32 := o.isLt
  match a with
  | ⟨0, _⟩ => rfl
  | ⟨1, _⟩ => show (c.val * 32 + o.val) / 32 % 32 = c.val; omega
  | ⟨2, _⟩ => show (c.val * 32 + o.val) % 32 = o.val; omega

/-! ## Tap 4 -/

/-- The index word of tap 4 for row i, wrapped: the reference's slice, reshape, compare, add and select, read at i. -/
theorem word4 (x4 : IVec Cert.Spec.SI 32) (i : Fin 1000000) :
    val_main_v83 (F := Ideal) x4 (ix1 i) = Cert.Spec.word x4 4 i := by
  have e2 : val_main_v78 (F := Ideal) x4 (ix1 i) = x4 (ix2 (4 : Fin 9) i) := by
    rw [val_main_v78_apply, val_main_v77_apply]
    refine congrArg x4 (funext fun a => Fin.ext ?_)
    match a with
    | ⟨0, _⟩ => rfl
    | ⟨1, _⟩ => exact Nat.mod_eq_of_lt i.isLt
  have e3 : val_main_v79 (F := Ideal) (ix1 i) = 0#32 := (val_main_v79_apply _).trans rfl
  have e5 : val_main_v81 (F := Ideal) (ix1 i) = 1000000#32 := (val_main_v81_apply _).trans rfl
  rw [val_main_v83_apply, val_main_v80_apply, val_main_v82_apply, e2, e3, e5]
  rfl

/-- The row tap 4 gathers for output row i, entry c: the features at the wrapped word read signed and clamped. -/
theorem gat4 (x0 : Cert.Spec.SF.Idx → EReal) (x4 : IVec Cert.Spec.SI 32) (i : Fin 1000000) (c : Fin 32) :
    val_main_v85 (F := Ideal) x0 x4 (ix2 i c) = Cert.Spec.gat x0 x4 4 i c := by
  have e8 : val_main_v84 (F := Ideal) x4 (ix2 i (0 : Fin 1)) = Cert.Spec.word x4 4 i := by
    rw [val_main_v84_apply]
    have hi : idx_main_v84 (ix2 i (0 : Fin 1)) = ix1 i := funext fun a => Fin.ext (by
      match a with
      | ⟨0, _⟩ => rfl)
    rw [hi]
    exact word4 x4 i
  unfold val_main_v85
  refine (Cert.Lib.ScatterGather.gather_rows_apply (N := 1000000) (C := 32) (E := 1000000) (by omega)
    gather_S1000000x32_S1000000x1_S1000000x32_1_0_n_n_0_1_132_wf x0 (val_main_v84 (F := Ideal) x4) i c).trans ?_
  show x0 (ix2 _ c) = x0 (ix2 (Cert.Spec.row x4 4 i) c)
  refine congrArg x0 (congrArg (fun r : Fin 1000000 => ix2 r c) (Fin.ext ?_))
  show min (val_main_v84 (F := Ideal) x4 (ix2 i (0 : Fin 1))).toInt.toNat (1000000 - 1) = min (Cert.Spec.word x4 4 i).toInt.toNat (1000000 - 1)
  rw [e8]

/-- The mask bit of tap 4 for row i as a number, broadcast along the features. -/
theorem msk4 (x5 : IVec Cert.Spec.SI 1) (i : Fin 1000000) (c : Fin 32) :
    val_main_v90 (F := Ideal) x5 (ix2 i c) = FloatOps.uitofp (F := Ideal) .f32 (x5 (ix2 (4 : Fin 9) i)) := by
  rw [val_main_v90_apply, val_main_v89_apply, val_main_v88_apply, val_main_v87_apply, val_main_v86_apply]
  refine congrArg (fun b : BitVec 1 => FloatOps.uitofp (F := Ideal) .f32 b) (congrArg x5 (funext fun a => Fin.ext ?_))
  match a with
  | ⟨0, _⟩ => rfl
  | ⟨1, _⟩ => exact Nat.mod_eq_of_lt i.isLt

/-- Tap 4's masked gathered entry, the mask applied by multiplication. -/
theorem tap4_entry (x0 : Cert.Spec.SF.Idx → EReal) (x4 : IVec Cert.Spec.SI 32) (x5 : IVec Cert.Spec.SI 1) (i : Fin 1000000) (c : Fin 32) :
    val_main_v91 (F := Ideal) x0 x4 x5 (ix2 i c) = Cert.Spec.tapMul x0 x4 x5 4 i c := by
  show (val_main_v85 (F := Ideal) x0 x4 (ix2 i c) : EReal) * val_main_v90 (F := Ideal) x5 (ix2 i c) = _
  rw [gat4, msk4]
  rfl

/-- Tap 4's matrix: the reference's slice of the weights, reshaped, is their entries (4, c, o). -/
theorem wt4_entry (x1 : Cert.Spec.SW.Idx → EReal) (c o : Fin 32) :
    val_main_v93 (F := Ideal) x1 (ix2 c o) = x1 (ix3 (4 : Fin 9) c o) := by
  rw [val_main_v93_apply, val_main_v92_apply]
  refine congrArg x1 (funext fun a => Fin.ext ?_)
  have hc : c.val < 32 := c.isLt
  have ho : o.val < 32 := o.isLt
  match a with
  | ⟨0, _⟩ => rfl
  | ⟨1, _⟩ => show (c.val * 32 + o.val) / 32 % 32 = c.val; omega
  | ⟨2, _⟩ => show (c.val * 32 + o.val) % 32 = o.val; omega

/-! ## Tap 5 -/

/-- The index word of tap 5 for row i, wrapped: the reference's slice, reshape, compare, add and select, read at i. -/
theorem word5 (x4 : IVec Cert.Spec.SI 32) (i : Fin 1000000) :
    val_main_v102 (F := Ideal) x4 (ix1 i) = Cert.Spec.word x4 5 i := by
  have e2 : val_main_v97 (F := Ideal) x4 (ix1 i) = x4 (ix2 (5 : Fin 9) i) := by
    rw [val_main_v97_apply, val_main_v96_apply]
    refine congrArg x4 (funext fun a => Fin.ext ?_)
    match a with
    | ⟨0, _⟩ => rfl
    | ⟨1, _⟩ => exact Nat.mod_eq_of_lt i.isLt
  have e3 : val_main_v98 (F := Ideal) (ix1 i) = 0#32 := (val_main_v98_apply _).trans rfl
  have e5 : val_main_v100 (F := Ideal) (ix1 i) = 1000000#32 := (val_main_v100_apply _).trans rfl
  rw [val_main_v102_apply, val_main_v99_apply, val_main_v101_apply, e2, e3, e5]
  rfl

/-- The row tap 5 gathers for output row i, entry c: the features at the wrapped word read signed and clamped. -/
theorem gat5 (x0 : Cert.Spec.SF.Idx → EReal) (x4 : IVec Cert.Spec.SI 32) (i : Fin 1000000) (c : Fin 32) :
    val_main_v104 (F := Ideal) x0 x4 (ix2 i c) = Cert.Spec.gat x0 x4 5 i c := by
  have e8 : val_main_v103 (F := Ideal) x4 (ix2 i (0 : Fin 1)) = Cert.Spec.word x4 5 i := by
    rw [val_main_v103_apply]
    have hi : idx_main_v103 (ix2 i (0 : Fin 1)) = ix1 i := funext fun a => Fin.ext (by
      match a with
      | ⟨0, _⟩ => rfl)
    rw [hi]
    exact word5 x4 i
  unfold val_main_v104
  refine (Cert.Lib.ScatterGather.gather_rows_apply (N := 1000000) (C := 32) (E := 1000000) (by omega)
    gather_S1000000x32_S1000000x1_S1000000x32_1_0_n_n_0_1_132_wf x0 (val_main_v103 (F := Ideal) x4) i c).trans ?_
  show x0 (ix2 _ c) = x0 (ix2 (Cert.Spec.row x4 5 i) c)
  refine congrArg x0 (congrArg (fun r : Fin 1000000 => ix2 r c) (Fin.ext ?_))
  show min (val_main_v103 (F := Ideal) x4 (ix2 i (0 : Fin 1))).toInt.toNat (1000000 - 1) = min (Cert.Spec.word x4 5 i).toInt.toNat (1000000 - 1)
  rw [e8]

/-- The mask bit of tap 5 for row i as a number, broadcast along the features. -/
theorem msk5 (x5 : IVec Cert.Spec.SI 1) (i : Fin 1000000) (c : Fin 32) :
    val_main_v109 (F := Ideal) x5 (ix2 i c) = FloatOps.uitofp (F := Ideal) .f32 (x5 (ix2 (5 : Fin 9) i)) := by
  rw [val_main_v109_apply, val_main_v108_apply, val_main_v107_apply, val_main_v106_apply, val_main_v105_apply]
  refine congrArg (fun b : BitVec 1 => FloatOps.uitofp (F := Ideal) .f32 b) (congrArg x5 (funext fun a => Fin.ext ?_))
  match a with
  | ⟨0, _⟩ => rfl
  | ⟨1, _⟩ => exact Nat.mod_eq_of_lt i.isLt

/-- Tap 5's masked gathered entry, the mask applied by multiplication. -/
theorem tap5_entry (x0 : Cert.Spec.SF.Idx → EReal) (x4 : IVec Cert.Spec.SI 32) (x5 : IVec Cert.Spec.SI 1) (i : Fin 1000000) (c : Fin 32) :
    val_main_v110 (F := Ideal) x0 x4 x5 (ix2 i c) = Cert.Spec.tapMul x0 x4 x5 5 i c := by
  show (val_main_v104 (F := Ideal) x0 x4 (ix2 i c) : EReal) * val_main_v109 (F := Ideal) x5 (ix2 i c) = _
  rw [gat5, msk5]
  rfl

/-- Tap 5's matrix: the reference's slice of the weights, reshaped, is their entries (5, c, o). -/
theorem wt5_entry (x1 : Cert.Spec.SW.Idx → EReal) (c o : Fin 32) :
    val_main_v112 (F := Ideal) x1 (ix2 c o) = x1 (ix3 (5 : Fin 9) c o) := by
  rw [val_main_v112_apply, val_main_v111_apply]
  refine congrArg x1 (funext fun a => Fin.ext ?_)
  have hc : c.val < 32 := c.isLt
  have ho : o.val < 32 := o.isLt
  match a with
  | ⟨0, _⟩ => rfl
  | ⟨1, _⟩ => show (c.val * 32 + o.val) / 32 % 32 = c.val; omega
  | ⟨2, _⟩ => show (c.val * 32 + o.val) % 32 = o.val; omega

/-! ## Tap 6 -/

/-- The index word of tap 6 for row i, wrapped: the reference's slice, reshape, compare, add and select, read at i. -/
theorem word6 (x4 : IVec Cert.Spec.SI 32) (i : Fin 1000000) :
    val_main_v121 (F := Ideal) x4 (ix1 i) = Cert.Spec.word x4 6 i := by
  have e2 : val_main_v116 (F := Ideal) x4 (ix1 i) = x4 (ix2 (6 : Fin 9) i) := by
    rw [val_main_v116_apply, val_main_v115_apply]
    refine congrArg x4 (funext fun a => Fin.ext ?_)
    match a with
    | ⟨0, _⟩ => rfl
    | ⟨1, _⟩ => exact Nat.mod_eq_of_lt i.isLt
  have e3 : val_main_v117 (F := Ideal) (ix1 i) = 0#32 := (val_main_v117_apply _).trans rfl
  have e5 : val_main_v119 (F := Ideal) (ix1 i) = 1000000#32 := (val_main_v119_apply _).trans rfl
  rw [val_main_v121_apply, val_main_v118_apply, val_main_v120_apply, e2, e3, e5]
  rfl

/-- The row tap 6 gathers for output row i, entry c: the features at the wrapped word read signed and clamped. -/
theorem gat6 (x0 : Cert.Spec.SF.Idx → EReal) (x4 : IVec Cert.Spec.SI 32) (i : Fin 1000000) (c : Fin 32) :
    val_main_v123 (F := Ideal) x0 x4 (ix2 i c) = Cert.Spec.gat x0 x4 6 i c := by
  have e8 : val_main_v122 (F := Ideal) x4 (ix2 i (0 : Fin 1)) = Cert.Spec.word x4 6 i := by
    rw [val_main_v122_apply]
    have hi : idx_main_v122 (ix2 i (0 : Fin 1)) = ix1 i := funext fun a => Fin.ext (by
      match a with
      | ⟨0, _⟩ => rfl)
    rw [hi]
    exact word6 x4 i
  unfold val_main_v123
  refine (Cert.Lib.ScatterGather.gather_rows_apply (N := 1000000) (C := 32) (E := 1000000) (by omega)
    gather_S1000000x32_S1000000x1_S1000000x32_1_0_n_n_0_1_132_wf x0 (val_main_v122 (F := Ideal) x4) i c).trans ?_
  show x0 (ix2 _ c) = x0 (ix2 (Cert.Spec.row x4 6 i) c)
  refine congrArg x0 (congrArg (fun r : Fin 1000000 => ix2 r c) (Fin.ext ?_))
  show min (val_main_v122 (F := Ideal) x4 (ix2 i (0 : Fin 1))).toInt.toNat (1000000 - 1) = min (Cert.Spec.word x4 6 i).toInt.toNat (1000000 - 1)
  rw [e8]

/-- The mask bit of tap 6 for row i as a number, broadcast along the features. -/
theorem msk6 (x5 : IVec Cert.Spec.SI 1) (i : Fin 1000000) (c : Fin 32) :
    val_main_v128 (F := Ideal) x5 (ix2 i c) = FloatOps.uitofp (F := Ideal) .f32 (x5 (ix2 (6 : Fin 9) i)) := by
  rw [val_main_v128_apply, val_main_v127_apply, val_main_v126_apply, val_main_v125_apply, val_main_v124_apply]
  refine congrArg (fun b : BitVec 1 => FloatOps.uitofp (F := Ideal) .f32 b) (congrArg x5 (funext fun a => Fin.ext ?_))
  match a with
  | ⟨0, _⟩ => rfl
  | ⟨1, _⟩ => exact Nat.mod_eq_of_lt i.isLt

/-- Tap 6's masked gathered entry, the mask applied by multiplication. -/
theorem tap6_entry (x0 : Cert.Spec.SF.Idx → EReal) (x4 : IVec Cert.Spec.SI 32) (x5 : IVec Cert.Spec.SI 1) (i : Fin 1000000) (c : Fin 32) :
    val_main_v129 (F := Ideal) x0 x4 x5 (ix2 i c) = Cert.Spec.tapMul x0 x4 x5 6 i c := by
  show (val_main_v123 (F := Ideal) x0 x4 (ix2 i c) : EReal) * val_main_v128 (F := Ideal) x5 (ix2 i c) = _
  rw [gat6, msk6]
  rfl

/-- Tap 6's matrix: the reference's slice of the weights, reshaped, is their entries (6, c, o). -/
theorem wt6_entry (x1 : Cert.Spec.SW.Idx → EReal) (c o : Fin 32) :
    val_main_v131 (F := Ideal) x1 (ix2 c o) = x1 (ix3 (6 : Fin 9) c o) := by
  rw [val_main_v131_apply, val_main_v130_apply]
  refine congrArg x1 (funext fun a => Fin.ext ?_)
  have hc : c.val < 32 := c.isLt
  have ho : o.val < 32 := o.isLt
  match a with
  | ⟨0, _⟩ => rfl
  | ⟨1, _⟩ => show (c.val * 32 + o.val) / 32 % 32 = c.val; omega
  | ⟨2, _⟩ => show (c.val * 32 + o.val) % 32 = o.val; omega

/-! ## Tap 7 -/

/-- The index word of tap 7 for row i, wrapped: the reference's slice, reshape, compare, add and select, read at i. -/
theorem word7 (x4 : IVec Cert.Spec.SI 32) (i : Fin 1000000) :
    val_main_v140 (F := Ideal) x4 (ix1 i) = Cert.Spec.word x4 7 i := by
  have e2 : val_main_v135 (F := Ideal) x4 (ix1 i) = x4 (ix2 (7 : Fin 9) i) := by
    rw [val_main_v135_apply, val_main_v134_apply]
    refine congrArg x4 (funext fun a => Fin.ext ?_)
    match a with
    | ⟨0, _⟩ => rfl
    | ⟨1, _⟩ => exact Nat.mod_eq_of_lt i.isLt
  have e3 : val_main_v136 (F := Ideal) (ix1 i) = 0#32 := (val_main_v136_apply _).trans rfl
  have e5 : val_main_v138 (F := Ideal) (ix1 i) = 1000000#32 := (val_main_v138_apply _).trans rfl
  rw [val_main_v140_apply, val_main_v137_apply, val_main_v139_apply, e2, e3, e5]
  rfl

/-- The row tap 7 gathers for output row i, entry c: the features at the wrapped word read signed and clamped. -/
theorem gat7 (x0 : Cert.Spec.SF.Idx → EReal) (x4 : IVec Cert.Spec.SI 32) (i : Fin 1000000) (c : Fin 32) :
    val_main_v142 (F := Ideal) x0 x4 (ix2 i c) = Cert.Spec.gat x0 x4 7 i c := by
  have e8 : val_main_v141 (F := Ideal) x4 (ix2 i (0 : Fin 1)) = Cert.Spec.word x4 7 i := by
    rw [val_main_v141_apply]
    have hi : idx_main_v141 (ix2 i (0 : Fin 1)) = ix1 i := funext fun a => Fin.ext (by
      match a with
      | ⟨0, _⟩ => rfl)
    rw [hi]
    exact word7 x4 i
  unfold val_main_v142
  refine (Cert.Lib.ScatterGather.gather_rows_apply (N := 1000000) (C := 32) (E := 1000000) (by omega)
    gather_S1000000x32_S1000000x1_S1000000x32_1_0_n_n_0_1_132_wf x0 (val_main_v141 (F := Ideal) x4) i c).trans ?_
  show x0 (ix2 _ c) = x0 (ix2 (Cert.Spec.row x4 7 i) c)
  refine congrArg x0 (congrArg (fun r : Fin 1000000 => ix2 r c) (Fin.ext ?_))
  show min (val_main_v141 (F := Ideal) x4 (ix2 i (0 : Fin 1))).toInt.toNat (1000000 - 1) = min (Cert.Spec.word x4 7 i).toInt.toNat (1000000 - 1)
  rw [e8]

/-- The mask bit of tap 7 for row i as a number, broadcast along the features. -/
theorem msk7 (x5 : IVec Cert.Spec.SI 1) (i : Fin 1000000) (c : Fin 32) :
    val_main_v147 (F := Ideal) x5 (ix2 i c) = FloatOps.uitofp (F := Ideal) .f32 (x5 (ix2 (7 : Fin 9) i)) := by
  rw [val_main_v147_apply, val_main_v146_apply, val_main_v145_apply, val_main_v144_apply, val_main_v143_apply]
  refine congrArg (fun b : BitVec 1 => FloatOps.uitofp (F := Ideal) .f32 b) (congrArg x5 (funext fun a => Fin.ext ?_))
  match a with
  | ⟨0, _⟩ => rfl
  | ⟨1, _⟩ => exact Nat.mod_eq_of_lt i.isLt

/-- Tap 7's masked gathered entry, the mask applied by multiplication. -/
theorem tap7_entry (x0 : Cert.Spec.SF.Idx → EReal) (x4 : IVec Cert.Spec.SI 32) (x5 : IVec Cert.Spec.SI 1) (i : Fin 1000000) (c : Fin 32) :
    val_main_v148 (F := Ideal) x0 x4 x5 (ix2 i c) = Cert.Spec.tapMul x0 x4 x5 7 i c := by
  show (val_main_v142 (F := Ideal) x0 x4 (ix2 i c) : EReal) * val_main_v147 (F := Ideal) x5 (ix2 i c) = _
  rw [gat7, msk7]
  rfl

/-- Tap 7's matrix: the reference's slice of the weights, reshaped, is their entries (7, c, o). -/
theorem wt7_entry (x1 : Cert.Spec.SW.Idx → EReal) (c o : Fin 32) :
    val_main_v150 (F := Ideal) x1 (ix2 c o) = x1 (ix3 (7 : Fin 9) c o) := by
  rw [val_main_v150_apply, val_main_v149_apply]
  refine congrArg x1 (funext fun a => Fin.ext ?_)
  have hc : c.val < 32 := c.isLt
  have ho : o.val < 32 := o.isLt
  match a with
  | ⟨0, _⟩ => rfl
  | ⟨1, _⟩ => show (c.val * 32 + o.val) / 32 % 32 = c.val; omega
  | ⟨2, _⟩ => show (c.val * 32 + o.val) % 32 = o.val; omega

/-! ## Tap 8 -/

/-- The index word of tap 8 for row i, wrapped: the reference's slice, reshape, compare, add and select, read at i. -/
theorem word8 (x4 : IVec Cert.Spec.SI 32) (i : Fin 1000000) :
    val_main_v159 (F := Ideal) x4 (ix1 i) = Cert.Spec.word x4 8 i := by
  have e2 : val_main_v154 (F := Ideal) x4 (ix1 i) = x4 (ix2 (8 : Fin 9) i) := by
    rw [val_main_v154_apply, val_main_v153_apply]
    refine congrArg x4 (funext fun a => Fin.ext ?_)
    match a with
    | ⟨0, _⟩ => rfl
    | ⟨1, _⟩ => exact Nat.mod_eq_of_lt i.isLt
  have e3 : val_main_v155 (F := Ideal) (ix1 i) = 0#32 := (val_main_v155_apply _).trans rfl
  have e5 : val_main_v157 (F := Ideal) (ix1 i) = 1000000#32 := (val_main_v157_apply _).trans rfl
  rw [val_main_v159_apply, val_main_v156_apply, val_main_v158_apply, e2, e3, e5]
  rfl

/-- The row tap 8 gathers for output row i, entry c: the features at the wrapped word read signed and clamped. -/
theorem gat8 (x0 : Cert.Spec.SF.Idx → EReal) (x4 : IVec Cert.Spec.SI 32) (i : Fin 1000000) (c : Fin 32) :
    val_main_v161 (F := Ideal) x0 x4 (ix2 i c) = Cert.Spec.gat x0 x4 8 i c := by
  have e8 : val_main_v160 (F := Ideal) x4 (ix2 i (0 : Fin 1)) = Cert.Spec.word x4 8 i := by
    rw [val_main_v160_apply]
    have hi : idx_main_v160 (ix2 i (0 : Fin 1)) = ix1 i := funext fun a => Fin.ext (by
      match a with
      | ⟨0, _⟩ => rfl)
    rw [hi]
    exact word8 x4 i
  unfold val_main_v161
  refine (Cert.Lib.ScatterGather.gather_rows_apply (N := 1000000) (C := 32) (E := 1000000) (by omega)
    gather_S1000000x32_S1000000x1_S1000000x32_1_0_n_n_0_1_132_wf x0 (val_main_v160 (F := Ideal) x4) i c).trans ?_
  show x0 (ix2 _ c) = x0 (ix2 (Cert.Spec.row x4 8 i) c)
  refine congrArg x0 (congrArg (fun r : Fin 1000000 => ix2 r c) (Fin.ext ?_))
  show min (val_main_v160 (F := Ideal) x4 (ix2 i (0 : Fin 1))).toInt.toNat (1000000 - 1) = min (Cert.Spec.word x4 8 i).toInt.toNat (1000000 - 1)
  rw [e8]

/-- The mask bit of tap 8 for row i as a number, broadcast along the features. -/
theorem msk8 (x5 : IVec Cert.Spec.SI 1) (i : Fin 1000000) (c : Fin 32) :
    val_main_v166 (F := Ideal) x5 (ix2 i c) = FloatOps.uitofp (F := Ideal) .f32 (x5 (ix2 (8 : Fin 9) i)) := by
  rw [val_main_v166_apply, val_main_v165_apply, val_main_v164_apply, val_main_v163_apply, val_main_v162_apply]
  refine congrArg (fun b : BitVec 1 => FloatOps.uitofp (F := Ideal) .f32 b) (congrArg x5 (funext fun a => Fin.ext ?_))
  match a with
  | ⟨0, _⟩ => rfl
  | ⟨1, _⟩ => exact Nat.mod_eq_of_lt i.isLt

/-- Tap 8's masked gathered entry, the mask applied by multiplication. -/
theorem tap8_entry (x0 : Cert.Spec.SF.Idx → EReal) (x4 : IVec Cert.Spec.SI 32) (x5 : IVec Cert.Spec.SI 1) (i : Fin 1000000) (c : Fin 32) :
    val_main_v167 (F := Ideal) x0 x4 x5 (ix2 i c) = Cert.Spec.tapMul x0 x4 x5 8 i c := by
  show (val_main_v161 (F := Ideal) x0 x4 (ix2 i c) : EReal) * val_main_v166 (F := Ideal) x5 (ix2 i c) = _
  rw [gat8, msk8]
  rfl

/-- Tap 8's matrix: the reference's slice of the weights, reshaped, is their entries (8, c, o). -/
theorem wt8_entry (x1 : Cert.Spec.SW.Idx → EReal) (c o : Fin 32) :
    val_main_v169 (F := Ideal) x1 (ix2 c o) = x1 (ix3 (8 : Fin 9) c o) := by
  rw [val_main_v169_apply, val_main_v168_apply]
  refine congrArg x1 (funext fun a => Fin.ext ?_)
  have hc : c.val < 32 := c.isLt
  have ho : o.val < 32 := o.isLt
  match a with
  | ⟨0, _⟩ => rfl
  | ⟨1, _⟩ => show (c.val * 32 + o.val) / 32 % 32 = c.val; omega
  | ⟨2, _⟩ => show (c.val * 32 + o.val) % 32 = o.val; omega

end Cert.RefTaps
end
-- ==== Proof.RefConv.lean ====
/-
  The convolution and its rectifier, as the second spelling states them, read off the operations one at a time.

  Each tap's contribution at row i and output channel o is a product of a row of masked gathered features with a
  32 × 32 matrix: a sum over the 32 input channels. The nine contributions are added, in tap order, onto a table of
  zeros. The rectifier then compares the sum with zero and keeps it or scales it by the slope.
-/
import proofs.«180816_j45861660786969_2_alg».proof.Proof.RefRead
import proofs.«180816_j45861660786969_2_alg».proof.Proof.Spec
import proofs.«180816_j45861660786969_2_alg».proof.Proof.RefTaps

noncomputable section

open scoped BigOperators

namespace Cert.RefValue

open Idealize.ShloMosaic Idealize.ShloMosaic.ValueIdx
open Cert.ReferenceIdeal Cert.ReferenceIdeal.ReadP

/-- The first tap's matrix product at (i, o): the sum over input channels c of the masked gathered entry (i, c)
    times the tap's weight (c, o). -/
theorem dot0_entry (x0 : Cert.Spec.SF.Idx → EReal) (x1 : Cert.Spec.SW.Idx → EReal) (x4 : IVec Cert.Spec.SI 32) (x5 : IVec Cert.Spec.SI 1) (i : Fin 1000000) (o : Fin 32) :
    val_main_v18 (F := Ideal) x0 x1 x4 x5 (ix2 i o) = Cert.Spec.tapDot (Cert.Spec.tapMul x0 x4 x5) x1 0 i o := by
  rw [val_main_v18_apply]
  unfold Cert.Spec.tapDot
  refine Finset.sum_congr rfl fun c _ => ?_
  have el : lidx_main_v18 (ix2 i o) c = ix2 i c :=
    funext fun a => Fin.ext (by match a with | ⟨0, _⟩ => rfl | ⟨1, _⟩ => rfl)
  have er : ridx_main_v18 (ix2 i o) c = ix2 c o :=
    funext fun a => Fin.ext (by match a with | ⟨0, _⟩ => rfl | ⟨1, _⟩ => rfl)
  rw [el, er, Cert.RefTaps.tap0_entry, Cert.RefTaps.wt0_entry]

/-- The second tap's matrix product at (i, o): the sum over input channels c of the masked gathered entry (i, c)
    times the tap's weight (c, o). -/
theorem dot1_entry (x0 : Cert.Spec.SF.Idx → EReal) (x1 : Cert.Spec.SW.Idx → EReal) (x4 : IVec Cert.Spec.SI 32) (x5 : IVec Cert.Spec.SI 1) (i : Fin 1000000) (o : Fin 32) :
    val_main_v37 (F := Ideal) x0 x1 x4 x5 (ix2 i o) = Cert.Spec.tapDot (Cert.Spec.tapMul x0 x4 x5) x1 1 i o := by
  rw [val_main_v37_apply]
  unfold Cert.Spec.tapDot
  refine Finset.sum_congr rfl fun c _ => ?_
  have el : lidx_main_v37 (ix2 i o) c = ix2 i c :=
    funext fun a => Fin.ext (by match a with | ⟨0, _⟩ => rfl | ⟨1, _⟩ => rfl)
  have er : ridx_main_v37 (ix2 i o) c = ix2 c o :=
    funext fun a => Fin.ext (by match a with | ⟨0, _⟩ => rfl | ⟨1, _⟩ => rfl)
  rw [el, er, Cert.RefTaps.tap1_entry, Cert.RefTaps.wt1_entry]

/-- The third tap's matrix product at (i, o): the sum over input channels c of the masked gathered entry (i, c)
    times the tap's weight (c, o). -/
theorem dot2_entry (x0 : Cert.Spec.SF.Idx → EReal) (x1 : Cert.Spec.SW.Idx → EReal) (x4 : IVec Cert.Spec.SI 32) (x5 : IVec Cert.Spec.SI 1) (i : Fin 1000000) (o : Fin 32) :
    val_main_v56 (F := Ideal) x0 x1 x4 x5 (ix2 i o) = Cert.Spec.tapDot (Cert.Spec.tapMul x0 x4 x5) x1 2 i o := by
  rw [val_main_v56_apply]
  unfold Cert.Spec.tapDot
  refine Finset.sum_congr rfl fun c _ => ?_
  have el : lidx_main_v56 (ix2 i o) c = ix2 i c :=
    funext fun a => Fin.ext (by match a with | ⟨0, _⟩ => rfl | ⟨1, _⟩ => rfl)
  have er : ridx_main_v56 (ix2 i o) c = ix2 c o :=
    funext fun a => Fin.ext (by match a with | ⟨0, _⟩ => rfl | ⟨1, _⟩ => rfl)
  rw [el, er, Cert.RefTaps.tap2_entry, Cert.RefTaps.wt2_entry]

/-- The fourth tap's matrix product at (i, o): the sum over input channels c of the masked gathered entry (i, c)
    times the tap's weight (c, o). -/
theorem dot3_entry (x0 : Cert.Spec.SF.Idx → EReal) (x1 : Cert.Spec.SW.Idx → EReal) (x4 : IVec Cert.Spec.SI 32) (x5 : IVec Cert.Spec.SI 1) (i : Fin 1000000) (o : Fin 32) :
    val_main_v75 (F := Ideal) x0 x1 x4 x5 (ix2 i o) = Cert.Spec.tapDot (Cert.Spec.tapMul x0 x4 x5) x1 3 i o := by
  rw [val_main_v75_apply]
  unfold Cert.Spec.tapDot
  refine Finset.sum_congr rfl fun c _ => ?_
  have el : lidx_main_v75 (ix2 i o) c = ix2 i c :=
    funext fun a => Fin.ext (by match a with | ⟨0, _⟩ => rfl | ⟨1, _⟩ => rfl)
  have er : ridx_main_v75 (ix2 i o) c = ix2 c o :=
    funext fun a => Fin.ext (by match a with | ⟨0, _⟩ => rfl | ⟨1, _⟩ => rfl)
  rw [el, er, Cert.RefTaps.tap3_entry, Cert.RefTaps.wt3_entry]

/-- The fifth tap's matrix product at (i, o): the sum over input channels c of the masked gathered entry (i, c)
    times the tap's weight (c, o). -/
theorem dot4_entry (x0 : Cert.Spec.SF.Idx → EReal) (x1 : Cert.Spec.SW.Idx → EReal) (x4 : IVec Cert.Spec.SI 32) (x5 : IVec Cert.Spec.SI 1) (i : Fin 1000000) (o : Fin 32) :
    val_main_v94 (F := Ideal) x0 x1 x4 x5 (ix2 i o) = Cert.Spec.tapDot (Cert.Spec.tapMul x0 x4 x5) x1 4 i o := by
  rw [val_main_v94_apply]
  unfold Cert.Spec.tapDot
  refine Finset.sum_congr rfl fun c _ => ?_
  have el : lidx_main_v94 (ix2 i o) c = ix2 i c :=
    funext fun a => Fin.ext (by match a with | ⟨0, _⟩ => rfl | ⟨1, _⟩ => rfl)
  have er : ridx_main_v94 (ix2 i o) c = ix2 c o :=
    funext fun a => Fin.ext (by match a with | ⟨0, _⟩ => rfl | ⟨1, _⟩ => rfl)
  rw [el, er, Cert.RefTaps.tap4_entry, Cert.RefTaps.wt4_entry]

/-- The sixth tap's matrix product at (i, o): the sum over input channels c of the masked gathered entry (i, c)
    times the tap's weight (c, o). -/
theorem dot5_entry (x0 : Cert.Spec.SF.Idx → EReal) (x1 : Cert.Spec.SW.Idx → EReal) (x4 : IVec Cert.Spec.SI 32) (x5 : IVec Cert.Spec.SI 1) (i : Fin 1000000) (o : Fin 32) :
    val_main_v113 (F := Ideal) x0 x1 x4 x5 (ix2 i o) = Cert.Spec.tapDot (Cert.Spec.tapMul x0 x4 x5) x1 5 i o := by
  rw [val_main_v113_apply]
  unfold Cert.Spec.tapDot
  refine Finset.sum_congr rfl fun c _ => ?_
  have el : lidx_main_v113 (ix2 i o) c = ix2 i c :=
    funext fun a => Fin.ext (by match a with | ⟨0, _⟩ => rfl | ⟨1, _⟩ => rfl)
  have er : ridx_main_v113 (ix2 i o) c = ix2 c o :=
    funext fun a => Fin.ext (by match a with | ⟨0, _⟩ => rfl | ⟨1, _⟩ => rfl)
  rw [el, er, Cert.RefTaps.tap5_entry, Cert.RefTaps.wt5_entry]

/-- The seventh tap's matrix product at (i, o): the sum over input channels c of the masked gathered entry (i, c)
    times the tap's weight (c, o). -/
theorem dot6_entry (x0 : Cert.Spec.SF.Idx → EReal) (x1 : Cert.Spec.SW.Idx → EReal) (x4 : IVec Cert.Spec.SI 32) (x5 : IVec Cert.Spec.SI 1) (i : Fin 1000000) (o : Fin 32) :
    val_main_v132 (F := Ideal) x0 x1 x4 x5 (ix2 i o) = Cert.Spec.tapDot (Cert.Spec.tapMul x0 x4 x5) x1 6 i o := by
  rw [val_main_v132_apply]
  unfold Cert.Spec.tapDot
  refine Finset.sum_congr rfl fun c _ => ?_
  have el : lidx_main_v132 (ix2 i o) c = ix2 i c :=
    funext fun a => Fin.ext (by match a with | ⟨0, _⟩ => rfl | ⟨1, _⟩ => rfl)
  have er : ridx_main_v132 (ix2 i o) c = ix2 c o :=
    funext fun a => Fin.ext (by match a with | ⟨0, _⟩ => rfl | ⟨1, _⟩ => rfl)
  rw [el, er, Cert.RefTaps.tap6_entry, Cert.RefTaps.wt6_entry]

/-- The eighth tap's matrix product at (i, o): the sum over input channels c of the masked gathered entry (i, c)
    times the tap's weight (c, o). -/
theorem dot7_entry (x0 : Cert.Spec.SF.Idx → EReal) (x1 : Cert.Spec.SW.Idx → EReal) (x4 : IVec Cert.Spec.SI 32) (x5 : IVec Cert.Spec.SI 1) (i : Fin 1000000) (o : Fin 32) :
    val_main_v151 (F := Ideal) x0 x1 x4 x5 (ix2 i o) = Cert.Spec.tapDot (Cert.Spec.tapMul x0 x4 x5) x1 7 i o := by
  rw [val_main_v151_apply]
  unfold Cert.Spec.tapDot
  refine Finset.sum_congr rfl fun c _ => ?_
  have el : lidx_main_v151 (ix2 i o) c = ix2 i c :=
    funext fun a => Fin.ext (by match a with | ⟨0, _⟩ => rfl | ⟨1, _⟩ => rfl)
  have er : ridx_main_v151 (ix2 i o) c = ix2 c o :=
    funext fun a => Fin.ext (by match a with | ⟨0, _⟩ => rfl | ⟨1, _⟩ => rfl)
  rw [el, er, Cert.RefTaps.tap7_entry, Cert.RefTaps.wt7_entry]

/-- The ninth tap's matrix product at (i, o): the sum over input channels c of the masked gathered entry (i, c)
    times the tap's weight (c, o). -/
theorem dot8_entry (x0 : Cert.Spec.SF.Idx → EReal) (x1 : Cert.Spec.SW.Idx → EReal) (x4 : IVec Cert.Spec.SI 32) (x5 : IVec Cert.Spec.SI 1) (i : Fin 1000000) (o : Fin 32) :
    val_main_v170 (F := Ideal) x0 x1 x4 x5 (ix2 i o) = Cert.Spec.tapDot (Cert.Spec.tapMul x0 x4 x5) x1 8 i o := by
  rw [val_main_v170_apply]
  unfold Cert.Spec.tapDot
  refine Finset.sum_congr rfl fun c _ => ?_
  have el : lidx_main_v170 (ix2 i o) c = ix2 i c :=
    funext fun a => Fin.ext (by match a with | ⟨0, _⟩ => rfl | ⟨1, _⟩ => rfl)
  have er : ridx_main_v170 (ix2 i o) c = ix2 c o :=
    funext fun a => Fin.ext (by match a with | ⟨0, _⟩ => rfl | ⟨1, _⟩ => rfl)
  rw [el, er, Cert.RefTaps.tap8_entry, Cert.RefTaps.wt8_entry]

/-- The nine products added in tap order onto zero: the convolution at (i, o). -/
theorem conv_entry (x0 : Cert.Spec.SF.Idx → EReal) (x1 : Cert.Spec.SW.Idx → EReal) (x4 : IVec Cert.Spec.SI 32) (x5 : IVec Cert.Spec.SI 1) (i : Fin 1000000) (o : Fin 32) :
    val_main_v171 (F := Ideal) x0 x1 x4 x5 (ix2 i o) = Cert.Spec.conv (Cert.Spec.tapMul x0 x4 x5) x1 i o := by
  rw [val_main_v171_apply, val_main_v152_apply, val_main_v133_apply, val_main_v114_apply, val_main_v95_apply, val_main_v76_apply, val_main_v57_apply, val_main_v38_apply, val_main_v19_apply,
    val_main_v0_apply, val_main_cst_apply,
    dot0_entry, dot1_entry, dot2_entry, dot3_entry, dot4_entry, dot5_entry, dot6_entry, dot7_entry, dot8_entry]
  rfl

/-- The rectified convolution at (i, o): the sum kept where it is at least zero, scaled by the slope elsewhere. -/
theorem act_entry (x0 : Cert.Spec.SF.Idx → EReal) (x1 : Cert.Spec.SW.Idx → EReal) (x4 : IVec Cert.Spec.SI 32) (x5 : IVec Cert.Spec.SI 1) (i : Fin 1000000) (o : Fin 32) :
    val_main_v176 (F := Ideal) x0 x1 x4 x5 (ix2 i o) = Cert.Spec.act (Cert.Spec.tapMul x0 x4 x5) x1 i o := by
  rw [val_main_v176_apply, val_main_v173_apply, val_main_v175_apply, val_main_v172_apply, val_main_v174_apply,
    val_main_cst_17_apply, val_main_cst_18_apply, conv_entry]
  rfl

end Cert.RefValue

end
-- ==== Proof.RefValue.lean ====
/-
  Batch normalisation as the second spelling states it, read off the operations one at a time.

  Each column's mean is the sum of the rectified convolution over all million rows, onto zero, divided by the row
  count. The variance is the same average of the squared deviations from that mean; its sum with the small offset goes
  under a reciprocal square root. Each of these per-channel numbers, and the scale and the shift, is written as one row
  and repeated under every row of the table; the entry less the mean, times the reciprocal deviation, times the scale,
  plus the shift is the result.
-/
import proofs.«180816_j45861660786969_2_alg».proof.Proof.RefConv

noncomputable section

open scoped BigOperators

namespace Cert.RefValue

open Idealize.ShloMosaic Idealize.ShloMosaic.ValueIdx
open Cert.ReferenceIdeal Cert.ReferenceIdeal.ReadP

/-- Channel o's mean: the column's sum over all rows, divided by the row count. -/
theorem mean_entry (x0 : Cert.Spec.SF.Idx → EReal) (x1 : Cert.Spec.SW.Idx → EReal) (x4 : IVec Cert.Spec.SI 32) (x5 : IVec Cert.Spec.SI 1) (o : Fin 32) :
    val_main_v179 (F := Ideal) x0 x1 x4 x5 (ix1 o) = Cert.Spec.meanA (Cert.Spec.act (Cert.Spec.tapMul x0 x4 x5) x1) o := by
  rw [val_main_v179_apply, val_main_v177_apply, val_main_v178_apply, val_main_cst_19_apply, val_main_cst_20_apply]
  have e : ∀ k : Fin 1000000, val_main_v176 (F := Ideal) x0 x1 x4 x5 (idx_main_v177 (ix1 o) k) = (Cert.Spec.act (Cert.Spec.tapMul x0 x4 x5) x1) k o := fun k => by
    have h : idx_main_v177 (ix1 o) k = ix2 k o := funext fun a => Fin.ext (by match a with | ⟨0, _⟩ => rfl | ⟨1, _⟩ => rfl)
    rw [h, act_entry]
  have hs : (∑ k : Fin 1000000, val_main_v176 (F := Ideal) x0 x1 x4 x5 (idx_main_v177 (ix1 o) k))
      = ∑ k : Fin 1000000, (Cert.Spec.act (Cert.Spec.tapMul x0 x4 x5) x1) k o := Finset.sum_congr rfl fun k _ => e k
  rw [hs]
  rfl

/-- The mean written as a row and repeated under every row, where the deviations are squared. -/
theorem mean_under_sq (x0 : Cert.Spec.SF.Idx → EReal) (x1 : Cert.Spec.SW.Idx → EReal) (x4 : IVec Cert.Spec.SI 32) (x5 : IVec Cert.Spec.SI 1) (k : Fin 1000000) (o : Fin 32) :
    val_main_v181 (F := Ideal) x0 x1 x4 x5 (ix2 k o) = Cert.Spec.meanA (Cert.Spec.act (Cert.Spec.tapMul x0 x4 x5) x1) o := by
  rw [val_main_v181_apply, val_main_v180_apply]
  have h : idx_main_v180 (idx_main_v181 (ix2 k o)) = ix1 o := funext fun a => Fin.ext (by match a with | ⟨0, _⟩ => rfl)
  rw [h, mean_entry]

/-- Channel o's variance: the average of the squared deviations from the mean. -/
theorem var_entry (x0 : Cert.Spec.SF.Idx → EReal) (x1 : Cert.Spec.SW.Idx → EReal) (x4 : IVec Cert.Spec.SI 32) (x5 : IVec Cert.Spec.SI 1) (o : Fin 32) :
    val_main_v186 (F := Ideal) x0 x1 x4 x5 (ix1 o) = Cert.Spec.varA (Cert.Spec.act (Cert.Spec.tapMul x0 x4 x5) x1) o := by
  rw [val_main_v186_apply, val_main_v184_apply, val_main_v185_apply, val_main_cst_21_apply, val_main_cst_22_apply]
  have e : ∀ k : Fin 1000000, val_main_v183 (F := Ideal) x0 x1 x4 x5 (idx_main_v184 (ix1 o) k)
      = ((Cert.Spec.act (Cert.Spec.tapMul x0 x4 x5) x1) k o - Cert.Spec.meanA (Cert.Spec.act (Cert.Spec.tapMul x0 x4 x5) x1) o) * ((Cert.Spec.act (Cert.Spec.tapMul x0 x4 x5) x1) k o - Cert.Spec.meanA (Cert.Spec.act (Cert.Spec.tapMul x0 x4 x5) x1) o) := fun k => by
    have h : idx_main_v184 (ix1 o) k = ix2 k o := funext fun a => Fin.ext (by match a with | ⟨0, _⟩ => rfl | ⟨1, _⟩ => rfl)
    rw [h, val_main_v183_apply, val_main_v182_apply, act_entry, mean_under_sq]
    rfl
  have hs : (∑ k : Fin 1000000, val_main_v183 (F := Ideal) x0 x1 x4 x5 (idx_main_v184 (ix1 o) k))
      = ∑ k : Fin 1000000, ((Cert.Spec.act (Cert.Spec.tapMul x0 x4 x5) x1) k o - Cert.Spec.meanA (Cert.Spec.act (Cert.Spec.tapMul x0 x4 x5) x1) o) * ((Cert.Spec.act (Cert.Spec.tapMul x0 x4 x5) x1) k o - Cert.Spec.meanA (Cert.Spec.act (Cert.Spec.tapMul x0 x4 x5) x1) o) :=
    Finset.sum_congr rfl fun k _ => e k
  rw [hs]
  rfl

/-- Channel o's reciprocal deviation: the reciprocal square root of the variance plus the offset. -/
theorem istd_entry (x0 : Cert.Spec.SF.Idx → EReal) (x1 : Cert.Spec.SW.Idx → EReal) (x4 : IVec Cert.Spec.SI 32) (x5 : IVec Cert.Spec.SI 1) (o : Fin 32) :
    val_main_v192 (F := Ideal) x0 x1 x4 x5 (ix1 o) = Cert.Spec.istdA (Cert.Spec.act (Cert.Spec.tapMul x0 x4 x5) x1) o := by
  rw [val_main_v192_apply, val_main_v191_apply, val_main_v190_apply, val_main_cst_23_apply, var_entry]
  rfl

/-- The mean repeated under every row, where the entries are normalised. -/
theorem mean_under (x0 : Cert.Spec.SF.Idx → EReal) (x1 : Cert.Spec.SW.Idx → EReal) (x4 : IVec Cert.Spec.SI 32) (x5 : IVec Cert.Spec.SI 1) (k : Fin 1000000) (o : Fin 32) :
    val_main_v188 (F := Ideal) x0 x1 x4 x5 (ix2 k o) = Cert.Spec.meanA (Cert.Spec.act (Cert.Spec.tapMul x0 x4 x5) x1) o := by
  rw [val_main_v188_apply, val_main_v187_apply]
  have h : idx_main_v187 (idx_main_v188 (ix2 k o)) = ix1 o := funext fun a => Fin.ext (by match a with | ⟨0, _⟩ => rfl)
  rw [h, mean_entry]

/-- The reciprocal deviation repeated under every row. -/
theorem istd_under (x0 : Cert.Spec.SF.Idx → EReal) (x1 : Cert.Spec.SW.Idx → EReal) (x4 : IVec Cert.Spec.SI 32) (x5 : IVec Cert.Spec.SI 1) (k : Fin 1000000) (o : Fin 32) :
    val_main_v194 (F := Ideal) x0 x1 x4 x5 (ix2 k o) = Cert.Spec.istdA (Cert.Spec.act (Cert.Spec.tapMul x0 x4 x5) x1) o := by
  rw [val_main_v194_apply, val_main_v193_apply]
  have h : idx_main_v193 (idx_main_v194 (ix2 k o)) = ix1 o := funext fun a => Fin.ext (by match a with | ⟨0, _⟩ => rfl)
  rw [h, istd_entry]

/-- The scale repeated under every row. -/
theorem scale_under (x2 : Cert.Spec.SV.Idx → EReal) (k : Fin 1000000) (o : Fin 32) :
    val_main_v197 (F := Ideal) x2 (ix2 k o) = x2 (ix1 o) := by
  rw [val_main_v197_apply, val_main_v196_apply]
  have h : idx_main_v196 (idx_main_v197 (ix2 k o)) = ix1 o := funext fun a => Fin.ext (by match a with | ⟨0, _⟩ => rfl)
  rw [h]

/-- The shift repeated under every row. -/
theorem shift_under (x3 : Cert.Spec.SV.Idx → EReal) (k : Fin 1000000) (o : Fin 32) :
    val_main_v200 (F := Ideal) x3 (ix2 k o) = x3 (ix1 o) := by
  rw [val_main_v200_apply, val_main_v199_apply]
  have h : idx_main_v199 (idx_main_v200 (ix2 k o)) = ix1 o := funext fun a => Fin.ext (by match a with | ⟨0, _⟩ => rfl)
  rw [h]

/-- The last operation's value at (i, o) is the second spelling's result there. -/
theorem ref_entry (x0 : Cert.Spec.SF.Idx → EReal) (x1 : Cert.Spec.SW.Idx → EReal) (x2 x3 : Cert.Spec.SV.Idx → EReal)
    (x4 : IVec Cert.Spec.SI 32) (x5 : IVec Cert.Spec.SI 1) (i : Fin 1000000) (o : Fin 32) :
    Cert.ReferenceIdeal.ReadP.val_main_v201 (F := Ideal) x0 x1 x2 x3 x4 x5 (ix2 i o) = Cert.Spec.outA x0 x1 x2 x3 x4 x5 i o := by
  rw [val_main_v201_apply, val_main_v198_apply, val_main_v195_apply, val_main_v189_apply, act_entry, mean_under,
    istd_under, scale_under, shift_under]
  rfl

end Cert.RefValue

end
-- ==== Proof.lean ====
/-
  A sparse nine-tap convolution with a leaky rectifier and batch normalisation: the kernel program against its reference.

  Both programs gather, for each of nine taps, the feature rows named by an index table, mask them, multiply each by a
  32 × 32 weight matrix and add the nine products; both rectify; both normalise each of the 32 columns by its mean and
  variance over the million rows, scale and shift. The kernel program does it in two pipelines — the first writes the
  rectified array tile by tile and accumulates each column's sum and sum of squares over two halves of 250 tiles, the
  second normalises tile by tile — with host operations before, between and after; the reference is host operations only.
  They differ in three places: the mask is applied by selection against zero in one and by multiplication with the bit
  in the other; a column's sum is taken tile by tile in one and at once in the other; and the variance is the mean of
  squares less the squared mean in one and the mean of squared deviations in the other. On the extended reals the
  first two agree outright, and the third agrees because under the precondition every feature and weight is a real
  number, so every rectified entry is real and the two variances are the same real number.

  The three frames are the programs' runs with the results dropped; the idealization rewrote nothing, so there is nothing
  to preserve; and the two results are equal entry by entry: the kernel's is the first spelling of the specification,
  the reference's the second, and the two spellings agree on real inputs.
-/
import proofs.«180816_j45861660786969_2_alg».proof.Defs
import proofs.«180816_j45861660786969_2_alg».proof.Proof.Gen.Kernel
import proofs.«180816_j45861660786969_2_alg».proof.Proof.Gen.Kernel.Frame
import proofs.«180816_j45861660786969_2_alg».proof.Proof.Gen.KernelIdeal
import proofs.«180816_j45861660786969_2_alg».proof.Proof.Gen.KernelIdeal.Frame
import proofs.«180816_j45861660786969_2_alg».proof.Proof.Gen.ReferenceIdeal
import proofs.«180816_j45861660786969_2_alg».proof.Proof.Gen.Pre_finite_inputs
import proofs.«180816_j45861660786969_2_alg».proof.Proof.KRun
import proofs.«180816_j45861660786969_2_alg».proof.Proof.KValue
import proofs.«180816_j45861660786969_2_alg».proof.Proof.Algebra
import proofs.«180816_j45861660786969_2_alg».proof.Proof.Finite
import proofs.«180816_j45861660786969_2_alg».proof.Proof.RefLight
import proofs.«180816_j45861660786969_2_alg».proof.Proof.RefValue
import Idealize.ShloMosaic.Adequacy
import Idealize.ShloMosaic.Init

noncomputable section

namespace Cert.Proof

open Idealize.ShloMosaic Idealize.SL.Sem Idealize.ShloMosaic.ValueIdx Idealize.ShloMosaic.TcCoe

/-- The kernel program runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.RefLight.run m ρ)

/-- The idealization rewrote no operation. -/
theorem preserves : Cert.preserves_Kernel_KernelIdeal := trivial

/-- From memories agreeing on the arguments both idealized programs end with the same result: the kernel's result
    buffer holds the first spelling of the specification at the launched arguments, the reference's the second, and on
    the real inputs the precondition grants the two spellings agree. -/
theorem algebraic : Cert.algebraic_KernelIdeal_ReferenceIdeal := by
  intro m ρ m' ρ' hpre hagree
  refine ⟨fun c => Cert.KernelIdeal.Gen.W21 (F := Ideal) m ρ c (Proc.devRef .tc Cert.KernelIdeal.main_v140),
    Cert.KRun.run_named (F := Ideal) m ρ, ?_⟩
  refine (θ_run Cert.ReferenceIdeal.defs _ _).mono (fun _ h c => ⟨(h c).1.trans ?_, (h c).2⟩)
    (Cert.RefLight.run m' ρ')
  obtain ⟨h0, h1, h2, h3, h4, h5⟩ := hagree c
  obtain ⟨hf, hw⟩ := Cert.Finite.inputs_real _ _ _ _ _ _ (hpre c)
  rw [h0, h1, h2, h3, h4, h5]
  funext j
  obtain ⟨i, o, rfl⟩ : ∃ (i : Fin 1000000) (o : Fin 32), j = ix2 i o := ⟨j 0, j 1, eq_ix2 j⟩
  exact (Cert.RefValue.ref_entry _ _ _ _ _ _ i o).trans
    ((Cert.Algebra.outT_eq_outA _ _ _ _ _ _ hf hw i o).symm.trans (Cert.KValue.kernel_entry m ρ c i o).symm)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
